-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  IdealRules.named_const.Statement Cert.KernelIdeal.κ "inv_sqrt_hid" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64512x84 : Shape := ⟨2, ![64512, 84]⟩
abbrev S2x1032192 : Shape := ⟨2, ![2, 1032192]⟩
abbrev S1008x128 : Shape := ⟨2, ![1008, 128]⟩
abbrev S84x128 : Shape := ⟨2, ![84, 128]⟩
abbrev S128 : Shape := ⟨1, ![128]⟩
abbrev S128x128 : Shape := ⟨2, ![128, 128]⟩
abbrev S6144x512 : Shape := ⟨2, ![6144, 512]⟩
abbrev S512 : Shape := ⟨1, ![512]⟩
abbrev S512x32 : Shape := ⟨2, ![512, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S64512x84 : S_.BroadcastsInDim S64512x84 (![] : Fin 0 → Fin S64512x84.rank)
  reducesTo_S64512x84_S_d0_1 : S64512x84.ReducesTo [0, 1] S_
  h_S_ : 0 < S_.numel
  bcast_S_S1008x128 : S_.BroadcastsInDim S1008x128 (![] : Fin 0 → Fin S1008x128.rank)
  reducesTo_S1008x128_S_d0_1 : S1008x128.ReducesTo [0, 1] S_
  bcast_S_S84x128 : S_.BroadcastsInDim S84x128 (![] : Fin 0 → Fin S84x128.rank)
  reducesTo_S84x128_S_d0_1 : S84x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S6144x512 : S_.BroadcastsInDim S6144x512 (![] : Fin 0 → Fin S6144x512.rank)
  reducesTo_S6144x512_S_d0_1 : S6144x512.ReducesTo [0, 1] S_
  bcast_S_S512 : S_.BroadcastsInDim S512 (![] : Fin 0 → Fin S512.rank)
  reducesTo_S512_S_d0 : S512.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg20 : FVec F S32 .f32) (main_v98 : IVec S_ 1) (main_v100 : FVec F S512 .f32) (main_v101 : FVec F S512 .f32) : IVec S_ 1 :=
  let main_v102 : IVec S512 1 := cmpf .ogt main_v100 main_v101
  let main_c_40 : IVec S_ 1 := constantI S_ 1 1#1
  let main_v103 : IVec S_ 1 := (fun x v => Host.reduce IntOp.andi x v reducesTo_S512_S_d0 h_S_) main_v102 main_c_40
  let main_v104 : IVec S_ 1 := andi main_v98 main_v103
  let main_cst_41 : FVec F S_ .f32 := constant S_ .f32 0x3727C5AC#32
  let main_v105 : FVec F S32 .f32 := broadcastInDim S32 ![] bcast_S_S32 main_cst_41
  let main_v106 : FVec F S32 .f32 := addf main_arg20 main_v105
  let main_cst_42 : FVec F S_ .f32 := constant S_ .f32 0x00000000#32
  let main_v107 : FVec F S32 .f32 := broadcastInDim S32 ![] bcast_S_S32 main_cst_42
  let main_v108 : IVec S32 1 := cmpf .ogt main_v106 main_v107
  let main_c_43 : IVec S_ 1 := constantI S_ 1 1#1
  let main_v109 : IVec S_ 1 := (fun x v => Host.reduce IntOp.andi x v reducesTo_S32_S_d0 h_S_) main_v108 main_c_43
  let main_v110 : IVec S_ 1 := andi main_v104 main_v109
  main_v110

def fn_part5 {F : FTy → Type} [FloatOps F] (main_arg16 : FVec F S512 .f32) (main_arg19 : FVec F S32 .f32) (main_arg20 : FVec F S32 .f32) (main_v83 : IVec S_ 1) (main_v84 : FVec F S32 .f32) (main_cst_32 : FVec F S_ .f32) : IVec S_ 1 :=
  let main_v85 : FVec F S32 .f32 := broadcastInDim S32 ![] bcast_S_S32 main_cst_32
  let main_v86 : IVec S32 1 := cmpf .olt main_v84 main_v85
  let main_c_33 : IVec S_ 1 := constantI S_ 1 1#1
  let main_v87 : IVec S_ 1 := (fun x v => Host.reduce IntOp.andi x v reducesTo_S32_S_d0 h_S_) main_v86 main_c_33
  let main_v88 : IVec S_ 1 := andi main_v83 main_v87
  let main_v89 : FVec F S32 .f32 := Host.absf main_arg19
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32 .f32 := Host.absf main_arg20
  let main_cst_36 : FVec F S_ .f32 := constant S_ .f32 0x7F800000#32
  let main_v95 : FVec F S32 .f32 := broadcastInDim S32 ![] bcast_S_S32 main_cst_36
  let main_v96 : IVec S32 1 := cmpf .olt main_v94 main_v95
  let main_c_37 : IVec S_ 1 := constantI S_ 1 1#1
  let main_v97 : IVec S_ 1 := (fun x v => Host.reduce IntOp.andi x v reducesTo_S32_S_d0 h_S_) main_v96 main_c_37
  let main_v98 : IVec S_ 1 := andi main_v93 main_v97
  let main_cst_38 : FVec F S_ .f32 := constant S_ .f32 0x3727C5AC#32
  let main_v99 : FVec F S512 .f32 := broadcastInDim S512 ![] bcast_S_S512 main_cst_38
  let main_v100 : FVec F S512 .f32 := addf main_arg16 main_v99
  let main_cst_39 : FVec F S_ .f32 := constant S_ .f32 0x00000000#32
  let main_v101 : FVec F S512 .f32 := broadcastInDim S512 ![] bcast_S_S512 main_cst_39
  fn_part6 (F := F) main_arg20 main_v98 main_v100 main_v101

def fn_part4 {F : FTy → Type} [FloatOps F] (main_arg15 : FVec F S512 .f32) (main_arg16 : FVec F S512 .f32) (main_arg17 : FVec F S32 .f32) (main_arg18 : FVec F S32 .f32) (main_arg19 : FVec F S32 .f32) (main_arg20 : FVec F S32 .f32) (main_v63 : IVec S_ 1) (main_v67 : IVec S_ 1) : IVec S_ 1 :=
  let main_v68 : IVec S_ 1 := andi main_v63 main_v67
  let main_v69 : FVec F S512 .f32 := Host.absf main_arg15
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg16
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S32 .f32 := Host.absf main_arg17
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32 .f32 := Host.absf main_arg18
  let main_cst_32 : FVec F S_ .f32 := constant S_ .f32 0x7F800000#32
  fn_part5 (F := F) main_arg16 main_arg19 main_arg20 main_v83 main_v84 main_cst_32

def fn_part3 {F : FTy → Type} [FloatOps F] (main_arg12 : FVec F S2 .f32) (main_arg13 : FVec F S512 .f32) (main_arg14 : FVec F S512 .f32) (main_arg15 : FVec F S512 .f32) (main_arg16 : FVec F S512 .f32) (main_arg17 : FVec F S32 .f32) (main_arg18 : FVec F S32 .f32) (main_arg19 : FVec F S32 .f32) (main_arg20 : FVec F S32 .f32) (main_v48 : IVec S_ 1) (main_v49 : FVec F S32x2 .f32) (main_v50 : FVec F S32x2 .f32) : IVec S_ 1 :=
  let main_v51 : IVec S32x2 1 := cmpf .olt main_v49 main_v50
  let main_c_19 : IVec S_ 1 := constantI S_ 1 1#1
  let main_v52 : IVec S_ 1 := (fun x v => Host.reduce IntOp.andi x v reducesTo_S32x2_S_d0_1 h_S_) main_v51 main_c_19
  let main_v53 : IVec S_ 1 := andi main_v48 main_v52
  let main_v54 : FVec F S2 .f32 := Host.absf main_arg12
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S512 .f32 := Host.absf main_arg13
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512 .f32 := Host.absf main_arg14
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg15 main_arg16 main_arg17 main_arg18 main_arg19 main_arg20 main_v63 main_v67

def fn_part2 {F : FTy → Type} [FloatOps F] (main_arg8 : FVec F S512 .f32) (main_arg9 : FVec F S512x32 .f32) (main_arg10 : FVec F S32 .f32) (main_arg11 : FVec F S32x2 .f32) (main_arg12 : FVec F S2 .f32) (main_arg13 : FVec F S512 .f32) (main_arg14 : FVec F S512 .f32) (main_arg15 : FVec F S512 .f32) (main_arg16 : FVec F S512 .f32) (main_arg17 : FVec F S32 .f32) (main_arg18 : FVec F S32 .f32) (main_arg19 : FVec F S32 .f32) (main_arg20 : FVec F S32 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x32 .f32 := Host.absf main_arg9
  let main_cst_14 : FVec F S_ .f32 := constant S_ .f32 0x7F800000#32
  let main_v40 : FVec F S512x32 .f32 := broadcastInDim S512x32 ![] bcast_S_S512x32 main_cst_14
  let main_v41 : IVec S512x32 1 := cmpf .olt main_v39 main_v40
  let main_c_15 : IVec S_ 1 := constantI S_ 1 1#1
  let main_v42 : IVec S_ 1 := (fun x v => Host.reduce IntOp.andi x v reducesTo_S512x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x2 .f32 := Host.absf main_arg11
  let main_cst_18 : FVec F S_ .f32 := constant S_ .f32 0x7F800000#32
  let main_v50 : FVec F S32x2 .f32 := broadcastInDim S32x2 ![] bcast_S_S32x2 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S128x128 .f32) (main_arg6 : FVec F S128 .f32) (main_arg7 : FVec F S6144x512 .f32) (main_arg8 : FVec F S512 .f32) (main_arg9 : FVec F S512x32 .f32) (main_arg10 : FVec F S32 .f32) (main_arg11 : FVec F S32x2 .f32) (main_arg12 : FVec F S2 .f32) (main_arg13 : FVec F S512 .f32) (main_arg14 : FVec F S512 .f32) (main_arg15 : FVec F S512 .f32) (main_arg16 : FVec F S512 .f32) (main_arg17 : FVec F S32 .f32) (main_arg18 : FVec F S32 .f32) (main_arg19 : FVec F S32 .f32) (main_arg20 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S6144x512 .f32 := Host.absf main_arg7
  let main_cst_10 : FVec F S_ .f32 := constant S_ .f32 0x7F800000#32
  let main_v30 : FVec F S6144x512 .f32 := broadcastInDim S6144x512 ![] bcast_S_S6144x512 main_cst_10
  let main_v31 : IVec S6144x512 1 := cmpf .olt main_v29 main_v30
  let main_c_11 : IVec S_ 1 := constantI S_ 1 1#1
  let main_v32 : IVec S_ 1 := (fun x v => Host.reduce IntOp.andi x v reducesTo_S6144x512_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S64512x84 .f32) (main_arg1 : IVec S2x1032192 32) (main_arg2 : FVec F S1008x128 .f32) (main_arg3 : FVec F S84x128 .f32) (main_arg4 : FVec F S128 .f32) (main_arg5 : FVec F S128x128 .f32) (main_arg6 : FVec F S128 .f32) (main_arg7 : FVec F S6144x512 .f32) (main_arg8 : FVec F S512 .f32) (main_arg9 : FVec F S512x32 .f32) (main_arg10 : FVec F S32 .f32) (main_arg11 : FVec F S32x2 .f32) (main_arg12 : FVec F S2 .f32) (main_arg13 : FVec F S512 .f32) (main_arg14 : FVec F S512 .f32) (main_arg15 : FVec F S512 .f32) (main_arg16 : FVec F S512 .f32) (main_arg17 : FVec F S32 .f32) (main_arg18 : FVec F S32 .f32) (main_arg19 : FVec F S32 .f32) (main_arg20 : FVec F S32 .f32) : IVec S_ 1 :=
  let main_v0 : FVec F S64512x84 .f32 := Host.absf main_arg0
  let main_cst : FVec F S_ .f32 := constant S_ .f32 0x7F800000#32
  let main_v1 : FVec F S64512x84 .f32 := broadcastInDim S64512x84 ![] bcast_S_S64512x84 main_cst
  let main_v2 : IVec S64512x84 1 := cmpf .olt main_v0 main_v1
  let main_c : IVec S_ 1 := constantI S_ 1 1#1
  let main_v3 : IVec S_ 1 := (fun x v => Host.reduce IntOp.andi x v reducesTo_S64512x84_S_d0_1 h_S_) main_v2 main_c
  let main_v4 : FVec F S1008x128 .f32 := Host.absf main_arg2
  let main_cst_0 : FVec F S_ .f32 := constant S_ .f32 0x7F800000#32
  let main_v5 : FVec F S1008x128 .f32 := broadcastInDim S1008x128 ![] bcast_S_S1008x128 main_cst_0
  let main_v6 : IVec S1008x128 1 := cmpf .olt main_v4 main_v5
  let main_c_1 : IVec S_ 1 := constantI S_ 1 1#1
  let main_v7 : IVec S_ 1 := (fun x v => Host.reduce IntOp.andi x v reducesTo_S1008x128_S_d0_1 h_S_) main_v6 main_c_1
  let main_v8 : IVec S_ 1 := andi main_v3 main_v7
  let main_v9 : FVec F S84x128 .f32 := Host.absf main_arg3
  let main_cst_2 : FVec F S_ .f32 := constant S_ .f32 0x7F800000#32
  let main_v10 : FVec F S84x128 .f32 := broadcastInDim S84x128 ![] bcast_S_S84x128 main_cst_2
  let main_v11 : IVec S84x128 1 := cmpf .olt main_v9 main_v10
  let main_c_3 : IVec S_ 1 := constantI S_ 1 1#1
  let main_v12 : IVec S_ 1 := (fun x v => Host.reduce IntOp.andi x v reducesTo_S84x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S64512x84 : Shape := ⟨2, ![64512, 84]⟩
abbrev S2x1032192 : Shape := ⟨2, ![2, 1032192]⟩
abbrev S1008x128 : Shape := ⟨2, ![1008, 128]⟩
abbrev S84x128 : Shape := ⟨2, ![84, 128]⟩
abbrev S128 : Shape := ⟨1, ![128]⟩
abbrev S128x128 : Shape := ⟨2, ![128, 128]⟩
abbrev S6144x512 : Shape := ⟨2, ![6144, 512]⟩
abbrev S512 : Shape := ⟨1, ![512]⟩
abbrev S512x32 : Shape := ⟨2, ![512, 32]⟩
abbrev S32 : Shape := ⟨1, ![32]⟩
abbrev S32x2 : Shape := ⟨2, ![32, 2]⟩
abbrev S2 : Shape := ⟨1, ![2]⟩
abbrev S1x1032192 : Shape := ⟨2, ![1, 1032192]⟩
abbrev S1032192 : Shape := ⟨1, ![1032192]⟩
abbrev S_ : Shape := ⟨0, ![]⟩
abbrev S1032192x1 : Shape := ⟨2, ![1032192, 1]⟩
abbrev S1032192x84 : Shape := ⟨2, ![1032192, 84]⟩
abbrev S1x128 : Shape := ⟨2, ![1, 128]⟩
abbrev S64512x128 : Shape := ⟨2, ![64512, 128]⟩
abbrev S4032x84 : Shape := ⟨2, ![4032, 84]⟩
abbrev S4032x128 : Shape := ⟨2, ![4032, 128]⟩
abbrev S1032192x128 : Shape := ⟨2, ![1032192, 128]⟩
abbrev S64x1008x128 : Shape := ⟨3, ![64, 1008, 128]⟩
abbrev S64x12x256 : Shape := ⟨3, ![64, 12, 256]⟩
abbrev S1x1008x128 : Shape := ⟨3, ![1, 1008, 128]⟩
abbrev S1x12x256 : Shape := ⟨3, ![1, 12, 256]⟩
abbrev S128x1008 : Shape := ⟨2, ![128, 1008]⟩
abbrev S1008x1008 : Shape := ⟨2, ![1008, 1008]⟩
abbrev S1008 : Shape := ⟨1, ![1008]⟩
abbrev S1008x1 : Shape := ⟨2, ![1008, 1]⟩
abbrev S12x128 : Shape := ⟨2, ![12, 128]⟩
abbrev S12x256 : Shape := ⟨2, ![12, 256]⟩
abbrev S64x12x84x128 : Shape := ⟨4, ![64, 12, 84, 128]⟩
abbrev S64x12x128 : Shape := ⟨3, ![64, 12, 128]⟩
abbrev S64x12x512 : Shape := ⟨3, ![64, 12, 512]⟩
abbrev S64x6144 : Shape := ⟨2, ![64, 6144]⟩
abbrev S1x512 : Shape := ⟨2, ![1, 512]⟩
abbrev S1x32 : Shape := ⟨2, ![1, 32]⟩
abbrev S1x2 : Shape := ⟨2, ![1, 2]⟩
abbrev S64x2 : Shape := ⟨2, ![64, 2]⟩
abbrev S64x512 : Shape := ⟨2, ![64, 512]⟩
abbrev S64x32 : Shape := ⟨2, ![64, 32]⟩
abbrev S64 : Shape := ⟨1, ![64]⟩
abbrev S64x1 : Shape := ⟨2, ![64, 1]⟩

abbrev nBuf : Space → Nat
  | .hbm => 81
  | .vmem => 37
  | .smem => 0
  | _ => 0

abbrev bufTy : (tb : Table) → Fin (tcTables nBuf tb) → BufTy
  | .hbm, ⟨0, _⟩ => ⟨S64512x84, .f32⟩
  | .hbm, ⟨1, _⟩ => ⟨S2x1032192, .i32⟩
  | .hbm, ⟨2, _⟩ => ⟨S1008x128, .f32⟩
  | .hbm, ⟨3, _⟩ => ⟨S84x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S6144x512, .f32⟩
  | .hbm, ⟨8, _⟩ => ⟨S512, .f32⟩
  | .hbm, ⟨9, _⟩ => ⟨S512x32, .f32⟩
  | .hbm, ⟨10, _⟩ => ⟨S32, .f32⟩
  | .hbm, ⟨11, _⟩ => ⟨S32x2, .f32⟩
  | .hbm, ⟨12, _⟩ => ⟨S2, .f32⟩
  | .hbm, ⟨13, _⟩ => ⟨S512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S32, .f32⟩
  | .hbm, ⟨21, _⟩ => ⟨S1x1032192, .i32⟩
  | .hbm, ⟨22, _⟩ => ⟨S1032192, .i32⟩
  | .hbm, ⟨23, _⟩ => ⟨S1x1032192, .i32⟩
  | .hbm, ⟨24, _⟩ => ⟨S1032192, .i32⟩
  | .hbm, ⟨25, _⟩ => ⟨S_, .i32⟩
  | .hbm, ⟨26, _⟩ => ⟨S1032192, .i32⟩
  | .hbm, ⟨27, _⟩ => ⟨S1032192, .i1⟩
  | .hbm, ⟨28, _⟩ => ⟨S_, .i32⟩
  | .hbm, ⟨29, _⟩ => ⟨S1032192, .i32⟩
  | .hbm, ⟨30, _⟩ => ⟨S1032192, .i32⟩
  | .hbm, ⟨31, _⟩ => ⟨S1032192, .i32⟩
  | .hbm, ⟨32, _⟩ => ⟨S1032192x1, .i32⟩
  | .hbm, ⟨33, _⟩ => ⟨S1032192x84, .f32⟩
  | .hbm, ⟨34, _⟩ => ⟨S_, .f32⟩
  | .hbm, ⟨35, _⟩ => ⟨S64512x84, .f32⟩
  | .hbm, ⟨36, _⟩ => ⟨S1032192x1, .i32⟩
  | .hbm, ⟨37, _⟩ => ⟨S64512x84, .f32⟩
  | .hbm, ⟨38, _⟩ => ⟨S1x128, .f32⟩
  | .hbm, ⟨39, _⟩ => ⟨S64512x128, .f32⟩
  | .hbm, ⟨40, _⟩ => ⟨S_, .i32⟩
  | .hbm, ⟨41, _⟩ => ⟨S1032192, .i32⟩
  | .hbm, ⟨42, _⟩ => ⟨S1032192, .i1⟩
  | .hbm, ⟨43, _⟩ => ⟨S_, .i32⟩
  | .hbm, ⟨44, _⟩ => ⟨S1032192, .i32⟩
  | .hbm, ⟨45, _⟩ => ⟨S1032192, .i32⟩
  | .hbm, ⟨46, _⟩ => ⟨S1032192, .i32⟩
  | .hbm, ⟨47, _⟩ => ⟨S1032192x1, .i32⟩
  | .hbm, ⟨48, _⟩ => ⟨S1032192x128, .f32⟩
  | .hbm, ⟨49, _⟩ => ⟨S_, .f32⟩
  | .hbm, ⟨50, _⟩ => ⟨S64512x128, .f32⟩
  | .hbm, ⟨51, _⟩ => ⟨S1032192x1, .i32⟩
  | .hbm, ⟨52, _⟩ => ⟨S64512x128, .f32⟩
  | .hbm, ⟨53, _⟩ => ⟨S1x128, .f32⟩
  | .hbm, ⟨54, _⟩ => ⟨S64512x128, .f32⟩
  | .hbm, ⟨55, _⟩ => ⟨S64x1008x128, .f32⟩
  | .hbm, ⟨56, _⟩ => ⟨S64x12x256, .f32⟩
  | .hbm, ⟨57, _⟩ => ⟨S64x12x84x128, .f32⟩
  | .hbm, ⟨58, _⟩ => ⟨S_, .f32⟩
  | .hbm, ⟨59, _⟩ => ⟨S64x12x128, .f32⟩
  | .hbm, ⟨60, _⟩ => ⟨S_, .f32⟩
  | .hbm, ⟨61, _⟩ => ⟨S64x12x128, .f32⟩
  | .hbm, ⟨62, _⟩ => ⟨S_, .f32⟩
  | .hbm, ⟨63, _⟩ => ⟨S64x12x128, .f32⟩
  | .hbm, ⟨64, _⟩ => ⟨S64x12x128, .f32⟩
  | .hbm, ⟨65, _⟩ => ⟨S64x12x128, .f32⟩
  | .hbm, ⟨66, _⟩ => ⟨S64x12x128, .f32⟩
  | .hbm, ⟨67, _⟩ => ⟨S64x12x512, .f32⟩
  | .hbm, ⟨68, _⟩ => ⟨S64x6144, .f32⟩
  | .hbm, ⟨69, _⟩ => ⟨S1x512, .f32⟩
  | .hbm, ⟨70, _⟩ => ⟨S1x32, .f32⟩
  | .hbm, ⟨71, _⟩ => ⟨S1x2, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S1x512, .f32⟩
  | .hbm, ⟨76, _⟩ => ⟨S1x32, .f32⟩
  | .hbm, ⟨77, _⟩ => ⟨S1x32, .f32⟩
  | .hbm, ⟨78, _⟩ => ⟨S1x32, .f32⟩
  | .hbm, ⟨79, _⟩ => ⟨S1x32, .f32⟩
  | .hbm, ⟨80, _⟩ => ⟨S64x2, .f32⟩
  | .local _ .vmem, ⟨0, _⟩ => ⟨S4032x84, .f32⟩
  | .local _ .vmem, ⟨1, _⟩ => ⟨S4032x84, .f32⟩
  | .local _ .vmem, ⟨2, _⟩ => ⟨S4032x84, .f32⟩
  | .local _ .vmem, ⟨3, _⟩ => ⟨S4032x84, .f32⟩
  | .local _ .vmem, ⟨4, _⟩ => ⟨S84x128, .f32⟩
  | .local _ .vmem, ⟨5, _⟩ => ⟨S1x128, .f32⟩
  | .local _ .vmem, ⟨6, _⟩ => ⟨S4032x128, .f32⟩
  | .local _ .vmem, ⟨7, _⟩ => ⟨S4032x128, .f32⟩
  | .local _ .vmem, ⟨8, _⟩ => ⟨S4032x128, .f32⟩
  | .local _ .vmem, ⟨9, _⟩ => ⟨S4032x128, .f32⟩
  | .local _ .vmem, ⟨10, _⟩ => ⟨S4032x128, .f32⟩
  | .local _ .vmem, ⟨11, _⟩ => ⟨S4032x128, .f32⟩
  | .local _ .vmem, ⟨12, _⟩ => ⟨S128x128, .f32⟩
  | .local _ .vmem, ⟨13, _⟩ => ⟨S1x128, .f32⟩
  | .local _ .vmem, ⟨14, _⟩ => ⟨S4032x128, .f32⟩
  | .local _ .vmem, ⟨15, _⟩ => ⟨S4032x128, .f32⟩
  | .local _ .vmem, ⟨16, _⟩ => ⟨S1x1008x128, .f32⟩
  | .local _ .vmem, ⟨17, _⟩ => ⟨S1x1008x128, .f32⟩
  | .local _ .vmem, ⟨18, _⟩ => ⟨S1008x128, .f32⟩
  | .local _ .vmem, ⟨19, _⟩ => ⟨S1x12x256, .f32⟩
  | .local _ .vmem, ⟨20, _⟩ => ⟨S1x12x256, .f32⟩
  | .local _ .vmem, ⟨21, _⟩ => ⟨S64x6144, .f32⟩
  | .local _ .vmem, ⟨22, _⟩ => ⟨S6144x512, .f32⟩
  | .local _ .vmem, ⟨23, _⟩ => ⟨S1x512, .f32⟩
  | .local _ .vmem, ⟨24, _⟩ => ⟨S512x32, .f32⟩
  | .local _ .vmem, ⟨25, _⟩ => ⟨S1x32, .f32⟩
  | .local _ .vmem, ⟨26, _⟩ => ⟨S32x2, .f32⟩
  | .local _ .vmem, ⟨27, _⟩ => ⟨S1x2, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S1x512, .f32⟩
  | .local _ .vmem, ⟨32, _⟩ => ⟨S1x32, .f32⟩
  | .local _ .vmem, ⟨33, _⟩ => ⟨S1x32, .f32⟩
  | .local _ .vmem, ⟨34, _⟩ => ⟨S1x32, .f32⟩
  | .local _ .vmem, ⟨35, _⟩ => ⟨S1x32, .f32⟩
  | .local _ .vmem, ⟨36, _⟩ => ⟨S64x2, .f32⟩
  | _, _ => ⟨S64512x84, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_c_1 : Ref sig .tc := ⟨.hbm, 40, rfl⟩
abbrev main_v16 : Ref sig .tc := ⟨.hbm, 41, rfl⟩
abbrev main_v17 : Ref sig .tc := ⟨.hbm, 42, rfl⟩
abbrev main_c_2 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_4 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg3_0 : Ref sig .tc := ⟨.vmem, 24, rfl⟩
abbrev cc3_stg4_0 : Ref sig .tc := ⟨.vmem, 25, rfl⟩
abbrev cc3_stg5_0 : Ref sig .tc := ⟨.vmem, 26, rfl⟩
abbrev cc3_stg6_0 : Ref sig .tc := ⟨.vmem, 27, rfl⟩
abbrev cc3_stg7_0 : Ref sig .tc := ⟨.vmem, 28, rfl⟩
abbrev cc3_stg8_0 : Ref sig .tc := ⟨.vmem, 29, rfl⟩
abbrev cc3_stg9_0 : Ref sig .tc := ⟨.vmem, 30, rfl⟩
abbrev cc3_stg10_0 : Ref sig .tc := ⟨.vmem, 31, rfl⟩
abbrev cc3_stg11_0 : Ref sig .tc := ⟨.vmem, 32, rfl⟩
abbrev cc3_stg12_0 : Ref sig .tc := ⟨.vmem, 33, rfl⟩
abbrev cc3_stg13_0 : Ref sig .tc := ⟨.vmem, 34, rfl⟩
abbrev cc3_stg14_0 : Ref sig .tc := ⟨.vmem, 35, rfl⟩
abbrev cc3_stg15_0 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem6_0 : DmaSem sig := 27
abbrev cc3_sem7_0 : DmaSem sig := 28
abbrev cc3_sem8_0 : DmaSem sig := 29
abbrev cc3_sem9_0 : DmaSem sig := 30
abbrev cc3_sem10_0 : DmaSem sig := 31
abbrev cc3_sem11_0 : DmaSem sig := 32
abbrev cc3_sem12_0 : DmaSem sig := 33
abbrev cc3_sem13_0 : DmaSem sig := 34
abbrev cc3_sem14_0 : DmaSem sig := 35
abbrev cc3_sem15_0 : DmaSem sig := 36

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4032x84 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4032x84 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S84x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4032x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4032x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4032x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4032x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1008x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1008x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x12x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x6144 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S6144x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x32 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x512 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x512 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x512 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x32 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x32 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x32 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x32 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S64x2 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

class Facts₀ : Prop where
  slices_S2x1032192_S1x1032192_0_0 : S2x1032192.Slices ![0, 0] S1x1032192
  shapeCasts_S1x1032192_S1032192 : S1x1032192.ShapeCasts S1032192
  slices_S2x1032192_S1x1032192_1_0 : S2x1032192.Slices ![1, 0] S1x1032192
  bcast_S_S1032192 : S_.BroadcastsInDim S1032192 (![] : Fin 0 → Fin S1032192.rank)
  bcast_S1032192_S1032192x1_0 : S1032192.BroadcastsInDim S1032192x1 (![0] : Fin 1 → Fin S1032192x1.rank)
  bcast_S_S64512x84 : S_.BroadcastsInDim S64512x84 (![] : Fin 0 → Fin S64512x84.rank)
  shapeCasts_S128_S1x128 : S128.ShapeCasts S1x128
  inb_S4032x84_S4032x84_0_0 : ∀ a, (![0, 0] : Fin 2 → Nat) a + S4032x84.size a ≤ S4032x84.size a
  h_S4032x84 : 0 < S4032x84.numel
  shapeCasts_S4032x84_S4032x84 : S4032x84.ShapeCasts S4032x84
  bitsLt_bf16_f32 : FTy.bits .bf16 < FTy.bits .f32
  inb_S84x128_S84x128_0_0 : ∀ a, (![0, 0] : Fin 2 → Nat) a + S84x128.size a ≤ S84x128.size a
  h_S84x128 : 0 < S84x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4032x128 : S1x128.Broadcasts S4032x128
  inb_S4032x128_S4032x128_0_0 : ∀ a, (![0, 0] : Fin 2 → Nat) a + S4032x128.size a ≤ S4032x128.size a
  h_S4032x128 : 0 < S4032x128.numel
  bcast_S_S64512x128 : S_.BroadcastsInDim S64512x128 (![] : Fin 0 → Fin S64512x128.rank)
  shapeCasts_S4032x128_S4032x128 : S4032x128.ShapeCasts S4032x128
  inb_S128x128_S128x128_0_0 : ∀ a, (![0, 0] : Fin 2 → Nat) a + S128x128.size a ≤ S128x128.size a
  h_S128x128 : 0 < S128x128.numel
  shapeCasts_S64512x128_S64x1008x128 : S64512x128.ShapeCasts S64x1008x128
  inb_S1x1008x128_S1x1008x128_0_0_0 : ∀ a, (![0, 0, 0] : Fin 3 → Nat) a + S1x1008x128.size a ≤ S1x1008x128.size a
  h_S1x1008x128 : 0 < S1x1008x128.numel
  shapeCasts_S1x1008x128_S1008x128 : S1x1008x128.ShapeCasts S1008x128
  inb_S1008x128_S1008x128_0_0 : ∀ a, (![0, 0] : Fin 2 → Nat) a + S1008x128.size a ≤ S1008x128.size a
  h_S1008x128 : 0 < S1008x128.numel
  transposes_S1008x128_p1_0_S128x1008 : S1008x128.Transposes [1, 0] S128x1008
  reduces_S1008x1008_S1008 : S1008x1008.Reduces [1] S1008
  shapeCasts_S1008_S1008x1 : S1008.ShapeCasts S1008x1
  broadcasts_S1008x1_S1008x1008 : S1008x1.Broadcasts S1008x1008
  slices_S1008x128_o0_0_S84x128 : S1008x128.Slices ![0, 0] S84x128
  reduces_S84x128_S128 : S84x128.Reduces [0] S128
  slices_S1008x128_o84_0_S84x128 : S1008x128.Slices ![84, 0] S84x128
  slices_S1008x128_o168_0_S84x128 : S1008x128.Slices ![168, 0] S84x128
  slices_S1008x128_o252_0_S84x128 : S1008x128.Slices ![252, 0] S84x128
  slices_S1008x128_o336_0_S84x128 : S1008x128.Slices ![336, 0] S84x128
  slices_S1008x128_o420_0_S84x128 : S1008x128.Slices ![420, 0] S84x128
  slices_S1008x128_o504_0_S84x128 : S1008x128.Slices ![504, 0] S84x128
  slices_S1008x128_o588_0_S84x128 : S1008x128.Slices ![588, 0] S84x128
  slices_S1008x128_o672_0_S84x128 : S1008x128.Slices ![672, 0] S84x128
  slices_S1008x128_o756_0_S84x128 : S1008x128.Slices ![756, 0] S84x128
  slices_S1008x128_o840_0_S84x128 : S1008x128.Slices ![840, 0] S84x128
  slices_S1008x128_o924_0_S84x128 : S1008x128.Slices ![924, 0] S84x128
  concatenates_S1x128_S1x128_S1x128_S1x128_S1x128_S1x128_S1x128_S1x128_S1x128_S1x128_S1x128_S1x128_S12x128_d0 : Shape.Concatenates [S1x128, S1x128, S1x128, S1x128, S1x128, S1x128, S1x128, S1x128, S1x128, S1x128, S1x128, S1x128] S12x128 0
  concatenates_S12x128_S12x128_S12x256_d1 : Shape.Concatenates [S12x128, S12x128] S12x256 1
  inb_S1x12x256_S1x12x256_0_0_0 : ∀ a, (![0, 0, 0] : Fin 3 → Nat) a + S1x12x256.size a ≤ S1x12x256.size a
  h_S1x12x256 : 0 < S1x12x256.numel
  shapeCasts_S1x12x256_S12x256 : S1x12x256.ShapeCasts S12x256
  shapeCasts_S12x256_S1x12x256 : S12x256.ShapeCasts S1x12x256
  shapeCasts_S64512x128_S64x12x84x128 : S64512x128.ShapeCasts S64x12x84x128
  reducesTo_S64x12x84x128_S64x12x128_d2 : S64x12x84x128.ReducesTo [2] S64x12x128
  h_S_ : 0 < S_.numel
  bcast_S_S64x12x128 : S_.BroadcastsInDim S64x12x128 (![] : Fin 0 → Fin S64x12x128.rank)
  slices_S64x12x256_S64x12x128_0_0_0 : S64x12x256.Slices ![0, 0, 0] S64x12x128
  slices_S64x12x256_S64x12x128_0_0_128 : S64x12x256.Slices ![0, 0, 128] S64x12x128
  concatenates_S64x12x128_S64x12x128_S64x12x128_S64x12x128_S64x12x512_d2 : Shape.Concatenates [S64x12x128, S64x12x128, S64x12x128, S64x12x128] S64x12x512 2
  shapeCasts_S64x12x512_S64x6144 : S64x12x512.ShapeCasts S64x6144
  shapeCasts_S512_S1x512 : S512.ShapeCasts S1x512
  shapeCasts_S32_S1x32 : S32.ShapeCasts S1x32
  shapeCasts_S2_S1x2 : S2.ShapeCasts S1x2
  inb_S64x6144_S64x6144_0_0 : ∀ a, (![0, 0] : Fin 2 → Nat) a + S64x6144.size a ≤ S64x6144.size a
  h_S64x6144 : 0 < S64x6144.numel
  shapeCasts_S64x6144_S64x6144 : S64x6144.ShapeCasts S64x6144
  inb_S6144x512_S6144x512_0_0 : ∀ a, (![0, 0] : Fin 2 → Nat) a + S6144x512.size a ≤ S6144x512.size a
  h_S6144x512 : 0 < S6144x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  reduces_S64x2_S64 : S64x2.Reduces [1] S64
  shapeCasts_S64_S64x1 : S64.ShapeCasts S64x1
  broadcasts_S64x1_S64x2 : S64x1.Broadcasts S64x2
  inb_S64x2_S64x2_0_0 : ∀ a, (![0, 0] : Fin 2 → Nat) a + S64x2.size a ≤ S64x2.size a
  h_S64x2 : 0 < S64x2.numel
  gather_S64512x84_S1032192x1_S1032192x84_1_0_n_n_0_1_184_wf : GatherDims.WF S64512x84 S1032192x1 S1032192x84 [1] [0] [] [0] [] 1 ![1, 84]
  scatter_S64512x84_S1032192x1_S1032192x84_1_0_0_1_wf : ScatterDims.WF S64512x84 S1032192x1 S1032192x84 [1] [0] [0] 1
  dot_S4032x84_S84x128_S4032x128_1_0_0_1_n_n_wf : DotDims.WF S4032x84 S84x128 S4032x128 [1] [0] [0] [1] [] []
  gather_S64512x128_S1032192x1_S1032192x128_1_0_n_n_0_1_1128_wf : GatherDims.WF S64512x128 S1032192x1 S1032192x128 [1] [0] [] [0] [] 1 ![1, 128]
  scatter_S64512x128_S1032192x1_S1032192x128_1_0_0_1_wf : ScatterDims.WF S64512x128 S1032192x1 S1032192x128 [1] [0] [0] 1
  dot_S4032x128_S128x128_S4032x128_1_0_0_1_n_n_wf : DotDims.WF S4032x128 S128x128 S4032x128 [1] [0] [0] [1] [] []
  dot_S1008x128_S128x1008_S1008x1008_1_0_0_1_n_n_wf : DotDims.WF S1008x128 S128x1008 S1008x1008 [1] [0] [0] [1] [] []
  dot_S1008x1008_S1008x128_S1008x128_1_0_0_1_n_n_wf : DotDims.WF S1008x1008 S1008x128 S1008x128 [1] [0] [0] [1] [] []
  dot_S64x6144_S6144x512_S64x512_1_0_0_1_n_n_wf : DotDims.WF S64x6144 S6144x512 S64x512 [1] [0] [0] [1] [] []
  dot_S64x512_S512x32_S64x32_1_0_0_1_n_n_wf : DotDims.WF S64x512 S512x32 S64x32 [1] [0] [0] [1] [] []
  dot_S64x32_S32x2_S64x2_1_0_0_1_n_n_wf : DotDims.WF S64x32 S32x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4032x84.size a ≤ S64512x84.size a
  hwx0_0 : ∀ i : grid0.Coords, EltTy.bits .f32 = 32 ∨ (Rect.block (s := S64512x84) S4032x84.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4032x84.size a ≤ S64512x84.size a
  hwx0_1 : ∀ i : grid0.Coords, EltTy.bits .f32 = 32 ∨ (Rect.block (s := S64512x84) S4032x84.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S84x128.size a ≤ S84x128.size a
  hwx0_2 : ∀ i : grid0.Coords, EltTy.bits .f32 = 32 ∨ (Rect.block (s := S84x128) S84x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4032x128.size a ≤ S64512x128.size a
  hwx0_4 : ∀ i : grid0.Coords, EltTy.bits .f32 = 32 ∨ (Rect.block (s := S64512x128) S4032x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4032x128.size a ≤ S64512x128.size a
  hwx1_0 : ∀ i : grid1.Coords, EltTy.bits .f32 = 32 ∨ (Rect.block (s := S64512x128) S4032x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4032x128.size a ≤ S64512x128.size a
  hwx1_1 : ∀ i : grid1.Coords, EltTy.bits .f32 = 32 ∨ (Rect.block (s := S64512x128) S4032x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4032x128.size a ≤ S64512x128.size a
  hwx1_4 : ∀ i : grid1.Coords, EltTy.bits .f32 = 32 ∨ (Rect.block (s := S64512x128) S4032x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1008x128.size a ≤ S64x1008x128.size a
  hwx2_0 : ∀ i : grid2.Coords, EltTy.bits .f32 = 32 ∨ (Rect.block (s := S64x1008x128) S1x1008x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1008x128.size a ≤ S1008x128.size a
  hwx2_1 : ∀ i : grid2.Coords, EltTy.bits .f32 = 32 ∨ (Rect.block (s := S1008x128) S1008x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x12x256.size a ≤ S64x12x256.size a
  hwx2_2 : ∀ i : grid2.Coords, EltTy.bits .f32 = 32 ∨ (Rect.block (s := S64x12x256) S1x12x256.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x6144.size a ≤ S64x6144.size a
  hwx3_0 : ∀ i : grid3.Coords, EltTy.bits .f32 = 32 ∨ (Rect.block (s := S64x6144) S64x6144.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S6144x512.size a ≤ S6144x512.size a
  hwx3_1 : ∀ i : grid3.Coords, EltTy.bits .f32 = 32 ∨ (Rect.block (s := S6144x512) S6144x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x32.size a ≤ S512x32.size a
  hwx3_3 : ∀ i : grid3.Coords, EltTy.bits .f32 = 32 ∨ (Rect.block (s := S512x32) S512x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x32.size a ≤ S1x32.size a
  hwx3_4 : ∀ i : grid3.Coords, EltTy.bits .f32 = 32 ∨ (Rect.block (s := S1x32) S1x32.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S32x2.size a ≤ S32x2.size a
  hwx3_5 : ∀ i : grid3.Coords, EltTy.bits .f32 = 32 ∨ (Rect.block (s := S32x2) S32x2.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x2.size a ≤ S1x2.size a
  hwx3_6 : ∀ i : grid3.Coords, EltTy.bits .f32 = 32 ∨ (Rect.block (s := S1x2) S1x2.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x512.size a ≤ S1x512.size a
  hwx3_7 : ∀ i : grid3.Coords, EltTy.bits .f32 = 32 ∨ (Rect.block (s := S1x512) S1x512.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x512.size a ≤ S1x512.size a
  hwx3_8 : ∀ i : grid3.Coords, EltTy.bits .f32 = 32 ∨ (Rect.block (s := S1x512) S1x512.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x512.size a ≤ S1x512.size a
  hwx3_9 : ∀ i : grid3.Coords, EltTy.bits .f32 = 32 ∨ (Rect.block (s := S1x512) S1x512.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x512.size a ≤ S1x512.size a
  hwx3_10 : ∀ i : grid3.Coords, EltTy.bits .f32 = 32 ∨ (Rect.block (s := S1x512) S1x512.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x32.size a ≤ S1x32.size a
  hwx3_11 : ∀ i : grid3.Coords, EltTy.bits .f32 = 32 ∨ (Rect.block (s := S1x32) S1x32.size (cc3_transform_11 i) (hinb3_11 i)).WholeWords (EltTy.packing .f32)
  hstage3_12 : ∀ j, (stage3_12 j).IsWhole
  nbuf3_12 : grid3.bufCount reads3_12 true = 1
  hreads3_12 : ∀ i i' : grid3.Coords, (∀ a, reads3_12 a = true → i a = i' a) → cc3_transform_12 i = cc3_transform_12 i'
  hinb3_12 : ∀ (i : grid3.Coords) a, (cc3_transform_12 i a + 1) * S1x32.size a ≤ S1x32.size a
  hwx3_12 : ∀ i : grid3.Coords, EltTy.bits .f32 = 32 ∨ (Rect.block (s := S1x32) S1x32.size (cc3_transform_12 i) (hinb3_12 i)).WholeWords (EltTy.packing .f32)
  hstage3_13 : ∀ j, (stage3_13 j).IsWhole
  nbuf3_13 : grid3.bufCount reads3_13 true = 1
  hreads3_13 : ∀ i i' : grid3.Coords, (∀ a, reads3_13 a = true → i a = i' a) → cc3_transform_13 i = cc3_transform_13 i'
  hinb3_13 : ∀ (i : grid3.Coords) a, (cc3_transform_13 i a + 1) * S1x32.size a ≤ S1x32.size a
  hwx3_13 : ∀ i : grid3.Coords, EltTy.bits .f32 = 32 ∨ (Rect.block (s := S1x32) S1x32.size (cc3_transform_13 i) (hinb3_13 i)).WholeWords (EltTy.packing .f32)
  hstage3_14 : ∀ j, (stage3_14 j).IsWhole
  nbuf3_14 : grid3.bufCount reads3_14 true = 1
  hreads3_14 : ∀ i i' : grid3.Coords, (∀ a, reads3_14 a = true → i a = i' a) → cc3_transform_14 i = cc3_transform_14 i'
  hinb3_14 : ∀ (i : grid3.Coords) a, (cc3_transform_14 i a + 1) * S1x32.size a ≤ S1x32.size a
  hwx3_14 : ∀ i : grid3.Coords, EltTy.bits .f32 = 32 ∨ (Rect.block (s := S1x32) S1x32.size (cc3_transform_14 i) (hinb3_14 i)).WholeWords (EltTy.packing .f32)
  hstage3_15 : ∀ j, (stage3_15 j).IsWhole
  nbuf3_15 : grid3.bufCount reads3_15 true = 1
  hreads3_15 : ∀ i i' : grid3.Coords, (∀ a, reads3_15 a = true → i a = i' a) → cc3_transform_15 i = cc3_transform_15 i'
  hinb3_15 : ∀ (i : grid3.Coords) a, (cc3_transform_15 i a + 1) * S64x2.size a ≤ S64x2.size a
  hwx3_15 : ∀ i : grid3.Coords, EltTy.bits .f32 = 32 ∨ (Rect.block (s := S64x2) S64x2.size (cc3_transform_15 i) (hinb3_15 i)).WholeWords (EltTy.packing .f32)

variable [Facts₀]

def gather_S64512x84_S1032192x1_S1032192x84_1_0_n_n_0_1_184 : GatherDims S64512x84 S1032192x1 S1032192x84 where
  offsetDims := [1]
  collapsedSliceDims := [0]
  operandBatchingDims := []
  startIndicesBatchingDims := []
  startIndexMap := [0]
  indexVectorDim := 1
  sliceSizes := ![1, 84]
  wf := gather_S64512x84_S1032192x1_S1032192x84_1_0_n_n_0_1_184_wf
def scatter_S64512x84_S1032192x1_S1032192x84_1_0_0_1 : ScatterDims S64512x84 S1032192x1 S1032192x84 where
  updateWindowDims := [1]
  insertedWindowDims := [0]
  scatterDimsToOperandDims := [0]
  indexVectorDim := 1
  wf := scatter_S64512x84_S1032192x1_S1032192x84_1_0_0_1_wf
def dot_S4032x84_S84x128_S4032x128_1_0_0_1_n_n : DotDims S4032x84 S84x128 S4032x128 where
  lhsContracting := [1]
  rhsContracting := [0]
  lhsNonContracting := [0]
  rhsNonContracting := [1]
  lhsBatch := []
  rhsBatch := []
  wf := dot_S4032x84_S84x128_S4032x128_1_0_0_1_n_n_wf
def gather_S64512x128_S1032192x1_S1032192x128_1_0_n_n_0_1_1128 : GatherDims S64512x128 S1032192x1 S1032192x128 where
  offsetDims := [1]
  collapsedSliceDims := [0]
  operandBatchingDims := []
  startIndicesBatchingDims := []
  startIndexMap := [0]
  indexVectorDim := 1
  sliceSizes := ![1, 128]
  wf := gather_S64512x128_S1032192x1_S1032192x128_1_0_n_n_0_1_1128_wf
def scatter_S64512x128_S1032192x1_S1032192x128_1_0_0_1 : ScatterDims S64512x128 S1032192x1 S1032192x128 where
  updateWindowDims := [1]
  insertedWindowDims := [0]
  scatterDimsToOperandDims := [0]
  indexVectorDim := 1
  wf := scatter_S64512x128_S1032192x1_S1032192x128_1_0_0_1_wf
def dot_S4032x128_S128x128_S4032x128_1_0_0_1_n_n : DotDims S4032x128 S128x128 S4032x128 where
  lhsContracting := [1]
  rhsContracting := [0]
  lhsNonContracting := [0]
  rhsNonContracting := [1]
  lhsBatch := []
  rhsBatch := []
  wf := dot_S4032x128_S128x128_S4032x128_1_0_0_1_n_n_wf
def dot_S1008x128_S128x1008_S1008x1008_1_0_0_1_n_n : DotDims S1008x128 S128x1008 S1008x1008 where
  lhsContracting := [1]
  rhsContracting := [0]
  lhsNonContracting := [0]
  rhsNonContracting := [1]
  lhsBatch := []
  rhsBatch := []
  wf := dot_S1008x128_S128x1008_S1008x1008_1_0_0_1_n_n_wf
def dot_S1008x1008_S1008x128_S1008x128_1_0_0_1_n_n : DotDims S1008x1008 S1008x128 S1008x128 where
  lhsContracting := [1]
  rhsContracting := [0]
  lhsNonContracting := [0]
  rhsNonContracting := [1]
  lhsBatch := []
  rhsBatch := []
  wf := dot_S1008x1008_S1008x128_S1008x128_1_0_0_1_n_n_wf
def dot_S64x6144_S6144x512_S64x512_1_0_0_1_n_n : DotDims S64x6144 S6144x512 S64x512 where
  lhsContracting := [1]
  rhsContracting := [0]
  lhsNonContracting := [0]
  rhsNonContracting := [1]
  lhsBatch := []
  rhsBatch := []
  wf := dot_S64x6144_S6144x512_S64x512_1_0_0_1_n_n_wf
def dot_S64x512_S512x32_S64x32_1_0_0_1_n_n : DotDims S64x512 S512x32 S64x32 where
  lhsContracting := [1]
  rhsContracting := [0]
  lhsNonContracting := [0]
  rhsNonContracting := [1]
  lhsBatch := []
  rhsBatch := []
  wf := dot_S64x512_S512x32_S64x32_1_0_0_1_n_n_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

abbrev win0_0 : Pipeline.Window sig grid0 :=
  Pipeline.Window.ofSpec (Memref.whole main_arg0) S4032x84.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4032x84.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S84x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S4032x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v15) S4032x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4032x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S4032x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v28) S1x1008x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S1008x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v29) S1x12x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S64x6144.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S6144x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v39) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S512x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S1x32.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg11) S32x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v41) S1x2.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v42) S1x512.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v43) S1x512.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v44) S1x512.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v45) S1x512.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v46) S1x32.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v47) S1x32.size cc3_transform_12 reads3_12 false true 1 stage3_12 sem3_12
    hrank3 hreads3_12 hinb3_12 nbuf3_12 (Memref.isWhole_whole _) hwx3_12 hstage3_12

abbrev win3_13 : Pipeline.Window sig grid3 :=
  Pipeline.Window.ofSpec (Memref.whole main_v48) S1x32.size cc3_transform_13 reads3_13 false true 1 stage3_13 sem3_13
    hrank3 hreads3_13 hinb3_13 nbuf3_13 (Memref.isWhole_whole _) hwx3_13 hstage3_13

abbrev win3_14 : Pipeline.Window sig grid3 :=
  Pipeline.Window.ofSpec (Memref.whole main_v49) S1x32.size cc3_transform_14 reads3_14 false true 1 stage3_14 sem3_14
    hrank3 hreads3_14 hinb3_14 nbuf3_14 (Memref.isWhole_whole _) hwx3_14 hstage3_14

abbrev win3_15 : Pipeline.Window sig grid3 :=
  Pipeline.Window.ofSpec (Memref.whole main_v50) S64x2.size cc3_transform_15 reads3_15 true true 1 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

class Facts : Prop extends Facts₀ where

variable [Facts]
-- ==== ReferenceIdeal.lean ====
abbrev S64512x84 : Shape := ⟨2, ![64512, 84]⟩
abbrev S2x1032192 : Shape := ⟨2, ![2, 1032192]⟩
abbrev S1008x128 : Shape := ⟨2, ![1008, 128]⟩
abbrev S84x128 : Shape := ⟨2, ![84, 128]⟩
abbrev S128 : Shape := ⟨1, ![128]⟩
abbrev S128x128 : Shape := ⟨2, ![128, 128]⟩
abbrev S6144x512 : Shape := ⟨2, ![6144, 512]⟩
abbrev S512 : Shape := ⟨1, ![512]⟩
abbrev S512x32 : Shape := ⟨2, ![512, 32]⟩
abbrev S32 : Shape := ⟨1, ![32]⟩
abbrev S32x2 : Shape := ⟨2, ![32, 2]⟩
abbrev S2 : Shape := ⟨1, ![2]⟩
abbrev S1x1032192 : Shape := ⟨2, ![1, 1032192]⟩
abbrev S1032192 : Shape := ⟨1, ![1032192]⟩
abbrev S_ : Shape := ⟨0, ![]⟩
abbrev S1032192x1 : Shape := ⟨2, ![1032192, 1]⟩
abbrev S1032192x84 : Shape := ⟨2, ![1032192, 84]⟩
abbrev S64512x128 : Shape := ⟨2, ![64512, 128]⟩
abbrev S1x128 : Shape := ⟨2, ![1, 128]⟩
abbrev S1032192x128 : Shape := ⟨2, ![1032192, 128]⟩
abbrev S64x1008x128 : Shape := ⟨3, ![64, 1008, 128]⟩
abbrev S1x1008x128 : Shape := ⟨3, ![1, 1008, 128]⟩
abbrev S64x1008x1008 : Shape := ⟨3, ![64, 1008, 1008]⟩
abbrev S64x1008 : Shape := ⟨2, ![64, 1008]⟩
abbrev S64x1008x1 : Shape := ⟨3, ![64, 1008, 1]⟩
abbrev S64x12x84x128 : Shape := ⟨4, ![64, 12, 84, 128]⟩
abbrev S64x12x128 : Shape := ⟨3, ![64, 12, 128]⟩
abbrev S64x12x512 : Shape := ⟨3, ![64, 12, 512]⟩
abbrev S64x6144 : Shape := ⟨2, ![64, 6144]⟩
abbrev S64x512 : Shape := ⟨2, ![64, 512]⟩
abbrev S1x512 : Shape := ⟨2, ![1, 512]⟩
abbrev S64x32 : Shape := ⟨2, ![64, 32]⟩
abbrev S1x32 : Shape := ⟨2, ![1, 32]⟩
abbrev S64x2 : Shape := ⟨2, ![64, 2]⟩
abbrev S1x2 : Shape := ⟨2, ![1, 2]⟩
abbrev S64 : Shape := ⟨1, ![64]⟩
abbrev S64x1 : Shape := ⟨2, ![64, 1]⟩

abbrev nBuf : Space → Nat
  | .hbm => 178
  | .vmem => 0
  | .smem => 0
  | _ => 0

abbrev hbmTy0_0 (i : Nat) : BufTy := match i % 128 with
  | 0 => ⟨S64512x84, .f32⟩
  | 1 => ⟨S2x1032192, .i32⟩
  | 2 => ⟨S1008x128, .f32⟩
  | 3 => ⟨S84x128, .f32⟩
  | 4 => ⟨S128, .f32⟩
  | 5 => ⟨S128x128, .f32⟩
  | 6 => ⟨S128, .f32⟩
  | 7 => ⟨S6144x512, .f32⟩
  | 8 => ⟨S512, .f32⟩
  | 9 => ⟨S512x32, .f32⟩
  | 10 => ⟨S32, .f32⟩
  | 11 => ⟨S32x2, .f32⟩
  | 12 => ⟨S2, .f32⟩
  | 13 => ⟨S512, .f32⟩
  | 14 => ⟨S512, .f32⟩
  | 15 => ⟨S512, .f32⟩
  | 16 => ⟨S512, .f32⟩
  | 17 => ⟨S32, .f32⟩
  | 18 => ⟨S32, .f32⟩
  | 19 => ⟨S32, .f32⟩
  | 20 => ⟨S32, .f32⟩
  | 21 => ⟨S1x1032192, .i32⟩
  | 22 => ⟨S1032192, .i32⟩
  | 23 => ⟨S1x1032192, .i32⟩
  | 24 => ⟨S1032192, .i32⟩
  | 25 => ⟨S_, .i32⟩
  | 26 => ⟨S1032192, .i32⟩
  | 27 => ⟨S1032192, .i1⟩
  | 28 => ⟨S_, .i32⟩
  | 29 => ⟨S1032192, .i32⟩
  | 30 => ⟨S1032192, .i32⟩
  | 31 => ⟨S1032192, .i32⟩
  | 32 => ⟨S1032192x1, .i32⟩
  | 33 => ⟨S1032192x84, .f32⟩
  | 34 => ⟨S_, .f32⟩
  | 35 => ⟨S64512x84, .f32⟩
  | 36 => ⟨S1032192x1, .i32⟩
  | 37 => ⟨S64512x84, .f32⟩
  | 38 => ⟨S64512x84, .f32⟩
  | 39 => ⟨S64512x128, .f32⟩
  | 40 => ⟨S1x128, .f32⟩
  | 41 => ⟨S64512x128, .f32⟩
  | 42 => ⟨S64512x128, .f32⟩
  | 43 => ⟨S_, .i32⟩
  | 44 => ⟨S1032192, .i32⟩
  | 45 => ⟨S1032192, .i1⟩
  | 46 => ⟨S_, .i32⟩
  | 47 => ⟨S1032192, .i32⟩
  | 48 => ⟨S1032192, .i32⟩
  | 49 => ⟨S1032192, .i32⟩
  | 50 => ⟨S1032192x1, .i32⟩
  | 51 => ⟨S1032192x128, .f32⟩
  | 52 => ⟨S_, .f32⟩
  | 53 => ⟨S64512x128, .f32⟩
  | 54 => ⟨S1032192x1, .i32⟩
  | 55 => ⟨S64512x128, .f32⟩
  | 56 => ⟨S64512x128, .f32⟩
  | 57 => ⟨S64512x128, .f32⟩
  | 58 => ⟨S1x128, .f32⟩
  | 59 => ⟨S64512x128, .f32⟩
  | 60 => ⟨S64512x128, .f32⟩
  | 61 => ⟨S64x1008x128, .f32⟩
  | 62 => ⟨S1x1008x128, .f32⟩
  | 63 => ⟨S64x1008x128, .f32⟩
  | 64 => ⟨S64x1008x128, .f32⟩
  | 65 => ⟨S64x1008x1008, .f32⟩
  | 66 => ⟨S_, .f32⟩
  | 67 => ⟨S64x1008x1008, .f32⟩
  | 68 => ⟨S64x1008x1008, .f32⟩
  | 69 => ⟨S_, .f32⟩
  | 70 => ⟨S64x1008, .f32⟩
  | 71 => ⟨S_, .f32⟩
  | 72 => ⟨S64x1008, .f32⟩
  | 73 => ⟨S64x1008, .f32⟩
  | 74 => ⟨S64x1008x1, .f32⟩
  | 75 => ⟨S64x1008x1008, .f32⟩
  | 76 => ⟨S64x1008x1008, .f32⟩
  | 77 => ⟨S64x1008x1008, .f32⟩
  | 78 => ⟨S_, .f32⟩
  | 79 => ⟨S64x1008, .f32⟩
  | 80 => ⟨S64x1008x1, .f32⟩
  | 81 => ⟨S64x1008x1008, .f32⟩
  | 82 => ⟨S64x1008x1008, .f32⟩
  | 83 => ⟨S64x1008x128, .f32⟩
  | 84 => ⟨S64x12x84x128, .f32⟩
  | 85 => ⟨S64x12x84x128, .f32⟩
  | 86 => ⟨S_, .f32⟩
  | 87 => ⟨S64x12x128, .f32⟩
  | 88 => ⟨S_, .f32⟩
  | 89 => ⟨S64x12x128, .f32⟩
  | 90 => ⟨S_, .f32⟩
  | 91 => ⟨S64x12x128, .f32⟩
  | 92 => ⟨S64x12x128, .f32⟩
  | 93 => ⟨S_, .f32⟩
  | 94 => ⟨S64x12x128, .f32⟩
  | 95 => ⟨S_, .f32⟩
  | 96 => ⟨S64x12x128, .f32⟩
  | 97 => ⟨S_, .f32⟩
  | 98 => ⟨S64x12x128, .f32⟩
  | 99 => ⟨S64x12x128, .f32⟩
  | 100 => ⟨S64x12x512, .f32⟩
  | 101 => ⟨S64x6144, .f32⟩
  | 102 => ⟨S64x512, .f32⟩
  | 103 => ⟨S1x512, .f32⟩
  | 104 => ⟨S64x512, .f32⟩
  | 105 => ⟨S64x512, .f32⟩
  | 106 => ⟨S64x512, .f32⟩
  | 107 => ⟨S64x512, .f32⟩
  | 108 => ⟨S_, .f32⟩
  | 109 => ⟨S64x512, .f32⟩
  | 110 => ⟨S64x512, .f32⟩
  | 111 => ⟨S_, .f32⟩
  | 112 => ⟨S64x512, .f32⟩
  | 113 => ⟨S64x512, .f32⟩
  | 114 => ⟨S64x512, .f32⟩
  | 115 => ⟨S1x512, .f32⟩
  | 116 => ⟨S64x512, .f32⟩
  | 117 => ⟨S64x512, .f32⟩
  | 118 => ⟨S_, .f32⟩
  | 119 => ⟨S512, .f32⟩
  | 120 => ⟨S512, .f32⟩
  | 121 => ⟨S512, .f32⟩
  | 122 => ⟨S1x512, .f32⟩
  | 123 => ⟨S64x512, .f32⟩
  | 124 => ⟨S64x512, .f32⟩
  | 125 => ⟨S1x512, .f32⟩
  | 126 => ⟨S64x512, .f32⟩
  | 127 => ⟨S64x512, .f32⟩
  | _ => ⟨S64512x84, .f32⟩

abbrev hbmTy0_1 (i : Nat) : BufTy := match i % 128 with
  | 0 => ⟨S1x512, .f32⟩
  | 1 => ⟨S64x512, .f32⟩
  | 2 => ⟨S64x512, .f32⟩
  | 3 => ⟨S64x32, .f32⟩
  | 4 => ⟨S1x32, .f32⟩
  | 5 => ⟨S64x32, .f32⟩
  | 6 => ⟨S64x32, .f32⟩
  | 7 => ⟨S64x32, .f32⟩
  | 8 => ⟨S64x32, .f32⟩
  | 9 => ⟨S_, .f32⟩
  | 10 => ⟨S64x32, .f32⟩
  | 11 => ⟨S64x32, .f32⟩
  | 12 => ⟨S_, .f32⟩
  | 13 => ⟨S64x32, .f32⟩
  | 14 => ⟨S64x32, .f32⟩
  | 15 => ⟨S64x32, .f32⟩
  | 16 => ⟨S1x32, .f32⟩
  | 17 => ⟨S64x32, .f32⟩
  | 18 => ⟨S64x32, .f32⟩
  | 19 => ⟨S_, .f32⟩
  | 20 => ⟨S32, .f32⟩
  | 21 => ⟨S32, .f32⟩
  | 22 => ⟨S32, .f32⟩
  | 23 => ⟨S1x32, .f32⟩
  | 24 => ⟨S64x32, .f32⟩
  | 25 => ⟨S64x32, .f32⟩
  | 26 => ⟨S1x32, .f32⟩
  | 27 => ⟨S64x32, .f32⟩
  | 28 => ⟨S64x32, .f32⟩
  | 29 => ⟨S1x32, .f32⟩
  | 30 => ⟨S64x32, .f32⟩
  | 31 => ⟨S64x32, .f32⟩
  | 32 => ⟨S64x2, .f32⟩
  | 33 => ⟨S1x2, .f32⟩
  | 34 => ⟨S64x2, .f32⟩
  | 35 => ⟨S64x2, .f32⟩
  | 36 => ⟨S_, .f32⟩
  | 37 => ⟨S64, .f32⟩
  | 38 => ⟨S_, .f32⟩
  | 39 => ⟨S64, .f32⟩
  | 40 => ⟨S64, .f32⟩
  | 41 => ⟨S64x1, .f32⟩
  | 42 => ⟨S64x2, .f32⟩
  | 43 => ⟨S64x2, .f32⟩
  | 44 => ⟨S64x2, .f32⟩
  | 45 => ⟨S_, .f32⟩
  | 46 => ⟨S64, .f32⟩
  | 47 => ⟨S64x1, .f32⟩
  | 48 => ⟨S64x2, .f32⟩
  | 49 => ⟨S64x2, .f32⟩
  | _ => ⟨S64512x84, .f32⟩

abbrev hbmTy (i : Nat) : BufTy := match i / 128 with
  | 0 => hbmTy0_0 i
  | 1 => hbmTy0_1 i
  | _ => ⟨S64512x84, .f32⟩

abbrev bufTy : (tb : Table) → Fin (tcTables nBuf tb) → BufTy
  | .hbm, ⟨i, _⟩ => hbmTy i
  | _, _ => ⟨S64512x84, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_c : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_1 : Ref sig .tc := ⟨.hbm, 43, rfl⟩
abbrev main_v19 : Ref sig .tc := ⟨.hbm, 44, rfl⟩
abbrev main_v20 : Ref sig .tc := ⟨.hbm, 45, rfl⟩
abbrev main_c_2 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_3 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_4 : Ref sig .tc := ⟨.hbm, 66, rfl⟩
abbrev main_v39 : Ref sig .tc := ⟨.hbm, 67, rfl⟩
abbrev main_v40 : Ref sig .tc := ⟨.hbm, 68, rfl⟩
abbrev main_cst_5 : Ref sig .tc := ⟨.hbm, 69, rfl⟩
abbrev main_v41 : Ref sig .tc := ⟨.hbm, 70, rfl⟩
abbrev main_cst_6 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_7 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_8 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_cst_12 : Ref sig .tc := ⟨.hbm, 95, rfl⟩
abbrev main_v60 : Ref sig .tc := ⟨.hbm, 96, rfl⟩
abbrev main_cst_13 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_call0_v0 : Ref sig .tc := ⟨.hbm, 106, rfl⟩
abbrev main_call0_v1 : Ref sig .tc := ⟨.hbm, 107, rfl⟩
abbrev main_call0_cst : Ref sig .tc := ⟨.hbm, 108, rfl⟩
abbrev main_call0_v2 : Ref sig .tc := ⟨.hbm, 109, rfl⟩
abbrev main_call0_v3 : Ref sig .tc := ⟨.hbm, 110, rfl⟩
abbrev main_call0_cst_0 : Ref sig .tc := ⟨.hbm, 111, rfl⟩
abbrev main_call0_v4 : Ref sig .tc := ⟨.hbm, 112, rfl⟩
abbrev main_call0_v5 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_cst_14 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_call1_v0 : Ref sig .tc := ⟨.hbm, 135, rfl⟩
abbrev main_call1_v1 : Ref sig .tc := ⟨.hbm, 136, rfl⟩
abbrev main_call1_cst : Ref sig .tc := ⟨.hbm, 137, rfl⟩
abbrev main_call1_v2 : Ref sig .tc := ⟨.hbm, 138, rfl⟩
abbrev main_call1_v3 : Ref sig .tc := ⟨.hbm, 139, rfl⟩
abbrev main_call1_cst_0 : Ref sig .tc := ⟨.hbm, 140, rfl⟩
abbrev main_call1_v4 : Ref sig .tc := ⟨.hbm, 141, rfl⟩
abbrev main_call1_v5 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_15 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_cst_16 : Ref sig .tc := ⟨.hbm, 164, rfl⟩
abbrev main_v109 : Ref sig .tc := ⟨.hbm, 165, rfl⟩
abbrev main_cst_17 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_18 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩

abbrev nD : Nat := 1
abbrev τ : Topo := Topo.v7x

variable {F : FTy → Type} [FloatOps F]

class Facts₀ : Prop where
  slices_S2x1032192_S1x1032192_0_0 : S2x1032192.Slices ![0, 0] S1x1032192
  shapeCasts_S1x1032192_S1032192 : S1x1032192.ShapeCasts S1032192
  slices_S2x1032192_S1x1032192_1_0 : S2x1032192.Slices ![1, 0] S1x1032192
  bcast_S_S1032192 : S_.BroadcastsInDim S1032192 (![] : Fin 0 → Fin S1032192.rank)
  bcast_S1032192_S1032192x1_0 : S1032192.BroadcastsInDim S1032192x1 (![0] : Fin 1 → Fin S1032192x1.rank)
  bcast_S_S64512x84 : S_.BroadcastsInDim S64512x84 (![] : Fin 0 → Fin S64512x84.rank)
  bcast_S128_S1x128_1 : S128.BroadcastsInDim S1x128 (![1] : Fin 1 → Fin S1x128.rank)
  bcast_S1x128_S64512x128_0_1 : S1x128.BroadcastsInDim S64512x128 (![0, 1] : Fin 2 → Fin S64512x128.rank)
  bcast_S_S64512x128 : S_.BroadcastsInDim S64512x128 (![] : Fin 0 → Fin S64512x128.rank)
  shapeCasts_S64512x128_S64x1008x128 : S64512x128.ShapeCasts S64x1008x128
  bcast_S1008x128_S1x1008x128_1_2 : S1008x128.BroadcastsInDim S1x1008x128 (![1, 2] : Fin 2 → Fin S1x1008x128.rank)
  bcast_S1x1008x128_S64x1008x128_0_1_2 : S1x1008x128.BroadcastsInDim S64x1008x128 (![0, 1, 2] : Fin 3 → Fin S64x1008x128.rank)
  bcast_S_S64x1008x1008 : S_.BroadcastsInDim S64x1008x1008 (![] : Fin 0 → Fin S64x1008x1008.rank)
  reducesTo_S64x1008x1008_S64x1008_d2 : S64x1008x1008.ReducesTo [2] S64x1008
  h_S_ : 0 < S_.numel
  bcast_S_S64x1008 : S_.BroadcastsInDim S64x1008 (![] : Fin 0 → Fin S64x1008.rank)
  bcast_S64x1008_S64x1008x1_0_1 : S64x1008.BroadcastsInDim S64x1008x1 (![0, 1] : Fin 2 → Fin S64x1008x1.rank)
  bcast_S64x1008x1_S64x1008x1008_0_1_2 : S64x1008x1.BroadcastsInDim S64x1008x1008 (![0, 1, 2] : Fin 3 → Fin S64x1008x1008.rank)
  shapeCasts_S64512x128_S64x12x84x128 : S64512x128.ShapeCasts S64x12x84x128
  shapeCasts_S64x1008x128_S64x12x84x128 : S64x1008x128.ShapeCasts S64x12x84x128
  reducesTo_S64x12x84x128_S64x12x128_d2 : S64x12x84x128.ReducesTo [2] S64x12x128
  bcast_S_S64x12x128 : S_.BroadcastsInDim S64x12x128 (![] : Fin 0 → Fin S64x12x128.rank)
  concatenates_S64x12x128_S64x12x128_S64x12x128_S64x12x128_S64x12x512_d2 : Shape.Concatenates [S64x12x128, S64x12x128, S64x12x128, S64x12x128] S64x12x512 2
  shapeCasts_S64x12x512_S64x6144 : S64x12x512.ShapeCasts S64x6144
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  bcast_S_S64x512 : S_.BroadcastsInDim S64x512 (![] : Fin 0 → Fin S64x512.rank)
  bcast_S_S512 : S_.BroadcastsInDim S512 (![] : Fin 0 → Fin S512.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  bcast_S_S64x32 : S_.BroadcastsInDim S64x32 (![] : Fin 0 → Fin S64x32.rank)
  bcast_S_S32 : S_.BroadcastsInDim S32 (![] : Fin 0 → Fin S32.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  gather_S64512x84_S1032192x1_S1032192x84_1_0_n_n_0_1_184_wf : GatherDims.WF S64512x84 S1032192x1 S1032192x84 [1] [0] [] [0] [] 1 ![1, 84]
  scatter_S64512x84_S1032192x1_S1032192x84_1_0_0_1_wf : ScatterDims.WF S64512x84 S1032192x1 S1032192x84 [1] [0] [0] 1
  dot_S64512x84_S84x128_S64512x128_1_0_0_1_n_n_wf : DotDims.WF S64512x84 S84x128 S64512x128 [1] [0] [0] [1] [] []
  gather_S64512x128_S1032192x1_S1032192x128_1_0_n_n_0_1_1128_wf : GatherDims.WF S64512x128 S1032192x1 S1032192x128 [1] [0] [] [0] [] 1 ![1, 128]
  scatter_S64512x128_S1032192x1_S1032192x128_1_0_0_1_wf : ScatterDims.WF S64512x128 S1032192x1 S1032192x128 [1] [0] [0] 1
  dot_S64512x128_S128x128_S64512x128_1_0_0_1_n_n_wf : DotDims.WF S64512x128 S128x128 S64512x128 [1] [0] [0] [1] [] []
  dot_S64x1008x128_S64x1008x128_S64x1008x1008_2_2_1_1_0_0_wf : DotDims.WF S64x1008x128 S64x1008x128 S64x1008x1008 [2] [2] [1] [1] [0] [0]
  dot_S64x1008x1008_S64x1008x128_S64x1008x128_2_1_1_2_0_0_wf : DotDims.WF S64x1008x1008 S64x1008x128 S64x1008x128 [2] [1] [1] [2] [0] [0]
  dot_S64x6144_S6144x512_S64x512_1_0_0_1_n_n_wf : DotDims.WF S64x6144 S6144x512 S64x512 [1] [0] [0] [1] [] []
  dot_S64x512_S512x32_S64x32_1_0_0_1_n_n_wf : DotDims.WF S64x512 S512x32 S64x32 [1] [0] [0] [1] [] []
  dot_S64x32_S32x2_S64x2_1_0_0_1_n_n_wf : DotDims.WF S64x32 S32x2 S64x2 [1] [0] [0] [1] [] []

variable [Facts₀]

def gather_S64512x84_S1032192x1_S1032192x84_1_0_n_n_0_1_184 : GatherDims S64512x84 S1032192x1 S1032192x84 where
  offsetDims := [1]
  collapsedSliceDims := [0]
  operandBatchingDims := []
  startIndicesBatchingDims := []
  startIndexMap := [0]
  indexVectorDim := 1
  sliceSizes := ![1, 84]
  wf := gather_S64512x84_S1032192x1_S1032192x84_1_0_n_n_0_1_184_wf
def scatter_S64512x84_S1032192x1_S1032192x84_1_0_0_1 : ScatterDims S64512x84 S1032192x1 S1032192x84 where
  updateWindowDims := [1]
  insertedWindowDims := [0]
  scatterDimsToOperandDims := [0]
  indexVectorDim := 1
  wf := scatter_S64512x84_S1032192x1_S1032192x84_1_0_0_1_wf
def dot_S64512x84_S84x128_S64512x128_1_0_0_1_n_n : DotDims S64512x84 S84x128 S64512x128 where
  lhsContracting := [1]
  rhsContracting := [0]
  lhsNonContracting := [0]
  rhsNonContracting := [1]
  lhsBatch := []
  rhsBatch := []
  wf := dot_S64512x84_S84x128_S64512x128_1_0_0_1_n_n_wf
def gather_S64512x128_S1032192x1_S1032192x128_1_0_n_n_0_1_1128 : GatherDims S64512x128 S1032192x1 S1032192x128 where
  offsetDims := [1]
  collapsedSliceDims := [0]
  operandBatchingDims := []
  startIndicesBatchingDims := []
  startIndexMap := [0]
  indexVectorDim := 1
  sliceSizes := ![1, 128]
  wf := gather_S64512x128_S1032192x1_S1032192x128_1_0_n_n_0_1_1128_wf
def scatter_S64512x128_S1032192x1_S1032192x128_1_0_0_1 : ScatterDims S64512x128 S1032192x1 S1032192x128 where
  updateWindowDims := [1]
  insertedWindowDims := [0]
  scatterDimsToOperandDims := [0]
  indexVectorDim := 1
  wf := scatter_S64512x128_S1032192x1_S1032192x128_1_0_0_1_wf
def dot_S64512x128_S128x128_S64512x128_1_0_0_1_n_n : DotDims S64512x128 S128x128 S64512x128 where
  lhsContracting := [1]
  rhsContracting := [0]
  lhsNonContracting := [0]
  rhsNonContracting := [1]
  lhsBatch := []
  rhsBatch := []
  wf := dot_S64512x128_S128x128_S64512x128_1_0_0_1_n_n_wf
def dot_S64x1008x128_S64x1008x128_S64x1008x1008_2_2_1_1_0_0 : DotDims S64x1008x128 S64x1008x128 S64x1008x1008 where
  lhsContracting := [2]
  rhsContracting := [2]
  lhsNonContracting := [1]
  rhsNonContracting := [1]
  lhsBatch := [0]
  rhsBatch := [0]
  wf := dot_S64x1008x128_S64x1008x128_S64x1008x1008_2_2_1_1_0_0_wf
def dot_S64x1008x1008_S64x1008x128_S64x1008x128_2_1_1_2_0_0 : DotDims S64x1008x1008 S64x1008x128 S64x1008x128 where
  lhsContracting := [2]
  rhsContracting := [1]
  lhsNonContracting := [1]
  rhsNonContracting := [2]
  lhsBatch := [0]
  rhsBatch := [0]
  wf := dot_S64x1008x1008_S64x1008x128_S64x1008x128_2_1_1_2_0_0_wf
def dot_S64x6144_S6144x512_S64x512_1_0_0_1_n_n : DotDims S64x6144 S6144x512 S64x512 where
  lhsContracting := [1]
  rhsContracting := [0]
  lhsNonContracting := [0]
  rhsNonContracting := [1]
  lhsBatch := []
  rhsBatch := []
  wf := dot_S64x6144_S6144x512_S64x512_1_0_0_1_n_n_wf
def dot_S64x512_S512x32_S64x32_1_0_0_1_n_n : DotDims S64x512 S512x32 S64x32 where
  lhsContracting := [1]
  rhsContracting := [0]
  lhsNonContracting := [0]
  rhsNonContracting := [1]
  lhsBatch := []
  rhsBatch := []
  wf := dot_S64x512_S512x32_S64x32_1_0_0_1_n_n_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

class Facts : Prop extends Facts₀ where

variable [Facts]
-- ==== Proof.K.Linear0.lean ====
/-
  The first graph-convolution layer's linear map as a pipelined kernel: sixteen grid points, point `t` taking rows
  4032·t … 4032·t + 4031 of the node features `x` and of their neighbour sums `s`, the whole weight matrix `W` and the
  bias row `b`, and writing the same rows of `(x + s) · W + b`. This module is the kernel's half of the frame: what one
  call of the body leaves in the result's staging buffer, as a function of the four input blocks, and that the body
  run on those blocks terminates without a fault leaving exactly that.
-/
import proofs.«175257_j71588514890561_2_alg».proof.Proof.Patched.Kernel.Launch
import proofs.«175257_j71588514890561_2_alg».proof.Proof.Gen.Kernel.Skeleton
import proofs.«175257_j71588514890561_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Linear0

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- Window `w`'s block at grid point `t`: the rows of its array, as the region finds it, that the point works on. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block whether or not the block was fetched at that point: an
    unfetched block is one whose index did not move (the weights and the bias are fetched once). One statement per
    input window. -/
theorem before_of_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_of_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_of_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_of_3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## What the body reads and writes -/

abbrev rX : Rect S4032x84 := Rect.unit (s := S4032x84) ![0, 0] S4032x84.size inb_S4032x84_S4032x84_0_0
abbrev rW : Rect S84x128 := Rect.unit (s := S84x128) ![0, 0] S84x128.size inb_S84x128_S84x128_0_0
abbrev rB : Rect S1x128 := Rect.unit (s := S1x128) ![0, 0] S1x128.size inb_S1x128_S1x128_0_0
abbrev rO : Rect S4032x128 := Rect.unit (s := S4032x128) ![0, 0] S4032x128.size inb_S4032x128_S4032x128_0_0

/-- The result's staging buffer after the body: its one store, of `(x + s) · W + b` on the blocks read whole. -/
def out (x s : Vec F S4032x84 .f32) (W : Vec F S84x128 .f32) (b : Vec F S1x128 .f32) : Vec F S4032x128 .f32 :=
  View.canon [⟨rO, k0_pay1 (View.ld x rX) (View.ld s rX) (View.ld W rW) (View.ld b rB)⟩]

/-- The one store is of the whole buffer. -/
theorem cover (p : Vec F S4032x128 .f32) (y : S4032x128.Idx) :
    ∃ pc ∈ ([⟨rO, p⟩] : List (View.Piece (Elt F) S4032x128 .f32)), y ∈ pc.1.set :=
  View.cover_of_tiled [⟨rO, p⟩] S4032x128.size (by rfl) y

/-! ## The body's run -/

set_option maxHeartbeats 1000000 in
/-- On whole staging memrefs, the inputs' reading `x`, `s`, `W`, `b` and the result's holding anything, the body runs to
    its return leaving the inputs as they were and the result's at `out x s W b`. -/
theorem sound_kernel (c : Dev nD) (E : Set ℕ) (i : grid0.Coords)
    (a1 : Memref sig .tc .vmem S4032x84 .f32) (h1 : a1.IsWhole) (a2 : Memref sig .tc .vmem S4032x84 .f32) (h2 : a2.IsWhole)
    (a3 : Memref sig .tc .vmem S84x128 .f32) (h3 : a3.IsWhole) (a4 : Memref sig .tc .vmem S1x128 .f32) (h4 : a4.IsWhole)
    (a5 : Memref sig .tc .vmem S4032x128 .f32) (h5 : a5.IsWhole)
    (x s : Vec F S4032x84 .f32) (W : Vec F S84x128 .f32) (b : Vec F S1x128 .f32) (K : PUnit → sProp 𝕄) :
    iprop(owns (c : Thread nD τ) a1 fullShare x ∗ owns (c : Thread nD τ) a2 fullShare s ∗ owns (c : Thread nD τ) a3 fullShare W
        ∗ owns (c : Thread nD τ) a4 fullShare b ∗ (∃ d, owns (c : Thread nD τ) a5 fullShare d)
        ∗ (iprop(owns (c : Thread nD τ) a1 fullShare x ∗ owns (c : Thread nD τ) a2 fullShare s ∗ owns (c : Thread nD τ) a3 fullShare W
            ∗ owns (c : Thread nD τ) a4 fullShare b ∗ owns (c : Thread nD τ) a5 fullShare (out x s W b)) -∗ K ⟨⟩))
      ⊢ wp frame (wpE (defs₀ (F := F)) Variants.none c none) E (cc0__linear_kernel i a1 h1 a2 h2 a3 h3 a4 h4 a5 h5) K := by
  simp only [cc0__linear_kernel_eq_skeleton]; unfold cc0__linear_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The arrays as the region finds them; after the body at point `t` each input's buffer still at its block and the
    result's at `out` of the four blocks; nothing owed, full shares, the untouched rest as the invariant. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => out (blk V c 0 t) (blk V c 1 t) (blk V c 2 t) (blk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) :
    (dat V c).after 4 t = out (blk V c 0 t) (blk V c 1 t) (blk V c 2 t) (blk V c 3 t) := by dsimp only [dat]

theorem before_0 (c : Dev nD) (t : Fin cfg0.N) (d) : (dat V c).before 0 t d = blk V c 0 t :=
  before_of_0 V (dat V c) (A_eq V c 0) (after_0 V c) t d
theorem before_1 (c : Dev nD) (t : Fin cfg0.N) (d) : (dat V c).before 1 t d = blk V c 1 t :=
  before_of_1 V (dat V c) (A_eq V c 1) (after_1 V c) t d
theorem before_2 (c : Dev nD) (t : Fin cfg0.N) (d) : (dat V c).before 2 t d = blk V c 2 t :=
  before_of_2 V (dat V c) (A_eq V c 2) (after_2 V c) t d
theorem before_3 (c : Dev nD) (t : Fin cfg0.N) (d) : (dat V c).before 3 t d = blk V c 3 t :=
  before_of_3 V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- At any point the input memrefs hold the point's blocks, so the body's run applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W0, bigSep_W0]
  exact sound_body V c t

end Cert.Kernel.Linear0

end
-- ==== Proof.K.Linear1.lean ====
/-
  The second graph-convolution layer's linear map as a pipelined kernel: sixteen grid points, point `t` taking rows
  4032·t … 4032·t + 4031 of the first layer's output `h` and of its neighbour sums `s`, the whole 128 × 128 weight matrix
  `W` and the bias row `b`, and writing the same rows of `(h + s) · W + b`. This module is the kernel's half of the frame:
  what one call of the body leaves in the result's staging buffer, as a function of the four input blocks, and that the
  body run on those blocks terminates without a fault leaving exactly that.
-/
import proofs.«175257_j71588514890561_2_alg».proof.Proof.Patched.Kernel.Launch
import proofs.«175257_j71588514890561_2_alg».proof.Proof.Gen.Kernel.Skeleton
import proofs.«175257_j71588514890561_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Linear1

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- Window `w`'s block at grid point `t`: the rows of its array, as the region finds it, that the point works on. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block whether or not the block was fetched at that point: an
    unfetched block is one whose index did not move (the weights and the bias are fetched once). One statement per
    input window. -/
theorem before_of_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_of_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_of_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_of_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## What the body reads and writes -/

abbrev rX : Rect S4032x128 := Rect.unit (s := S4032x128) ![0, 0] S4032x128.size inb_S4032x128_S4032x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S4032x128 := Rect.unit (s := S4032x128) ![0, 0] S4032x128.size inb_S4032x128_S4032x128_0_0

/-- The result's staging buffer after the body: its one store, of `(x + s) · W + b` on the blocks read whole. -/
def out (x s : Vec F S4032x128 .f32) (W : Vec F S128x128 .f32) (b : Vec F S1x128 .f32) : Vec F S4032x128 .f32 :=
  View.canon [⟨rO, k1_pay1 (View.ld x rX) (View.ld s rX) (View.ld W rW) (View.ld b rB)⟩]

/-- The one store is of the whole buffer. -/
theorem cover (p : Vec F S4032x128 .f32) (y : S4032x128.Idx) :
    ∃ pc ∈ ([⟨rO, p⟩] : List (View.Piece (Elt F) S4032x128 .f32)), y ∈ pc.1.set :=
  View.cover_of_tiled [⟨rO, p⟩] S4032x128.size (by rfl) y

/-! ## The body's run -/

set_option maxHeartbeats 1000000 in
/-- On whole staging memrefs, the inputs' reading `x`, `s`, `W`, `b` and the result's holding anything, the body runs to
    its return leaving the inputs as they were and the result's at `out x s W b`. -/
theorem sound_kernel (c : Dev nD) (E : Set ℕ) (i : grid1.Coords)
    (a1 : Memref sig .tc .vmem S4032x128 .f32) (h1 : a1.IsWhole) (a2 : Memref sig .tc .vmem S4032x128 .f32) (h2 : a2.IsWhole)
    (a3 : Memref sig .tc .vmem S128x128 .f32) (h3 : a3.IsWhole) (a4 : Memref sig .tc .vmem S1x128 .f32) (h4 : a4.IsWhole)
    (a5 : Memref sig .tc .vmem S4032x128 .f32) (h5 : a5.IsWhole)
    (x s : Vec F S4032x128 .f32) (W : Vec F S128x128 .f32) (b : Vec F S1x128 .f32) (K : PUnit → sProp 𝕄) :
    iprop(owns (c : Thread nD τ) a1 fullShare x ∗ owns (c : Thread nD τ) a2 fullShare s ∗ owns (c : Thread nD τ) a3 fullShare W
        ∗ owns (c : Thread nD τ) a4 fullShare b ∗ (∃ d, owns (c : Thread nD τ) a5 fullShare d)
        ∗ (iprop(owns (c : Thread nD τ) a1 fullShare x ∗ owns (c : Thread nD τ) a2 fullShare s ∗ owns (c : Thread nD τ) a3 fullShare W
            ∗ owns (c : Thread nD τ) a4 fullShare b ∗ owns (c : Thread nD τ) a5 fullShare (out x s W b)) -∗ K ⟨⟩))
      ⊢ wp frame (wpE (defs₀ (F := F)) Variants.none c none) E (cc1__linear_kernel i a1 h1 a2 h2 a3 h3 a4 h4 a5 h5) K := by
  simp only [cc1__linear_kernel_eq_skeleton]; unfold cc1__linear_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The arrays as the region finds them; after the body at point `t` each input's buffer still at its block and the
    result's at `out` of the four blocks; nothing owed, full shares, the untouched rest as the invariant. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => out (blk V c 0 t) (blk V c 1 t) (blk V c 2 t) (blk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) :
    (dat V c).after 4 t = out (blk V c 0 t) (blk V c 1 t) (blk V c 2 t) (blk V c 3 t) := by dsimp only [dat]

theorem before_0 (c : Dev nD) (t : Fin cfg1.N) (d) : (dat V c).before 0 t d = blk V c 0 t :=
  before_of_0 V (dat V c) (A_eq V c 0) (after_0 V c) t d
theorem before_1 (c : Dev nD) (t : Fin cfg1.N) (d) : (dat V c).before 1 t d = blk V c 1 t :=
  before_of_1 V (dat V c) (A_eq V c 1) (after_1 V c) t d
theorem before_2 (c : Dev nD) (t : Fin cfg1.N) (d) : (dat V c).before 2 t d = blk V c 2 t :=
  before_of_2 V (dat V c) (A_eq V c 2) (after_2 V c) t d
theorem before_3 (c : Dev nD) (t : Fin cfg1.N) (d) : (dat V c).before 3 t d = blk V c 3 t :=
  before_of_3 V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- At any point the input memrefs hold the point's blocks, so the body's run applies; the invariant and what the core
    owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W1, bigSep_W1]
  exact sound_body V c t

end Cert.Kernel.Linear1

end
-- ==== Proof.K.Attn.lean ====
/-
  Self-attention over one sample's 1008 rows, followed by pooling, as a pipelined kernel: sixty-four grid points, point
  t taking sample t's rows of the hidden features (a 1008 × 128 block) and the whole positional table (1008 × 128,
  fetched once), and writing sample t's 12 × 256 block of pooled features: for each of the twelve groups of 84 consecutive
  rows, the columnwise maximum of the attended rows (columns 0 … 127) and their columnwise mean (columns 128 … 255).
  This module is the kernel's half of the frame: what one call of the body leaves in the result's staging buffer, as a
  function of the two input blocks, and that the body run on those blocks terminates without a fault leaving exactly that.
-/
import proofs.«175257_j71588514890561_2_alg».proof.Proof.Patched.Kernel.Launch
import proofs.«175257_j71588514890561_2_alg».proof.Proof.Gen.Kernel.Skeleton
import proofs.«175257_j71588514890561_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- Window w's block at grid point t: the part of its array, as the region finds it, that the point works on. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block whether or not the block was fetched at that point: an
    unfetched block is one whose index did not move (the positional table is fetched once). One statement per input
    window. -/
theorem before_of_0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_of_1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What the body reads and writes -/

abbrev rX : Rect S1x1008x128 := Rect.unit (s := S1x1008x128) ![0, 0, 0] S1x1008x128.size inb_S1x1008x128_S1x1008x128_0_0_0
abbrev rP : Rect S1008x128 := Rect.unit (s := S1008x128) ![0, 0] S1008x128.size inb_S1008x128_S1008x128_0_0
abbrev rO : Rect S1x12x256 := Rect.unit (s := S1x12x256) ![0, 0, 0] S1x12x256.size inb_S1x12x256_S1x12x256_0_0_0

/-- The attended rows: the 1008 × 128 matrix softmax(q qᵀ · scale) q, where q is the sample's rows plus the positional
    table, as the body computes it from the two blocks read whole. -/
def ctxv (x0 : Vec F S1x1008x128 .f32) (x1 : Vec F S1008x128 .f32) : FVec F S1008x128 .f32 :=
  k2_pay6 (View.ld x0 rX) (View.ld x1 rP)

/-- The twelve groups' columnwise maxima, one row per group, as the body assembles them: groups 0, 1, 2 pooled next to
    the attention, groups 3 … 8 next, groups 9, 10, 11 last. -/
def maxv (x0 : Vec F S1x1008x128 .f32) (x1 : Vec F S1008x128 .f32) : FVec F S12x128 .f32 :=
  k2_pay4 (ctxv x0 x1) (k2_pay8 (View.ld x0 rX) (View.ld x1 rP)) (k2_pay11 (View.ld x0 rX) (View.ld x1 rP))
    (k2_pay14 (View.ld x0 rX) (View.ld x1 rP)) (k2_pay18 (ctxv x0 x1)) (k2_pay21 (ctxv x0 x1)) (k2_pay24 (ctxv x0 x1))
    (k2_pay27 (ctxv x0 x1)) (k2_pay30 (ctxv x0 x1)) (k2_pay33 (ctxv x0 x1))

/-- The value of the body's one store: the maxima and the means side by side, under a leading unit axis. -/
def payload (x0 : Vec F S1x1008x128 .f32) (x1 : Vec F S1008x128 .f32) : FVec F S1x12x256 .f32 :=
  k2_pay5 (ctxv x0 x1) (k2_pay9 (View.ld x0 rX) (View.ld x1 rP)) (k2_pay12 (View.ld x0 rX) (View.ld x1 rP))
    (k2_pay16 (k2_pay15 (View.ld x0 rX) (View.ld x1 rP))) (k2_pay19 (ctxv x0 x1)) (k2_pay22 (ctxv x0 x1))
    (k2_pay25 (ctxv x0 x1)) (k2_pay28 (ctxv x0 x1)) (k2_pay31 (ctxv x0 x1)) (k2_pay34 (ctxv x0 x1)) (maxv x0 x1)

/-- The result's staging buffer after the body: its one store, of the pooled features of the blocks read whole. -/
def out (x0 : Vec F S1x1008x128 .f32) (x1 : Vec F S1008x128 .f32) : Vec F S1x12x256 .f32 :=
  View.canon [⟨rO, payload x0 x1⟩]

/-- The one store is of the whole buffer. -/
theorem cover (p : Vec F S1x12x256 .f32) (y : S1x12x256.Idx) :
    ∃ pc ∈ ([⟨rO, p⟩] : List (View.Piece (Elt F) S1x12x256 .f32)), y ∈ pc.1.set :=
  View.cover_of_tiled [⟨rO, p⟩] S1x12x256.size (by rfl) y

/-! ## The body's run -/

set_option maxHeartbeats 1000000 in
/-- On whole staging memrefs, the inputs' reading x0 and x1 and the result's holding anything, the body runs to its
    return leaving the inputs as they were and the result's at out x0 x1. -/
theorem sound_kernel (c : Dev nD) (E : Set ℕ) (i : grid2.Coords)
    (a1 : Memref sig .tc .vmem S1x1008x128 .f32) (h1 : a1.IsWhole) (a2 : Memref sig .tc .vmem S1008x128 .f32) (h2 : a2.IsWhole)
    (a3 : Memref sig .tc .vmem S1x12x256 .f32) (h3 : a3.IsWhole)
    (x0 : Vec F S1x1008x128 .f32) (x1 : Vec F S1008x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out x0 x1)) -∗ K ⟨⟩))
      ⊢ wp frame (wpE (defs₀ (F := F)) Variants.none c none) E (cc2__attn_kernel i a1 h1 a2 h2 a3 h3) K := by
  simp only [cc2__attn_kernel_eq_skeleton]; unfold cc2__attn_kernel_skel
  simp only [k2_part1_eq_skeleton, k2_part2_eq_skeleton]
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The arrays as the region finds them; after the body at point t each input's buffer still at its block and the
    result's at out of the two blocks; nothing owed, full shares, the untouched rest as the invariant. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => out (blk V c 0 t) (blk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = out (blk V c 0 t) (blk V c 1 t) := by dsimp only [dat]

theorem before_0 (c : Dev nD) (t : Fin cfg2.N) (d) : (dat V c).before 0 t d = blk V c 0 t :=
  before_of_0 V (dat V c) (A_eq V c 0) (after_0 V c) t d
theorem before_1 (c : Dev nD) (t : Fin cfg2.N) (d) : (dat V c).before 1 t d = blk V c 1 t :=
  before_of_1 V (dat V c) (A_eq V c 1) (after_1 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- At any point the input memrefs hold the point's blocks, so the body's run applies; the invariant and what the core
    owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W2, bigSep_W2]
  exact sound_body V c t

end Cert.Kernel.Attn

end
-- ==== Proof.K.Head.lean ====
/-
  The classifier head as one call of a kernel: a grid of a single point at which all sixteen windows are whole arrays.
  The body reads the aggregated features (64 rows of 6144), three weight matrices with their bias rows and the two
  batch-normalisations' scale, shift, mean and variance rows, and writes the 64 × 2 table of class probabilities:
  three affine maps, the first two each followed by x ↦ x · logistic x and a normalisation, the last by a softmax over
  the two classes. This module is the kernel's half of the frame: what the one call of the body leaves in the result's
  staging buffer, as a function of the fifteen input blocks, and that the body run on those blocks terminates without a
  fault leaving exactly that.
-/
import proofs.«175257_j71588514890561_2_alg».proof.Proof.Patched.Kernel.Launch
import proofs.«175257_j71588514890561_2_alg».proof.Proof.Gen.Kernel.Skeleton
import proofs.«175257_j71588514890561_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Head

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- Window `w`'s block at grid point `t`: the part of its array, as the region finds it, that the point works on (at
    the grid's one point, all of it). -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds the point's block whether or not the block was fetched at that point (an
    unfetched block is one whose index did not move), for any proof data over the region's arrays whose body leaves the
    block in place. One statement per input window. -/

theorem before_of_0 {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_of_1 {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_of_2 {c : Dev nD} (dat : Dat τ (Elt F) Unit ℕ (UR sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_of_3 {c : Dev nD} (dat : Dat τ (Elt F) Unit ℕ (UR sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem before_of_4 {c : Dev nD} (dat : Dat τ (Elt F) Unit ℕ (UR sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem before_of_5 {c : Dev nD} (dat : Dat τ (Elt F) Unit ℕ (UR sig nD τ) ℕ cfg3 c) (hA : dat.A 5 = V c (Pipeline.arrRef spec3 5))
    (hafter : ∀ t, dat.after 5 t = blk V c 5 t) (t : Fin cfg3.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

theorem before_of_6 {c : Dev nD} (dat : Dat τ (Elt F) Unit ℕ (UR sig nD τ) ℕ cfg3 c) (hA : dat.A 6 = V c (Pipeline.arrRef spec3 6))
    (hafter : ∀ t, dat.after 6 t = blk V c 6 t) (t : Fin cfg3.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

theorem before_of_7 {c : Dev nD} (dat : Dat τ (Elt F) Unit ℕ (UR sig nD τ) ℕ cfg3 c) (hA : dat.A 7 = V c (Pipeline.arrRef spec3 7))
    (hafter : ∀ t, dat.after 7 t = blk V c 7 t) (t : Fin cfg3.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)

theorem before_of_8 {c : Dev nD} (dat : Dat τ (Elt F) Unit ℕ (UR sig nD τ) ℕ cfg3 c) (hA : dat.A 8 = V c (Pipeline.arrRef spec3 8))
    (hafter : ∀ t, dat.after 8 t = blk V c 8 t) (t : Fin cfg3.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)

theorem before_of_9 {c : Dev nD} (dat : Dat τ (Elt F) Unit ℕ (UR sig nD τ) ℕ cfg3 c) (hA : dat.A 9 = V c (Pipeline.arrRef spec3 9))
    (hafter : ∀ t, dat.after 9 t = blk V c 9 t) (t : Fin cfg3.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)

theorem before_of_10 {c : Dev nD} (dat : Dat τ (Elt F) Unit ℕ (UR sig nD τ) ℕ cfg3 c) (hA : dat.A 10 = V c (Pipeline.arrRef spec3 10))
    (hafter : ∀ t, dat.after 10 t = blk V c 10 t) (t : Fin cfg3.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

theorem before_of_11 {c : Dev nD} (dat : Dat τ (Elt F) Unit ℕ (UR sig nD τ) ℕ cfg3 c) (hA : dat.A 11 = V c (Pipeline.arrRef spec3 11))
    (hafter : ∀ t, dat.after 11 t = blk V c 11 t) (t : Fin cfg3.N) (d) : dat.before 11 t d = blk V c 11 t :=
  (dat.before_in_eq_fetched 11 rfl (fun _ => rfl) (fun _ _ _ => rfl) (fun t => by rw [hafter]; unfold Dat.blockOf blk; rw [hA]; try rfl) t d).trans
    (by unfold Dat.fetched Dat.blockOf blk; rw [hA]; try rfl)

theorem before_of_12 {c : Dev nD} (dat : Dat τ (Elt F) Unit ℕ (UR sig nD τ) ℕ cfg3 c) (hA : dat.A 12 = V c (Pipeline.arrRef spec3 12))
    (hafter : ∀ t, dat.after 12 t = blk V c 12 t) (t : Fin cfg3.N) (d) : dat.before 12 t d = blk V c 12 t :=
  (dat.before_in_eq_fetched 12 rfl (fun _ => rfl) (fun _ _ _ => rfl) (fun t => by rw [hafter]; unfold Dat.blockOf blk; rw [hA]; try rfl) t d).trans
    (by unfold Dat.fetched Dat.blockOf blk; rw [hA]; try rfl)

theorem before_of_13 {c : Dev nD} (dat : Dat τ (Elt F) Unit ℕ (UR sig nD τ) ℕ cfg3 c) (hA : dat.A 13 = V c (Pipeline.arrRef spec3 13))
    (hafter : ∀ t, dat.after 13 t = blk V c 13 t) (t : Fin cfg3.N) (d) : dat.before 13 t d = blk V c 13 t :=
  (dat.before_in_eq_fetched 13 rfl (fun _ => rfl) (fun _ _ _ => rfl) (fun t => by rw [hafter]; unfold Dat.blockOf blk; rw [hA]; try rfl) t d).trans
    (by unfold Dat.fetched Dat.blockOf blk; rw [hA]; try rfl)

theorem before_of_14 {c : Dev nD} (dat : Dat τ (Elt F) Unit ℕ (UR sig nD τ) ℕ cfg3 c) (hA : dat.A 14 = V c (Pipeline.arrRef spec3 14))
    (hafter : ∀ t, dat.after 14 t = blk V c 14 t) (t : Fin cfg3.N) (d) : dat.before 14 t d = blk V c 14 t :=
  (dat.before_in_eq_fetched 14 rfl (fun _ => rfl) (fun _ _ _ => rfl) (fun t => by rw [hafter]; unfold Dat.blockOf blk; rw [hA]; try rfl) t d).trans
    (by unfold Dat.fetched Dat.blockOf blk; rw [hA]; try rfl)

/-! ## What the body reads and writes: every access is of a whole buffer -/

abbrev r64x6144 : Rect S64x6144 := Rect.unit (s := S64x6144) ![0, 0] S64x6144.size inb_S64x6144_S64x6144_0_0
abbrev r6144x512 : Rect S6144x512 := Rect.unit (s := S6144x512) ![0, 0] S6144x512.size inb_S6144x512_S6144x512_0_0
abbrev r1x512 : Rect S1x512 := Rect.unit (s := S1x512) ![0, 0] S1x512.size inb_S1x512_S1x512_0_0
abbrev r512x32 : Rect S512x32 := Rect.unit (s := S512x32) ![0, 0] S512x32.size inb_S512x32_S512x32_0_0
abbrev r1x32 : Rect S1x32 := Rect.unit (s := S1x32) ![0, 0] S1x32.size inb_S1x32_S1x32_0_0
abbrev r32x2 : Rect S32x2 := Rect.unit (s := S32x2) ![0, 0] S32x2.size inb_S32x2_S32x2_0_0
abbrev r1x2 : Rect S1x2 := Rect.unit (s := S1x2) ![0, 0] S1x2.size inb_S1x2_S1x2_0_0
abbrev r64x2 : Rect S64x2 := Rect.unit (s := S64x2) ![0, 0] S64x2.size inb_S64x2_S64x2_0_0

/-- The result's staging buffer after the body: its one store, of the whole buffer. The stored value is the softmax
    stage applied to the second hidden layer (the second affine map of the first normalised layer, and its bias row
    broadcast over the rows), with the second normalisation's mean, variance, scale and shift rows, the last weight matrix
    and its bias row. The first normalised layer takes the features, the first weight matrix and bias row, the first
    normalisation's mean, variance, scale and shift rows (in the order the body reads them), and the second weight
    matrix. The blocks are given in window order. -/
def out (x0 : Vec F S64x6144 .f32) (x1 : Vec F S6144x512 .f32) (x2 : Vec F S1x512 .f32) (x3 : Vec F S512x32 .f32) (x4 : Vec F S1x32 .f32) (x5 : Vec F S32x2 .f32) (x6 : Vec F S1x2 .f32) (x7 x8 x9 x10 : Vec F S1x512 .f32) (x11 x12 x13 x14 : Vec F S1x32 .f32) : Vec F S64x2 .f32 :=
  View.canon [⟨r64x2, k3_pay3 (k3_pay1 (View.ld x0 r64x6144) (View.ld x1 r6144x512) (View.ld x2 r1x512) (View.ld x9 r1x512) (View.ld x10 r1x512) (View.ld x7 r1x512) (View.ld x8 r1x512) (View.ld x3 r512x32)) (k3_pay2 (View.ld x4 r1x32)) (View.ld x13 r1x32) (View.ld x14 r1x32) (View.ld x11 r1x32) (View.ld x12 r1x32) (View.ld x5 r32x2) (View.ld x6 r1x2)⟩]

/-- The one store is of the whole buffer. -/
theorem cover (p : Vec F S64x2 .f32) (y : S64x2.Idx) :
    ∃ pc ∈ ([⟨r64x2, p⟩] : List (View.Piece (Elt F) S64x2 .f32)), y ∈ pc.1.set :=
  View.cover_of_tiled [⟨r64x2, p⟩] S64x2.size (by rfl) y

/-! ## The body's run -/

set_option maxHeartbeats 4000000 in
/-- On whole staging memrefs, the inputs' reading the fifteen blocks and the result's holding anything, the body runs to
    its return leaving the inputs as they were and the result's at `out` of the blocks. -/
theorem sound_kernel (c : Dev nD) (E : Set ℕ) (i : grid3.Coords)
    (a0 : Memref sig .tc .vmem S64x6144 .f32) (h0 : a0.IsWhole)
    (a1 : Memref sig .tc .vmem S6144x512 .f32) (h1 : a1.IsWhole)
    (a2 : Memref sig .tc .vmem S1x512 .f32) (h2 : a2.IsWhole)
    (a3 : Memref sig .tc .vmem S512x32 .f32) (h3 : a3.IsWhole)
    (a4 : Memref sig .tc .vmem S1x32 .f32) (h4 : a4.IsWhole)
    (a5 : Memref sig .tc .vmem S32x2 .f32) (h5 : a5.IsWhole)
    (a6 : Memref sig .tc .vmem S1x2 .f32) (h6 : a6.IsWhole)
    (a7 : Memref sig .tc .vmem S1x512 .f32) (h7 : a7.IsWhole)
    (a8 : Memref sig .tc .vmem S1x512 .f32) (h8 : a8.IsWhole)
    (a9 : Memref sig .tc .vmem S1x512 .f32) (h9 : a9.IsWhole)
    (a10 : Memref sig .tc .vmem S1x512 .f32) (h10 : a10.IsWhole)
    (a11 : Memref sig .tc .vmem S1x32 .f32) (h11 : a11.IsWhole)
    (a12 : Memref sig .tc .vmem S1x32 .f32) (h12 : a12.IsWhole)
    (a13 : Memref sig .tc .vmem S1x32 .f32) (h13 : a13.IsWhole)
    (a14 : Memref sig .tc .vmem S1x32 .f32) (h14 : a14.IsWhole)
    (a15 : Memref sig .tc .vmem S64x2 .f32) (h15 : a15.IsWhole)
    (x0 : Vec F S64x6144 .f32) (x1 : Vec F S6144x512 .f32) (x2 : Vec F S1x512 .f32) (x3 : Vec F S512x32 .f32) (x4 : Vec F S1x32 .f32) (x5 : Vec F S32x2 .f32) (x6 : Vec F S1x2 .f32) (x7 x8 x9 x10 : Vec F S1x512 .f32) (x11 x12 x13 x14 : Vec F S1x32 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14
        ∗ (∃ d, owns (c : Thread nD τ) a15 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14
            ∗ owns (c : Thread nD τ) a15 fullShare (out x0 x1 x2 x3 x4 x5 x6 x7 x8 x9 x10 x11 x12 x13 x14)) -∗ K ⟨⟩))
      ⊢ wp frame (wpE (defs₀ (F := F)) Variants.none c none) E (cc3__head_kernel i a0 h0 a1 h1 a2 h2 a3 h3 a4 h4 a5 h5 a6 h6 a7 h7 a8 h8 a9 h9 a10 h10 a11 h11 a12 h12 a13 h13 a14 h14 a15 h15) K := by
  simp only [cc3__head_kernel_eq_skeleton]; unfold cc3__head_kernel_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover _)

/-! ## The pipeline's proof data -/

/-- The arrays as the region finds them; after the body each input's buffer still at its block and the result's at
    `out` of the fifteen blocks; nothing owed, full shares, the untouched rest as the invariant. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => blk V c 12 t
    | ⟨13, _⟩ => blk V c 13 t
    | ⟨14, _⟩ => blk V c 14 t
    | ⟨15, _⟩ => out (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (blk V c 13 t) (blk V c 14 t)
    | ⟨_ + 16, h⟩ => absurd h (Nat.not_lt.2 (Nat.le_add_left _ _))
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = blk V c 3 t := by dsimp only [dat]
theorem after_4 (c : Dev nD) (t : Fin cfg3.N) : (dat V c).after 4 t = blk V c 4 t := by dsimp only [dat]
theorem after_5 (c : Dev nD) (t : Fin cfg3.N) : (dat V c).after 5 t = blk V c 5 t := by dsimp only [dat]
theorem after_6 (c : Dev nD) (t : Fin cfg3.N) : (dat V c).after 6 t = blk V c 6 t := by dsimp only [dat]
theorem after_7 (c : Dev nD) (t : Fin cfg3.N) : (dat V c).after 7 t = blk V c 7 t := by dsimp only [dat]
theorem after_8 (c : Dev nD) (t : Fin cfg3.N) : (dat V c).after 8 t = blk V c 8 t := by dsimp only [dat]
theorem after_9 (c : Dev nD) (t : Fin cfg3.N) : (dat V c).after 9 t = blk V c 9 t := by dsimp only [dat]
theorem after_10 (c : Dev nD) (t : Fin cfg3.N) : (dat V c).after 10 t = blk V c 10 t := by dsimp only [dat]
theorem after_11 (c : Dev nD) (t : Fin cfg3.N) : (dat V c).after 11 t = blk V c 11 t := by dsimp only [dat]
theorem after_12 (c : Dev nD) (t : Fin cfg3.N) : (dat V c).after 12 t = blk V c 12 t := by dsimp only [dat]
theorem after_13 (c : Dev nD) (t : Fin cfg3.N) : (dat V c).after 13 t = blk V c 13 t := by dsimp only [dat]
theorem after_14 (c : Dev nD) (t : Fin cfg3.N) : (dat V c).after 14 t = blk V c 14 t := by dsimp only [dat]
theorem after_15 (c : Dev nD) (t : Fin cfg3.N) :
    (dat V c).after 15 t = out (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (blk V c 13 t) (blk V c 14 t) := by dsimp only [dat]

/-- Every input window's buffer is left at its block (read through the window's cut, which at each of these windows is
    the identity: no block is clipped). -/
theorem after_in (c : Dev nD) (t : Fin cfg3.N) (w : Fin cfg3.W) (hw : w.val < 15) :
    (cfg3.win w).cut (cfg3.grid.coords t) ((dat V c).after w t) = blk V c w t := by
  match w, hw with
  | ⟨0, _⟩, _ => exact (congrArg ((cfg3.win 0).cut (cfg3.grid.coords t)) (after_0 V c t)).trans rfl
  | ⟨1, _⟩, _ => exact (congrArg ((cfg3.win 1).cut (cfg3.grid.coords t)) (after_1 V c t)).trans rfl
  | ⟨2, _⟩, _ => exact (congrArg ((cfg3.win 2).cut (cfg3.grid.coords t)) (after_2 V c t)).trans rfl
  | ⟨3, _⟩, _ => exact (congrArg ((cfg3.win 3).cut (cfg3.grid.coords t)) (after_3 V c t)).trans rfl
  | ⟨4, _⟩, _ => exact (congrArg ((cfg3.win 4).cut (cfg3.grid.coords t)) (after_4 V c t)).trans rfl
  | ⟨5, _⟩, _ => exact (congrArg ((cfg3.win 5).cut (cfg3.grid.coords t)) (after_5 V c t)).trans rfl
  | ⟨6, _⟩, _ => exact (congrArg ((cfg3.win 6).cut (cfg3.grid.coords t)) (after_6 V c t)).trans rfl
  | ⟨7, _⟩, _ => exact (congrArg ((cfg3.win 7).cut (cfg3.grid.coords t)) (after_7 V c t)).trans rfl
  | ⟨8, _⟩, _ => exact (congrArg ((cfg3.win 8).cut (cfg3.grid.coords t)) (after_8 V c t)).trans rfl
  | ⟨9, _⟩, _ => exact (congrArg ((cfg3.win 9).cut (cfg3.grid.coords t)) (after_9 V c t)).trans rfl
  | ⟨10, _⟩, _ => exact (congrArg ((cfg3.win 10).cut (cfg3.grid.coords t)) (after_10 V c t)).trans rfl
  | ⟨11, _⟩, _ => exact (congrArg ((cfg3.win 11).cut (cfg3.grid.coords t)) (after_11 V c t)).trans rfl
  | ⟨12, _⟩, _ => exact (congrArg ((cfg3.win 12).cut (cfg3.grid.coords t)) (after_12 V c t)).trans rfl
  | ⟨13, _⟩, _ => exact (congrArg ((cfg3.win 13).cut (cfg3.grid.coords t)) (after_13 V c t)).trans rfl
  | ⟨14, _⟩, _ => exact (congrArg ((cfg3.win 14).cut (cfg3.grid.coords t)) (after_14 V c t)).trans rfl
  | ⟨15, _⟩, h => exact absurd h (Nat.lt_irrefl 15)
  | ⟨_ + 16, h⟩, _ => exact absurd h (Nat.not_lt.2 (Nat.le_add_left _ _))

theorem before_0 (c : Dev nD) (t : Fin cfg3.N) (d) : (dat V c).before 0 t d = blk V c 0 t :=
  before_of_0 V (dat V c) (A_eq V c 0) (after_0 V c) t d
theorem before_1 (c : Dev nD) (t : Fin cfg3.N) (d) : (dat V c).before 1 t d = blk V c 1 t :=
  before_of_1 V (dat V c) (A_eq V c 1) (after_1 V c) t d
theorem before_2 (c : Dev nD) (t : Fin cfg3.N) (d) : (dat V c).before 2 t d = blk V c 2 t :=
  before_of_2 V (dat V c) (A_eq V c 2) (after_2 V c) t d
theorem before_3 (c : Dev nD) (t : Fin cfg3.N) (d) : (dat V c).before 3 t d = blk V c 3 t :=
  before_of_3 V (dat V c) (A_eq V c 3) (after_3 V c) t d
theorem before_4 (c : Dev nD) (t : Fin cfg3.N) (d) : (dat V c).before 4 t d = blk V c 4 t :=
  before_of_4 V (dat V c) (A_eq V c 4) (after_4 V c) t d
theorem before_5 (c : Dev nD) (t : Fin cfg3.N) (d) : (dat V c).before 5 t d = blk V c 5 t :=
  before_of_5 V (dat V c) (A_eq V c 5) (after_5 V c) t d
theorem before_6 (c : Dev nD) (t : Fin cfg3.N) (d) : (dat V c).before 6 t d = blk V c 6 t :=
  before_of_6 V (dat V c) (A_eq V c 6) (after_6 V c) t d
theorem before_7 (c : Dev nD) (t : Fin cfg3.N) (d) : (dat V c).before 7 t d = blk V c 7 t :=
  before_of_7 V (dat V c) (A_eq V c 7) (after_7 V c) t d
theorem before_8 (c : Dev nD) (t : Fin cfg3.N) (d) : (dat V c).before 8 t d = blk V c 8 t :=
  before_of_8 V (dat V c) (A_eq V c 8) (after_8 V c) t d
theorem before_9 (c : Dev nD) (t : Fin cfg3.N) (d) : (dat V c).before 9 t d = blk V c 9 t :=
  before_of_9 V (dat V c) (A_eq V c 9) (after_9 V c) t d
theorem before_10 (c : Dev nD) (t : Fin cfg3.N) (d) : (dat V c).before 10 t d = blk V c 10 t :=
  before_of_10 V (dat V c) (A_eq V c 10) (after_10 V c) t d
theorem before_11 (c : Dev nD) (t : Fin cfg3.N) (d) : (dat V c).before 11 t d = blk V c 11 t :=
  before_of_11 V (dat V c) (A_eq V c 11) (after_11 V c) t d
theorem before_12 (c : Dev nD) (t : Fin cfg3.N) (d) : (dat V c).before 12 t d = blk V c 12 t :=
  before_of_12 V (dat V c) (A_eq V c 12) (after_12 V c) t d
theorem before_13 (c : Dev nD) (t : Fin cfg3.N) (d) : (dat V c).before 13 t d = blk V c 13 t :=
  before_of_13 V (dat V c) (A_eq V c 13) (after_13 V c) t d
theorem before_14 (c : Dev nD) (t : Fin cfg3.N) (d) : (dat V c).before 14 t d = blk V c 14 t :=
  before_of_14 V (dat V c) (A_eq V c 14) (after_14 V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d))
    ∗ (∃ d, owns (c : Thread nD τ) (st3_12 t) fullShare ((dat V c).before 12 t d))
    ∗ (∃ d, owns (c : Thread nD τ) (st3_13 t) fullShare ((dat V c).before 13 t d))
    ∗ (∃ d, owns (c : Thread nD τ) (st3_14 t) fullShare ((dat V c).before 14 t d))
    ∗ (∃ d, owns (c : Thread nD τ) (st3_15 t) fullShare ((dat V c).before 15 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t)
    ∗ owns (c : Thread nD τ) (st3_8 t) fullShare ((dat V c).after 8 t)
    ∗ owns (c : Thread nD τ) (st3_9 t) fullShare ((dat V c).after 9 t)
    ∗ owns (c : Thread nD τ) (st3_10 t) fullShare ((dat V c).after 10 t)
    ∗ owns (c : Thread nD τ) (st3_11 t) fullShare ((dat V c).after 11 t)
    ∗ owns (c : Thread nD τ) (st3_12 t) fullShare ((dat V c).after 12 t)
    ∗ owns (c : Thread nD τ) (st3_13 t) fullShare ((dat V c).after 13 t)
    ∗ owns (c : Thread nD τ) (st3_14 t) fullShare ((dat V c).after 14 t)
    ∗ owns (c : Thread nD τ) (st3_15 t) fullShare ((dat V c).after 15 t))

set_option maxHeartbeats 1000000 in
/-- At the point the input memrefs hold the blocks, so the body's run applies; the invariant and what the core owes pass
    through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7, before_8, before_9, before_10, before_11, before_12, before_13, before_14]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ _ _ _ _ _ _ _ _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (blk V c 13 t) (blk V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) : BodyObligation (dat (F := F) V c) (defs₀ (F := F)) Variants.none () Set.univ := fun t => by
  rw [bigSep_W3, bigSep_W3]
  exact sound_body V c t

end Cert.Kernel.Head

end
-- ==== Proof.K.Run.lean ====
/-
  The whole program as a run: @main is four stretches of host operations, each followed by one pipelined kernel. The
  contents of the TensorCore's unscoped buffers are followed from the launch through all eight items — a host stretch
  applies its operations, a kernel region changes exactly one array (its result), at what the grid's write-backs leave —
  and every weakly fair execution is shown to end, without a fault, with every unscoped buffer at the last of these
  contents. The result buffer and the twenty-one argument buffers are read off that.
-/
import proofs.«175257_j71588514890561_2_alg».proof.Proof.Patched.Kernel.Regions
import proofs.«175257_j71588514890561_2_alg».proof.Proof.K.Linear0
import proofs.«175257_j71588514890561_2_alg».proof.Proof.K.Linear1
import proofs.«175257_j71588514890561_2_alg».proof.Proof.K.Attn
import proofs.«175257_j71588514890561_2_alg».proof.Proof.K.Head

set_option maxRecDepth 16384

noncomputable section

namespace Cert.Kernel.Run

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary between items -/

/-- Core `c`'s buffers at launch. -/
abbrev W0 : Dev nD → Valuation τ sig (Elt F) := fun c b => m (c, b)

/-- After the host operations before the first linear layer (the region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the region's exit: its arrays at what the pipeline's write-backs leave, every other buffer as entered. -/
def W2 (c : Dev nD) : Valuation τ sig (Elt F) :=
  Pipeline.withArrays spec0 c (W1 m c) fun w => (Linear0.dat (V1 m) c).arrAt w cfg0.N
theorem W2_arr (c : Dev nD) (w : Fin cfg0.W) :
    W2 m c (Proc.devRef .tc (Pipeline.arrRef spec0 w)) = (Linear0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Linear0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The region changes one array only: every buffer other than `main_v15` leaves as it entered (an input window's array is
    never written back). -/
theorem keep0 (c : Dev nD) (b : Ref sig .tc) (hb : b ≠ main_v15) : W2 m c (Proc.devRef .tc b) = W1 m c (Proc.devRef .tc b) := by
  by_cases h : ∃ w, Pipeline.arrRef spec0 w = b
  · obtain ⟨w, rfl⟩ := h
    rw [W2_arr]
    fin_cases w
    all_goals first
      | exact absurd rfl hb
      | exact ((Linear0.dat (V1 m) c).arrAt_in _ rfl _).trans (Linear0.A_eq (V1 m) c _)
  · exact W2_of_ne m c b fun w e => h ⟨w, e⟩

/-- After the host operations before the second linear layer (the region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the region's exit: its arrays at what the pipeline's write-backs leave, every other buffer as entered. -/
def W4 (c : Dev nD) : Valuation τ sig (Elt F) :=
  Pipeline.withArrays spec1 c (W3 m c) fun w => (Linear1.dat (V3 m) c).arrAt w cfg1.N
theorem W4_arr (c : Dev nD) (w : Fin cfg1.W) :
    W4 m c (Proc.devRef .tc (Pipeline.arrRef spec1 w)) = (Linear1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Linear1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- The region changes one array only: every buffer other than `main_v27` leaves as it entered (an input window's array is
    never written back). -/
theorem keep1 (c : Dev nD) (b : Ref sig .tc) (hb : b ≠ main_v27) : W4 m c (Proc.devRef .tc b) = W3 m c (Proc.devRef .tc b) := by
  by_cases h : ∃ w, Pipeline.arrRef spec1 w = b
  · obtain ⟨w, rfl⟩ := h
    rw [W4_arr]
    fin_cases w
    all_goals first
      | exact absurd rfl hb
      | exact ((Linear1.dat (V3 m) c).arrAt_in _ rfl _).trans (Linear1.A_eq (V3 m) c _)
  · exact W4_of_ne m c b fun w e => h ⟨w, e⟩

/-- After the host operations before the attention-and-pooling kernel (the region's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the region's exit: its arrays at what the pipeline's write-backs leave, every other buffer as entered. -/
def W6 (c : Dev nD) : Valuation τ sig (Elt F) :=
  Pipeline.withArrays spec2 c (W5 m c) fun w => (Attn.dat (V5 m) c).arrAt w cfg2.N
theorem W6_arr (c : Dev nD) (w : Fin cfg2.W) :
    W6 m c (Proc.devRef .tc (Pipeline.arrRef spec2 w)) = (Attn.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Attn.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- The region changes one array only: every buffer other than `main_v29` leaves as it entered (an input window's array is
    never written back). -/
theorem keep2 (c : Dev nD) (b : Ref sig .tc) (hb : b ≠ main_v29) : W6 m c (Proc.devRef .tc b) = W5 m c (Proc.devRef .tc b) := by
  by_cases h : ∃ w, Pipeline.arrRef spec2 w = b
  · obtain ⟨w, rfl⟩ := h
    rw [W6_arr]
    fin_cases w
    all_goals first
      | exact absurd rfl hb
      | exact ((Attn.dat (V5 m) c).arrAt_in _ rfl _).trans (Attn.A_eq (V5 m) c _)
  · exact W6_of_ne m c b fun w e => h ⟨w, e⟩

/-- After the host operations before the classifier head (the region's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At the region's exit: its arrays at what the pipeline's write-backs leave, every other buffer as entered. -/
def W8 (c : Dev nD) : Valuation τ sig (Elt F) :=
  Pipeline.withArrays spec3 c (W7 m c) fun w => (Head.dat (V7 m) c).arrAt w cfg3.N
theorem W8_arr (c : Dev nD) (w : Fin cfg3.W) :
    W8 m c (Proc.devRef .tc (Pipeline.arrRef spec3 w)) = (Head.dat (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (Head.dat (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- The region changes one array only: every buffer other than `main_v50` leaves as it entered (an input window's array is
    never written back). -/
theorem keep3 (c : Dev nD) (b : Ref sig .tc) (hb : b ≠ main_v50) : W8 m c (Proc.devRef .tc b) = W7 m c (Proc.devRef .tc b) := by
  by_cases h : ∃ w, Pipeline.arrRef spec3 w = b
  · obtain ⟨w, rfl⟩ := h
    rw [W8_arr]
    fin_cases w
    all_goals first
      | exact absurd rfl hb
      | exact ((Head.dat (V7 m) c).arrAt_in _ rfl _).trans (Head.A_eq (V7 m) c _)
  · exact W8_of_ne m c b fun w e => h ⟨w, e⟩

/-! ## What no item writes -/

/-- A buffer that no host operation writes and that is no kernel's result ends as launched. -/
theorem W8_keep (c : Dev nD) (b : Ref sig .tc) (h0 : b ∉ (hostOps0_W : List (Ref sig .tc))) (h1 : b ∉ (hostOps1_W : List (Ref sig .tc)))
    (h2 : b ∉ (hostOps2_W : List (Ref sig .tc))) (h3 : b ∉ (hostOps3_W : List (Ref sig .tc)))
    (n0 : b ≠ main_v15) (n1 : b ≠ main_v27) (n2 : b ≠ main_v29) (n3 : b ≠ main_v50) :
    W8 m c (Proc.devRef .tc b) = m ((c : Thread nD τ).loc b) :=
  (keep3 m c b n3).trans <| (StableHlo.after_of_writes_sub hostOps3 _ hostOps3_writes h3).trans <|
  (keep2 m c b n2).trans <| (StableHlo.after_of_writes_sub hostOps2 _ hostOps2_writes h2).trans <|
  (keep1 m c b n1).trans <| (StableHlo.after_of_writes_sub hostOps1 _ hostOps1_writes h1).trans <|
  (keep0 m c b n0).trans <| (StableHlo.after_of_writes_sub hostOps0 _ hostOps0_writes h0)

/-! ## The proof data family and the thread state -/

abbrev adm : (p : Fin 4) → (pcfgs (F := F) p).Adm := fun p => (cfgs p).toPCfg_adm

/-- Every pipeline's proof data, each at its own region's entry contents. -/
def pdats : (p : Fin 4) → (c : Dev nD) → Dat τ (Elt F) Unit ℕ (UR sig nD τ) ℕ (Pipeline.pin (pcfgs (F := F)) adm p) c
  | ⟨0, _⟩ => fun c => Linear0.dat (V1 m) c
  | ⟨1, _⟩ => fun c => Linear1.dat (V3 m) c
  | ⟨2, _⟩ => fun c => Attn.dat (V5 m) c
  | ⟨3, _⟩ => fun c => Head.dat (V7 m) c

abbrev 𝒱₀ : Variants := Variants.none
abbrev L : GSem nD τ sig → Finset Unit := fun _ => ∅
abbrev lv : GSem nD τ sig → Unit → ℕ := fun _ _ => 0

/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m c) ∗ ∃ r, prngReg c r)

/-! ## The kernel regions as segments -/

set_option backward.isDefEq.respectTransparency.types false in
/-- The region of the first linear layer over the thread state: entered with every unscoped buffer at `W1`, left with them at
    `W2`. Its arrays are split out of the unscoped buffers and put back at the exit contents; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Linear0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of the second linear layer over the thread state: entered with every unscoped buffer at `W3`, left with them at
    `W4`. Its arrays are split out of the unscoped buffers and put back at the exit contents; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Linear1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of the attention-and-pooling kernel over the thread state: entered with every unscoped buffer at `W5`, left with them at
    `W6`. Its arrays are split out of the unscoped buffers and put back at the exit contents; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Attn.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of the classifier head over the thread state: entered with every unscoped buffer at `W7`, left with them at
    `W8`. Its arrays are split out of the unscoped buffers and put back at the exit contents; the generator register goes
    into the invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Head.body_obligation (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

set_option backward.isDefEq.respectTransparency.types false in
/-- Every weakly fair execution of @main from memory `m` with zero counters terminates, nothing faulting, and every final
    state holds each unscoped buffer at the last boundary's contents `W8`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c) ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every weakly fair execution terminates, nothing faulting, and each of the twenty-one argument arrays ends
    as launched — none is written by a host operation, and none is a kernel's result. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (W8_keep m c main_arg0 (by decide) (by decide) (by decide) (by decide) (by decide) (by decide) (by decide) (by decide)),
      (h c _ (mem_uc main_arg1 (by decide))).trans (W8_keep m c main_arg1 (by decide) (by decide) (by decide) (by decide) (by decide) (by decide) (by decide) (by decide)),
      (h c _ (mem_uc main_arg2 (by decide))).trans (W8_keep m c main_arg2 (by decide) (by decide) (by decide) (by decide) (by decide) (by decide) (by decide) (by decide)),
      (h c _ (mem_uc main_arg3 (by decide))).trans (W8_keep m c main_arg3 (by decide) (by decide) (by decide) (by decide) (by decide) (by decide) (by decide) (by decide)),
      (h c _ (mem_uc main_arg4 (by decide))).trans (W8_keep m c main_arg4 (by decide) (by decide) (by decide) (by decide) (by decide) (by decide) (by decide) (by decide)),
      (h c _ (mem_uc main_arg5 (by decide))).trans (W8_keep m c main_arg5 (by decide) (by decide) (by decide) (by decide) (by decide) (by decide) (by decide) (by decide)),
      (h c _ (mem_uc main_arg6 (by decide))).trans (W8_keep m c main_arg6 (by decide) (by decide) (by decide) (by decide) (by decide) (by decide) (by decide) (by decide)),
      (h c _ (mem_uc main_arg7 (by decide))).trans (W8_keep m c main_arg7 (by decide) (by decide) (by decide) (by decide) (by decide) (by decide) (by decide) (by decide)),
      (h c _ (mem_uc main_arg8 (by decide))).trans (W8_keep m c main_arg8 (by decide) (by decide) (by decide) (by decide) (by decide) (by decide) (by decide) (by decide)),
      (h c _ (mem_uc main_arg9 (by decide))).trans (W8_keep m c main_arg9 (by decide) (by decide) (by decide) (by decide) (by decide) (by decide) (by decide) (by decide)),
      (h c _ (mem_uc main_arg10 (by decide))).trans (W8_keep m c main_arg10 (by decide) (by decide) (by decide) (by decide) (by decide) (by decide) (by decide) (by decide)),
      (h c _ (mem_uc main_arg11 (by decide))).trans (W8_keep m c main_arg11 (by decide) (by decide) (by decide) (by decide) (by decide) (by decide) (by decide) (by decide)),
      (h c _ (mem_uc main_arg12 (by decide))).trans (W8_keep m c main_arg12 (by decide) (by decide) (by decide) (by decide) (by decide) (by decide) (by decide) (by decide)),
      (h c _ (mem_uc main_arg13 (by decide))).trans (W8_keep m c main_arg13 (by decide) (by decide) (by decide) (by decide) (by decide) (by decide) (by decide) (by decide)),
      (h c _ (mem_uc main_arg14 (by decide))).trans (W8_keep m c main_arg14 (by decide) (by decide) (by decide) (by decide) (by decide) (by decide) (by decide) (by decide)),
      (h c _ (mem_uc main_arg15 (by decide))).trans (W8_keep m c main_arg15 (by decide) (by decide) (by decide) (by decide) (by decide) (by decide) (by decide) (by decide)),
      (h c _ (mem_uc main_arg16 (by decide))).trans (W8_keep m c main_arg16 (by decide) (by decide) (by decide) (by decide) (by decide) (by decide) (by decide) (by decide)),
      (h c _ (mem_uc main_arg17 (by decide))).trans (W8_keep m c main_arg17 (by decide) (by decide) (by decide) (by decide) (by decide) (by decide) (by decide) (by decide)),
      (h c _ (mem_uc main_arg18 (by decide))).trans (W8_keep m c main_arg18 (by decide) (by decide) (by decide) (by decide) (by decide) (by decide) (by decide) (by decide)),
      (h c _ (mem_uc main_arg19 (by decide))).trans (W8_keep m c main_arg19 (by decide) (by decide) (by decide) (by decide) (by decide) (by decide) (by decide) (by decide)),
      (h c _ (mem_uc main_arg20 (by decide))).trans (W8_keep m c main_arg20 (by decide) (by decide) (by decide) (by decide) (by decide) (by decide) (by decide) (by decide))⟩) (run m ρ)

/-- The same run with the result named: the last kernel's output array ends at the last boundary's contents. -/
theorem run_result (ρ : Dev nD → PrngReg) : θ_run defs (onTc (τ := τ) (main (F := F))) ⟨m, fun _ => 0, ρ⟩ (fun r => ∀ c : Dev nD,
      r.2.mem ((c.tc : Thread nD τ).loc main_v50) = W8 m c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨h c _ (mem_uc main_v50 (by decide)),
      (h c _ (mem_uc main_arg0 (by decide))).trans (W8_keep m c main_arg0 (by decide) (by decide) (by decide) (by decide) (by decide) (by decide) (by decide) (by decide)),
      (h c _ (mem_uc main_arg1 (by decide))).trans (W8_keep m c main_arg1 (by decide) (by decide) (by decide) (by decide) (by decide) (by decide) (by decide) (by decide)),
      (h c _ (mem_uc main_arg2 (by decide))).trans (W8_keep m c main_arg2 (by decide) (by decide) (by decide) (by decide) (by decide) (by decide) (by decide) (by decide)),
      (h c _ (mem_uc main_arg3 (by decide))).trans (W8_keep m c main_arg3 (by decide) (by decide) (by decide) (by decide) (by decide) (by decide) (by decide) (by decide)),
      (h c _ (mem_uc main_arg4 (by decide))).trans (W8_keep m c main_arg4 (by decide) (by decide) (by decide) (by decide) (by decide) (by decide) (by decide) (by decide)),
      (h c _ (mem_uc main_arg5 (by decide))).trans (W8_keep m c main_arg5 (by decide) (by decide) (by decide) (by decide) (by decide) (by decide) (by decide) (by decide)),
      (h c _ (mem_uc main_arg6 (by decide))).trans (W8_keep m c main_arg6 (by decide) (by decide) (by decide) (by decide) (by decide) (by decide) (by decide) (by decide)),
      (h c _ (mem_uc main_arg7 (by decide))).trans (W8_keep m c main_arg7 (by decide) (by decide) (by decide) (by decide) (by decide) (by decide) (by decide) (by decide)),
      (h c _ (mem_uc main_arg8 (by decide))).trans (W8_keep m c main_arg8 (by decide) (by decide) (by decide) (by decide) (by decide) (by decide) (by decide) (by decide)),
      (h c _ (mem_uc main_arg9 (by decide))).trans (W8_keep m c main_arg9 (by decide) (by decide) (by decide) (by decide) (by decide) (by decide) (by decide) (by decide)),
      (h c _ (mem_uc main_arg10 (by decide))).trans (W8_keep m c main_arg10 (by decide) (by decide) (by decide) (by decide) (by decide) (by decide) (by decide) (by decide)),
      (h c _ (mem_uc main_arg11 (by decide))).trans (W8_keep m c main_arg11 (by decide) (by decide) (by decide) (by decide) (by decide) (by decide) (by decide) (by decide)),
      (h c _ (mem_uc main_arg12 (by decide))).trans (W8_keep m c main_arg12 (by decide) (by decide) (by decide) (by decide) (by decide) (by decide) (by decide) (by decide)),
      (h c _ (mem_uc main_arg13 (by decide))).trans (W8_keep m c main_arg13 (by decide) (by decide) (by decide) (by decide) (by decide) (by decide) (by decide) (by decide)),
      (h c _ (mem_uc main_arg14 (by decide))).trans (W8_keep m c main_arg14 (by decide) (by decide) (by decide) (by decide) (by decide) (by decide) (by decide) (by decide)),
      (h c _ (mem_uc main_arg15 (by decide))).trans (W8_keep m c main_arg15 (by decide) (by decide) (by decide) (by decide) (by decide) (by decide) (by decide) (by decide)),
      (h c _ (mem_uc main_arg16 (by decide))).trans (W8_keep m c main_arg16 (by decide) (by decide) (by decide) (by decide) (by decide) (by decide) (by decide) (by decide)),
      (h c _ (mem_uc main_arg17 (by decide))).trans (W8_keep m c main_arg17 (by decide) (by decide) (by decide) (by decide) (by decide) (by decide) (by decide) (by decide)),
      (h c _ (mem_uc main_arg18 (by decide))).trans (W8_keep m c main_arg18 (by decide) (by decide) (by decide) (by decide) (by decide) (by decide) (by decide) (by decide)),
      (h c _ (mem_uc main_arg19 (by decide))).trans (W8_keep m c main_arg19 (by decide) (by decide) (by decide) (by decide) (by decide) (by decide) (by decide) (by decide)),
      (h c _ (mem_uc main_arg20 (by decide))).trans (W8_keep m c main_arg20 (by decide) (by decide) (by decide) (by decide) (by decide) (by decide) (by decide) (by decide))⟩) (run m ρ)

end Cert.Kernel.Run

end
-- ==== Proof.KI.Linear0.lean ====
/-
  The first graph-convolution layer's linear map as a pipelined kernel: sixteen grid points, point `t` taking rows
  4032·t … 4032·t + 4031 of the node features `x` and of their neighbour sums `s`, the whole weight matrix `W` and the
  bias row `b`, and writing the same rows of `(x + s) · W + b`. This module is the kernel's half of the frame: what one
  call of the body leaves in the result's staging buffer, as a function of the four input blocks, and that the body
  run on those blocks terminates without a fault leaving exactly that.
-/
import proofs.«175257_j71588514890561_2_alg».proof.Proof.Patched.KernelIdeal.Launch
import proofs.«175257_j71588514890561_2_alg».proof.Proof.Gen.KernelIdeal.Skeleton
import proofs.«175257_j71588514890561_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Linear0

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- Window `w`'s block at grid point `t`: the rows of its array, as the region finds it, that the point works on. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the point's block whether or not the block was fetched at that point: an
    unfetched block is one whose index did not move (the weights and the bias are fetched once). One statement per
    input window. -/
theorem before_of_0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_of_1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_of_2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_of_3 {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## What the body reads and writes -/

abbrev rX : Rect S4032x84 := Rect.unit (s := S4032x84) ![0, 0] S4032x84.size inb_S4032x84_S4032x84_0_0
abbrev rW : Rect S84x128 := Rect.unit (s := S84x128) ![0, 0] S84x128.size inb_S84x128_S84x128_0_0
abbrev rB : Rect S1x128 := Rect.unit (s := S1x128) ![0, 0] S1x128.size inb_S1x128_S1x128_0_0
abbrev rO : Rect S4032x128 := Rect.unit (s := S4032x128) ![0, 0] S4032x128.size inb_S4032x128_S4032x128_0_0

/-- The result's staging buffer after the body: its one store, of `(x + s) · W + b` on the blocks read whole. -/
def out (x s : Vec F S4032x84 .f32) (W : Vec F S84x128 .f32) (b : Vec F S1x128 .f32) : Vec F S4032x128 .f32 :=
  View.canon [⟨rO, k0_pay1 (View.ld x rX) (View.ld s rX) (View.ld W rW) (View.ld b rB)⟩]

/-- The one store is of the whole buffer. -/
theorem cover (p : Vec F S4032x128 .f32) (y : S4032x128.Idx) :
    ∃ pc ∈ ([⟨rO, p⟩] : List (View.Piece (Elt F) S4032x128 .f32)), y ∈ pc.1.set :=
  View.cover_of_tiled [⟨rO, p⟩] S4032x128.size (by rfl) y

/-! ## The body's run -/

set_option maxHeartbeats 1000000 in
/-- On whole staging memrefs, the inputs' reading `x`, `s`, `W`, `b` and the result's holding anything, the body runs to
    its return leaving the inputs as they were and the result's at `out x s W b`. -/
theorem sound_kernel (c : Dev nD) (E : Set ℕ) (i : grid0.Coords)
    (a1 : Memref sig .tc .vmem S4032x84 .f32) (h1 : a1.IsWhole) (a2 : Memref sig .tc .vmem S4032x84 .f32) (h2 : a2.IsWhole)
    (a3 : Memref sig .tc .vmem S84x128 .f32) (h3 : a3.IsWhole) (a4 : Memref sig .tc .vmem S1x128 .f32) (h4 : a4.IsWhole)
    (a5 : Memref sig .tc .vmem S4032x128 .f32) (h5 : a5.IsWhole)
    (x s : Vec F S4032x84 .f32) (W : Vec F S84x128 .f32) (b : Vec F S1x128 .f32) (K : PUnit → sProp 𝕄) :
    iprop(owns (c : Thread nD τ) a1 fullShare x ∗ owns (c : Thread nD τ) a2 fullShare s ∗ owns (c : Thread nD τ) a3 fullShare W
        ∗ owns (c : Thread nD τ) a4 fullShare b ∗ (∃ d, owns (c : Thread nD τ) a5 fullShare d)
        ∗ (iprop(owns (c : Thread nD τ) a1 fullShare x ∗ owns (c : Thread nD τ) a2 fullShare s ∗ owns (c : Thread nD τ) a3 fullShare W
            ∗ owns (c : Thread nD τ) a4 fullShare b ∗ owns (c : Thread nD τ) a5 fullShare (out x s W b)) -∗ K ⟨⟩))
      ⊢ wp frame (wpE (defs₀ (F := F)) Variants.none c none) E (cc0__linear_kernel i a1 h1 a2 h2 a3 h3 a4 h4 a5 h5) K := by
  simp only [cc0__linear_kernel_eq_skeleton]; unfold cc0__linear_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The arrays as the region finds them; after the body at point `t` each input's buffer still at its block and the
    result's at `out` of the four blocks; nothing owed, full shares, the untouched rest as the invariant. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => out (blk V c 0 t) (blk V c 1 t) (blk V c 2 t) (blk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = blk V c 0 t := by dsimp only [dat]
theorem after_1 (c : Dev nD) (t : Fin cfg0.N) : (dat V c).after 1 t = blk V c 1 t := by dsimp only [dat]
theorem after_2 (c : Dev nD) (t : Fin cfg0.N) : (dat V c).after 2 t = blk V c 2 t := by dsimp only [dat]
theorem after_3 (c : Dev nD) (t : Fin cfg0.N) : (dat V c).after 3 t = blk V c 3 t := by dsimp only [dat]
theorem after_4 (c : Dev nD) (t : Fin cfg0.N) :
    (dat V c).after 4 t = out (blk V c 0 t) (blk V c 1 t) (blk V c 2 t) (blk V c 3 t) := by dsimp only [dat]

theorem before_0 (c : Dev nD) (t : Fin cfg0.N) (d) : (dat V c).before 0 t d = blk V c 0 t :=
  before_of_0 V (dat V c) (A_eq V c 0) (after_0 V c) t d
theorem before_1 (c : Dev nD) (t : Fin cfg0.N) (d) : (dat V c).before 1 t d = blk V c 1 t :=
  before_of_1 V (dat V c) (A_eq V c 1) (after_1 V c) t d
theorem before_2 (c : Dev nD) (t : Fin cfg0.N) (d) : (dat V c).before 2 t d = blk V c 2 t :=
  before_of_2 V (dat V c) (A_eq V c 2) (after_2 V c) t d
theorem before_3 (c : Dev nD) (t : Fin cfg0.N) (d) : (dat V c).before 3 t d = blk V c 3 t :=
  before_of_3 V (dat V c) (A_eq V c 3) (after_3 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t))

/-- At any point the input memrefs hold the point's blocks, so the body's run applies; the invariant and what the core
    owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W0, bigSep_W0]
  exact sound_body V c t

end Cert.KernelIdeal.Linear0

end
-- ==== Proof.KI.Linear1.lean ====
/-
  The second graph-convolution layer's linear map as a pipelined kernel: sixteen grid points, point `t` taking rows
  4032·t … 4032·t + 4031 of the first layer's output `h` and of its neighbour sums `s`, the whole 128 × 128 weight matrix
  `W` and the bias row `b`, and writing the same rows of `(h + s) · W + b`. This module is the kernel's half of the frame:
  what one call of the body leaves in the result's staging buffer, as a function of the four input blocks, and that the
  body run on those blocks terminates without a fault leaving exactly that.
-/
import proofs.«175257_j71588514890561_2_alg».proof.Proof.Patched.KernelIdeal.Launch
import proofs.«175257_j71588514890561_2_alg».proof.Proof.Gen.KernelIdeal.Skeleton
import proofs.«175257_j71588514890561_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Linear1

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- Window `w`'s block at grid point `t`: the rows of its array, as the region finds it, that the point works on. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the point's block whether or not the block was fetched at that point: an
    unfetched block is one whose index did not move (the weights and the bias are fetched once). One statement per
    input window. -/
theorem before_of_0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_of_1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_of_2 {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_of_3 {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## What the body reads and writes -/

abbrev rX : Rect S4032x128 := Rect.unit (s := S4032x128) ![0, 0] S4032x128.size inb_S4032x128_S4032x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0
abbrev rO : Rect S4032x128 := Rect.unit (s := S4032x128) ![0, 0] S4032x128.size inb_S4032x128_S4032x128_0_0

/-- The result's staging buffer after the body: its one store, of `(x + s) · W + b` on the blocks read whole. -/
def out (x s : Vec F S4032x128 .f32) (W : Vec F S128x128 .f32) (b : Vec F S1x128 .f32) : Vec F S4032x128 .f32 :=
  View.canon [⟨rO, k1_pay1 (View.ld x rX) (View.ld s rX) (View.ld W rW) (View.ld b rB)⟩]

/-- The one store is of the whole buffer. -/
theorem cover (p : Vec F S4032x128 .f32) (y : S4032x128.Idx) :
    ∃ pc ∈ ([⟨rO, p⟩] : List (View.Piece (Elt F) S4032x128 .f32)), y ∈ pc.1.set :=
  View.cover_of_tiled [⟨rO, p⟩] S4032x128.size (by rfl) y

/-! ## The body's run -/

set_option maxHeartbeats 1000000 in
/-- On whole staging memrefs, the inputs' reading `x`, `s`, `W`, `b` and the result's holding anything, the body runs to
    its return leaving the inputs as they were and the result's at `out x s W b`. -/
theorem sound_kernel (c : Dev nD) (E : Set ℕ) (i : grid1.Coords)
    (a1 : Memref sig .tc .vmem S4032x128 .f32) (h1 : a1.IsWhole) (a2 : Memref sig .tc .vmem S4032x128 .f32) (h2 : a2.IsWhole)
    (a3 : Memref sig .tc .vmem S128x128 .f32) (h3 : a3.IsWhole) (a4 : Memref sig .tc .vmem S1x128 .f32) (h4 : a4.IsWhole)
    (a5 : Memref sig .tc .vmem S4032x128 .f32) (h5 : a5.IsWhole)
    (x s : Vec F S4032x128 .f32) (W : Vec F S128x128 .f32) (b : Vec F S1x128 .f32) (K : PUnit → sProp 𝕄) :
    iprop(owns (c : Thread nD τ) a1 fullShare x ∗ owns (c : Thread nD τ) a2 fullShare s ∗ owns (c : Thread nD τ) a3 fullShare W
        ∗ owns (c : Thread nD τ) a4 fullShare b ∗ (∃ d, owns (c : Thread nD τ) a5 fullShare d)
        ∗ (iprop(owns (c : Thread nD τ) a1 fullShare x ∗ owns (c : Thread nD τ) a2 fullShare s ∗ owns (c : Thread nD τ) a3 fullShare W
            ∗ owns (c : Thread nD τ) a4 fullShare b ∗ owns (c : Thread nD τ) a5 fullShare (out x s W b)) -∗ K ⟨⟩))
      ⊢ wp frame (wpE (defs₀ (F := F)) Variants.none c none) E (cc1__linear_kernel i a1 h1 a2 h2 a3 h3 a4 h4 a5 h5) K := by
  simp only [cc1__linear_kernel_eq_skeleton]; unfold cc1__linear_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover _)

/-! ## The pipeline's proof data -/

/-- The arrays as the region finds them; after the body at point `t` each input's buffer still at its block and the
    result's at `out` of the four blocks; nothing owed, full shares, the untouched rest as the invariant. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => out (blk V c 0 t) (blk V c 1 t) (blk V c 2 t) (blk V c 3 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = blk V c 0 t := by dsimp only [dat]
theorem after_1 (c : Dev nD) (t : Fin cfg1.N) : (dat V c).after 1 t = blk V c 1 t := by dsimp only [dat]
theorem after_2 (c : Dev nD) (t : Fin cfg1.N) : (dat V c).after 2 t = blk V c 2 t := by dsimp only [dat]
theorem after_3 (c : Dev nD) (t : Fin cfg1.N) : (dat V c).after 3 t = blk V c 3 t := by dsimp only [dat]
theorem after_4 (c : Dev nD) (t : Fin cfg1.N) :
    (dat V c).after 4 t = out (blk V c 0 t) (blk V c 1 t) (blk V c 2 t) (blk V c 3 t) := by dsimp only [dat]

theorem before_0 (c : Dev nD) (t : Fin cfg1.N) (d) : (dat V c).before 0 t d = blk V c 0 t :=
  before_of_0 V (dat V c) (A_eq V c 0) (after_0 V c) t d
theorem before_1 (c : Dev nD) (t : Fin cfg1.N) (d) : (dat V c).before 1 t d = blk V c 1 t :=
  before_of_1 V (dat V c) (A_eq V c 1) (after_1 V c) t d
theorem before_2 (c : Dev nD) (t : Fin cfg1.N) (d) : (dat V c).before 2 t d = blk V c 2 t :=
  before_of_2 V (dat V c) (A_eq V c 2) (after_2 V c) t d
theorem before_3 (c : Dev nD) (t : Fin cfg1.N) (d) : (dat V c).before 3 t d = blk V c 3 t :=
  before_of_3 V (dat V c) (A_eq V c 3) (after_3 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d)))

def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t))

/-- At any point the input memrefs hold the point's blocks, so the body's run applies; the invariant and what the core
    owes pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4]
  iintro ⟨HΦ, Ho, ⟨%d0, H0⟩, ⟨%d1, H1⟩, ⟨%d2, H2⟩, ⟨%d3, H3⟩, ⟨%d4, H4⟩⟩
  iapply (sound_kernel c Set.univ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dat (F := F) V c) (defs₀ (F := F)) Variants.none () Set.univ := fun t => by
  rw [bigSep_W1, bigSep_W1]
  exact sound_body V c t

end Cert.KernelIdeal.Linear1

end
-- ==== Proof.KI.Attn.lean ====
/-
  Self-attention over one sample's 1008 rows, followed by pooling, as a pipelined kernel: sixty-four grid points, point
  t taking sample t's rows of the hidden features (a 1008 × 128 block) and the whole positional table (1008 × 128,
  fetched once), and writing sample t's 12 × 256 block of pooled features: for each of the twelve groups of 84 consecutive
  rows, the columnwise maximum of the attended rows (columns 0 … 127) and their columnwise mean (columns 128 … 255).
  This module is the kernel's half of the frame: what one call of the body leaves in the result's staging buffer, as a
  function of the two input blocks, and that the body run on those blocks terminates without a fault leaving exactly that.
-/
import proofs.«175257_j71588514890561_2_alg».proof.Proof.Patched.KernelIdeal.Launch
import proofs.«175257_j71588514890561_2_alg».proof.Proof.Gen.KernelIdeal.Skeleton
import proofs.«175257_j71588514890561_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- Window w's block at grid point t: the part of its array, as the region finds it, that the point works on. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds the point's block whether or not the block was fetched at that point: an
    unfetched block is one whose index did not move (the positional table is fetched once). One statement per input
    window. -/
theorem before_of_0 {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_of_1 {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## What the body reads and writes -/

abbrev rX : Rect S1x1008x128 := Rect.unit (s := S1x1008x128) ![0, 0, 0] S1x1008x128.size inb_S1x1008x128_S1x1008x128_0_0_0
abbrev rP : Rect S1008x128 := Rect.unit (s := S1008x128) ![0, 0] S1008x128.size inb_S1008x128_S1008x128_0_0
abbrev rO : Rect S1x12x256 := Rect.unit (s := S1x12x256) ![0, 0, 0] S1x12x256.size inb_S1x12x256_S1x12x256_0_0_0

/-- The attended rows: the 1008 × 128 matrix softmax(q qᵀ · scale) q, where q is the sample's rows plus the positional
    table, as the body computes it from the two blocks read whole. -/
def ctxv (x0 : Vec F S1x1008x128 .f32) (x1 : Vec F S1008x128 .f32) : FVec F S1008x128 .f32 :=
  k2_pay6 (View.ld x0 rX) (View.ld x1 rP)

/-- The twelve groups' columnwise maxima, one row per group, as the body assembles them: groups 0, 1, 2 pooled next to
    the attention, groups 3 … 8 next, groups 9, 10, 11 last. -/
def maxv (x0 : Vec F S1x1008x128 .f32) (x1 : Vec F S1008x128 .f32) : FVec F S12x128 .f32 :=
  k2_pay4 (ctxv x0 x1) (k2_pay8 (View.ld x0 rX) (View.ld x1 rP)) (k2_pay11 (View.ld x0 rX) (View.ld x1 rP))
    (k2_pay14 (View.ld x0 rX) (View.ld x1 rP)) (k2_pay18 (ctxv x0 x1)) (k2_pay21 (ctxv x0 x1)) (k2_pay24 (ctxv x0 x1))
    (k2_pay27 (ctxv x0 x1)) (k2_pay30 (ctxv x0 x1)) (k2_pay33 (ctxv x0 x1))

/-- The value of the body's one store: the maxima and the means side by side, under a leading unit axis. -/
def payload (x0 : Vec F S1x1008x128 .f32) (x1 : Vec F S1008x128 .f32) : FVec F S1x12x256 .f32 :=
  k2_pay5 (ctxv x0 x1) (k2_pay9 (View.ld x0 rX) (View.ld x1 rP)) (k2_pay12 (View.ld x0 rX) (View.ld x1 rP))
    (k2_pay16 (k2_pay15 (View.ld x0 rX) (View.ld x1 rP))) (k2_pay19 (ctxv x0 x1)) (k2_pay22 (ctxv x0 x1))
    (k2_pay25 (ctxv x0 x1)) (k2_pay28 (ctxv x0 x1)) (k2_pay31 (ctxv x0 x1)) (k2_pay34 (ctxv x0 x1)) (maxv x0 x1)

/-- The result's staging buffer after the body: its one store, of the pooled features of the blocks read whole. -/
def out (x0 : Vec F S1x1008x128 .f32) (x1 : Vec F S1008x128 .f32) : Vec F S1x12x256 .f32 :=
  View.canon [⟨rO, payload x0 x1⟩]

/-- The one store is of the whole buffer. -/
theorem cover (p : Vec F S1x12x256 .f32) (y : S1x12x256.Idx) :
    ∃ pc ∈ ([⟨rO, p⟩] : List (View.Piece (Elt F) S1x12x256 .f32)), y ∈ pc.1.set :=
  View.cover_of_tiled [⟨rO, p⟩] S1x12x256.size (by rfl) y

/-! ## The body's run -/

set_option maxHeartbeats 1000000 in
/-- On whole staging memrefs, the inputs' reading x0 and x1 and the result's holding anything, the body runs to its
    return leaving the inputs as they were and the result's at out x0 x1. -/
theorem sound_kernel (c : Dev nD) (E : Set ℕ) (i : grid2.Coords)
    (a1 : Memref sig .tc .vmem S1x1008x128 .f32) (h1 : a1.IsWhole) (a2 : Memref sig .tc .vmem S1008x128 .f32) (h2 : a2.IsWhole)
    (a3 : Memref sig .tc .vmem S1x12x256 .f32) (h3 : a3.IsWhole)
    (x0 : Vec F S1x1008x128 .f32) (x1 : Vec F S1008x128 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (out x0 x1)) -∗ K ⟨⟩))
      ⊢ wp frame (wpE (defs₀ (F := F)) Variants.none c none) E (cc2__attn_kernel i a1 h1 a2 h2 a3 h3) K := by
  simp only [cc2__attn_kernel_eq_skeleton]; unfold cc2__attn_kernel_skel
  simp only [k2_part1_eq_skeleton, k2_part2_eq_skeleton]
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _)

/-! ## The pipeline's proof data -/

/-- The arrays as the region finds them; after the body at point t each input's buffer still at its block and the
    result's at out of the two blocks; nothing owed, full shares, the untouched rest as the invariant. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => out (blk V c 0 t) (blk V c 1 t)
  Φ _ := Pipeline.ΦA spec2 c
  q _ := fullShare
  owed _ := 0

theorem A_eq (c : Dev nD) (w : Fin cfg2.W) : (dat V c).A w = V c (Pipeline.arrRef spec2 w) := by
  dsimp only [dat]

theorem after_0 (c : Dev nD) (t : Fin cfg2.N) : (dat V c).after 0 t = blk V c 0 t := by dsimp only [dat]
theorem after_1 (c : Dev nD) (t : Fin cfg2.N) : (dat V c).after 1 t = blk V c 1 t := by dsimp only [dat]
theorem after_2 (c : Dev nD) (t : Fin cfg2.N) : (dat V c).after 2 t = out (blk V c 0 t) (blk V c 1 t) := by dsimp only [dat]

theorem before_0 (c : Dev nD) (t : Fin cfg2.N) (d) : (dat V c).before 0 t d = blk V c 0 t :=
  before_of_0 V (dat V c) (A_eq V c 0) (after_0 V c) t d
theorem before_1 (c : Dev nD) (t : Fin cfg2.N) (d) : (dat V c).before 1 t d = blk V c 1 t :=
  before_of_1 V (dat V c) (A_eq V c 1) (after_1 V c) t d

/-! ## The body obligation -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d)))

def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t))

/-- At any point the input memrefs hold the point's blocks, so the body's run applies; the invariant and what the core
    owes pass through unread. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (blk V c 0 t) (blk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) V c) (defs₀ (F := F)) Variants.none () Set.univ := fun t => by
  rw [bigSep_W2, bigSep_W2]
  exact sound_body V c t

end Cert.KernelIdeal.Attn

end
-- ==== Proof.KI.Head.lean ====
/-
  The classifier head as one call of a kernel: a grid of a single point at which all sixteen windows are whole arrays.
  The body reads the aggregated features (64 rows of 6144), three weight matrices with their bias rows and the two
  batch-normalisations' scale, shift, mean and variance rows, and writes the 64 × 2 table of class probabilities:
  three affine maps, the first two each followed by x ↦ x · logistic x and a normalisation, the last by a softmax over
  the two classes. This module is the kernel's half of the frame: what the one call of the body leaves in the result's
  staging buffer, as a function of the fifteen input blocks, and that the body run on those blocks terminates without a
  fault leaving exactly that.
-/
import proofs.«175257_j71588514890561_2_alg».proof.Proof.Patched.KernelIdeal.Launch
import proofs.«175257_j71588514890561_2_alg».proof.Proof.Gen.KernelIdeal.Skeleton
import proofs.«175257_j71588514890561_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Head

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- Window `w`'s block at grid point `t`: the part of its array, as the region finds it, that the point works on (at
    the grid's one point, all of it). -/
def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's staging buffer holds the point's block whether or not the block was fetched at that point (an
    unfetched block is one whose index did not move), for any proof data over the region's arrays whose body leaves the
    block in place. One statement per input window. -/

theorem before_of_0 {c : Dev nD} (dat : Dat τ (Elt F) Unit ℕ (UR sig nD τ) ℕ cfg3 c) (hA : dat.A 0 = V c (Pipeline.arrRef spec3 0))
    (hafter : ∀ t, dat.after 0 t = blk V c 0 t) (t : Fin cfg3.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

theorem before_of_1 {c : Dev nD} (dat : Dat τ (Elt F) Unit ℕ (UR sig nD τ) ℕ cfg3 c) (hA : dat.A 1 = V c (Pipeline.arrRef spec3 1))
    (hafter : ∀ t, dat.after 1 t = blk V c 1 t) (t : Fin cfg3.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

theorem before_of_2 {c : Dev nD} (dat : Dat τ (Elt F) Unit ℕ (UR sig nD τ) ℕ cfg3 c) (hA : dat.A 2 = V c (Pipeline.arrRef spec3 2))
    (hafter : ∀ t, dat.after 2 t = blk V c 2 t) (t : Fin cfg3.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

theorem before_of_3 {c : Dev nD} (dat : Dat τ (Elt F) Unit ℕ (UR sig nD τ) ℕ cfg3 c) (hA : dat.A 3 = V c (Pipeline.arrRef spec3 3))
    (hafter : ∀ t, dat.after 3 t = blk V c 3 t) (t : Fin cfg3.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

theorem before_of_4 {c : Dev nD} (dat : Dat τ (Elt F) Unit ℕ (UR sig nD τ) ℕ cfg3 c) (hA : dat.A 4 = V c (Pipeline.arrRef spec3 4))
    (hafter : ∀ t, dat.after 4 t = blk V c 4 t) (t : Fin cfg3.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

theorem before_of_5 {c : Dev nD} (dat : Dat τ (Elt F) Unit ℕ (UR sig nD τ) ℕ cfg3 c) (hA : dat.A 5 = V c (Pipeline.arrRef spec3 5))
    (hafter : ∀ t, dat.after 5 t = blk V c 5 t) (t : Fin cfg3.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

theorem before_of_6 {c : Dev nD} (dat : Dat τ (Elt F) Unit ℕ (UR sig nD τ) ℕ cfg3 c) (hA : dat.A 6 = V c (Pipeline.arrRef spec3 6))
    (hafter : ∀ t, dat.after 6 t = blk V c 6 t) (t : Fin cfg3.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

theorem before_of_7 {c : Dev nD} (dat : Dat τ (Elt F) Unit ℕ (UR sig nD τ) ℕ cfg3 c) (hA : dat.A 7 = V c (Pipeline.arrRef spec3 7))
    (hafter : ∀ t, dat.after 7 t = blk V c 7 t) (t : Fin cfg3.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)

theorem before_of_8 {c : Dev nD} (dat : Dat τ (Elt F) Unit ℕ (UR sig nD τ) ℕ cfg3 c) (hA : dat.A 8 = V c (Pipeline.arrRef spec3 8))
    (hafter : ∀ t, dat.after 8 t = blk V c 8 t) (t : Fin cfg3.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)

theorem before_of_9 {c : Dev nD} (dat : Dat τ (Elt F) Unit ℕ (UR sig nD τ) ℕ cfg3 c) (hA : dat.A 9 = V c (Pipeline.arrRef spec3 9))
    (hafter : ∀ t, dat.after 9 t = blk V c 9 t) (t : Fin cfg3.N) (d) : dat.before 9 t d = blk V c 9 t :=
  (dat.before_in_eq_fetched 9 rfl (fun _ => rfl) (fun _ _ _ => rfl) (fun t => by rw [hafter]; unfold Dat.blockOf blk; rw [hA]; try rfl) t d).trans
    (by unfold Dat.fetched Dat.blockOf blk; rw [hA]; try rfl)

theorem before_of_10 {c : Dev nD} (dat : Dat τ (Elt F) Unit ℕ (UR sig nD τ) ℕ cfg3 c) (hA : dat.A 10 = V c (Pipeline.arrRef spec3 10))
    (hafter : ∀ t, dat.after 10 t = blk V c 10 t) (t : Fin cfg3.N) (d) : dat.before 10 t d = blk V c 10 t :=
  (dat.before_in_eq_fetched 10 rfl (fun _ => rfl) (fun _ _ _ => rfl) (fun t => by rw [hafter]; unfold Dat.blockOf blk; rw [hA]; try rfl) t d).trans
    (by unfold Dat.fetched Dat.blockOf blk; rw [hA]; try rfl)

theorem before_of_11 {c : Dev nD} (dat : Dat τ (Elt F) Unit ℕ (UR sig nD τ) ℕ cfg3 c) (hA : dat.A 11 = V c (Pipeline.arrRef spec3 11))
    (hafter : ∀ t, dat.after 11 t = blk V c 11 t) (t : Fin cfg3.N) (d) : dat.before 11 t d = blk V c 11 t :=
  (dat.before_in_eq_fetched 11 rfl (fun _ => rfl) (fun _ _ _ => rfl) (fun t => by rw [hafter]; unfold Dat.blockOf blk; rw [hA]; try rfl) t d).trans
    (by unfold Dat.fetched Dat.blockOf blk; rw [hA]; try rfl)

theorem before_of_12 {c : Dev nD} (dat : Dat τ (Elt F) Unit ℕ (UR sig nD τ) ℕ cfg3 c) (hA : dat.A 12 = V c (Pipeline.arrRef spec3 12))
    (hafter : ∀ t, dat.after 12 t = blk V c 12 t) (t : Fin cfg3.N) (d) : dat.before 12 t d = blk V c 12 t :=
  (dat.before_in_eq_fetched 12 rfl (fun _ => rfl) (fun _ _ _ => rfl) (fun t => by rw [hafter]; unfold Dat.blockOf blk; rw [hA]; try rfl) t d).trans
    (by unfold Dat.fetched Dat.blockOf blk; rw [hA]; try rfl)

theorem before_of_13 {c : Dev nD} (dat : Dat τ (Elt F) Unit ℕ (UR sig nD τ) ℕ cfg3 c) (hA : dat.A 13 = V c (Pipeline.arrRef spec3 13))
    (hafter : ∀ t, dat.after 13 t = blk V c 13 t) (t : Fin cfg3.N) (d) : dat.before 13 t d = blk V c 13 t :=
  (dat.before_in_eq_fetched 13 rfl (fun _ => rfl) (fun _ _ _ => rfl) (fun t => by rw [hafter]; unfold Dat.blockOf blk; rw [hA]; try rfl) t d).trans
    (by unfold Dat.fetched Dat.blockOf blk; rw [hA]; try rfl)

theorem before_of_14 {c : Dev nD} (dat : Dat τ (Elt F) Unit ℕ (UR sig nD τ) ℕ cfg3 c) (hA : dat.A 14 = V c (Pipeline.arrRef spec3 14))
    (hafter : ∀ t, dat.after 14 t = blk V c 14 t) (t : Fin cfg3.N) (d) : dat.before 14 t d = blk V c 14 t :=
  (dat.before_in_eq_fetched 14 rfl (fun _ => rfl) (fun _ _ _ => rfl) (fun t => by rw [hafter]; unfold Dat.blockOf blk; rw [hA]; try rfl) t d).trans
    (by unfold Dat.fetched Dat.blockOf blk; rw [hA]; try rfl)

/-! ## What the body reads and writes: every access is of a whole buffer -/

abbrev r64x6144 : Rect S64x6144 := Rect.unit (s := S64x6144) ![0, 0] S64x6144.size inb_S64x6144_S64x6144_0_0
abbrev r6144x512 : Rect S6144x512 := Rect.unit (s := S6144x512) ![0, 0] S6144x512.size inb_S6144x512_S6144x512_0_0
abbrev r1x512 : Rect S1x512 := Rect.unit (s := S1x512) ![0, 0] S1x512.size inb_S1x512_S1x512_0_0
abbrev r512x32 : Rect S512x32 := Rect.unit (s := S512x32) ![0, 0] S512x32.size inb_S512x32_S512x32_0_0
abbrev r1x32 : Rect S1x32 := Rect.unit (s := S1x32) ![0, 0] S1x32.size inb_S1x32_S1x32_0_0
abbrev r32x2 : Rect S32x2 := Rect.unit (s := S32x2) ![0, 0] S32x2.size inb_S32x2_S32x2_0_0
abbrev r1x2 : Rect S1x2 := Rect.unit (s := S1x2) ![0, 0] S1x2.size inb_S1x2_S1x2_0_0
abbrev r64x2 : Rect S64x2 := Rect.unit (s := S64x2) ![0, 0] S64x2.size inb_S64x2_S64x2_0_0

/-- The result's staging buffer after the body: its one store, of the whole buffer. The stored value is the softmax
    stage applied to the second hidden layer (the second affine map of the first normalised layer, and its bias row
    broadcast over the rows), with the second normalisation's mean, variance, scale and shift rows, the last weight matrix
    and its bias row. The first normalised layer takes the features, the first weight matrix and bias row, the first
    normalisation's mean, variance, scale and shift rows (in the order the body reads them), and the second weight
    matrix. The blocks are given in window order. -/
def out (x0 : Vec F S64x6144 .f32) (x1 : Vec F S6144x512 .f32) (x2 : Vec F S1x512 .f32) (x3 : Vec F S512x32 .f32) (x4 : Vec F S1x32 .f32) (x5 : Vec F S32x2 .f32) (x6 : Vec F S1x2 .f32) (x7 x8 x9 x10 : Vec F S1x512 .f32) (x11 x12 x13 x14 : Vec F S1x32 .f32) : Vec F S64x2 .f32 :=
  View.canon [⟨r64x2, k3_pay3 (k3_pay1 (View.ld x0 r64x6144) (View.ld x1 r6144x512) (View.ld x2 r1x512) (View.ld x9 r1x512) (View.ld x10 r1x512) (View.ld x7 r1x512) (View.ld x8 r1x512) (View.ld x3 r512x32)) (k3_pay2 (View.ld x4 r1x32)) (View.ld x13 r1x32) (View.ld x14 r1x32) (View.ld x11 r1x32) (View.ld x12 r1x32) (View.ld x5 r32x2) (View.ld x6 r1x2)⟩]

/-- The one store is of the whole buffer. -/
theorem cover (p : Vec F S64x2 .f32) (y : S64x2.Idx) :
    ∃ pc ∈ ([⟨r64x2, p⟩] : List (View.Piece (Elt F) S64x2 .f32)), y ∈ pc.1.set :=
  View.cover_of_tiled [⟨r64x2, p⟩] S64x2.size (by rfl) y

/-! ## The body's run -/

set_option maxHeartbeats 4000000 in
/-- On whole staging memrefs, the inputs' reading the fifteen blocks and the result's holding anything, the body runs to
    its return leaving the inputs as they were and the result's at `out` of the blocks. -/
theorem sound_kernel (c : Dev nD) (E : Set ℕ) (i : grid3.Coords)
    (a0 : Memref sig .tc .vmem S64x6144 .f32) (h0 : a0.IsWhole)
    (a1 : Memref sig .tc .vmem S6144x512 .f32) (h1 : a1.IsWhole)
    (a2 : Memref sig .tc .vmem S1x512 .f32) (h2 : a2.IsWhole)
    (a3 : Memref sig .tc .vmem S512x32 .f32) (h3 : a3.IsWhole)
    (a4 : Memref sig .tc .vmem S1x32 .f32) (h4 : a4.IsWhole)
    (a5 : Memref sig .tc .vmem S32x2 .f32) (h5 : a5.IsWhole)
    (a6 : Memref sig .tc .vmem S1x2 .f32) (h6 : a6.IsWhole)
    (a7 : Memref sig .tc .vmem S1x512 .f32) (h7 : a7.IsWhole)
    (a8 : Memref sig .tc .vmem S1x512 .f32) (h8 : a8.IsWhole)
    (a9 : Memref sig .tc .vmem S1x512 .f32) (h9 : a9.IsWhole)
    (a10 : Memref sig .tc .vmem S1x512 .f32) (h10 : a10.IsWhole)
    (a11 : Memref sig .tc .vmem S1x32 .f32) (h11 : a11.IsWhole)
    (a12 : Memref sig .tc .vmem S1x32 .f32) (h12 : a12.IsWhole)
    (a13 : Memref sig .tc .vmem S1x32 .f32) (h13 : a13.IsWhole)
    (a14 : Memref sig .tc .vmem S1x32 .f32) (h14 : a14.IsWhole)
    (a15 : Memref sig .tc .vmem S64x2 .f32) (h15 : a15.IsWhole)
    (x0 : Vec F S64x6144 .f32) (x1 : Vec F S6144x512 .f32) (x2 : Vec F S1x512 .f32) (x3 : Vec F S512x32 .f32) (x4 : Vec F S1x32 .f32) (x5 : Vec F S32x2 .f32) (x6 : Vec F S1x2 .f32) (x7 x8 x9 x10 : Vec F S1x512 .f32) (x11 x12 x13 x14 : Vec F S1x32 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14
        ∗ (∃ d, owns (c : Thread nD τ) a15 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10 ∗ owns (c : Thread nD τ) a11 fullShare x11 ∗ owns (c : Thread nD τ) a12 fullShare x12 ∗ owns (c : Thread nD τ) a13 fullShare x13 ∗ owns (c : Thread nD τ) a14 fullShare x14
            ∗ owns (c : Thread nD τ) a15 fullShare (out x0 x1 x2 x3 x4 x5 x6 x7 x8 x9 x10 x11 x12 x13 x14)) -∗ K ⟨⟩))
      ⊢ wp frame (wpE (defs₀ (F := F)) Variants.none c none) E (cc3__head_kernel i a0 h0 a1 h1 a2 h2 a3 h3 a4 h4 a5 h5 a6 h6 a7 h7 a8 h8 a9 h9 a10 h10 a11 h11 a12 h12 a13 h13 a14 h14 a15 h15) K := by
  simp only [cc3__head_kernel_eq_skeleton]; unfold cc3__head_kernel_skel
  simp only [k3_part1_eq_skeleton, k3_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0 hf1 hf2 hf3 hf4 hf5 hf6 hf7 hf8 hf9 hf10 hf11 hf12 hf13 hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover _)

/-! ## The pipeline's proof data -/

/-- The arrays as the region finds them; after the body each input's buffer still at its block and the result's at
    `out` of the fifteen blocks; nothing owed, full shares, the untouched rest as the invariant. -/
def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => blk V c 9 t
    | ⟨10, _⟩ => blk V c 10 t
    | ⟨11, _⟩ => blk V c 11 t
    | ⟨12, _⟩ => blk V c 12 t
    | ⟨13, _⟩ => blk V c 13 t
    | ⟨14, _⟩ => blk V c 14 t
    | ⟨15, _⟩ => out (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (blk V c 13 t) (blk V c 14 t)
    | ⟨_ + 16, h⟩ => absurd h (Nat.not_lt.2 (Nat.le_add_left _ _))
  Φ _ := Pipeline.ΦA spec3 c
  q _ := fullShare
  owed _ := 0

theorem A_eq (c : Dev nD) (w : Fin cfg3.W) : (dat V c).A w = V c (Pipeline.arrRef spec3 w) := by
  dsimp only [dat]

theorem after_0 (c : Dev nD) (t : Fin cfg3.N) : (dat V c).after 0 t = blk V c 0 t := by dsimp only [dat]
theorem after_1 (c : Dev nD) (t : Fin cfg3.N) : (dat V c).after 1 t = blk V c 1 t := by dsimp only [dat]
theorem after_2 (c : Dev nD) (t : Fin cfg3.N) : (dat V c).after 2 t = blk V c 2 t := by dsimp only [dat]
theorem after_3 (c : Dev nD) (t : Fin cfg3.N) : (dat V c).after 3 t = blk V c 3 t := by dsimp only [dat]
theorem after_4 (c : Dev nD) (t : Fin cfg3.N) : (dat V c).after 4 t = blk V c 4 t := by dsimp only [dat]
theorem after_5 (c : Dev nD) (t : Fin cfg3.N) : (dat V c).after 5 t = blk V c 5 t := by dsimp only [dat]
theorem after_6 (c : Dev nD) (t : Fin cfg3.N) : (dat V c).after 6 t = blk V c 6 t := by dsimp only [dat]
theorem after_7 (c : Dev nD) (t : Fin cfg3.N) : (dat V c).after 7 t = blk V c 7 t := by dsimp only [dat]
theorem after_8 (c : Dev nD) (t : Fin cfg3.N) : (dat V c).after 8 t = blk V c 8 t := by dsimp only [dat]
theorem after_9 (c : Dev nD) (t : Fin cfg3.N) : (dat V c).after 9 t = blk V c 9 t := by dsimp only [dat]
theorem after_10 (c : Dev nD) (t : Fin cfg3.N) : (dat V c).after 10 t = blk V c 10 t := by dsimp only [dat]
theorem after_11 (c : Dev nD) (t : Fin cfg3.N) : (dat V c).after 11 t = blk V c 11 t := by dsimp only [dat]
theorem after_12 (c : Dev nD) (t : Fin cfg3.N) : (dat V c).after 12 t = blk V c 12 t := by dsimp only [dat]
theorem after_13 (c : Dev nD) (t : Fin cfg3.N) : (dat V c).after 13 t = blk V c 13 t := by dsimp only [dat]
theorem after_14 (c : Dev nD) (t : Fin cfg3.N) : (dat V c).after 14 t = blk V c 14 t := by dsimp only [dat]
theorem after_15 (c : Dev nD) (t : Fin cfg3.N) :
    (dat V c).after 15 t = out (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (blk V c 13 t) (blk V c 14 t) := by dsimp only [dat]

/-- Every input window's buffer is left at its block (read through the window's cut, which at each of these windows is
    the identity: no block is clipped). -/
theorem after_in (c : Dev nD) (t : Fin cfg3.N) (w : Fin cfg3.W) (hw : w.val < 15) :
    (cfg3.win w).cut (cfg3.grid.coords t) ((dat V c).after w t) = blk V c w t := by
  match w, hw with
  | ⟨0, _⟩, _ => exact (congrArg ((cfg3.win 0).cut (cfg3.grid.coords t)) (after_0 V c t)).trans rfl
  | ⟨1, _⟩, _ => exact (congrArg ((cfg3.win 1).cut (cfg3.grid.coords t)) (after_1 V c t)).trans rfl
  | ⟨2, _⟩, _ => exact (congrArg ((cfg3.win 2).cut (cfg3.grid.coords t)) (after_2 V c t)).trans rfl
  | ⟨3, _⟩, _ => exact (congrArg ((cfg3.win 3).cut (cfg3.grid.coords t)) (after_3 V c t)).trans rfl
  | ⟨4, _⟩, _ => exact (congrArg ((cfg3.win 4).cut (cfg3.grid.coords t)) (after_4 V c t)).trans rfl
  | ⟨5, _⟩, _ => exact (congrArg ((cfg3.win 5).cut (cfg3.grid.coords t)) (after_5 V c t)).trans rfl
  | ⟨6, _⟩, _ => exact (congrArg ((cfg3.win 6).cut (cfg3.grid.coords t)) (after_6 V c t)).trans rfl
  | ⟨7, _⟩, _ => exact (congrArg ((cfg3.win 7).cut (cfg3.grid.coords t)) (after_7 V c t)).trans rfl
  | ⟨8, _⟩, _ => exact (congrArg ((cfg3.win 8).cut (cfg3.grid.coords t)) (after_8 V c t)).trans rfl
  | ⟨9, _⟩, _ => exact (congrArg ((cfg3.win 9).cut (cfg3.grid.coords t)) (after_9 V c t)).trans rfl
  | ⟨10, _⟩, _ => exact (congrArg ((cfg3.win 10).cut (cfg3.grid.coords t)) (after_10 V c t)).trans rfl
  | ⟨11, _⟩, _ => exact (congrArg ((cfg3.win 11).cut (cfg3.grid.coords t)) (after_11 V c t)).trans rfl
  | ⟨12, _⟩, _ => exact (congrArg ((cfg3.win 12).cut (cfg3.grid.coords t)) (after_12 V c t)).trans rfl
  | ⟨13, _⟩, _ => exact (congrArg ((cfg3.win 13).cut (cfg3.grid.coords t)) (after_13 V c t)).trans rfl
  | ⟨14, _⟩, _ => exact (congrArg ((cfg3.win 14).cut (cfg3.grid.coords t)) (after_14 V c t)).trans rfl
  | ⟨15, _⟩, h => exact absurd h (Nat.lt_irrefl 15)
  | ⟨_ + 16, h⟩, _ => exact absurd h (Nat.not_lt.2 (Nat.le_add_left _ _))

theorem before_0 (c : Dev nD) (t : Fin cfg3.N) (d) : (dat V c).before 0 t d = blk V c 0 t :=
  before_of_0 V (dat V c) (A_eq V c 0) (after_0 V c) t d
theorem before_1 (c : Dev nD) (t : Fin cfg3.N) (d) : (dat V c).before 1 t d = blk V c 1 t :=
  before_of_1 V (dat V c) (A_eq V c 1) (after_1 V c) t d
theorem before_2 (c : Dev nD) (t : Fin cfg3.N) (d) : (dat V c).before 2 t d = blk V c 2 t :=
  before_of_2 V (dat V c) (A_eq V c 2) (after_2 V c) t d
theorem before_3 (c : Dev nD) (t : Fin cfg3.N) (d) : (dat V c).before 3 t d = blk V c 3 t :=
  before_of_3 V (dat V c) (A_eq V c 3) (after_3 V c) t d
theorem before_4 (c : Dev nD) (t : Fin cfg3.N) (d) : (dat V c).before 4 t d = blk V c 4 t :=
  before_of_4 V (dat V c) (A_eq V c 4) (after_4 V c) t d
theorem before_5 (c : Dev nD) (t : Fin cfg3.N) (d) : (dat V c).before 5 t d = blk V c 5 t :=
  before_of_5 V (dat V c) (A_eq V c 5) (after_5 V c) t d
theorem before_6 (c : Dev nD) (t : Fin cfg3.N) (d) : (dat V c).before 6 t d = blk V c 6 t :=
  before_of_6 V (dat V c) (A_eq V c 6) (after_6 V c) t d
theorem before_7 (c : Dev nD) (t : Fin cfg3.N) (d) : (dat V c).before 7 t d = blk V c 7 t :=
  before_of_7 V (dat V c) (A_eq V c 7) (after_7 V c) t d
theorem before_8 (c : Dev nD) (t : Fin cfg3.N) (d) : (dat V c).before 8 t d = blk V c 8 t :=
  before_of_8 V (dat V c) (A_eq V c 8) (after_8 V c) t d
theorem before_9 (c : Dev nD) (t : Fin cfg3.N) (d) : (dat V c).before 9 t d = blk V c 9 t :=
  before_of_9 V (dat V c) (A_eq V c 9) (after_9 V c) t d
theorem before_10 (c : Dev nD) (t : Fin cfg3.N) (d) : (dat V c).before 10 t d = blk V c 10 t :=
  before_of_10 V (dat V c) (A_eq V c 10) (after_10 V c) t d
theorem before_11 (c : Dev nD) (t : Fin cfg3.N) (d) : (dat V c).before 11 t d = blk V c 11 t :=
  before_of_11 V (dat V c) (A_eq V c 11) (after_11 V c) t d
theorem before_12 (c : Dev nD) (t : Fin cfg3.N) (d) : (dat V c).before 12 t d = blk V c 12 t :=
  before_of_12 V (dat V c) (A_eq V c 12) (after_12 V c) t d
theorem before_13 (c : Dev nD) (t : Fin cfg3.N) (d) : (dat V c).before 13 t d = blk V c 13 t :=
  before_of_13 V (dat V c) (A_eq V c 13) (after_13 V c) t d
theorem before_14 (c : Dev nD) (t : Fin cfg3.N) (d) : (dat V c).before 14 t d = blk V c 14 t :=
  before_of_14 V (dat V c) (A_eq V c 14) (after_14 V c) t d

/-! ## The body obligation -/

def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d))
    ∗ (∃ d, owns (c : Thread nD τ) (st3_8 t) fullShare ((dat V c).before 8 t d))
    ∗ (∃ d, owns (c : Thread nD τ) (st3_9 t) fullShare ((dat V c).before 9 t d))
    ∗ (∃ d, owns (c : Thread nD τ) (st3_10 t) fullShare ((dat V c).before 10 t d))
    ∗ (∃ d, owns (c : Thread nD τ) (st3_11 t) fullShare ((dat V c).before 11 t d))
    ∗ (∃ d, owns (c : Thread nD τ) (st3_12 t) fullShare ((dat V c).before 12 t d))
    ∗ (∃ d, owns (c : Thread nD τ) (st3_13 t) fullShare ((dat V c).before 13 t d))
    ∗ (∃ d, owns (c : Thread nD τ) (st3_14 t) fullShare ((dat V c).before 14 t d))
    ∗ (∃ d, owns (c : Thread nD τ) (st3_15 t) fullShare ((dat V c).before 15 t d)))

def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t)
    ∗ owns (c : Thread nD τ) (st3_8 t) fullShare ((dat V c).after 8 t)
    ∗ owns (c : Thread nD τ) (st3_9 t) fullShare ((dat V c).after 9 t)
    ∗ owns (c : Thread nD τ) (st3_10 t) fullShare ((dat V c).after 10 t)
    ∗ owns (c : Thread nD τ) (st3_11 t) fullShare ((dat V c).after 11 t)
    ∗ owns (c : Thread nD τ) (st3_12 t) fullShare ((dat V c).after 12 t)
    ∗ owns (c : Thread nD τ) (st3_13 t) fullShare ((dat V c).after 13 t)
    ∗ owns (c : Thread nD τ) (st3_14 t) fullShare ((dat V c).after 14 t)
    ∗ owns (c : Thread nD τ) (st3_15 t) fullShare ((dat V c).after 15 t))

set_option maxHeartbeats 1000000 in
/-- At the point the input memrefs hold the blocks, so the body's run applies; the invariant and what the core owes pass
    through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6, before_7, before_8, before_9, before_10, before_11, before_12, before_13, before_14]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ _ _ _ _ _ _ _ _ _ _ _ _ _ _ _ _ _ _ _ _ _ _ _ _ _ _ _ _ _ _ _ _ _ (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (blk V c 13 t) (blk V c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation (c : Dev nD) : BodyObligation (dat (F := F) V c) (defs₀ (F := F)) Variants.none () Set.univ := fun t => by
  rw [bigSep_W3, bigSep_W3]
  exact sound_body V c t

end Cert.KernelIdeal.Head

end
-- ==== Proof.KI.Run.lean ====
/-
  The whole program as a run: @main is four stretches of host operations, each followed by one pipelined kernel. The
  contents of the TensorCore's unscoped buffers are followed from the launch through all eight items — a host stretch
  applies its operations, a kernel region changes exactly one array (its result), at what the grid's write-backs leave —
  and every weakly fair execution is shown to end, without a fault, with every unscoped buffer at the last of these
  contents. The result buffer and the twenty-one argument buffers are read off that.
-/
import proofs.«175257_j71588514890561_2_alg».proof.Proof.Patched.KernelIdeal.Regions
import proofs.«175257_j71588514890561_2_alg».proof.Proof.KI.Linear0
import proofs.«175257_j71588514890561_2_alg».proof.Proof.KI.Linear1
import proofs.«175257_j71588514890561_2_alg».proof.Proof.KI.Attn
import proofs.«175257_j71588514890561_2_alg».proof.Proof.KI.Head

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The buffers' contents at each boundary between items -/

/-- Core `c`'s buffers at launch. -/
abbrev W0 : Dev nD → Valuation τ sig (Elt F) := fun c b => m (c, b)

/-- After the host operations before the first linear layer (the region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the region's exit: its arrays at what the pipeline's write-backs leave, every other buffer as entered. -/
def W2 (c : Dev nD) : Valuation τ sig (Elt F) :=
  Pipeline.withArrays spec0 c (W1 m c) fun w => (Linear0.dat (V1 m) c).arrAt w cfg0.N
theorem W2_arr (c : Dev nD) (w : Fin cfg0.W) :
    W2 m c (Proc.devRef .tc (Pipeline.arrRef spec0 w)) = (Linear0.dat (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (Linear0.dat (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- The region changes one array only: every buffer other than `main_v15` leaves as it entered (an input window's array is
    never written back). -/
theorem keep0 (c : Dev nD) (b : Ref sig .tc) (hb : b ≠ main_v15) : W2 m c (Proc.devRef .tc b) = W1 m c (Proc.devRef .tc b) := by
  by_cases h : ∃ w, Pipeline.arrRef spec0 w = b
  · obtain ⟨w, rfl⟩ := h
    rw [W2_arr]
    fin_cases w
    all_goals first
      | exact absurd rfl hb
      | exact ((Linear0.dat (V1 m) c).arrAt_in _ rfl _).trans (Linear0.A_eq (V1 m) c _)
  · exact W2_of_ne m c b fun w e => h ⟨w, e⟩

/-- After the host operations before the second linear layer (the region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the region's exit: its arrays at what the pipeline's write-backs leave, every other buffer as entered. -/
def W4 (c : Dev nD) : Valuation τ sig (Elt F) :=
  Pipeline.withArrays spec1 c (W3 m c) fun w => (Linear1.dat (V3 m) c).arrAt w cfg1.N
theorem W4_arr (c : Dev nD) (w : Fin cfg1.W) :
    W4 m c (Proc.devRef .tc (Pipeline.arrRef spec1 w)) = (Linear1.dat (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (Linear1.dat (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- The region changes one array only: every buffer other than `main_v27` leaves as it entered (an input window's array is
    never written back). -/
theorem keep1 (c : Dev nD) (b : Ref sig .tc) (hb : b ≠ main_v27) : W4 m c (Proc.devRef .tc b) = W3 m c (Proc.devRef .tc b) := by
  by_cases h : ∃ w, Pipeline.arrRef spec1 w = b
  · obtain ⟨w, rfl⟩ := h
    rw [W4_arr]
    fin_cases w
    all_goals first
      | exact absurd rfl hb
      | exact ((Linear1.dat (V3 m) c).arrAt_in _ rfl _).trans (Linear1.A_eq (V3 m) c _)
  · exact W4_of_ne m c b fun w e => h ⟨w, e⟩

/-- After the host operations before the attention-and-pooling kernel (the region's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b
/-- At the region's exit: its arrays at what the pipeline's write-backs leave, every other buffer as entered. -/
def W6 (c : Dev nD) : Valuation τ sig (Elt F) :=
  Pipeline.withArrays spec2 c (W5 m c) fun w => (Attn.dat (V5 m) c).arrAt w cfg2.N
theorem W6_arr (c : Dev nD) (w : Fin cfg2.W) :
    W6 m c (Proc.devRef .tc (Pipeline.arrRef spec2 w)) = (Attn.dat (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (Attn.dat (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)
/-- The region changes one array only: every buffer other than `main_v29` leaves as it entered (an input window's array is
    never written back). -/
theorem keep2 (c : Dev nD) (b : Ref sig .tc) (hb : b ≠ main_v29) : W6 m c (Proc.devRef .tc b) = W5 m c (Proc.devRef .tc b) := by
  by_cases h : ∃ w, Pipeline.arrRef spec2 w = b
  · obtain ⟨w, rfl⟩ := h
    rw [W6_arr]
    fin_cases w
    all_goals first
      | exact absurd rfl hb
      | exact ((Attn.dat (V5 m) c).arrAt_in _ rfl _).trans (Attn.A_eq (V5 m) c _)
  · exact W6_of_ne m c b fun w e => h ⟨w, e⟩

/-- After the host operations before the classifier head (the region's entry). -/
abbrev W7 : Dev nD → Valuation τ sig (Elt F) := fun c => StableHlo.after hostOps3 (W6 m c)
abbrev V7 : (c : Dev nD) → (b : Ref sig .tc) → Buf (Elt F) ((c : Thread nD τ).loc b) := fun c b => W7 m c b
/-- At the region's exit: its arrays at what the pipeline's write-backs leave, every other buffer as entered. -/
def W8 (c : Dev nD) : Valuation τ sig (Elt F) :=
  Pipeline.withArrays spec3 c (W7 m c) fun w => (Head.dat (V7 m) c).arrAt w cfg3.N
theorem W8_arr (c : Dev nD) (w : Fin cfg3.W) :
    W8 m c (Proc.devRef .tc (Pipeline.arrRef spec3 w)) = (Head.dat (V7 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
abbrev V8 : (c : Dev nD) → (b : Ref sig .tc) → Buf (Elt F) ((c : Thread nD τ).loc b) := fun c b => W8 m c b
theorem hF3 (c : Dev nD) (w : Fin cfg3.W) : (Head.dat (V7 m) c).arrAt w cfg3.N = V8 m c (Pipeline.arrRef spec3 w) :=
  (W8_arr m c w).symm
theorem hrest3 (c : Dev nD) : ∀ b, b ∉ Finset.univ.image (Pipeline.arrRef spec3) → V8 m c b = V7 m c b :=
  fun b hb => W8_of_ne m c b fun w e => hb (Finset.mem_image.mpr ⟨w, Finset.mem_univ _, e⟩)
/-- The region changes one array only: every buffer other than `main_v50` leaves as it entered (an input window's array is
    never written back). -/
theorem keep3 (c : Dev nD) (b : Ref sig .tc) (hb : b ≠ main_v50) : W8 m c (Proc.devRef .tc b) = W7 m c (Proc.devRef .tc b) := by
  by_cases h : ∃ w, Pipeline.arrRef spec3 w = b
  · obtain ⟨w, rfl⟩ := h
    rw [W8_arr]
    fin_cases w
    all_goals first
      | exact absurd rfl hb
      | exact ((Head.dat (V7 m) c).arrAt_in _ rfl _).trans (Head.A_eq (V7 m) c _)
  · exact W8_of_ne m c b fun w e => h ⟨w, e⟩

/-! ## What no item writes -/

/-- A buffer that no host operation writes and that is no kernel's result ends as launched. -/
theorem W8_keep (c : Dev nD) (b : Ref sig .tc) (h0 : b ∉ (hostOps0_W : List (Ref sig .tc))) (h1 : b ∉ (hostOps1_W : List (Ref sig .tc)))
    (h2 : b ∉ (hostOps2_W : List (Ref sig .tc))) (h3 : b ∉ (hostOps3_W : List (Ref sig .tc)))
    (n0 : b ≠ main_v15) (n1 : b ≠ main_v27) (n2 : b ≠ main_v29) (n3 : b ≠ main_v50) :
    W8 m c (Proc.devRef .tc b) = m ((c : Thread nD τ).loc b) :=
  (keep3 m c b n3).trans <| (StableHlo.after_of_writes_sub hostOps3 _ hostOps3_writes h3).trans <|
  (keep2 m c b n2).trans <| (StableHlo.after_of_writes_sub hostOps2 _ hostOps2_writes h2).trans <|
  (keep1 m c b n1).trans <| (StableHlo.after_of_writes_sub hostOps1 _ hostOps1_writes h1).trans <|
  (keep0 m c b n0).trans <| (StableHlo.after_of_writes_sub hostOps0 _ hostOps0_writes h0)

/-! ## The proof data family and the thread state -/

abbrev adm : (p : Fin 4) → (pcfgs (F := F) p).Adm := fun p => (cfgs p).toPCfg_adm

/-- Every pipeline's proof data, each at its own region's entry contents. -/
def pdats : (p : Fin 4) → (c : Dev nD) → Dat τ (Elt F) Unit ℕ (UR sig nD τ) ℕ (Pipeline.pin (pcfgs (F := F)) adm p) c
  | ⟨0, _⟩ => fun c => Linear0.dat (V1 m) c
  | ⟨1, _⟩ => fun c => Linear1.dat (V3 m) c
  | ⟨2, _⟩ => fun c => Attn.dat (V5 m) c
  | ⟨3, _⟩ => fun c => Head.dat (V7 m) c

abbrev 𝒱₀ : Variants := Variants.none
abbrev L : GSem nD τ sig → Finset Unit := fun _ => ∅
abbrev lv : GSem nD τ sig → Unit → ℕ := fun _ _ => 0

/-- What rides beside the buffers through every item: the core's generator register at some state, and the core owing
    nothing. -/
abbrev R (c : Dev nD) : sProp 𝕄 := iprop((∃ r, prngReg c r) ∗ ∃ W, owes (c : Thread nD τ) (0 : CellTallies nD τ sig Unit) W)

/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m c) ∗ ∃ r, prngReg c r)

/-! ## The kernel regions as segments -/

set_option backward.isDefEq.respectTransparency.types false in
/-- The region of the first linear layer over the thread state: entered with every unscoped buffer at `W1`, left with them at
    `W2`. Its arrays are split out of the unscoped buffers and put back at the exit contents; the generator register goes
    into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Linear0.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of the second linear layer over the thread state: entered with every unscoped buffer at `W3`, left with them at
    `W4`. Its arrays are split out of the unscoped buffers and put back at the exit contents; the generator register goes
    into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Linear1.body_obligation (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of the attention-and-pooling kernel over the thread state: entered with every unscoped buffer at `W5`, left with them at
    `W6`. Its arrays are split out of the unscoped buffers and put back at the exit contents; the generator register goes
    into the invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (Attn.body_obligation (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The region of the classifier head over the thread state: entered with every unscoped buffer at `W7`, left with them at
    `W8`. Its arrays are split out of the unscoped buffers and put back at the exit contents; the generator register goes
    into the invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (Head.body_obligation (V7 m) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (V7 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V7 m c) (V8 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as its segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m) ]

set_option backward.isDefEq.respectTransparency.types false in
/-- Every weakly fair execution of @main from memory `m` with zero counters terminates, nothing faulting, and every final
    state holds each unscoped buffer at the last boundary's contents `W8`. -/
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show iprop(StableHlo.held (c : Thread nD τ) (Pipeline.ucRefs τ sig) (W8 m c) ∗ R c) ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

/-- The frame: every weakly fair execution terminates, nothing faulting, and each of the twenty-one argument arrays ends
    as launched — none is written by a host operation, and none is a kernel's result. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨(h c _ (mem_uc main_arg0 (by decide))).trans (W8_keep m c main_arg0 (by decide) (by decide) (by decide) (by decide) (by decide) (by decide) (by decide) (by decide)),
      (h c _ (mem_uc main_arg1 (by decide))).trans (W8_keep m c main_arg1 (by decide) (by decide) (by decide) (by decide) (by decide) (by decide) (by decide) (by decide)),
      (h c _ (mem_uc main_arg2 (by decide))).trans (W8_keep m c main_arg2 (by decide) (by decide) (by decide) (by decide) (by decide) (by decide) (by decide) (by decide)),
      (h c _ (mem_uc main_arg3 (by decide))).trans (W8_keep m c main_arg3 (by decide) (by decide) (by decide) (by decide) (by decide) (by decide) (by decide) (by decide)),
      (h c _ (mem_uc main_arg4 (by decide))).trans (W8_keep m c main_arg4 (by decide) (by decide) (by decide) (by decide) (by decide) (by decide) (by decide) (by decide)),
      (h c _ (mem_uc main_arg5 (by decide))).trans (W8_keep m c main_arg5 (by decide) (by decide) (by decide) (by decide) (by decide) (by decide) (by decide) (by decide)),
      (h c _ (mem_uc main_arg6 (by decide))).trans (W8_keep m c main_arg6 (by decide) (by decide) (by decide) (by decide) (by decide) (by decide) (by decide) (by decide)),
      (h c _ (mem_uc main_arg7 (by decide))).trans (W8_keep m c main_arg7 (by decide) (by decide) (by decide) (by decide) (by decide) (by decide) (by decide) (by decide)),
      (h c _ (mem_uc main_arg8 (by decide))).trans (W8_keep m c main_arg8 (by decide) (by decide) (by decide) (by decide) (by decide) (by decide) (by decide) (by decide)),
      (h c _ (mem_uc main_arg9 (by decide))).trans (W8_keep m c main_arg9 (by decide) (by decide) (by decide) (by decide) (by decide) (by decide) (by decide) (by decide)),
      (h c _ (mem_uc main_arg10 (by decide))).trans (W8_keep m c main_arg10 (by decide) (by decide) (by decide) (by decide) (by decide) (by decide) (by decide) (by decide)),
      (h c _ (mem_uc main_arg11 (by decide))).trans (W8_keep m c main_arg11 (by decide) (by decide) (by decide) (by decide) (by decide) (by decide) (by decide) (by decide)),
      (h c _ (mem_uc main_arg12 (by decide))).trans (W8_keep m c main_arg12 (by decide) (by decide) (by decide) (by decide) (by decide) (by decide) (by decide) (by decide)),
      (h c _ (mem_uc main_arg13 (by decide))).trans (W8_keep m c main_arg13 (by decide) (by decide) (by decide) (by decide) (by decide) (by decide) (by decide) (by decide)),
      (h c _ (mem_uc main_arg14 (by decide))).trans (W8_keep m c main_arg14 (by decide) (by decide) (by decide) (by decide) (by decide) (by decide) (by decide) (by decide)),
      (h c _ (mem_uc main_arg15 (by decide))).trans (W8_keep m c main_arg15 (by decide) (by decide) (by decide) (by decide) (by decide) (by decide) (by decide) (by decide)),
      (h c _ (mem_uc main_arg16 (by decide))).trans (W8_keep m c main_arg16 (by decide) (by decide) (by decide) (by decide) (by decide) (by decide) (by decide) (by decide)),
      (h c _ (mem_uc main_arg17 (by decide))).trans (W8_keep m c main_arg17 (by decide) (by decide) (by decide) (by decide) (by decide) (by decide) (by decide) (by decide)),
      (h c _ (mem_uc main_arg18 (by decide))).trans (W8_keep m c main_arg18 (by decide) (by decide) (by decide) (by decide) (by decide) (by decide) (by decide) (by decide)),
      (h c _ (mem_uc main_arg19 (by decide))).trans (W8_keep m c main_arg19 (by decide) (by decide) (by decide) (by decide) (by decide) (by decide) (by decide) (by decide)),
      (h c _ (mem_uc main_arg20 (by decide))).trans (W8_keep m c main_arg20 (by decide) (by decide) (by decide) (by decide) (by decide) (by decide) (by decide) (by decide))⟩) (run m ρ)

/-- The same run with the result named: the last kernel's output array ends at the last boundary's contents. -/
theorem run_result (ρ : Dev nD → PrngReg) : θ_run defs (onTc (τ := τ) (main (F := F))) ⟨m, fun _ => 0, ρ⟩ (fun r => ∀ c : Dev nD,
      r.2.mem ((c.tc : Thread nD τ).loc main_v50) = W8 m c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    ⟨h c _ (mem_uc main_v50 (by decide)),
      (h c _ (mem_uc main_arg0 (by decide))).trans (W8_keep m c main_arg0 (by decide) (by decide) (by decide) (by decide) (by decide) (by decide) (by decide) (by decide)),
      (h c _ (mem_uc main_arg1 (by decide))).trans (W8_keep m c main_arg1 (by decide) (by decide) (by decide) (by decide) (by decide) (by decide) (by decide) (by decide)),
      (h c _ (mem_uc main_arg2 (by decide))).trans (W8_keep m c main_arg2 (by decide) (by decide) (by decide) (by decide) (by decide) (by decide) (by decide) (by decide)),
      (h c _ (mem_uc main_arg3 (by decide))).trans (W8_keep m c main_arg3 (by decide) (by decide) (by decide) (by decide) (by decide) (by decide) (by decide) (by decide)),
      (h c _ (mem_uc main_arg4 (by decide))).trans (W8_keep m c main_arg4 (by decide) (by decide) (by decide) (by decide) (by decide) (by decide) (by decide) (by decide)),
      (h c _ (mem_uc main_arg5 (by decide))).trans (W8_keep m c main_arg5 (by decide) (by decide) (by decide) (by decide) (by decide) (by decide) (by decide) (by decide)),
      (h c _ (mem_uc main_arg6 (by decide))).trans (W8_keep m c main_arg6 (by decide) (by decide) (by decide) (by decide) (by decide) (by decide) (by decide) (by decide)),
      (h c _ (mem_uc main_arg7 (by decide))).trans (W8_keep m c main_arg7 (by decide) (by decide) (by decide) (by decide) (by decide) (by decide) (by decide) (by decide)),
      (h c _ (mem_uc main_arg8 (by decide))).trans (W8_keep m c main_arg8 (by decide) (by decide) (by decide) (by decide) (by decide) (by decide) (by decide) (by decide)),
      (h c _ (mem_uc main_arg9 (by decide))).trans (W8_keep m c main_arg9 (by decide) (by decide) (by decide) (by decide) (by decide) (by decide) (by decide) (by decide)),
      (h c _ (mem_uc main_arg10 (by decide))).trans (W8_keep m c main_arg10 (by decide) (by decide) (by decide) (by decide) (by decide) (by decide) (by decide) (by decide)),
      (h c _ (mem_uc main_arg11 (by decide))).trans (W8_keep m c main_arg11 (by decide) (by decide) (by decide) (by decide) (by decide) (by decide) (by decide) (by decide)),
      (h c _ (mem_uc main_arg12 (by decide))).trans (W8_keep m c main_arg12 (by decide) (by decide) (by decide) (by decide) (by decide) (by decide) (by decide) (by decide)),
      (h c _ (mem_uc main_arg13 (by decide))).trans (W8_keep m c main_arg13 (by decide) (by decide) (by decide) (by decide) (by decide) (by decide) (by decide) (by decide)),
      (h c _ (mem_uc main_arg14 (by decide))).trans (W8_keep m c main_arg14 (by decide) (by decide) (by decide) (by decide) (by decide) (by decide) (by decide) (by decide)),
      (h c _ (mem_uc main_arg15 (by decide))).trans (W8_keep m c main_arg15 (by decide) (by decide) (by decide) (by decide) (by decide) (by decide) (by decide) (by decide)),
      (h c _ (mem_uc main_arg16 (by decide))).trans (W8_keep m c main_arg16 (by decide) (by decide) (by decide) (by decide) (by decide) (by decide) (by decide) (by decide)),
      (h c _ (mem_uc main_arg17 (by decide))).trans (W8_keep m c main_arg17 (by decide) (by decide) (by decide) (by decide) (by decide) (by decide) (by decide) (by decide)),
      (h c _ (mem_uc main_arg18 (by decide))).trans (W8_keep m c main_arg18 (by decide) (by decide) (by decide) (by decide) (by decide) (by decide) (by decide) (by decide)),
      (h c _ (mem_uc main_arg19 (by decide))).trans (W8_keep m c main_arg19 (by decide) (by decide) (by decide) (by decide) (by decide) (by decide) (by decide) (by decide)),
      (h c _ (mem_uc main_arg20 (by decide))).trans (W8_keep m c main_arg20 (by decide) (by decide) (by decide) (by decide) (by decide) (by decide) (by decide) (by decide))⟩) (run m ρ)

end Cert.KernelIdeal.Run

end
-- ==== Proof.Frames.lean ====
/-
  Three of the claim's five parts, and the idealization's one rewrite.

  * Each kernel program — the word-level one and its idealization — is four stretches of host operations, each followed
    by one pipelined kernel. Its run (module Run) ends with every unscoped buffer at the contents followed through those
    eight items, and no item writes an argument array: the frame.
  * The reference is host operations only; its frame is its run with the result forgotten.
  * The idealization differs from the word-level program in one constant: the attention scale, whose single-precision
    pattern is read as the rational 1048576 / 11863283, the exact inverse of the reference's divisor.
-/
import proofs.«175257_j71588514890561_2_alg».proof.Defs
import proofs.«175257_j71588514890561_2_alg».proof.Proof.Gen.Kernel
import proofs.«175257_j71588514890561_2_alg».proof.Proof.Gen.KernelIdeal
import proofs.«175257_j71588514890561_2_alg».proof.Proof.Gen.ReferenceIdeal
import proofs.«175257_j71588514890561_2_alg».proof.Proof.Gen.Pre_finite_inputs
import proofs.«175257_j71588514890561_2_alg».proof.Proof.Patched.ReferenceIdeal.Run
import proofs.«175257_j71588514890561_2_alg».proof.Proof.K.Run
import proofs.«175257_j71588514890561_2_alg».proof.Proof.KI.Run

noncomputable section

namespace Cert.Proof.Frames

open Idealize.ShloMosaic Idealize.ShloMosaic.TcCoe Idealize.SL.Sem

theorem frame_k : Cert.frame_Kernel := fun m ρ _ => Cert.Kernel.Run.frame (F := Bits) m ρ

theorem frame_ki : Cert.frame_KernelIdeal := fun m ρ _ => Cert.KernelIdeal.Run.frame (F := Ideal) m ρ

theorem frame_ri : Cert.frame_ReferenceIdeal := fun m ρ _ =>
  (θ_run Cert.ReferenceIdeal.defs _ _).mono (fun _ h c => (h c).2) (Cert.ReferenceIdeal.ValueP.run (F := Ideal) m ρ)

/-- The ledger's one entry: the table gives the attention scale's name the value 1048576 / 11863283, and the printed
    constant is that value at the ideal instance. -/
theorem preserves : Cert.preserves_Kernel_KernelIdeal :=
  IdealRules.named_const.statement Cert.KernelIdeal.κ "inv_sqrt_hid" .f32 0x3DB504F3#32 ((1048576 / 11863283 : ℝ) : EReal) rfl

end Cert.Proof.Frames

end
-- ==== Proof.KI.Keep.lean ====
/-
  What each kernel region finds in the buffers it does not itself produce: an argument array is as launched at every
  boundary (no host operation writes it, no region changes it), and a kernel's result stays what the kernel left until the
  end (later host operations write only their own fresh results, later regions only their own).
-/
import proofs.«175257_j71588514890561_2_alg».proof.Proof.KI.Run

set_option maxRecDepth 16384

noncomputable section

namespace Cert.KernelIdeal.Run

open Cert.KernelIdeal Cert.KernelIdeal.Gen Cert.KernelIdeal.GenP
open Idealize.ShloMosaic Idealize.ShloMosaic.TcCoe Idealize.SL.Sem

variable {F : FTy → Type} [FloatOps F] [Named F]
variable (m : (ℓ : Loc nD τ sig) → Buf (Elt F) ℓ)

theorem W1_keep (c : Dev nD) (b : Ref sig .tc) (h0 : b ∉ (hostOps0_W : List (Ref sig .tc))) :
    W1 m c (Proc.devRef .tc b) = m ((c : Thread nD τ).loc b) :=
  StableHlo.after_of_writes_sub hostOps0 _ hostOps0_writes h0

theorem W3_of_W2 (c : Dev nD) (b : Ref sig .tc) (h1 : b ∉ (hostOps1_W : List (Ref sig .tc))) :
    W3 m c (Proc.devRef .tc b) = W2 m c (Proc.devRef .tc b) :=
  StableHlo.after_of_writes_sub hostOps1 _ hostOps1_writes h1

theorem W3_keep (c : Dev nD) (b : Ref sig .tc) (h0 : b ∉ (hostOps0_W : List (Ref sig .tc))) (h1 : b ∉ (hostOps1_W : List (Ref sig .tc)))
    (n0 : b ≠ main_v15) : W3 m c (Proc.devRef .tc b) = m ((c : Thread nD τ).loc b) :=
  (W3_of_W2 m c b h1).trans <| (keep0 m c b n0).trans <| W1_keep m c b h0

theorem W5_of_W4 (c : Dev nD) (b : Ref sig .tc) (h2 : b ∉ (hostOps2_W : List (Ref sig .tc))) :
    W5 m c (Proc.devRef .tc b) = W4 m c (Proc.devRef .tc b) :=
  StableHlo.after_of_writes_sub hostOps2 _ hostOps2_writes h2

theorem W5_keep (c : Dev nD) (b : Ref sig .tc) (h0 : b ∉ (hostOps0_W : List (Ref sig .tc))) (h1 : b ∉ (hostOps1_W : List (Ref sig .tc)))
    (h2 : b ∉ (hostOps2_W : List (Ref sig .tc))) (n0 : b ≠ main_v15) (n1 : b ≠ main_v27) :
    W5 m c (Proc.devRef .tc b) = m ((c : Thread nD τ).loc b) :=
  (W5_of_W4 m c b h2).trans <| (keep1 m c b n1).trans <| W3_keep m c b h0 h1 n0

theorem W7_of_W6 (c : Dev nD) (b : Ref sig .tc) (h3 : b ∉ (hostOps3_W : List (Ref sig .tc))) :
    W7 m c (Proc.devRef .tc b) = W6 m c (Proc.devRef .tc b) :=
  StableHlo.after_of_writes_sub hostOps3 _ hostOps3_writes h3

theorem W7_keep (c : Dev nD) (b : Ref sig .tc) (h0 : b ∉ (hostOps0_W : List (Ref sig .tc))) (h1 : b ∉ (hostOps1_W : List (Ref sig .tc)))
    (h2 : b ∉ (hostOps2_W : List (Ref sig .tc))) (h3 : b ∉ (hostOps3_W : List (Ref sig .tc)))
    (n0 : b ≠ main_v15) (n1 : b ≠ main_v27) (n2 : b ≠ main_v29) : W7 m c (Proc.devRef .tc b) = m ((c : Thread nD τ).loc b) :=
  (W7_of_W6 m c b h3).trans <| (keep2 m c b n2).trans <| W5_keep m c b h0 h1 h2 n0 n1

/-- The first layer's output, where the last host stretch reads it: still what the first kernel left. -/
theorem W6_v15 (c : Dev nD) : W6 m c (Proc.devRef .tc main_v15) = W2 m c (Proc.devRef .tc main_v15) :=
  (keep2 m c main_v15 (by decide)).trans <| (W5_of_W4 m c main_v15 (by decide)).trans <|
  (keep1 m c main_v15 (by decide)).trans <| W3_of_W2 m c main_v15 (by decide)

/-- The second layer's output, where the reshape before the attention kernel reads it. -/
theorem W4_v27_arr (c : Dev nD) : W4 m c (Proc.devRef .tc main_v27) = (Linear1.dat (V3 m) c).arrAt 4 cfg1.N := W4_arr m c 4

theorem W2_v15_arr (c : Dev nD) : W2 m c (Proc.devRef .tc main_v15) = (Linear0.dat (V1 m) c).arrAt 4 cfg0.N := W2_arr m c 4

theorem W6_v29_arr (c : Dev nD) : W6 m c (Proc.devRef .tc main_v29) = (Attn.dat (V5 m) c).arrAt 2 cfg2.N := W6_arr m c 2

theorem W8_v50_arr (c : Dev nD) : W8 m c (Proc.devRef .tc main_v50) = (Head.dat (V7 m) c).arrAt 15 cfg3.N := W8_arr m c 15

end Cert.KernelIdeal.Run

end
-- ==== Proof.KI.Linear0Value.lean ====
/-
  The first linear layer's kernel, read as a value at the ideal instance: the array it leaves is, index by index,
  `(∑ k, (x[r, k] + s[r, k]) · W[k, j]) + b[0, j]` of the arrays the region finds. One call of the body computes that on a
  block of 4032 rows (a matrix product into a zero accumulator is the plain sum over the contracted axis; the change of
  format before it is the identity on extended reals); grid point `t` reads rows 4032·t … of `x` and `s`, all of `W` and
  `b`, and writes back the same rows of the result; the sixteen points' blocks cover all 64512 rows.
-/
import proofs.«175257_j71588514890561_2_alg».proof.Proof.KI.Linear0
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Linear0

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat)

/-! ## One call of the body, index by index -/

/-- Row `j 0`, column `k` of a block of `x` or `s`. -/
abbrev bl (j : S4032x128.Idx) (k : Fin 84) : S4032x84.Idx := fun a => match a with
  | ⟨0, _⟩ => ⟨(j 0).val, (j 0).isLt⟩
  | ⟨1, _⟩ => ⟨k.val, k.isLt⟩
/-- Row `k`, column `j 1` of the weights. -/
abbrev br (j : S4032x128.Idx) (k : Fin 84) : S84x128.Idx := fun a => match a with
  | ⟨0, _⟩ => ⟨k.val, k.isLt⟩
  | ⟨1, _⟩ => ⟨(j 1).val, (j 1).isLt⟩
/-- Column `j 1` of the bias row. -/
abbrev bb (j : S4032x128.Idx) : S1x128.Idx := fun a => match a with
  | ⟨0, _⟩ => ⟨0, Nat.one_pos⟩
  | ⟨1, _⟩ => ⟨(j 1).val, (j 1).isLt⟩

theorem lhs_row (j : S4032x128.Idx) (q : dot_S4032x84_S84x128_S4032x128_1_0_0_1_n_n.contr.Idx) : (dot_S4032x84_S84x128_S4032x128_1_0_0_1_n_n.lhsIdx j q 0).val = (j 0).val := by
  unfold DotDims.lhsIdx
  rw [dif_neg (show ¬(0 : Fin S4032x84.rank) ∈ dot_S4032x84_S84x128_S4032x128_1_0_0_1_n_n.lhsBatch by decide), dif_pos (show (0 : Fin S4032x84.rank) ∈ dot_S4032x84_S84x128_S4032x128_1_0_0_1_n_n.lhsNonContracting by decide)]
  rfl
theorem rhs_col (j : S4032x128.Idx) (q : dot_S4032x84_S84x128_S4032x128_1_0_0_1_n_n.contr.Idx) : (dot_S4032x84_S84x128_S4032x128_1_0_0_1_n_n.rhsIdx j q 1).val = (j 1).val := by
  unfold DotDims.rhsIdx
  rw [dif_neg (show ¬(1 : Fin S84x128.rank) ∈ dot_S4032x84_S84x128_S4032x128_1_0_0_1_n_n.rhsBatch by decide), dif_pos (show (1 : Fin S84x128.rank) ∈ dot_S4032x84_S84x128_S4032x128_1_0_0_1_n_n.rhsNonContracting by decide)]
  rfl

/-- The body's stored value at an index of the block: the sum over the 84 features of (x + s) times the weight, plus the
    bias of the column. -/
theorem pay_apply (x s : Vec Ideal S4032x84 .f32) (W : Vec Ideal S84x128 .f32) (b : Vec Ideal S1x128 .f32) (j : S4032x128.Idx) :
    k0_pay1 (F := Ideal) x s W b j = (∑ k : Fin 84, (x (bl j k) + s (bl j k)) * W (br j k)) + b (bb j) := by
  unfold k0_pay1
  rw [shapeCast_self, shapeCast_self, addf_apply]
  refine congrArg₂ (· + ·) ?_ ?_
  · refine (Ideal.matmul_constant_zero_apply dot_S4032x84_S84x128_S4032x128_1_0_0_1_n_n none _ _ j).trans ?_
    rw [← Equiv.sum_comp (contrEquiv1 dot_S4032x84_S84x128_S4032x128_1_0_0_1_n_n 84 rfl rfl).symm]
    refine Finset.sum_congr rfl fun k _ => ?_
    have hk := contrEquiv1_symm_val dot_S4032x84_S84x128_S4032x128_1_0_0_1_n_n 84 rfl rfl k
    have el : dot_S4032x84_S84x128_S4032x128_1_0_0_1_n_n.lhsIdx j ((contrEquiv1 dot_S4032x84_S84x128_S4032x128_1_0_0_1_n_n 84 rfl rfl).symm k) = bl j k := funext fun a => Fin.ext (by
      match a with
      | ⟨0, _⟩ => exact lhs_row _ _
      | ⟨1, _⟩ => exact (dot_S4032x84_S84x128_S4032x128_1_0_0_1_n_n.lhsIdx_val_of_single rfl j _).trans hk)
    have er : dot_S4032x84_S84x128_S4032x128_1_0_0_1_n_n.rhsIdx j ((contrEquiv1 dot_S4032x84_S84x128_S4032x128_1_0_0_1_n_n 84 rfl rfl).symm k) = br j k := funext fun a => Fin.ext (by
      match a with
      | ⟨0, _⟩ => exact (dot_S4032x84_S84x128_S4032x128_1_0_0_1_n_n.rhsIdx_val_of_single rfl j _).trans hk
      | ⟨1, _⟩ => exact rhs_col _ _)
    rw [el, er]
    rfl
  · exact broadcastTo_apply _ broadcasts_S1x128_S4032x128 j (bb j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])

/-! ## The whole array -/

abbrev gl (i : S64512x128.Idx) (k : Fin 84) : S64512x84.Idx := fun a => match a with
  | ⟨0, _⟩ => ⟨(i 0).val, (i 0).isLt⟩
  | ⟨1, _⟩ => ⟨k.val, k.isLt⟩
abbrev gr (i : S64512x128.Idx) (k : Fin 84) : S84x128.Idx := fun a => match a with
  | ⟨0, _⟩ => ⟨k.val, k.isLt⟩
  | ⟨1, _⟩ => ⟨(i 1).val, (i 1).isLt⟩
abbrev gb (i : S64512x128.Idx) : S1x128.Idx := fun a => match a with
  | ⟨0, _⟩ => ⟨0, Nat.one_pos⟩
  | ⟨1, _⟩ => ⟨(i 1).val, (i 1).isLt⟩

/-- The layer on whole arrays: node features `x`, neighbour sums `s`, weights `W`, bias row `b`. -/
def G (x s : S64512x84.Idx → Elt Ideal .f32) (W : S84x128.Idx → Elt Ideal .f32) (b : S1x128.Idx → Elt Ideal .f32) :
    S64512x128.Idx → Elt Ideal .f32 :=
  fun i => (∑ k : Fin 84, (x (gl i k) + s (gl i k)) * W (gr i k)) + b (gb i)

theorem hz : (![0, 0] : Fin 2 → Nat) = fun _ => 0 := funext fun a => by fin_cases a <;> rfl

/-- The printed index maps over the grid: point `t` takes block row `t` of `x`, of `s` and of the result, and the one block
    of `W` and of `b`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (V : (c : Dev nD) → (b : Ref sig .tc) → Buf (Elt Ideal) ((c : Thread nD τ).loc b))

/-- What point `t` writes back is block `t` of `G` of the arrays as the region finds them. -/
theorem flushed_eq (c : Dev nD) (t : Fin cfg0.N) :
    (dat V c).flushed 4 t = ((cfg0.win 4).blk t).view.read (Elt Ideal) (G (V c main_arg0) (V c main_v13) (V c main_arg3) (V c main_v14)) := by
  show (cfg0.win 4).cut (grid0.coords t) ((dat V c).after 4 t) = _
  rw [after_4]
  unfold out
  rw [View.canon_unit_zero hz]
  simp only [View.ld_unit_zero (S := S4032x84) hz, View.ld_unit_zero (S := S84x128) hz, View.ld_unit_zero (S := S1x128) hz]
  obtain ⟨e00, e01, e10, e11, e20, e21, e30, e31, e40, e41⟩ := idx_facts t
  funext j
  show k0_pay1 (F := Ideal) (blk V c 0 t) (blk V c 1 t) (blk V c 2 t) (blk V c 3 t) j
    = G (V c main_arg0) (V c main_v13) (V c main_arg3) (V c main_v14) (((cfg0.win 4).blk t).view.emb j)
  rw [pay_apply]
  have hj0 : (j 0).val < 4032 := (j 0).isLt
  have hj1 : (j 1).val < 128 := (j 1).isLt
  have hx : ∀ k : Fin 84, ((cfg0.win 0).blk t).view.emb (bl j k) = gl (((cfg0.win 4).blk t).view.emb j) k := fun k => by
    funext a; apply Fin.ext
    match a with
    | ⟨0, _⟩ => show win0_0.index t (0 : Fin 2) * 4032 + 1 * (j 0).val = win0_4.index t (0 : Fin 2) * 4032 + 1 * (j 0).val; omega
    | ⟨1, _⟩ => show win0_0.index t (1 : Fin 2) * 84 + 1 * k.val = k.val; omega
  have hs : ∀ k : Fin 84, ((cfg0.win 1).blk t).view.emb (bl j k) = gl (((cfg0.win 4).blk t).view.emb j) k := fun k => by
    funext a; apply Fin.ext
    match a with
    | ⟨0, _⟩ => show win0_1.index t (0 : Fin 2) * 4032 + 1 * (j 0).val = win0_4.index t (0 : Fin 2) * 4032 + 1 * (j 0).val; omega
    | ⟨1, _⟩ => show win0_1.index t (1 : Fin 2) * 84 + 1 * k.val = k.val; omega
  have hW : ∀ k : Fin 84, ((cfg0.win 2).blk t).view.emb (br j k) = gr (((cfg0.win 4).blk t).view.emb j) k := fun k => by
    funext a; apply Fin.ext
    match a with
    | ⟨0, _⟩ => show win0_2.index t (0 : Fin 2) * 84 + 1 * k.val = k.val; omega
    | ⟨1, _⟩ => show win0_2.index t (1 : Fin 2) * 128 + 1 * (j 1).val = win0_4.index t (1 : Fin 2) * 128 + 1 * (j 1).val; omega
  have hb : ((cfg0.win 3).blk t).view.emb (bb j) = gb (((cfg0.win 4).blk t).view.emb j) := by
    funext a; apply Fin.ext
    match a with
    | ⟨0, _⟩ => show win0_3.index t (0 : Fin 2) * 1 + 1 * 0 = 0; omega
    | ⟨1, _⟩ => show win0_3.index t (1 : Fin 2) * 128 + 1 * (j 1).val = win0_4.index t (1 : Fin 2) * 128 + 1 * (j 1).val; omega
  unfold G
  refine congrArg₂ (· + ·) (Finset.sum_congr rfl fun k _ => congrArg₂ (· * ·) (congrArg₂ (· + ·) ?_ ?_) ?_) ?_
  · exact congrArg (V c main_arg0) (hx k)
  · exact congrArg (V c main_v13) (hs k)
  · exact congrArg (V c main_arg3) (hW k)
  · exact congrArg (V c main_v14) hb

/-- An index of the result is in point `t`'s block iff its row is among the point's 4032 rows. -/
theorem mem_blk (t : Fin cfg0.N) (i : S64512x128.Idx) :
    i ∈ ((cfg0.win 4).blk t).view.set ↔ ∀ a : Fin 2, win0_4.index t a * S4032x128.size a ≤ (i a).val ∧ (i a).val < win0_4.index t a * S4032x128.size a + S4032x128.size a := by
  show i ∈ ((View.whole main_v15).slice (win0_4.rect t)).set ↔ _
  rw [View.set_slice_whole, Rect.mem_set_unit]
  exact Iff.rfl

/-- Every row of the result lies in the block of the point `row / 4032`. -/
theorem rows_covered (i : S64512x128.Idx) : ∃ t : Fin cfg0.N, (cfg0.win 4).flush t = true ∧ i ∈ ((cfg0.win 4).blk t).view.set := by
  have hi0 : (i 0).val < 64512 := (i 0).isLt
  have hi1 : (i 1).val < 128 := (i 1).isLt
  have hN : cfg0.N = 16 := N_0
  refine ⟨⟨(i 0).val / 4032, by rw [hN]; omega⟩, flush0_4 _, ?_⟩
  rw [mem_blk]
  obtain ⟨-, -, -, -, -, -, -, -, e40, e41⟩ := idx_facts ⟨(i 0).val / 4032, by rw [hN]; omega⟩
  intro a
  match a with
  | ⟨0, _⟩ => show win0_4.index _ (0 : Fin 2) * 4032 ≤ (i 0).val ∧ (i 0).val < win0_4.index _ (0 : Fin 2) * 4032 + 4032; rw [e40]; dsimp only; omega
  | ⟨1, _⟩ => show win0_4.index _ (1 : Fin 2) * 128 ≤ (i 1).val ∧ (i 1).val < win0_4.index _ (1 : Fin 2) * 128 + 128; rw [e41]; omega

/-- The result's array after the region: `G` of the arrays the region finds. -/
theorem final (c : Dev nD) :
    (dat V c).arrAt 4 cfg0.N = G (V c main_arg0) (V c main_v13) (V c main_arg3) (V c main_v14) :=
  (dat V c).arrAt_eq_of_cover 4 _ (fun t _ => flushed_eq V c t) rows_covered

end Cert.KernelIdeal.Linear0

end
-- ==== Proof.KI.Linear1Value.lean ====
/-
  The second linear layer's kernel, read as a value at the ideal instance: the array it leaves is, index by index,
  `(∑ k, (h[r, k] + s[r, k]) · W[k, j]) + b[0, j]` of the arrays the region finds, `h` the first layer's output and `s` its
  neighbour sums. One call of the body computes that on a block of 4032 rows (a matrix product into a zero accumulator is
  the plain sum over the contracted axis; the change of format before it is the identity on extended reals); grid point
  `t` reads rows 4032·t … of `h` and `s`, all of `W` and `b`, and writes back the same rows of the result; the sixteen
  points' blocks cover all 64512 rows.
-/
import proofs.«175257_j71588514890561_2_alg».proof.Proof.KI.Linear1
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Linear1

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat)

/-! ## One call of the body, index by index -/

/-- Row `j 0`, column `k` of a block of `x` or `s`. -/
abbrev bl (j : S4032x128.Idx) (k : Fin 128) : S4032x128.Idx := fun a => match a with
  | ⟨0, _⟩ => ⟨(j 0).val, (j 0).isLt⟩
  | ⟨1, _⟩ => ⟨k.val, k.isLt⟩
/-- Row `k`, column `j 1` of the weights. -/
abbrev br (j : S4032x128.Idx) (k : Fin 128) : S128x128.Idx := fun a => match a with
  | ⟨0, _⟩ => ⟨k.val, k.isLt⟩
  | ⟨1, _⟩ => ⟨(j 1).val, (j 1).isLt⟩
/-- Column `j 1` of the bias row. -/
abbrev bb (j : S4032x128.Idx) : S1x128.Idx := fun a => match a with
  | ⟨0, _⟩ => ⟨0, Nat.one_pos⟩
  | ⟨1, _⟩ => ⟨(j 1).val, (j 1).isLt⟩

theorem lhs_row (j : S4032x128.Idx) (q : dot_S4032x128_S128x128_S4032x128_1_0_0_1_n_n.contr.Idx) : (dot_S4032x128_S128x128_S4032x128_1_0_0_1_n_n.lhsIdx j q 0).val = (j 0).val := by
  unfold DotDims.lhsIdx
  rw [dif_neg (show ¬(0 : Fin S4032x128.rank) ∈ dot_S4032x128_S128x128_S4032x128_1_0_0_1_n_n.lhsBatch by decide), dif_pos (show (0 : Fin S4032x128.rank) ∈ dot_S4032x128_S128x128_S4032x128_1_0_0_1_n_n.lhsNonContracting by decide)]
  rfl
theorem rhs_col (j : S4032x128.Idx) (q : dot_S4032x128_S128x128_S4032x128_1_0_0_1_n_n.contr.Idx) : (dot_S4032x128_S128x128_S4032x128_1_0_0_1_n_n.rhsIdx j q 1).val = (j 1).val := by
  unfold DotDims.rhsIdx
  rw [dif_neg (show ¬(1 : Fin S128x128.rank) ∈ dot_S4032x128_S128x128_S4032x128_1_0_0_1_n_n.rhsBatch by decide), dif_pos (show (1 : Fin S128x128.rank) ∈ dot_S4032x128_S128x128_S4032x128_1_0_0_1_n_n.rhsNonContracting by decide)]
  rfl

/-- The body's stored value at an index of the block: the sum over the 128 features of (x + s) times the weight, plus the
    bias of the column. -/
theorem pay_apply (x s : Vec Ideal S4032x128 .f32) (W : Vec Ideal S128x128 .f32) (b : Vec Ideal S1x128 .f32) (j : S4032x128.Idx) :
    k1_pay1 (F := Ideal) x s W b j = (∑ k : Fin 128, (x (bl j k) + s (bl j k)) * W (br j k)) + b (bb j) := by
  unfold k1_pay1
  rw [shapeCast_self, shapeCast_self, shapeCast_self, addf_apply]
  refine congrArg₂ (· + ·) ?_ ?_
  · refine (Ideal.matmul_constant_zero_apply dot_S4032x128_S128x128_S4032x128_1_0_0_1_n_n none _ _ j).trans ?_
    rw [← Equiv.sum_comp (contrEquiv1 dot_S4032x128_S128x128_S4032x128_1_0_0_1_n_n 128 rfl rfl).symm]
    refine Finset.sum_congr rfl fun k _ => ?_
    have hk := contrEquiv1_symm_val dot_S4032x128_S128x128_S4032x128_1_0_0_1_n_n 128 rfl rfl k
    have el : dot_S4032x128_S128x128_S4032x128_1_0_0_1_n_n.lhsIdx j ((contrEquiv1 dot_S4032x128_S128x128_S4032x128_1_0_0_1_n_n 128 rfl rfl).symm k) = bl j k := funext fun a => Fin.ext (by
      match a with
      | ⟨0, _⟩ => exact lhs_row _ _
      | ⟨1, _⟩ => exact (dot_S4032x128_S128x128_S4032x128_1_0_0_1_n_n.lhsIdx_val_of_single rfl j _).trans hk)
    have er : dot_S4032x128_S128x128_S4032x128_1_0_0_1_n_n.rhsIdx j ((contrEquiv1 dot_S4032x128_S128x128_S4032x128_1_0_0_1_n_n 128 rfl rfl).symm k) = br j k := funext fun a => Fin.ext (by
      match a with
      | ⟨0, _⟩ => exact (dot_S4032x128_S128x128_S4032x128_1_0_0_1_n_n.rhsIdx_val_of_single rfl j _).trans hk
      | ⟨1, _⟩ => exact rhs_col _ _)
    rw [el, er]
    rfl
  · exact broadcastTo_apply _ broadcasts_S1x128_S4032x128 j (bb j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])

/-! ## The whole array -/

abbrev gl (i : S64512x128.Idx) (k : Fin 128) : S64512x128.Idx := fun a => match a with
  | ⟨0, _⟩ => ⟨(i 0).val, (i 0).isLt⟩
  | ⟨1, _⟩ => ⟨k.val, k.isLt⟩
abbrev gr (i : S64512x128.Idx) (k : Fin 128) : S128x128.Idx := fun a => match a with
  | ⟨0, _⟩ => ⟨k.val, k.isLt⟩
  | ⟨1, _⟩ => ⟨(i 1).val, (i 1).isLt⟩
abbrev gb (i : S64512x128.Idx) : S1x128.Idx := fun a => match a with
  | ⟨0, _⟩ => ⟨0, Nat.one_pos⟩
  | ⟨1, _⟩ => ⟨(i 1).val, (i 1).isLt⟩

/-- The layer on whole arrays: node features `x`, neighbour sums `s`, weights `W`, bias row `b`. -/
def G (x s : S64512x128.Idx → Elt Ideal .f32) (W : S128x128.Idx → Elt Ideal .f32) (b : S1x128.Idx → Elt Ideal .f32) :
    S64512x128.Idx → Elt Ideal .f32 :=
  fun i => (∑ k : Fin 128, (x (gl i k) + s (gl i k)) * W (gr i k)) + b (gb i)

theorem hz : (![0, 0] : Fin 2 → Nat) = fun _ => 0 := funext fun a => by fin_cases a <;> rfl

/-- The printed index maps over the grid: point `t` takes block row `t` of `x`, of `s` and of the result, and the one block
    of `W` and of `b`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- What point `t` writes back is block `t` of `G` of the arrays as the region finds them. -/
theorem flushed_eq (c : Dev nD) (t : Fin cfg1.N) :
    (dat V c).flushed 4 t = ((cfg1.win 4).blk t).view.read (Elt Ideal) (G (V c main_v15) (V c main_v25) (V c main_arg5) (V c main_v26)) := by
  show (cfg1.win 4).cut (grid1.coords t) ((dat V c).after 4 t) = _
  rw [after_4]
  unfold out
  rw [View.canon_unit_zero hz]
  simp only [View.ld_unit_zero (S := S4032x128) hz, View.ld_unit_zero (S := S128x128) hz, View.ld_unit_zero (S := S1x128) hz]
  obtain ⟨e00, e01, e10, e11, e20, e21, e30, e31, e40, e41⟩ := idx_facts t
  funext j
  show k1_pay1 (F := Ideal) (blk V c 0 t) (blk V c 1 t) (blk V c 2 t) (blk V c 3 t) j
    = G (V c main_v15) (V c main_v25) (V c main_arg5) (V c main_v26) (((cfg1.win 4).blk t).view.emb j)
  rw [pay_apply]
  have hj0 : (j 0).val < 4032 := (j 0).isLt
  have hj1 : (j 1).val < 128 := (j 1).isLt
  have hx : ∀ k : Fin 128, ((cfg1.win 0).blk t).view.emb (bl j k) = gl (((cfg1.win 4).blk t).view.emb j) k := fun k => by
    funext a; apply Fin.ext
    match a with
    | ⟨0, _⟩ => show win1_0.index t (0 : Fin 2) * 4032 + 1 * (j 0).val = win1_4.index t (0 : Fin 2) * 4032 + 1 * (j 0).val; omega
    | ⟨1, _⟩ => show win1_0.index t (1 : Fin 2) * 128 + 1 * k.val = k.val; omega
  have hs : ∀ k : Fin 128, ((cfg1.win 1).blk t).view.emb (bl j k) = gl (((cfg1.win 4).blk t).view.emb j) k := fun k => by
    funext a; apply Fin.ext
    match a with
    | ⟨0, _⟩ => show win1_1.index t (0 : Fin 2) * 4032 + 1 * (j 0).val = win1_4.index t (0 : Fin 2) * 4032 + 1 * (j 0).val; omega
    | ⟨1, _⟩ => show win1_1.index t (1 : Fin 2) * 128 + 1 * k.val = k.val; omega
  have hW : ∀ k : Fin 128, ((cfg1.win 2).blk t).view.emb (br j k) = gr (((cfg1.win 4).blk t).view.emb j) k := fun k => by
    funext a; apply Fin.ext
    match a with
    | ⟨0, _⟩ => show win1_2.index t (0 : Fin 2) * 128 + 1 * k.val = k.val; omega
    | ⟨1, _⟩ => show win1_2.index t (1 : Fin 2) * 128 + 1 * (j 1).val = win1_4.index t (1 : Fin 2) * 128 + 1 * (j 1).val; omega
  have hb : ((cfg1.win 3).blk t).view.emb (bb j) = gb (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  unfold G
  refine congrArg₂ (· + ·) (Finset.sum_congr rfl fun k _ => congrArg₂ (· * ·) (congrArg₂ (· + ·) ?_ ?_) ?_) ?_
  · exact congrArg (V c main_v15) (hx k)
  · exact congrArg (V c main_v25) (hs k)
  · exact congrArg (V c main_arg5) (hW k)
  · exact congrArg (V c main_v26) hb

/-- An index of the result is in point `t`'s block iff its row is among the point's 4032 rows. -/
theorem mem_blk (t : Fin cfg1.N) (i : S64512x128.Idx) :
    i ∈ ((cfg1.win 4).blk t).view.set ↔ ∀ a : Fin 2, win1_4.index t a * S4032x128.size a ≤ (i a).val ∧ (i a).val < win1_4.index t a * S4032x128.size a + S4032x128.size a := by
  show i ∈ ((View.whole main_v27).slice (win1_4.rect t)).set ↔ _
  rw [View.set_slice_whole, Rect.mem_set_unit]
  exact Iff.rfl

/-- Every row of the result lies in the block of the point `row / 4032`. -/
theorem rows_covered (i : S64512x128.Idx) : ∃ t : Fin cfg1.N, (cfg1.win 4).flush t = true ∧ i ∈ ((cfg1.win 4).blk t).view.set := by
  have hi0 : (i 0).val < 64512 := (i 0).isLt
  have hi1 : (i 1).val < 128 := (i 1).isLt
  have hN : cfg1.N = 16 := N_1
  refine ⟨⟨(i 0).val / 4032, by rw [hN]; omega⟩, flush1_4 _, ?_⟩
  rw [mem_blk]
  obtain ⟨-, -, -, -, -, -, -, -, e40, e41⟩ := idx_facts ⟨(i 0).val / 4032, by rw [hN]; omega⟩
  intro a
  match a with
  | ⟨0, _⟩ => show win1_4.index _ (0 : Fin 2) * 4032 ≤ (i 0).val ∧ (i 0).val < win1_4.index _ (0 : Fin 2) * 4032 + 4032; rw [e40]; dsimp only; omega
  | ⟨1, _⟩ => show win1_4.index _ (1 : Fin 2) * 128 ≤ (i 1).val ∧ (i 1).val < win1_4.index _ (1 : Fin 2) * 128 + 128; rw [e41]; omega

/-- The result's array after the region: `G` of the arrays the region finds. -/
theorem final (c : Dev nD) :
    (dat V c).arrAt 4 cfg1.N = G (V c main_v15) (V c main_v25) (V c main_arg5) (V c main_v26) :=
  (dat V c).arrAt_eq_of_cover 4 _ (fun t _ => flushed_eq V c t) rows_covered

end Cert.KernelIdeal.Linear1

end
-- ==== Proof.KI.LinearBridge.lean ====
/-
  The two linear layers against the reference, stage by stage. The reference computes each layer on the host as a
  sum of the layer's input and its neighbour sums, a matrix product with the weights, and the bias row broadcast over the
  rows; the kernel's array is the same expression index by index: the same sum over the contracted axis, the same entry
  of the bias.
-/
import proofs.«175257_j71588514890561_2_alg».proof.Proof.KI.Linear0Value
import proofs.«175257_j71588514890561_2_alg».proof.Proof.KI.Linear1Value
import proofs.«175257_j71588514890561_2_alg».proof.Proof.Patched.ReferenceIdeal.Read

set_option maxRecDepth 16384

noncomputable section

namespace Cert.KernelIdeal.Bridge

open Idealize.ShloMosaic Idealize.ShloMosaic.TcCoe Idealize.ShloMosaic.ValueIdx

/-- The first layer. `b` is the bias as the kernel's region finds it, a 1 × 128 row holding the bias vector. -/
theorem lin0 (x0 : (⟨Cert.ReferenceIdeal.S64512x84, .f32⟩ : BufTy).Contents (Elt Ideal)) (x1 : (⟨Cert.ReferenceIdeal.S2x1032192, .i32⟩ : BufTy).Contents (Elt Ideal))
    (x3 : (⟨Cert.ReferenceIdeal.S84x128, .f32⟩ : BufTy).Contents (Elt Ideal)) (x4 : (⟨Cert.ReferenceIdeal.S128, .f32⟩ : BufTy).Contents (Elt Ideal))
    (b : Cert.ReferenceIdeal.S1x128.Idx → Elt Ideal .f32) (hb : ∀ i, b i = x4 (Cert.ReferenceIdeal.ReadP.idx_main_v16 i)) :
    Cert.KernelIdeal.Linear0.G x0 (Cert.ReferenceIdeal.ReadP.val_main_v13 (F := Ideal) x0 x1) x3 b = Cert.ReferenceIdeal.ReadP.val_main_v18 (F := Ideal) x0 x1 x3 x4 := by
  funext i
  rw [Cert.ReferenceIdeal.ReadP.val_main_v18_apply, Cert.ReferenceIdeal.ReadP.val_main_v15_apply, Cert.ReferenceIdeal.ReadP.val_main_v17_apply, Cert.ReferenceIdeal.ReadP.val_main_v16_apply]
  unfold Cert.KernelIdeal.Linear0.G
  have hl : ∀ k : Fin 84, Cert.KernelIdeal.Linear0.gl i k = Cert.ReferenceIdeal.ReadP.lidx_main_v15 i k := fun k => funext fun a => by
    match a with | ⟨0, _⟩ => rfl | ⟨1, _⟩ => rfl
  have hr : ∀ k : Fin 84, Cert.KernelIdeal.Linear0.gr i k = Cert.ReferenceIdeal.ReadP.ridx_main_v15 i k := fun k => funext fun a => by
    match a with | ⟨0, _⟩ => rfl | ⟨1, _⟩ => rfl
  have hg : Cert.KernelIdeal.Linear0.gb i = Cert.ReferenceIdeal.ReadP.idx_main_v17 i := funext fun a => by
    match a with | ⟨0, _⟩ => rfl | ⟨1, _⟩ => rfl
  refine congrArg₂ (· + ·) (Finset.sum_congr rfl fun k _ => ?_) ?_
  · rw [hl k, hr k]; rfl
  · rw [hb, hg]

/-- The second layer, over the first layer's output and its neighbour sums as the reference names them. -/
theorem lin1 (x0 : (⟨Cert.ReferenceIdeal.S64512x84, .f32⟩ : BufTy).Contents (Elt Ideal)) (x1 : (⟨Cert.ReferenceIdeal.S2x1032192, .i32⟩ : BufTy).Contents (Elt Ideal))
    (x3 : (⟨Cert.ReferenceIdeal.S84x128, .f32⟩ : BufTy).Contents (Elt Ideal)) (x4 : (⟨Cert.ReferenceIdeal.S128, .f32⟩ : BufTy).Contents (Elt Ideal))
    (x5 : (⟨Cert.ReferenceIdeal.S128x128, .f32⟩ : BufTy).Contents (Elt Ideal)) (x6 : (⟨Cert.ReferenceIdeal.S128, .f32⟩ : BufTy).Contents (Elt Ideal))
    (b : Cert.ReferenceIdeal.S1x128.Idx → Elt Ideal .f32) (hb : ∀ i, b i = x6 (Cert.ReferenceIdeal.ReadP.idx_main_v31 i)) :
    Cert.KernelIdeal.Linear1.G (Cert.ReferenceIdeal.ReadP.val_main_v18 (F := Ideal) x0 x1 x3 x4) (Cert.ReferenceIdeal.ReadP.val_main_v28 (F := Ideal) x0 x1 x3 x4) x5 b
      = Cert.ReferenceIdeal.ReadP.val_main_v33 (F := Ideal) x0 x1 x3 x4 x5 x6 := by
  funext i
  rw [Cert.ReferenceIdeal.ReadP.val_main_v33_apply, Cert.ReferenceIdeal.ReadP.val_main_v30_apply, Cert.ReferenceIdeal.ReadP.val_main_v32_apply, Cert.ReferenceIdeal.ReadP.val_main_v31_apply]
  unfold Cert.KernelIdeal.Linear1.G
  have hl : ∀ k : Fin 128, Cert.KernelIdeal.Linear1.gl i k = Cert.ReferenceIdeal.ReadP.lidx_main_v30 i k := fun k => funext fun a => by
    match a with | ⟨0, _⟩ => rfl | ⟨1, _⟩ => rfl
  have hr : ∀ k : Fin 128, Cert.KernelIdeal.Linear1.gr i k = Cert.ReferenceIdeal.ReadP.ridx_main_v30 i k := fun k => funext fun a => by
    match a with | ⟨0, _⟩ => rfl | ⟨1, _⟩ => rfl
  have hg : Cert.KernelIdeal.Linear1.gb i = Cert.ReferenceIdeal.ReadP.idx_main_v32 i := funext fun a => by
    match a with | ⟨0, _⟩ => rfl | ⟨1, _⟩ => rfl
  refine congrArg₂ (· + ·) (Finset.sum_congr rfl fun k _ => ?_) ?_
  · rw [hl k, hr k]; rfl
  · rw [hb, hg]

end Cert.KernelIdeal.Bridge

end
-- ==== Proof.KI.Stages.lean ====
/-
  The kernel program's first two stages against the reference's. Before each linear kernel the host computes the
  neighbour sums of the layer's input (normalise the source indices, gather the rows, scatter-add them at the destination
  indices) and lays the bias vector out as a row: the same operations, in the same order, as the reference's, applied to
  the same arrays. With what each kernel leaves (module Linear0Value / Linear1Value) and the layer's formula against the
  reference's (module LinearBridge), the first layer's output is the reference's value %18 and the second's its %33.
-/
import proofs.«175257_j71588514890561_2_alg».proof.Proof.KI.Keep
import proofs.«175257_j71588514890561_2_alg».proof.Proof.KI.LinearBridge
import Idealize.ShloMosaic.Lib.StableHlo.Run

set_option maxRecDepth 16384

noncomputable section

namespace Cert.KernelIdeal.Stages

open Cert.KernelIdeal Cert.KernelIdeal.Gen Cert.KernelIdeal.GenP Cert.KernelIdeal.Run
open Idealize.ShloMosaic Idealize.ShloMosaic.TcCoe Idealize.SL.Sem Idealize.ShloMosaic.StableHlo

variable (m : (ℓ : Loc nD τ sig) → Buf (Elt Ideal) ℓ)

/-! ## The first layer -/

set_option maxHeartbeats 10000000 in
/-- The neighbour sums of the node features, as the host computes them before the first kernel. -/
theorem s1 (c : Dev nD) : W1 m c (Proc.devRef .tc main_v13) = Cert.ReferenceIdeal.ReadP.val_main_v13 (F := Ideal) (m ((c : Thread nD τ).loc main_arg0)) (m ((c : Thread nD τ).loc main_arg1)) := by
  show StableHlo.after hostOps0 (W0 m c) (Proc.devRef .tc main_v13) = _
  after_results_simp
  rfl

set_option maxHeartbeats 10000000 in
/-- The first bias, laid out as a row. -/
theorem b1 (c : Dev nD) (i : Cert.ReferenceIdeal.S1x128.Idx) :
    W1 m c (Proc.devRef .tc main_v14) i = (m ((c : Thread nD τ).loc main_arg4)) (Cert.ReferenceIdeal.ReadP.idx_main_v16 i) := by
  show StableHlo.after hostOps0 (W0 m c) (Proc.devRef .tc main_v14) i = _
  after_results_simp
  exact shapeCast_apply _ shapeCasts_S128_S1x128 i (Cert.ReferenceIdeal.ReadP.idx_main_v16 i) (by
    rewrite [Shape.rowMajor_val_one, Shape.rowMajor_val_two]
    have h0 : (i 0).val < 1 := (i 0).isLt
    show (i 1).val = (i 0).val * 128 + (i 1).val
    omega)

/-- The first layer's output is the reference's. -/
theorem t1 (c : Dev nD) : W2 m c (Proc.devRef .tc main_v15) = Cert.ReferenceIdeal.ReadP.val_main_v18 (F := Ideal) (m ((c : Thread nD τ).loc main_arg0)) (m ((c : Thread nD τ).loc main_arg1)) (m ((c : Thread nD τ).loc main_arg3)) (m ((c : Thread nD τ).loc main_arg4)) := by
  rw [W2_v15_arr, Linear0.final]
  have e0 : Run.V1 m c main_arg0 = (m ((c : Thread nD τ).loc main_arg0)) := W1_keep m c main_arg0 (by decide)
  have e3 : Run.V1 m c main_arg3 = (m ((c : Thread nD τ).loc main_arg3)) := W1_keep m c main_arg3 (by decide)
  have es : Run.V1 m c main_v13 = Cert.ReferenceIdeal.ReadP.val_main_v13 (F := Ideal) (m ((c : Thread nD τ).loc main_arg0)) (m ((c : Thread nD τ).loc main_arg1)) := s1 m c
  rw [e0, e3, es]
  exact Cert.KernelIdeal.Bridge.lin0 _ _ _ _ _ (b1 m c)

set_option maxHeartbeats 10000000 in
/-- The source indices, sliced out of the edge list once, before the first kernel. -/
theorem src (c : Dev nD) : W1 m c (Proc.devRef .tc main_v1) = Cert.ReferenceIdeal.ReadP.val_main_v1 (F := Ideal) (m ((c : Thread nD τ).loc main_arg1)) := by
  show StableHlo.after hostOps0 (W0 m c) (Proc.devRef .tc main_v1) = _
  after_results_simp
  rfl

set_option maxHeartbeats 10000000 in
/-- The destination indices, likewise. -/
theorem dst (c : Dev nD) : W1 m c (Proc.devRef .tc main_v3) = Cert.ReferenceIdeal.ReadP.val_main_v3 (F := Ideal) (m ((c : Thread nD τ).loc main_arg1)) := by
  show StableHlo.after hostOps0 (W0 m c) (Proc.devRef .tc main_v3) = _
  after_results_simp
  rfl

/-! ## The second layer -/

set_option maxHeartbeats 10000000 in
/-- The neighbour sums of the first layer's output, as the host computes them before the second kernel. -/
theorem s2 (c : Dev nD) : W3 m c (Proc.devRef .tc main_v25) = Cert.ReferenceIdeal.ReadP.val_main_v28 (F := Ideal) (m ((c : Thread nD τ).loc main_arg0)) (m ((c : Thread nD τ).loc main_arg1)) (m ((c : Thread nD τ).loc main_arg3)) (m ((c : Thread nD τ).loc main_arg4)) := by
  show StableHlo.after hostOps1 (W2 m c) (Proc.devRef .tc main_v25) = _
  after_results_simp
  rw [t1 m c, show W2 m c (Proc.devRef .tc main_v1) = Cert.ReferenceIdeal.ReadP.val_main_v1 (F := Ideal) (m ((c : Thread nD τ).loc main_arg1)) from (keep0 m c main_v1 (by decide)).trans (src m c),
    show W2 m c (Proc.devRef .tc main_v3) = Cert.ReferenceIdeal.ReadP.val_main_v3 (F := Ideal) (m ((c : Thread nD τ).loc main_arg1)) from (keep0 m c main_v3 (by decide)).trans (dst m c)]
  rfl

set_option maxHeartbeats 10000000 in
/-- The second bias, laid out as a row. -/
theorem b2 (c : Dev nD) (i : Cert.ReferenceIdeal.S1x128.Idx) :
    W3 m c (Proc.devRef .tc main_v26) i = (m ((c : Thread nD τ).loc main_arg6)) (Cert.ReferenceIdeal.ReadP.idx_main_v31 i) := by
  show StableHlo.after hostOps1 (W2 m c) (Proc.devRef .tc main_v26) i = _
  after_results_simp
  rw [show W2 m c (Proc.devRef .tc main_arg6) = (m ((c : Thread nD τ).loc main_arg6)) from (keep0 m c main_arg6 (by decide)).trans (W1_keep m c main_arg6 (by decide))]
  exact shapeCast_apply _ shapeCasts_S128_S1x128 i (Cert.ReferenceIdeal.ReadP.idx_main_v31 i) (by
    rewrite [Shape.rowMajor_val_one, Shape.rowMajor_val_two]
    have h0 : (i 0).val < 1 := (i 0).isLt
    show (i 1).val = (i 0).val * 128 + (i 1).val
    omega)

/-- The second layer's output is the reference's. -/
theorem t2 (c : Dev nD) : W4 m c (Proc.devRef .tc main_v27)
    = Cert.ReferenceIdeal.ReadP.val_main_v33 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  rw [W4_v27_arr, Linear1.final]
  have e0 : Run.V3 m c main_v15 = Cert.ReferenceIdeal.ReadP.val_main_v18 (F := Ideal) (m ((c : Thread nD τ).loc main_arg0)) (m ((c : Thread nD τ).loc main_arg1)) (m ((c : Thread nD τ).loc main_arg3)) (m ((c : Thread nD τ).loc main_arg4)) :=
    (W3_of_W2 m c main_v15 (by decide)).trans (t1 m c)
  have es : Run.V3 m c main_v25 = Cert.ReferenceIdeal.ReadP.val_main_v28 (F := Ideal) (m ((c : Thread nD τ).loc main_arg0)) (m ((c : Thread nD τ).loc main_arg1)) (m ((c : Thread nD τ).loc main_arg3)) (m ((c : Thread nD τ).loc main_arg4)) := s2 m c
  have e5 : Run.V3 m c main_arg5 = (m ((c : Thread nD τ).loc main_arg5)) := W3_keep m c main_arg5 (by decide) (by decide) (by decide)
  rw [e0, es, e5]
  exact Cert.KernelIdeal.Bridge.lin1 _ _ _ _ _ _ _ (b2 m c)

/-! ## The attention kernel's input -/

set_option maxHeartbeats 10000000 in
/-- The second layer's output regrouped by sample, as the host lays it out before the attention kernel. -/
theorem r2 (c : Dev nD) : W5 m c (Proc.devRef .tc main_v28)
    = Cert.ReferenceIdeal.ReadP.val_main_v34 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W4 m c) (Proc.devRef .tc main_v28) = _
  after_results_simp
  rw [t2 m c]
  rfl

end Cert.KernelIdeal.Stages

end
-- ==== Proof.KI.Glue.lean ====
/-
  The features handed to the classifier. After the attention kernel the host regroups the first layer's output by sample
  and snapshot, takes the maximum and the mean over each snapshot's 84 rows, splits the attention kernel's pooled result
  into its maxima and its means, joins the four pieces along the last axis and flattens each sample to 6144 features: one
  function `glue` of the first layer's output and of the pooled result. The reference builds its classifier input by the
  same operations, its own pooled maxima and means in the last two places.
-/
import proofs.«175257_j71588514890561_2_alg».proof.Proof.KI.Keep
import proofs.«175257_j71588514890561_2_alg».proof.Proof.Patched.ReferenceIdeal.Read
import Idealize.ShloMosaic.Lib.StableHlo.Run

set_option maxRecDepth 16384

noncomputable section

namespace Cert.KernelIdeal.Glue

open Cert.KernelIdeal Cert.KernelIdeal.Gen Cert.KernelIdeal.GenP Cert.KernelIdeal.Run
open Idealize.ShloMosaic Idealize.ShloMosaic.TcCoe Idealize.SL.Sem Idealize.ShloMosaic.StableHlo

/-- The maxima over each snapshot's 84 rows of the first layer's output. -/
def snapMax (T1 : S64512x128.Idx → Elt Ideal .f32) : S64x12x128.Idx → Elt Ideal .f32 :=
  Host.reduce (FloatOps.maximumf : Ideal FTy.f32 → Ideal FTy.f32 → Ideal FTy.f32) (shapeCast S64x12x84x128 T1 shapeCasts_S64512x128_S64x12x84x128)
    (constant (F := Ideal) S_ .f32 0xFF800000#32) reducesTo_S64x12x84x128_S64x12x128_d2 h_S_

/-- The means over each snapshot's 84 rows of the first layer's output. -/
def snapMean (T1 : S64512x128.Idx → Elt Ideal .f32) : S64x12x128.Idx → Elt Ideal .f32 :=
  Host.divf (F := Ideal) (Host.reduceAdd (F := Ideal) (shapeCast S64x12x84x128 T1 shapeCasts_S64512x128_S64x12x84x128)
    (constant (F := Ideal) S_ .f32 0x00000000#32) reducesTo_S64x12x84x128_S64x12x128_d2 h_S_)
    (broadcastInDim S64x12x128 ![] bcast_S_S64x12x128 (constant (F := Ideal) S_ .f32 0x42A80000#32))

/-- The four pieces joined along the last axis, each sample flattened to 6144 features. -/
def join (A B C D : S64x12x128.Idx → Elt Ideal .f32) : S64x6144.Idx → Elt Ideal .f32 :=
  shapeCast S64x6144 (concatenate S64x12x512 2 [⟨S64x12x128, A⟩, ⟨S64x12x128, B⟩, ⟨S64x12x128, C⟩, ⟨S64x12x128, D⟩]
    concatenates_S64x12x128_S64x12x128_S64x12x128_S64x12x128_S64x12x512_d2) shapeCasts_S64x12x512_S64x6144

/-- The classifier's input from the first layer's output `T1` and the attention kernel's pooled result `P`. -/
def glue (T1 : S64512x128.Idx → Elt Ideal .f32) (P : S64x12x256.Idx → Elt Ideal .f32) : S64x6144.Idx → Elt Ideal .f32 :=
  join (snapMax T1) (snapMean T1)
    (extractStridedSlice S64x12x128 ![0, 0, 0] P slices_S64x12x256_S64x12x128_0_0_0)
    (extractStridedSlice S64x12x128 ![0, 0, 128] P slices_S64x12x256_S64x12x128_0_0_128)

/-- Running two lists of host operations one after the other is running their concatenation. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => simp only [List.cons_append, after_cons, ih]

variable (m : (ℓ : Loc nD τ sig) → Buf (Elt Ideal) ℓ)

set_option maxHeartbeats 40000000 in
/-- The last host stretch leaves `glue` of the two kernel results it reads: its first ten operations produce the four
    pieces, the eleventh joins them, the twelfth flattens. -/
theorem x38_at (c : Dev nD) : W7 m c (Proc.devRef .tc main_v38)
    = glue (W6 m c (Proc.devRef .tc main_v15)) (W6 m c (Proc.devRef .tc main_v29)) := by
  show StableHlo.after hostOps3 (W6 m c) (Proc.devRef .tc main_v38) = _
  rw [← List.take_append_drop 10 (hostOps3 : List (HloOp τ sig (Elt Ideal))), after_append]
  have e31 : StableHlo.after ((hostOps3 : List (HloOp τ sig (Elt Ideal))).take 10) (W6 m c) (Proc.devRef .tc main_v31)
      = snapMax (W6 m c (Proc.devRef .tc main_v15)) := by
    simp only [hostOps3, List.take_succ_cons, List.take_zero]
    after_results_simp
    rfl
  have e34 : StableHlo.after ((hostOps3 : List (HloOp τ sig (Elt Ideal))).take 10) (W6 m c) (Proc.devRef .tc main_v34)
      = snapMean (W6 m c (Proc.devRef .tc main_v15)) := by
    simp only [hostOps3, List.take_succ_cons, List.take_zero]
    after_results_simp
    rfl
  have e35 : StableHlo.after ((hostOps3 : List (HloOp τ sig (Elt Ideal))).take 10) (W6 m c) (Proc.devRef .tc main_v35)
      = extractStridedSlice S64x12x128 ![0, 0, 0] (W6 m c (Proc.devRef .tc main_v29)) slices_S64x12x256_S64x12x128_0_0_0 := by
    simp only [hostOps3, List.take_succ_cons, List.take_zero]
    after_results_simp
  have e36 : StableHlo.after ((hostOps3 : List (HloOp τ sig (Elt Ideal))).take 10) (W6 m c) (Proc.devRef .tc main_v36)
      = extractStridedSlice S64x12x128 ![0, 0, 128] (W6 m c (Proc.devRef .tc main_v29)) slices_S64x12x256_S64x12x128_0_0_128 := by
    simp only [hostOps3, List.take_succ_cons, List.take_zero]
    after_results_simp
  unfold glue
  rw [← e31, ← e34, ← e35, ← e36]
  generalize StableHlo.after ((hostOps3 : List (HloOp τ sig (Elt Ideal))).take 10) (W6 m c) = Fv
  simp only [hostOps3, List.drop_succ_cons, List.drop_zero]
  simp (disch := decide) only [after_cons, after_nil, nullary_result', unary_result', binary_result', ternary_result', quaternary_result', reshape_result', nary4_result', unaryIndexed_result', binaryIndexed_result', nullary_result_ne', unary_result_ne', binary_result_ne', ternary_result_ne', quaternary_result_ne', reshape_result_ne', nary_result_ne', unaryIndexed_result_ne', binaryIndexed_result_ne']
  rfl

theorem x38 (c : Dev nD) : W7 m c (Proc.devRef .tc main_v38) = glue (W2 m c (Proc.devRef .tc main_v15)) (W6 m c (Proc.devRef .tc main_v29)) := by
  rw [x38_at, W6_v15]

/-- With the reference's first-layer output in the first place and a pooled array whose two halves are the reference's
    pooled maxima and means, `glue` is the reference's classifier input. -/
theorem glue_eq (x0 : (⟨Cert.ReferenceIdeal.S64512x84, .f32⟩ : BufTy).Contents (Elt Ideal)) (x1 : (⟨Cert.ReferenceIdeal.S2x1032192, .i32⟩ : BufTy).Contents (Elt Ideal))
    (x2 : (⟨Cert.ReferenceIdeal.S1008x128, .f32⟩ : BufTy).Contents (Elt Ideal)) (x3 : (⟨Cert.ReferenceIdeal.S84x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (P : S64x12x256.Idx → Elt Ideal .f32)
    (h0 : extractStridedSlice S64x12x128 ![0, 0, 0] P slices_S64x12x256_S64x12x128_0_0_0 = Cert.ReferenceIdeal.ReadP.val_main_v59 (F := Ideal) x0 x1 x2 x3 x4 x5 x6)
    (h1 : extractStridedSlice S64x12x128 ![0, 0, 128] P slices_S64x12x256_S64x12x128_0_0_128 = Cert.ReferenceIdeal.ReadP.val_main_v62 (F := Ideal) x0 x1 x2 x3 x4 x5 x6) :
    glue (Cert.ReferenceIdeal.ReadP.val_main_v18 (F := Ideal) x0 x1 x3 x4) P = Cert.ReferenceIdeal.ReadP.val_main_v64 (F := Ideal) x0 x1 x2 x3 x4 x5 x6 := by
  unfold glue
  rw [h0, h1]
  rfl

end Cert.KernelIdeal.Glue

end
-- ==== Proof.KI.AttnValue.lean ====
/-
  What one call of the attention kernel's body leaves in the result's block, at the ideal instance, index by index.
  With q the sample's 1008 rows plus the positional table's (1008 × 128), the scores are s = (q qᵀ) · c for the named
  constant c = 1/√128 (the rational 1048576 / 11863283 of the program's table), each row of s is turned into weights by
  the body's own softmax — the row's maximum m (a fold of max from −∞), e = exp (s − m), a = e / ∑ e — and the attended
  rows are ctx = a q. The changes of float format before the two matrix products are the identity on extended reals, and a
  matrix product into a zero accumulator is the plain sum over the contracted axis. The 1008 attended rows are then
  pooled in twelve groups of 84 consecutive rows: the block holds at (0, w, j) the columnwise maximum of group w at
  feature j, and at (0, w, 128 + j) the columnwise sum divided by the f32 literal 84.0.
-/
import proofs.«175257_j71588514890561_2_alg».proof.Proof.KI.Attn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.AttnValue

open Cert.KernelIdeal Cert.KernelIdeal.Gen Cert.KernelIdeal.Attn
open Idealize.ShloMosaic Idealize.ShloMosaic.ValueIdx

/-! ## Reading layout operations and reductions by coordinates -/

section Layout
variable {α : Type}

/-- A vector of length a, made a column and repeated along b columns, reads at (r, k) the vector at r. -/
theorem column_broadcast_apply {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (r : Fin a) (k : Fin b) :
    broadcastTo ⟨2, ![a, b]⟩ (shapeCast ⟨2, ![a, 1]⟩ v h1) h2 (ix2 r k) = v (ix1 r) := by
  refine (broadcastTo_apply _ h2 (ix2 r k) (ix2 r (0 : Fin 1)) fun ax => ?_).trans ?_
  · match ax with
    | ⟨0, _⟩ =>
      show r.val = if a = 1 then 0 else r.val
      split
      · have := r.isLt; omega
      · rfl
    | ⟨1, _⟩ => rfl
  · exact shapeCast_apply v h1 _ _ (by
      rw [Shape.rowMajor_val_one, Shape.rowMajor_val_two]
      show r.val = r.val * 1 + 0
      omega)

/-- Summing out the rows of a matrix: the index over column j with row i put back is (i, j). -/
theorem lift_rows {a b : ℕ} (h : (⟨2, ![a, b]⟩ : Shape).Reduces [0] ⟨1, ![b]⟩) (j : Fin b) (i : Fin a) :
    h.lift (ix1 j) i = ix2 i j :=
  funext fun c => Fin.ext (by match c with | ⟨0, _⟩ => rfl | ⟨1, _⟩ => rfl)

/-- Summing out the columns of a matrix: the index over row r with column k put back is (r, k). -/
theorem lift_cols {a b : ℕ} (h : (⟨2, ![a, b]⟩ : Shape).Reduces [1] ⟨1, ![a]⟩) (r : Fin a) (k : Fin b) :
    h.lift (ix1 r) k = ix2 r k :=
  funext fun c => Fin.ext (by match c with | ⟨0, _⟩ => rfl | ⟨1, _⟩ => rfl)

end Layout

theorem zeros3 : (![0, 0, 0] : Fin 3 → ℕ) = fun _ => 0 :=
  funext fun a => by match a with | ⟨0, _⟩ => rfl | ⟨1, _⟩ => rfl | ⟨2, _⟩ => rfl
theorem zeros2 : (![0, 0] : Fin 2 → ℕ) = fun _ => 0 :=
  funext fun a => by match a with | ⟨0, _⟩ => rfl | ⟨1, _⟩ => rfl

/-- A fold of max from b is at least b. -/
theorem max_fold_self {ι : Type} (s : Finset ι) (b : EReal) (f : ι → EReal) : max b (s.fold max b f) = s.fold max b f :=
  max_eq_right ((Finset.le_fold_max b).2 (Or.inl le_rfl))

/-! ## The two matrix products read at an index -/

theorem lhsQK_0 (i : S1008x1008.Idx) (q : dot_S1008x128_S128x1008_S1008x1008_1_0_0_1_n_n.contr.Idx) : (dot_S1008x128_S128x1008_S1008x1008_1_0_0_1_n_n.lhsIdx i q 0).val = (i 0).val := by
  unfold DotDims.lhsIdx
  rw [dif_neg (show ¬(0 : Fin S1008x128.rank) ∈ dot_S1008x128_S128x1008_S1008x1008_1_0_0_1_n_n.lhsBatch by decide), dif_pos (show (0 : Fin S1008x128.rank) ∈ dot_S1008x128_S128x1008_S1008x1008_1_0_0_1_n_n.lhsNonContracting by decide)]
  rfl
theorem lhsQK_1 (i : S1008x1008.Idx) (q : dot_S1008x128_S128x1008_S1008x1008_1_0_0_1_n_n.contr.Idx) : (dot_S1008x128_S128x1008_S1008x1008_1_0_0_1_n_n.lhsIdx i q 1).val = (q ⟨0, by decide⟩).val :=
  dot_S1008x128_S128x1008_S1008x1008_1_0_0_1_n_n.lhsIdx_val_of_single rfl i q
theorem rhsQK_0 (i : S1008x1008.Idx) (q : dot_S1008x128_S128x1008_S1008x1008_1_0_0_1_n_n.contr.Idx) : (dot_S1008x128_S128x1008_S1008x1008_1_0_0_1_n_n.rhsIdx i q 0).val = (q ⟨0, by decide⟩).val :=
  dot_S1008x128_S128x1008_S1008x1008_1_0_0_1_n_n.rhsIdx_val_of_single rfl i q
theorem rhsQK_1 (i : S1008x1008.Idx) (q : dot_S1008x128_S128x1008_S1008x1008_1_0_0_1_n_n.contr.Idx) : (dot_S1008x128_S128x1008_S1008x1008_1_0_0_1_n_n.rhsIdx i q 1).val = (i 1).val := by
  unfold DotDims.rhsIdx
  rw [dif_neg (show ¬(1 : Fin S128x1008.rank) ∈ dot_S1008x128_S128x1008_S1008x1008_1_0_0_1_n_n.rhsBatch by decide), dif_pos (show (1 : Fin S128x1008.rank) ∈ dot_S1008x128_S128x1008_S1008x1008_1_0_0_1_n_n.rhsNonContracting by decide)]
  rfl

/-- The product of the rows with the transposed rows read at (i, j): the sum over the 128 contracted positions of the operands' products. -/
theorem matmulQK_apply (lhs : FVec Ideal S1008x128 .bf16) (rhs : FVec Ideal S128x1008 .bf16) (i : Fin 1008) (j : Fin 1008) :
    matmul dot_S1008x128_S128x1008_S1008x1008_1_0_0_1_n_n none lhs rhs (constant S1008x1008 .f32 0x00000000#32) (ix2 i j) = ∑ k : Fin 128, lhs (ix2 i k) * rhs (ix2 k j) := by
  refine (Ideal.matmul_constant_zero_apply dot_S1008x128_S128x1008_S1008x1008_1_0_0_1_n_n none lhs rhs (ix2 i j)).trans ?_
  rw [← Equiv.sum_comp (contrEquiv1 dot_S1008x128_S128x1008_S1008x1008_1_0_0_1_n_n 128 rfl rfl).symm]
  refine Finset.sum_congr rfl fun k _ => ?_
  have hk := contrEquiv1_symm_val dot_S1008x128_S128x1008_S1008x1008_1_0_0_1_n_n 128 rfl rfl k
  have el : dot_S1008x128_S128x1008_S1008x1008_1_0_0_1_n_n.lhsIdx (ix2 i j) ((contrEquiv1 dot_S1008x128_S128x1008_S1008x1008_1_0_0_1_n_n 128 rfl rfl).symm k) = ix2 i k := funext fun a => Fin.ext (by
    match a with
    | ⟨0, _⟩ => exact lhsQK_0 _ _
    | ⟨1, _⟩ => exact (lhsQK_1 _ _).trans hk)
  have er : dot_S1008x128_S128x1008_S1008x1008_1_0_0_1_n_n.rhsIdx (ix2 i j) ((contrEquiv1 dot_S1008x128_S128x1008_S1008x1008_1_0_0_1_n_n 128 rfl rfl).symm k) = ix2 k j := funext fun a => Fin.ext (by
    match a with
    | ⟨0, _⟩ => exact (rhsQK_0 _ _).trans hk
    | ⟨1, _⟩ => exact rhsQK_1 _ _)
  rw [el, er]

theorem lhsAV_0 (i : S1008x128.Idx) (q : dot_S1008x1008_S1008x128_S1008x128_1_0_0_1_n_n.contr.Idx) : (dot_S1008x1008_S1008x128_S1008x128_1_0_0_1_n_n.lhsIdx i q 0).val = (i 0).val := by
  unfold DotDims.lhsIdx
  rw [dif_neg (show ¬(0 : Fin S1008x1008.rank) ∈ dot_S1008x1008_S1008x128_S1008x128_1_0_0_1_n_n.lhsBatch by decide), dif_pos (show (0 : Fin S1008x1008.rank) ∈ dot_S1008x1008_S1008x128_S1008x128_1_0_0_1_n_n.lhsNonContracting by decide)]
  rfl
theorem lhsAV_1 (i : S1008x128.Idx) (q : dot_S1008x1008_S1008x128_S1008x128_1_0_0_1_n_n.contr.Idx) : (dot_S1008x1008_S1008x128_S1008x128_1_0_0_1_n_n.lhsIdx i q 1).val = (q ⟨0, by decide⟩).val :=
  dot_S1008x1008_S1008x128_S1008x128_1_0_0_1_n_n.lhsIdx_val_of_single rfl i q
theorem rhsAV_0 (i : S1008x128.Idx) (q : dot_S1008x1008_S1008x128_S1008x128_1_0_0_1_n_n.contr.Idx) : (dot_S1008x1008_S1008x128_S1008x128_1_0_0_1_n_n.rhsIdx i q 0).val = (q ⟨0, by decide⟩).val :=
  dot_S1008x1008_S1008x128_S1008x128_1_0_0_1_n_n.rhsIdx_val_of_single rfl i q
theorem rhsAV_1 (i : S1008x128.Idx) (q : dot_S1008x1008_S1008x128_S1008x128_1_0_0_1_n_n.contr.Idx) : (dot_S1008x1008_S1008x128_S1008x128_1_0_0_1_n_n.rhsIdx i q 1).val = (i 1).val := by
  unfold DotDims.rhsIdx
  rw [dif_neg (show ¬(1 : Fin S1008x128.rank) ∈ dot_S1008x1008_S1008x128_S1008x128_1_0_0_1_n_n.rhsBatch by decide), dif_pos (show (1 : Fin S1008x128.rank) ∈ dot_S1008x1008_S1008x128_S1008x128_1_0_0_1_n_n.rhsNonContracting by decide)]
  rfl

/-- The product of the attention weights with the rows read at (i, j): the sum over the 1008 contracted positions of the operands' products. -/
theorem matmulAV_apply (lhs : FVec Ideal S1008x1008 .bf16) (rhs : FVec Ideal S1008x128 .bf16) (i : Fin 1008) (j : Fin 128) :
    matmul dot_S1008x1008_S1008x128_S1008x128_1_0_0_1_n_n none lhs rhs (constant S1008x128 .f32 0x00000000#32) (ix2 i j) = ∑ k : Fin 1008, lhs (ix2 i k) * rhs (ix2 k j) := by
  refine (Ideal.matmul_constant_zero_apply dot_S1008x1008_S1008x128_S1008x128_1_0_0_1_n_n none lhs rhs (ix2 i j)).trans ?_
  rw [← Equiv.sum_comp (contrEquiv1 dot_S1008x1008_S1008x128_S1008x128_1_0_0_1_n_n 1008 rfl rfl).symm]
  refine Finset.sum_congr rfl fun k _ => ?_
  have hk := contrEquiv1_symm_val dot_S1008x1008_S1008x128_S1008x128_1_0_0_1_n_n 1008 rfl rfl k
  have el : dot_S1008x1008_S1008x128_S1008x128_1_0_0_1_n_n.lhsIdx (ix2 i j) ((contrEquiv1 dot_S1008x1008_S1008x128_S1008x128_1_0_0_1_n_n 1008 rfl rfl).symm k) = ix2 i k := funext fun a => Fin.ext (by
    match a with
    | ⟨0, _⟩ => exact lhsAV_0 _ _
    | ⟨1, _⟩ => exact (lhsAV_1 _ _).trans hk)
  have er : dot_S1008x1008_S1008x128_S1008x128_1_0_0_1_n_n.rhsIdx (ix2 i j) ((contrEquiv1 dot_S1008x1008_S1008x128_S1008x128_1_0_0_1_n_n 1008 rfl rfl).symm k) = ix2 k j := funext fun a => Fin.ext (by
    match a with
    | ⟨0, _⟩ => exact (rhsAV_0 _ _).trans hk
    | ⟨1, _⟩ => exact rhsAV_1 _ _)
  rw [el, er]

/-! ## What the body computes, in plain terms -/

section Spec
variable (x0 : Vec Ideal S1x1008x128 .f32) (x1 : Vec Ideal S1008x128 .f32)

/-- Row r of the sample with row r of the positional table added, at feature d. -/
def qv (r : Fin 1008) (d : Fin 128) : EReal := (x0 (ix3 (0 : Fin 1) r d) : EReal) + (x1 (ix2 r d) : EReal)

/-- The scores' scale, 1/√128 as the rational the program's table of named constants gives it. -/
def scale : EReal := ((1048576 / 11863283 : ℝ) : EReal)

/-- The scaled inner product of rows r and k. -/
def score (r k : Fin 1008) : EReal := (∑ d : Fin 128, qv x0 x1 r d * qv x0 x1 k d) * scale

/-- The largest score of row r: the fold of max over the 1008 columns, from the reduction's starting value (the f32
    pattern of −∞, kept as the word). -/
def rowMax (r : Fin 1008) : EReal :=
  (Finset.univ : Finset (Fin 1008)).fold max (Ideal.ofBits .f32 0xFF800000#32) (fun k => score x0 x1 r k)

/-- The exponential of a score less its row's maximum. -/
def expw (r k : Fin 1008) : EReal := Ideal.exp (score x0 x1 r k - rowMax x0 x1 r)

/-- The attention weight of row r on row k: the softmax of row r's scores. -/
def attn (r k : Fin 1008) : EReal := Ideal.div (expw x0 x1 r k) (∑ k' : Fin 1008, expw x0 x1 r k')

/-- The attended row r at feature d. -/
def ctx (r : Fin 1008) (d : Fin 128) : EReal := ∑ k : Fin 1008, attn x0 x1 r k * qv x0 x1 k d

end Spec

/-! ## The attention, read at an index -/

section Attention
variable (x0 : Vec Ideal S1x1008x128 .f32) (x1 : Vec Ideal S1008x128 .f32)

/-- The rows as the matrix unit takes them (a change of float format, which is the identity on the extended reals). -/
def qvec : FVec Ideal S1008x128 .bf16 :=
  truncf .bf16 (addf (shapeCast S1008x128 x0 shapeCasts_S1x1008x128_S1008x128) x1) bitsLt_bf16_f32

theorem qvec_apply (r : Fin 1008) (d : Fin 128) : qvec x0 x1 (ix2 r d) = qv x0 x1 r d := by
  unfold qvec qv
  show (shapeCast S1008x128 x0 shapeCasts_S1x1008x128_S1008x128 (ix2 r d) : EReal) + (x1 (ix2 r d) : EReal) = _
  exact congrArg (· + (x1 (ix2 r d) : EReal)) (shapeCast_1ab_ab_apply x0 _ r d)

/-- The named scale is the table's rational. -/
theorem named_scale : Named.named (F := Ideal) κ "inv_sqrt_hid" (φ := .f32) 0x3DB504F3#32 = scale :=
  IdealRules.named_const.ideal_named_scalar _ _ _ _ rfl

/-- The matrix of scaled scores. -/
def svec : FVec Ideal S1008x1008 .f32 :=
  mulf (matmul dot_S1008x128_S128x1008_S1008x1008_1_0_0_1_n_n none (qvec x0 x1)
      (transpose S128x1008 [1, 0] (qvec x0 x1) transposes_S1008x128_p1_0_S128x1008) (constant S1008x1008 .f32 0x00000000#32))
    (broadcast S1008x1008 (Named.named κ "inv_sqrt_hid" 0x3DB504F3#32))

theorem svec_apply (r k : Fin 1008) : svec x0 x1 (ix2 r k) = score x0 x1 r k := by
  unfold svec score
  show (matmul dot_S1008x128_S128x1008_S1008x1008_1_0_0_1_n_n none (qvec x0 x1)
      (transpose S128x1008 [1, 0] (qvec x0 x1) transposes_S1008x128_p1_0_S128x1008) (constant S1008x1008 .f32 0x00000000#32) (ix2 r k) : EReal)
    * Named.named (F := Ideal) κ "inv_sqrt_hid" (φ := .f32) 0x3DB504F3#32 = _
  rw [matmulQK_apply, named_scale]
  refine congrArg (· * scale) (Finset.sum_congr rfl fun d _ => ?_)
  rw [qvec_apply, transpose_ix2_apply, qvec_apply]

/-- Each row's largest score, as the body takes it: the lane maximum, then the maximum with −∞ once more. -/
def mvec : FVec Ideal S1008 .f32 :=
  maximumf (broadcast S1008 (Scalar.ofBits .f32 0xFF800000#32))
    (multiReduction .maximumf [1] S1008 (svec x0 x1) 0xFF800000#32 reduces_S1008x1008_S1008 (.inl rfl) rfl)

theorem mvec_apply (r : Fin 1008) : mvec x0 x1 (ix1 r) = rowMax x0 x1 r := by
  have h : multiReduction .maximumf [1] S1008 (svec x0 x1) 0xFF800000#32 reduces_S1008x1008_S1008 (.inl rfl) rfl (ix1 r)
      = (Finset.univ : Finset (Fin 1008)).fold max (Ideal.ofBits .f32 0xFF800000#32) (svec x0 x1 ∘ reduces_S1008x1008_S1008.lift (ix1 r)) :=
    Ideal.multiReduction_maximumf_single (svec x0 x1) 0xFF800000#32 reduces_S1008x1008_S1008 (.inl rfl) rfl (ix1 r)
  have hf : (svec x0 x1 ∘ reduces_S1008x1008_S1008.lift (ix1 r)) = fun k : Fin 1008 => score x0 x1 r k :=
    funext fun (k : Fin 1008) => (congrArg (svec x0 x1) (lift_cols reduces_S1008x1008_S1008 r k)).trans (svec_apply x0 x1 r k)
  rw [hf] at h
  unfold mvec rowMax
  refine (maximumf_apply _ _ (ix1 r)).trans ?_
  rw [h]
  exact max_fold_self _ _ _

/-- The exponentials of the scores less their row's maximum. -/
def evec : FVec Ideal S1008x1008 .f32 :=
  exp (subf (svec x0 x1) (broadcastTo S1008x1008 (shapeCast S1008x1 (mvec x0 x1) shapeCasts_S1008_S1008x1) broadcasts_S1008x1_S1008x1008))

theorem evec_apply (r k : Fin 1008) : evec x0 x1 (ix2 r k) = expw x0 x1 r k := by
  unfold evec expw
  show Ideal.exp ((svec x0 x1 (ix2 r k) : EReal)
    - broadcastTo S1008x1008 (shapeCast S1008x1 (mvec x0 x1) shapeCasts_S1008_S1008x1) broadcasts_S1008x1_S1008x1008 (ix2 r k)) = _
  rw [svec_apply, column_broadcast_apply, mvec_apply]

/-- The attention weights as the matrix unit takes them. -/
def avec : FVec Ideal S1008x1008 .bf16 :=
  truncf .bf16 (divf (evec x0 x1) (broadcastTo S1008x1008 (shapeCast S1008x1
    (multiReduction .add [1] S1008 (evec x0 x1) 0x00000000#32 reduces_S1008x1008_S1008 (.inl rfl) rfl) shapeCasts_S1008_S1008x1)
    broadcasts_S1008x1_S1008x1008)) bitsLt_bf16_f32

theorem avec_apply (r k : Fin 1008) : avec x0 x1 (ix2 r k) = attn x0 x1 r k := by
  unfold avec attn
  show Ideal.div (evec x0 x1 (ix2 r k) : EReal) (broadcastTo S1008x1008 (shapeCast S1008x1
    (multiReduction .add [1] S1008 (evec x0 x1) 0x00000000#32 reduces_S1008x1008_S1008 (.inl rfl) rfl) shapeCasts_S1008_S1008x1)
    broadcasts_S1008x1_S1008x1008 (ix2 r k)) = _
  have hs : multiReduction .add [1] S1008 (evec x0 x1) 0x00000000#32 reduces_S1008x1008_S1008 (.inl rfl) rfl (ix1 r)
      = ∑ k' : Fin 1008, expw x0 x1 r k' :=
    (Ideal.multiReduction_add_single (evec x0 x1) 0x00000000#32 reduces_S1008x1008_S1008 (.inl rfl) rfl (ix1 r)).trans
      (Finset.sum_congr rfl fun (k' : Fin 1008) _ =>
        (congrArg (evec x0 x1) (lift_cols reduces_S1008x1008_S1008 r k')).trans (evec_apply x0 x1 r k'))
  rw [evec_apply, column_broadcast_apply, hs]

/-- The body's attended rows are the product of the weights with the rows. -/
theorem pay6_eq : k2_pay6 x0 x1
    = matmul dot_S1008x1008_S1008x128_S1008x128_1_0_0_1_n_n none (avec x0 x1) (qvec x0 x1) (constant S1008x128 .f32 0x00000000#32) := rfl

theorem pay6_apply (r : Fin 1008) (d : Fin 128) : k2_pay6 x0 x1 (ix2 r d) = ctx x0 x1 r d := by
  rw [pay6_eq, matmulAV_apply]
  unfold ctx
  refine Finset.sum_congr rfl fun k _ => ?_
  rw [avec_apply, qvec_apply]

/-- The attended rows of the two blocks, read whole, at (r, d). -/
theorem ctxv_apply (r : Fin 1008) (d : Fin 128) : ctxv x0 x1 (ix2 r d) = ctx x0 x1 r d := by
  have e0 : View.ld x0 rX = x0 := View.ld_unit_zero (S := S1x1008x128) zeros3 _ x0
  have e1 : View.ld x1 rP = x1 := View.ld_unit_zero (S := S1008x128) zeros2 _ x1
  unfold ctxv
  rw [e0, e1]
  exact pay6_apply x0 x1 r d

end Attention

/-! ## The pooling over the twelve groups of 84 rows -/

section Concat
variable {α : Type}

/-- Twelve rows stacked: row w of the stack is piece w. -/
theorem stack12_apply (f : Fin 12 → (S1x128.Idx → α))
    (h : Shape.Concatenates (List.map (·.1) ([⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩, ⟨S1x128, f 8⟩, ⟨S1x128, f 9⟩, ⟨S1x128, f 10⟩, ⟨S1x128, f 11⟩] : List ((s : Shape) × (s.Idx → α)))) S12x128 0)
    (w : Fin 12) (j : Fin 128) :
    concatenate S12x128 0 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩, ⟨S1x128, f 8⟩, ⟨S1x128, f 9⟩, ⟨S1x128, f 10⟩, ⟨S1x128, f 11⟩] h (ix2 w j) = f w (ix2 (0 : Fin 1) j) :=
  match w with
  | ⟨0, _⟩ => concatenate_apply_piece 0 _ h (ix2 ⟨0, _⟩ j) 0 (by show 0 < 12; omega) S1x128 (f 0) rfl rfl 0 rfl (ix2 (0 : Fin 1) j)
      (fun b hb => by
        match b with
        | ⟨0, _⟩ => exact absurd rfl hb
        | ⟨1, _⟩ => rfl) rfl
  | ⟨1, _⟩ => concatenate_apply_piece 0 _ h (ix2 ⟨1, _⟩ j) 1 (by show 1 < 12; omega) S1x128 (f 1) rfl rfl 1 rfl (ix2 (0 : Fin 1) j)
      (fun b hb => by
        match b with
        | ⟨0, _⟩ => exact absurd rfl hb
        | ⟨1, _⟩ => rfl) rfl
  | ⟨2, _⟩ => concatenate_apply_piece 0 _ h (ix2 ⟨2, _⟩ j) 2 (by show 2 < 12; omega) S1x128 (f 2) rfl rfl 2 rfl (ix2 (0 : Fin 1) j)
      (fun b hb => by
        match b with
        | ⟨0, _⟩ => exact absurd rfl hb
        | ⟨1, _⟩ => rfl) rfl
  | ⟨3, _⟩ => concatenate_apply_piece 0 _ h (ix2 ⟨3, _⟩ j) 3 (by show 3 < 12; omega) S1x128 (f 3) rfl rfl 3 rfl (ix2 (0 : Fin 1) j)
      (fun b hb => by
        match b with
        | ⟨0, _⟩ => exact absurd rfl hb
        | ⟨1, _⟩ => rfl) rfl
  | ⟨4, _⟩ => concatenate_apply_piece 0 _ h (ix2 ⟨4, _⟩ j) 4 (by show 4 < 12; omega) S1x128 (f 4) rfl rfl 4 rfl (ix2 (0 : Fin 1) j)
      (fun b hb => by
        match b with
        | ⟨0, _⟩ => exact absurd rfl hb
        | ⟨1, _⟩ => rfl) rfl
  | ⟨5, _⟩ => concatenate_apply_piece 0 _ h (ix2 ⟨5, _⟩ j) 5 (by show 5 < 12; omega) S1x128 (f 5) rfl rfl 5 rfl (ix2 (0 : Fin 1) j)
      (fun b hb => by
        match b with
        | ⟨0, _⟩ => exact absurd rfl hb
        | ⟨1, _⟩ => rfl) rfl
  | ⟨6, _⟩ => concatenate_apply_piece 0 _ h (ix2 ⟨6, _⟩ j) 6 (by show 6 < 12; omega) S1x128 (f 6) rfl rfl 6 rfl (ix2 (0 : Fin 1) j)
      (fun b hb => by
        match b with
        | ⟨0, _⟩ => exact absurd rfl hb
        | ⟨1, _⟩ => rfl) rfl
  | ⟨7, _⟩ => concatenate_apply_piece 0 _ h (ix2 ⟨7, _⟩ j) 7 (by show 7 < 12; omega) S1x128 (f 7) rfl rfl 7 rfl (ix2 (0 : Fin 1) j)
      (fun b hb => by
        match b with
        | ⟨0, _⟩ => exact absurd rfl hb
        | ⟨1, _⟩ => rfl) rfl
  | ⟨8, _⟩ => concatenate_apply_piece 0 _ h (ix2 ⟨8, _⟩ j) 8 (by show 8 < 12; omega) S1x128 (f 8) rfl rfl 8 rfl (ix2 (0 : Fin 1) j)
      (fun b hb => by
        match b with
        | ⟨0, _⟩ => exact absurd rfl hb
        | ⟨1, _⟩ => rfl) rfl
  | ⟨9, _⟩ => concatenate_apply_piece 0 _ h (ix2 ⟨9, _⟩ j) 9 (by show 9 < 12; omega) S1x128 (f 9) rfl rfl 9 rfl (ix2 (0 : Fin 1) j)
      (fun b hb => by
        match b with
        | ⟨0, _⟩ => exact absurd rfl hb
        | ⟨1, _⟩ => rfl) rfl
  | ⟨10, _⟩ => concatenate_apply_piece 0 _ h (ix2 ⟨10, _⟩ j) 10 (by show 10 < 12; omega) S1x128 (f 10) rfl rfl 10 rfl (ix2 (0 : Fin 1) j)
      (fun b hb => by
        match b with
        | ⟨0, _⟩ => exact absurd rfl hb
        | ⟨1, _⟩ => rfl) rfl
  | ⟨11, _⟩ => concatenate_apply_piece 0 _ h (ix2 ⟨11, _⟩ j) 11 (by show 11 < 12; omega) S1x128 (f 11) rfl rfl 11 rfl (ix2 (0 : Fin 1) j)
      (fun b hb => by
        match b with
        | ⟨0, _⟩ => exact absurd rfl hb
        | ⟨1, _⟩ => rfl) rfl

end Concat

section Pool
variable (x0 : Vec Ideal S1x1008x128 .f32) (x1 : Vec Ideal S1008x128 .f32)

/-- Row i of the 84 rows that start at row off. -/
def rowAt (off : ℕ) (hb : off + 84 ≤ 1008) (i : Fin 84) : Fin 1008 := ⟨off + i.val, by have := i.isLt; omega⟩

/-- Row i of group w: row 84·w + i of the sample. -/
def row (w : Fin 12) (i : Fin 84) : Fin 1008 := rowAt (84 * w.val) (by have := w.isLt; omega) i

/-- The columnwise maximum of 84 consecutive rows of a 1008 × 128 matrix, as the body takes it (a slice, a reduction
    over the rows from −∞, a unit axis put in front): the fold of max over the rows, from the reduction's starting value. -/
theorem poolMax_apply (v : FVec Ideal S1008x128 .f32) (off : ℕ) (hs : S1008x128.Slices ![off, 0] S84x128) (hb : off + 84 ≤ 1008)
    (u : Fin 1) (j : Fin 128) :
    shapeCast S1x128 (multiReduction .maximumf [0] S128 (extractStridedSlice S84x128 ![off, 0] v hs) 0xFF800000#32
        reduces_S84x128_S128 (.inl rfl) rfl) shapeCasts_S128_S1x128 (ix2 u j)
      = (Finset.univ : Finset (Fin 84)).fold max (Ideal.ofBits .f32 0xFF800000#32) (fun i : Fin 84 => v (ix2 (rowAt off hb i) j)) := by
  refine (shapeCast_a_1a_apply _ shapeCasts_S128_S1x128 u j).trans ?_
  have h : multiReduction .maximumf [0] S128 (extractStridedSlice S84x128 ![off, 0] v hs) 0xFF800000#32
        reduces_S84x128_S128 (.inl rfl) rfl (ix1 j)
      = (Finset.univ : Finset (Fin 84)).fold max (Ideal.ofBits .f32 0xFF800000#32)
          (extractStridedSlice S84x128 ![off, 0] v hs ∘ reduces_S84x128_S128.lift (ix1 j)) :=
    Ideal.multiReduction_maximumf_single (extractStridedSlice S84x128 ![off, 0] v hs) 0xFF800000#32 reduces_S84x128_S128 (.inl rfl) rfl (ix1 j)
  have hf : (extractStridedSlice S84x128 ![off, 0] v hs ∘ reduces_S84x128_S128.lift (ix1 j))
      = fun i : Fin 84 => v (ix2 (rowAt off hb i) j) :=
    funext fun (i : Fin 84) =>
      show extractStridedSlice S84x128 ![off, 0] v hs (reduces_S84x128_S128.lift (ix1 j) i) = v (ix2 (rowAt off hb i) j) from
        (congrArg (extractStridedSlice S84x128 ![off, 0] v hs) (lift_rows reduces_S84x128_S128 j i)).trans (slice2_axis0_eq off v hs i j)
  rw [hf] at h
  exact h

/-- Their columnwise mean as the body takes it: the sum over the rows divided by the f32 literal 84.0. -/
theorem poolMean_apply (v : FVec Ideal S1008x128 .f32) (off : ℕ) (hs : S1008x128.Slices ![off, 0] S84x128) (hb : off + 84 ≤ 1008)
    (u : Fin 1) (j : Fin 128) :
    divf (shapeCast S1x128 (multiReduction .add [0] S128 (extractStridedSlice S84x128 ![off, 0] v hs) 0x00000000#32
        reduces_S84x128_S128 (.inl rfl) rfl) shapeCasts_S128_S1x128) (broadcast S1x128 (Scalar.ofBits .f32 0x42A80000#32)) (ix2 u j)
      = Ideal.div (∑ i : Fin 84, v (ix2 (rowAt off hb i) j)) (Ideal.ofBits .f32 0x42A80000#32) := by
  refine (divf_apply _ _ (ix2 u j)).trans ?_
  refine congrArg₂ Ideal.div ?_ rfl
  refine (shapeCast_a_1a_apply _ shapeCasts_S128_S1x128 u j).trans ?_
  refine (Ideal.multiReduction_add_single (extractStridedSlice S84x128 ![off, 0] v hs) 0x00000000#32 reduces_S84x128_S128 (.inl rfl) rfl (ix1 j)).trans ?_
  exact Finset.sum_congr rfl fun (i : Fin 84) _ =>
    show extractStridedSlice S84x128 ![off, 0] v hs (reduces_S84x128_S128.lift (ix1 j) i) = v (ix2 (rowAt off hb i) j) from
      (congrArg (extractStridedSlice S84x128 ![off, 0] v hs) (lift_rows reduces_S84x128_S128 j i)).trans (slice2_axis0_eq off v hs i j)

/-- The twelve groups' slices of the attended rows are in range. -/
theorem slicesAt : (k : Fin 12) → S1008x128.Slices ![84 * k.val, 0] S84x128
  | ⟨0, _⟩ => slices_S1008x128_o0_0_S84x128
  | ⟨1, _⟩ => slices_S1008x128_o84_0_S84x128
  | ⟨2, _⟩ => slices_S1008x128_o168_0_S84x128
  | ⟨3, _⟩ => slices_S1008x128_o252_0_S84x128
  | ⟨4, _⟩ => slices_S1008x128_o336_0_S84x128
  | ⟨5, _⟩ => slices_S1008x128_o420_0_S84x128
  | ⟨6, _⟩ => slices_S1008x128_o504_0_S84x128
  | ⟨7, _⟩ => slices_S1008x128_o588_0_S84x128
  | ⟨8, _⟩ => slices_S1008x128_o672_0_S84x128
  | ⟨9, _⟩ => slices_S1008x128_o756_0_S84x128
  | ⟨10, _⟩ => slices_S1008x128_o840_0_S84x128
  | ⟨11, _⟩ => slices_S1008x128_o924_0_S84x128

/-- Group k's row of maxima, as the body computes it from the attended rows. -/
def pmaxAt (k : Fin 12) : FVec Ideal S1x128 .f32 :=
  shapeCast S1x128 (multiReduction .maximumf [0] S128 (extractStridedSlice S84x128 ![84 * k.val, 0] (ctxv x0 x1) (slicesAt k)) 0xFF800000#32
    reduces_S84x128_S128 (.inl rfl) rfl) shapeCasts_S128_S1x128

/-- Group k's row of means. -/
def pmeanAt (k : Fin 12) : FVec Ideal S1x128 .f32 :=
  divf (shapeCast S1x128 (multiReduction .add [0] S128 (extractStridedSlice S84x128 ![84 * k.val, 0] (ctxv x0 x1) (slicesAt k)) 0x00000000#32
    reduces_S84x128_S128 (.inl rfl) rfl) shapeCasts_S128_S1x128) (broadcast S1x128 (Scalar.ofBits .f32 0x42A80000#32))

/-- The columnwise maximum over group w's rows of the attended rows, at feature j. -/
def gmax (w : Fin 12) (j : Fin 128) : EReal :=
  (Finset.univ : Finset (Fin 84)).fold max (Ideal.ofBits .f32 0xFF800000#32) (fun i => ctx x0 x1 (row w i) j)

/-- Their columnwise mean: the sum divided by the f32 literal 84.0. -/
def gmean (w : Fin 12) (j : Fin 128) : EReal :=
  Ideal.div (∑ i : Fin 84, ctx x0 x1 (row w i) j) (Ideal.ofBits .f32 0x42A80000#32)

theorem pmaxAt_apply (k : Fin 12) (u : Fin 1) (j : Fin 128) : pmaxAt x0 x1 k (ix2 u j) = gmax x0 x1 k j := by
  unfold pmaxAt gmax
  refine (poolMax_apply (ctxv x0 x1) (84 * k.val) (slicesAt k) (by have := k.isLt; omega) u j).trans ?_
  exact congrArg (fun f => (Finset.univ : Finset (Fin 84)).fold max (Ideal.ofBits .f32 0xFF800000#32) f)
    (funext fun i => ctxv_apply x0 x1 _ j)

theorem pmeanAt_apply (k : Fin 12) (u : Fin 1) (j : Fin 128) : pmeanAt x0 x1 k (ix2 u j) = gmean x0 x1 k j := by
  unfold pmeanAt gmean
  refine (poolMean_apply (ctxv x0 x1) (84 * k.val) (slicesAt k) (by have := k.isLt; omega) u j).trans ?_
  exact congrArg (fun s => Ideal.div s (Ideal.ofBits .f32 0x42A80000#32))
    (Finset.sum_congr rfl fun i _ => ctxv_apply x0 x1 _ j)

/-- The body's twelve rows of maxima, stacked, are the groups' rows in order. -/
theorem maxv_eq : maxv x0 x1 = concatenate S12x128 0 [⟨S1x128, pmaxAt x0 x1 0⟩, ⟨S1x128, pmaxAt x0 x1 1⟩, ⟨S1x128, pmaxAt x0 x1 2⟩, ⟨S1x128, pmaxAt x0 x1 3⟩, ⟨S1x128, pmaxAt x0 x1 4⟩, ⟨S1x128, pmaxAt x0 x1 5⟩, ⟨S1x128, pmaxAt x0 x1 6⟩, ⟨S1x128, pmaxAt x0 x1 7⟩, ⟨S1x128, pmaxAt x0 x1 8⟩, ⟨S1x128, pmaxAt x0 x1 9⟩, ⟨S1x128, pmaxAt x0 x1 10⟩, ⟨S1x128, pmaxAt x0 x1 11⟩] concatenates_S1x128_S1x128_S1x128_S1x128_S1x128_S1x128_S1x128_S1x128_S1x128_S1x128_S1x128_S1x128_S12x128_d0 := rfl

theorem maxv_apply (w : Fin 12) (j : Fin 128) : maxv x0 x1 (ix2 w j) = gmax x0 x1 w j := by
  rw [maxv_eq]
  exact (stack12_apply (pmaxAt x0 x1) _ w j).trans (pmaxAt_apply x0 x1 w 0 j)

/-- The body's twelve rows of means, stacked. -/
def meanv : FVec Ideal S12x128 .f32 :=
  concatenate S12x128 0 [⟨S1x128, pmeanAt x0 x1 0⟩, ⟨S1x128, pmeanAt x0 x1 1⟩, ⟨S1x128, pmeanAt x0 x1 2⟩, ⟨S1x128, pmeanAt x0 x1 3⟩, ⟨S1x128, pmeanAt x0 x1 4⟩, ⟨S1x128, pmeanAt x0 x1 5⟩, ⟨S1x128, pmeanAt x0 x1 6⟩, ⟨S1x128, pmeanAt x0 x1 7⟩, ⟨S1x128, pmeanAt x0 x1 8⟩, ⟨S1x128, pmeanAt x0 x1 9⟩, ⟨S1x128, pmeanAt x0 x1 10⟩, ⟨S1x128, pmeanAt x0 x1 11⟩] concatenates_S1x128_S1x128_S1x128_S1x128_S1x128_S1x128_S1x128_S1x128_S1x128_S1x128_S1x128_S1x128_S12x128_d0

theorem meanv_apply (w : Fin 12) (j : Fin 128) : meanv x0 x1 (ix2 w j) = gmean x0 x1 w j := by
  unfold meanv
  exact (stack12_apply (pmeanAt x0 x1) _ w j).trans (pmeanAt_apply x0 x1 w 0 j)

/-- The value the body stores: the maxima and the means side by side, under a leading unit axis. -/
theorem payload_eq : payload x0 x1
    = shapeCast S1x12x256 (concatenate S12x256 1 [⟨S12x128, maxv x0 x1⟩, ⟨S12x128, meanv x0 x1⟩] concatenates_S12x128_S12x128_S12x256_d1)
        shapeCasts_S12x256_S1x12x256 := rfl

theorem payload_max_apply (w : Fin 12) (j : Fin 128) :
    payload x0 x1 (ix3 (0 : Fin 1) w (⟨j.val, by have := j.isLt; omega⟩ : Fin 256)) = gmax x0 x1 w j := by
  rw [payload_eq]
  refine (shapeCast_ab_1ab_apply _ shapeCasts_S12x256_S1x12x256 0 w _).trans ?_
  refine (concatenate_pair_apply_left 1 (maxv x0 x1) (meanv x0 x1) concatenates_S12x128_S12x128_S12x256_d1
    (ix2 w (⟨j.val, by have := j.isLt; omega⟩ : Fin 256)) rfl (ix2 w j) (fun b => ?_)).trans (maxv_apply x0 x1 w j)
  match b with
  | ⟨0, _⟩ => rfl
  | ⟨1, _⟩ => rfl

theorem payload_mean_apply (w : Fin 12) (j : Fin 128) :
    payload x0 x1 (ix3 (0 : Fin 1) w (⟨128 + j.val, by have := j.isLt; omega⟩ : Fin 256)) = gmean x0 x1 w j := by
  rw [payload_eq]
  refine (shapeCast_ab_1ab_apply _ shapeCasts_S12x256_S1x12x256 0 w _).trans ?_
  refine (concatenate_pair_apply_right 1 (maxv x0 x1) (meanv x0 x1) concatenates_S12x128_S12x128_S12x256_d1
    (ix2 w (⟨128 + j.val, by have := j.isLt; omega⟩ : Fin 256)) rfl rfl (ix2 w j) (fun b hb => ?_) ?_).trans (meanv_apply x0 x1 w j)
  · match b with
    | ⟨0, _⟩ => rfl
    | ⟨1, _⟩ => exact absurd rfl hb
  · show j.val + 128 = 128 + j.val
    omega

/-- The result's staging buffer after the body is the stored value: the one store is of the whole buffer. -/
theorem out_eq : out (F := Ideal) x0 x1 = payload x0 x1 := by
  unfold out
  exact View.canon_unit_zero (Val := Elt Ideal) (e := .f32) (S := S1x12x256) zeros3 _ _

/-- The block at (0, w, j), j < 128: the maximum over the 84 rows r = 84·w + i of the attended row r at feature j — the
    fold of max over i from the reduction's starting value, the f32 pattern of −∞. -/
theorem out_max_apply (w : Fin 12) (j : Fin 128) :
    out (F := Ideal) x0 x1 (ix3 (0 : Fin 1) w (⟨j.val, by have := j.isLt; omega⟩ : Fin 256))
      = (Finset.univ : Finset (Fin 84)).fold max (Ideal.ofBits .f32 0xFF800000#32) (fun i => ctx x0 x1 (row w i) j) := by
  rw [out_eq]
  exact payload_max_apply x0 x1 w j

/-- The block at (0, w, 128 + j): the sum over those rows of the attended row at feature j, divided by the f32 literal 84.0. -/
theorem out_mean_apply (w : Fin 12) (j : Fin 128) :
    out (F := Ideal) x0 x1 (ix3 (0 : Fin 1) w (⟨128 + j.val, by have := j.isLt; omega⟩ : Fin 256))
      = Ideal.div (∑ i : Fin 84, ctx x0 x1 (row w i) j) (Ideal.ofBits .f32 0x42A80000#32) := by
  rw [out_eq]
  exact payload_mean_apply x0 x1 w j

end Pool

end Cert.KernelIdeal.AttnValue

end
-- ==== Proof.KI.AttnFinal.lean ====
/-
  The attention kernel's result as a whole array, at the ideal instance. Grid point t works on sample t: it reads sample
  t's 1008 × 128 rows of the hidden features and the whole positional table, and writes back sample t's 12 × 256 block of
  pooled features, which is the body's value on those two blocks. The sixty-four points' blocks cover the result, so the
  array the region leaves is, sample by sample, the body's value on that sample's rows.
-/
import proofs.«175257_j71588514890561_2_alg».proof.Proof.KI.AttnValue

set_option maxRecDepth 16384

noncomputable section

namespace Cert.KernelIdeal.Attn

open Cert.KernelIdeal Cert.KernelIdeal.Gen Cert.KernelIdeal.GenP Cert.KernelIdeal.AttnValue
open Idealize.ShloMosaic Idealize.ShloMosaic.TcCoe Idealize.ShloMosaic.ValueIdx
open Idealize.SL.Sem
open Idealize.ShloMosaic.Pipeline (Dat)

/-! ## The whole array -/

/-- Sample b's rows of a [64, 1008, 128] array, as a block with a leading unit axis. -/
def sample (T2 : S64x1008x128.Idx → Elt Ideal .f32) (b : Fin 64) : Vec Ideal S1x1008x128 .f32 :=
  fun y => T2 (ix3 b (⟨(y 1).val, (y 1).isLt⟩ : Fin 1008) (⟨(y 2).val, (y 2).isLt⟩ : Fin 128))

/-- The pooled attention on whole arrays: the hidden features T2 and the positional table pe. Sample b of the result is
    the body's value on sample b's rows and the table. -/
def G (T2 : S64x1008x128.Idx → Elt Ideal .f32) (pe : S1008x128.Idx → Elt Ideal .f32) : S64x12x256.Idx → Elt Ideal .f32 :=
  fun i => out (F := Ideal) (sample T2 (⟨(i 0).val, (i 0).isLt⟩ : Fin 64)) pe
    (ix3 (0 : Fin 1) (⟨(i 1).val, (i 1).isLt⟩ : Fin 12) (⟨(i 2).val, (i 2).isLt⟩ : Fin 256))

/-- The printed index maps over the grid: point t takes block t of the features' and the result's leading axis, and the
    one block of the table. -/
theorem idx_facts : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 3) = t.val ∧ win2_2.index t (1 : Fin 3) = 0 ∧ win2_2.index t (2 : Fin 3) = 0 :=
  (by decide +kernel : ∀ t : Fin grid2.N, _)

variable (V : (c : Dev nD) → (b : Ref sig .tc) → Buf (Elt Ideal) ((c : Thread nD τ).loc b))

/-- What point t writes back is block t of G of the arrays as the region finds them. -/
theorem flushed_eq (c : Dev nD) (t : Fin cfg2.N) :
    (dat V c).flushed 2 t = ((cfg2.win 2).blk t).view.read (Elt Ideal) (G (V c main_v28) (V c main_arg2)) := by
  have hcut : ∀ o : Vec Ideal S1x12x256 .f32, (cfg2.win 2).cut (grid2.coords t) o = o := fun _ => rfl
  have hread : ∀ (g : S64x12x256.Idx → Elt Ideal .f32) (j : S1x12x256.Idx),
      ((cfg2.win 2).blk t).view.read (Elt Ideal) g j = g (((cfg2.win 2).blk t).view.emb j) := fun _ _ => rfl
  show (cfg2.win 2).cut (grid2.coords t) ((dat V c).after 2 t) = _
  rw [after_2, hcut]
  obtain ⟨e00, e01, e02, e10, e11, e20, e21, e22⟩ := idx_facts t
  funext j
  rw [hread]
  have hj0 : (j 0).val < 1 := (j 0).isLt
  have hj1 : (j 1).val < 12 := (j 1).isLt
  have hj2 : (j 2).val < 256 := (j 2).isLt
  have h0 : blk V c 0 t = sample (V c main_v28) (⟨((((cfg2.win 2).blk t).view.emb j) 0).val, ((((cfg2.win 2).blk t).view.emb j) 0).isLt⟩ : Fin 64) := by
    funext y
    have hy0 : (y 0).val < 1 := (y 0).isLt
    show V c main_v28 (((cfg2.win 0).blk t).view.emb y) = V c main_v28 _
    refine congrArg (V c main_v28) (funext fun a => Fin.ext ?_)
    match a with
    | ⟨0, _⟩ => show win2_0.index t (0 : Fin 3) * 1 + 1 * (y 0).val = win2_2.index t (0 : Fin 3) * 1 + 1 * (j 0).val; omega
    | ⟨1, _⟩ => show win2_0.index t (1 : Fin 3) * 1008 + 1 * (y 1).val = (y 1).val; omega
    | ⟨2, _⟩ => show win2_0.index t (2 : Fin 3) * 128 + 1 * (y 2).val = (y 2).val; omega
  have h1 : blk V c 1 t = V c main_arg2 := by
    funext y
    show V c main_arg2 (((cfg2.win 1).blk t).view.emb y) = V c main_arg2 y
    refine congrArg (V c main_arg2) (funext fun a => Fin.ext ?_)
    match a with
    | ⟨0, _⟩ => show win2_1.index t (0 : Fin 2) * 1008 + 1 * (y 0).val = (y 0).val; omega
    | ⟨1, _⟩ => show win2_1.index t (1 : Fin 2) * 128 + 1 * (y 1).val = (y 1).val; omega
  have hj : j = ix3 (0 : Fin 1) (⟨((((cfg2.win 2).blk t).view.emb j) 1).val, ((((cfg2.win 2).blk t).view.emb j) 1).isLt⟩ : Fin 12)
      (⟨((((cfg2.win 2).blk t).view.emb j) 2).val, ((((cfg2.win 2).blk t).view.emb j) 2).isLt⟩ : Fin 256) := by
    funext a; apply Fin.ext
    match a with
    | ⟨0, _⟩ => show (j 0).val = 0; omega
    | ⟨1, _⟩ => show (j 1).val = win2_2.index t (1 : Fin 3) * 12 + 1 * (j 1).val; omega
    | ⟨2, _⟩ => show (j 2).val = win2_2.index t (2 : Fin 3) * 256 + 1 * (j 2).val; omega
  unfold G
  rw [h0, h1]
  exact congrArg (out (F := Ideal) _ (V c main_arg2)) hj

/-- An index of the result is in point t's block iff each coordinate is within the block's span on its axis. -/
theorem mem_blk (t : Fin cfg2.N) (i : S64x12x256.Idx) :
    i ∈ ((cfg2.win 2).blk t).view.set ↔ ∀ a : Fin 3, win2_2.index t a * S1x12x256.size a ≤ (i a).val ∧ (i a).val < win2_2.index t a * S1x12x256.size a + S1x12x256.size a := by
  show i ∈ ((View.whole main_v29).slice (win2_2.rect t)).set ↔ _
  rw [View.set_slice_whole, Rect.mem_set_unit]
  exact Iff.rfl

/-- Every index of the result lies in the block of the point its sample names. -/
theorem covered (i : S64x12x256.Idx) : ∃ t : Fin cfg2.N, (cfg2.win 2).flush t = true ∧ i ∈ ((cfg2.win 2).blk t).view.set := by
  have hi0 : (i 0).val < 64 := (i 0).isLt
  have hi1 : (i 1).val < 12 := (i 1).isLt
  have hi2 : (i 2).val < 256 := (i 2).isLt
  have hN : cfg2.N = 64 := N_2
  refine ⟨⟨(i 0).val, by rw [hN]; omega⟩, flush2_2 _, ?_⟩
  rw [mem_blk]
  obtain ⟨-, -, -, -, -, e20, e21, e22⟩ := idx_facts ⟨(i 0).val, by rw [hN]; omega⟩
  intro a
  match a with
  | ⟨0, _⟩ => show win2_2.index _ (0 : Fin 3) * 1 ≤ (i 0).val ∧ (i 0).val < win2_2.index _ (0 : Fin 3) * 1 + 1; rw [e20]; dsimp only; omega
  | ⟨1, _⟩ => show win2_2.index _ (1 : Fin 3) * 12 ≤ (i 1).val ∧ (i 1).val < win2_2.index _ (1 : Fin 3) * 12 + 12; rw [e21]; omega
  | ⟨2, _⟩ => show win2_2.index _ (2 : Fin 3) * 256 ≤ (i 2).val ∧ (i 2).val < win2_2.index _ (2 : Fin 3) * 256 + 256; rw [e22]; omega

/-- The result's array after the region: G of the arrays the region finds. -/
theorem final (c : Dev nD) : (dat V c).arrAt 2 cfg2.N = G (V c main_v28) (V c main_arg2) :=
  (dat V c).arrAt_eq_of_cover 2 _ (fun t _ => flushed_eq V c t) covered

/-! ## The whole array, index by index -/

/-- At (b, w, j), j < 128: the maximum over group w's 84 rows of sample b's attended rows at feature j. -/
theorem G_max_apply (T2 : S64x1008x128.Idx → Elt Ideal .f32) (pe : S1008x128.Idx → Elt Ideal .f32) (b : Fin 64) (w : Fin 12) (j : Fin 128) :
    G T2 pe (ix3 b w (⟨j.val, by have := j.isLt; omega⟩ : Fin 256))
      = (Finset.univ : Finset (Fin 84)).fold max (Ideal.ofBits .f32 0xFF800000#32) (fun i => ctx (sample T2 b) pe (row w i) j) :=
  out_max_apply (sample T2 b) pe w j

/-- At (b, w, 128 + j): their sum divided by the f32 literal 84.0. -/
theorem G_mean_apply (T2 : S64x1008x128.Idx → Elt Ideal .f32) (pe : S1008x128.Idx → Elt Ideal .f32) (b : Fin 64) (w : Fin 12) (j : Fin 128) :
    G T2 pe (ix3 b w (⟨128 + j.val, by have := j.isLt; omega⟩ : Fin 256))
      = Ideal.div (∑ i : Fin 84, ctx (sample T2 b) pe (row w i) j) (Ideal.ofBits .f32 0x42A80000#32) :=
  out_mean_apply (sample T2 b) pe w j

end Cert.KernelIdeal.Attn

end
-- ==== Proof.Laws.lean ====
/-
  The arithmetic that joins the kernel's formulas to the reference's, on the extended reals.

  * The reference divides the attention scores by the binary number D = 11863283 / 2^20 (the nearest single-precision
    number to the square root of 128); the kernel multiplies them by a constant read as exactly 1 / D. A quotient by a
    nonzero real is the product with its inverse on every extended real, the infinities included.
  * Batch normalisation: the kernel multiplies by the reciprocal square root of (variance + ε), the reference divides by
    the square root. For a positive real argument both are the product with (√s)⁻¹; at zero and below they differ,
    which is why the certificate's precondition asks variance + ε > 0.
-/
import Idealize.ShloMosaic.PureOps.Ideal

noncomputable section

namespace Cert.Laws

open Idealize.ShloMosaic

/-- The reference's divisor denotes the real 11863283 / 1048576. -/
theorem ofBits_sqrt_hid : Ideal.ofBits .f32 0x413504F3#32 = ((11863283 / 1048576 : ℝ) : EReal) := by
  simp [Ideal.ofBits, Ideal.ieee, -EReal.coe_mul]; norm_num

/-- The ε of both batch normalisations denotes a positive real. -/
theorem ofBits_eps : Ideal.ofBits .f32 0x3727C5AC#32 = ((2748779 / 274877906944 : ℝ) : EReal) := by
  simp [Ideal.ofBits, Ideal.ieee, -EReal.coe_mul]; norm_num

/-- `84.0` denotes the real 84. -/
theorem ofBits_84 : Ideal.ofBits .f32 0x42A80000#32 = ((84 : ℝ) : EReal) := by
  simp [Ideal.ofBits, Ideal.ieee, -EReal.coe_mul]; norm_num

/-- The quotient by the reference's divisor is the product with the kernel's named constant, on every extended real. -/
theorem div_sqrt_hid (x : EReal) :
    Ideal.div x (Ideal.ofBits .f32 0x413504F3#32) = x * ((1048576 / 11863283 : ℝ) : EReal) := by
  rw [ofBits_sqrt_hid, Ideal.div_coe (by norm_num)]
  congr 2; norm_num

/-- For a positive real `s`: the product with the reciprocal square root is the quotient by the square root. -/
theorem mul_rsqrt_eq_div_sqrt (x : EReal) {s : ℝ} (hs : 0 < s) :
    x * Ideal.rsqrt (s : EReal) = Ideal.div x (Ideal.sqrt (s : EReal)) := by
  have h1 : Ideal.rsqrt (s : EReal) = (((Real.sqrt s)⁻¹ : ℝ) : EReal) := by
    rw [Ideal.rsqrt_coe, if_neg (not_lt.mpr hs.le), if_neg hs.ne']
  have h2 : Ideal.sqrt (s : EReal) = ((Real.sqrt s : ℝ) : EReal) := by
    rw [Ideal.sqrt_coe, if_neg (not_lt.mpr hs.le)]
  rw [h1, h2, Ideal.div_coe (Real.sqrt_ne_zero'.mpr hs)]
  congr 2; simp [one_div]

end Cert.Laws

end
-- ==== Proof.KI.AttnBridge.lean ====
/-
  The attention kernel's whole-array value against the reference's attention, at the ideal instance. Both compute, for
  each sample, q = (the sample's rows of the hidden features) + (the positional table), the scores (q qᵀ) scaled, the
  row softmax (the row maximum folded from −∞ and joined with −∞ once more, the exponentials of the differences, their
  row sums, the quotients), the attended rows a q, and for each of the twelve groups of 84 rows the columnwise maximum and
  the columnwise sum divided by 84.0. The one difference is the scale: the reference divides the scores by the f32
  number nearest √128, the kernel multiplies by the named constant read as exactly its inverse; a quotient by a nonzero
  real is the product with its inverse on every extended real. The reference's hidden features enter only through their
  reshape to [64, 1008, 128], which is carried as one term and never opened.
-/
import proofs.«175257_j71588514890561_2_alg».proof.Proof.KI.AttnFinal
import proofs.«175257_j71588514890561_2_alg».proof.Proof.Patched.ReferenceIdeal.Read
import proofs.«175257_j71588514890561_2_alg».proof.Proof.Laws

set_option maxRecDepth 16384

noncomputable section

namespace Cert.KernelIdeal.AttnBridge

open Cert.KernelIdeal.Attn Cert.KernelIdeal.AttnValue
open Cert.ReferenceIdeal.ReadP
open Idealize.ShloMosaic Idealize.ShloMosaic.ValueIdx

/-! ## Indices with a coordinate put back -/

theorem lift3_last {a b c : ℕ} (h : (⟨3, ![a, b, c]⟩ : Shape).Reduces [2] ⟨2, ![a, b]⟩) (p : Fin a) (q : Fin b) (k : Fin c) :
    h.lift (ix2 p q) k = ix3 p q k :=
  funext fun a => Fin.ext (by match a with | ⟨0, _⟩ => rfl | ⟨1, _⟩ => rfl | ⟨2, _⟩ => rfl)

theorem lift4_axis2 {a b c d : ℕ} (h : (⟨4, ![a, b, c, d]⟩ : Shape).Reduces [2] ⟨3, ![a, b, d]⟩) (p : Fin a) (q : Fin b) (r : Fin d) (k : Fin c) :
    h.lift (ix3 p q r) k = ix4 p q k r :=
  funext fun a => Fin.ext (by match a with | ⟨0, _⟩ => rfl | ⟨1, _⟩ => rfl | ⟨2, _⟩ => rfl | ⟨3, _⟩ => rfl)

/-- A fold of the ideal instance's maximum is the fold of max. -/
theorem fold_maximumf {ι : Type} (s : Finset ι) (b : EReal) (f : ι → EReal) :
    s.fold (FloatOps.maximumf (F := Ideal) (φ := .f32)) b f = s.fold max b f := rfl

section Ref
variable (x0 : (⟨Cert.ReferenceIdeal.S64512x84, .f32⟩ : BufTy).Contents (Elt Ideal))
  (x1 : (⟨Cert.ReferenceIdeal.S2x1032192, .i32⟩ : BufTy).Contents (Elt Ideal))
  (x2 : (⟨Cert.ReferenceIdeal.S1008x128, .f32⟩ : BufTy).Contents (Elt Ideal))
  (x3 : (⟨Cert.ReferenceIdeal.S84x128, .f32⟩ : BufTy).Contents (Elt Ideal))
  (x4 : (⟨Cert.ReferenceIdeal.S128, .f32⟩ : BufTy).Contents (Elt Ideal))
  (x5 : (⟨Cert.ReferenceIdeal.S128x128, .f32⟩ : BufTy).Contents (Elt Ideal))
  (x6 : (⟨Cert.ReferenceIdeal.S128, .f32⟩ : BufTy).Contents (Elt Ideal))

/-- The reference's hidden features, reshaped to [64, 1008, 128]: one term, never opened. -/
abbrev T2r : Cert.KernelIdeal.S64x1008x128.Idx → Elt Ideal .f32 := val_main_v34 (F := Ideal) x0 x1 x3 x4 x5 x6

/-- The reference's q at (b, r, d) is sample b's row r plus the table's row r, at feature d. -/
theorem ref_q (b : Fin 64) (r : Fin 1008) (d : Fin 128) :
    val_main_v37 (F := Ideal) x0 x1 x2 x3 x4 x5 x6 (ix3 b r d) = qv (sample (T2r x0 x1 x3 x4 x5 x6) b) x2 r d := by
  have e : idx_main_v35 (idx_main_v36 (ix3 b r d)) = ix2 r d := funext fun a => Fin.ext (by match a with | ⟨0, _⟩ => rfl | ⟨1, _⟩ => rfl)
  show (val_main_v34 (F := Ideal) x0 x1 x3 x4 x5 x6 (ix3 b r d) : EReal) + (val_main_v36 (F := Ideal) x2 (ix3 b r d) : EReal) = _
  rw [val_main_v36_apply, val_main_v35_apply, e]
  rfl

/-- The reference's scaled scores are the kernel's: the quotient by the f32 number nearest √128 is the product with the
    named inverse. -/
theorem ref_score (b : Fin 64) (r k : Fin 1008) :
    val_main_v40 (F := Ideal) x0 x1 x2 x3 x4 x5 x6 (ix3 b r k) = score (sample (T2r x0 x1 x3 x4 x5 x6) b) x2 r k := by
  have el : ∀ d : Fin 128, lidx_main_v38 (ix3 b r k) d = ix3 b r d := fun d => funext fun a => Fin.ext (by match a with | ⟨0, _⟩ => rfl | ⟨1, _⟩ => rfl | ⟨2, _⟩ => rfl)
  have er : ∀ d : Fin 128, ridx_main_v38 (ix3 b r k) d = ix3 b k d := fun d => funext fun a => Fin.ext (by match a with | ⟨0, _⟩ => rfl | ⟨1, _⟩ => rfl | ⟨2, _⟩ => rfl)
  show Ideal.div (val_main_v38 (F := Ideal) x0 x1 x2 x3 x4 x5 x6 (ix3 b r k) : EReal) (val_main_v39 (F := Ideal) (ix3 b r k)) = _
  rw [val_main_v39_apply]
  show Ideal.div (val_main_v38 (F := Ideal) x0 x1 x2 x3 x4 x5 x6 (ix3 b r k) : EReal) (Ideal.ofBits .f32 0x413504F3#32) = _
  rw [Cert.Laws.div_sqrt_hid, val_main_v38_apply]
  unfold score scale
  refine congrArg (· * (((1048576 / 11863283 : ℝ) : EReal))) (Finset.sum_congr rfl fun d _ => ?_)
  rw [el, er, ref_q, ref_q]

/-- The reference's row maximum (its reduction from −∞, joined with −∞ once more) is the kernel's. -/
theorem ref_rowMax (b : Fin 64) (r : Fin 1008) :
    val_main_v43 (F := Ideal) x0 x1 x2 x3 x4 x5 x6 (ix2 b r) = rowMax (sample (T2r x0 x1 x3 x4 x5 x6) b) x2 r := by
  have hred : Cert.ReferenceIdeal.S64x1008x1008.Reduces [2] Cert.ReferenceIdeal.S64x1008 := by decide
  have hf : (val_main_v40 (F := Ideal) x0 x1 x2 x3 x4 x5 x6 ∘ hred.lift (ix2 b r)) = fun k : Fin 1008 => score (sample (T2r x0 x1 x3 x4 x5 x6) b) x2 r k :=
    funext fun (k : Fin 1008) =>
      show val_main_v40 (F := Ideal) x0 x1 x2 x3 x4 x5 x6 (hred.lift (ix2 b r) k) = score (sample (T2r x0 x1 x3 x4 x5 x6) b) x2 r k from
        (congrArg (val_main_v40 (F := Ideal) x0 x1 x2 x3 x4 x5 x6) (lift3_last hred b r k)).trans (ref_score x0 x1 x2 x3 x4 x5 x6 b r k)
  have h41 : val_main_v41 (F := Ideal) x0 x1 x2 x3 x4 x5 x6 (ix2 b r)
      = (Finset.univ : Finset (Fin 1008)).fold max (Ideal.ofBits .f32 0xFF800000#32) (fun k : Fin 1008 => score (sample (T2r x0 x1 x3 x4 x5 x6) b) x2 r k) := by
    unfold val_main_v41
    refine (Host.reduce_eq_fold_single (FloatOps.maximumf (F := Ideal) (φ := .f32)) (val_main_v40 (F := Ideal) x0 x1 x2 x3 x4 x5 x6) (val_main_cst_5 (F := Ideal))
      _ hred _ (ix2 b r)).trans ?_
    rw [fold_maximumf, val_main_cst_5_apply, Ideal.ofBits_def, hf]
    rfl
  unfold rowMax
  rw [val_main_v43_apply, Ideal.maximumf_def, val_main_v42_apply, val_main_cst_6_apply, Ideal.ofBits_def, h41]
  exact max_fold_self _ _ _

/-- The reference's exponentials. -/
theorem ref_expw (b : Fin 64) (r k : Fin 1008) :
    val_main_v47 (F := Ideal) x0 x1 x2 x3 x4 x5 x6 (ix3 b r k) = expw (sample (T2r x0 x1 x3 x4 x5 x6) b) x2 r k := by
  have e : idx_main_v44 (idx_main_v45 (ix3 b r k)) = ix2 b r := funext fun a => Fin.ext (by match a with | ⟨0, _⟩ => rfl | ⟨1, _⟩ => rfl)
  rw [val_main_v47_apply, Ideal.hostUnary_exp_def, val_main_v46_apply, Ideal.subf_def, val_main_v45_apply, val_main_v44_apply, e,
    ref_score, ref_rowMax]
  rfl

/-- The reference's row sums of the exponentials. -/
theorem ref_sum (b : Fin 64) (r : Fin 1008) :
    val_main_v48 (F := Ideal) x0 x1 x2 x3 x4 x5 x6 (ix2 b r) = ∑ k : Fin 1008, expw (sample (T2r x0 x1 x3 x4 x5 x6) b) x2 r k := by
  have e : ∀ k : Fin 1008, idx_main_v48 (ix2 b r) k = ix3 b r k := fun k => funext fun a => Fin.ext (by match a with | ⟨0, _⟩ => rfl | ⟨1, _⟩ => rfl | ⟨2, _⟩ => rfl)
  rw [val_main_v48_apply, val_main_cst_7_apply, Ideal.ofBits_def, Ideal.ofBits_zero_f32, zero_add]
  refine Finset.sum_congr rfl fun k _ => ?_
  rw [e, ref_expw]

/-- The reference's attention weights. -/
theorem ref_attn (b : Fin 64) (r k : Fin 1008) :
    val_main_v51 (F := Ideal) x0 x1 x2 x3 x4 x5 x6 (ix3 b r k) = attn (sample (T2r x0 x1 x3 x4 x5 x6) b) x2 r k := by
  have e : idx_main_v49 (idx_main_v50 (ix3 b r k)) = ix2 b r := funext fun a => Fin.ext (by match a with | ⟨0, _⟩ => rfl | ⟨1, _⟩ => rfl)
  rw [val_main_v51_apply, Ideal.hostDivf_def, val_main_v50_apply, val_main_v49_apply, e, ref_expw, ref_sum]
  rfl

/-- The reference's attended rows. -/
theorem ref_ctx (b : Fin 64) (r : Fin 1008) (d : Fin 128) :
    val_main_v52 (F := Ideal) x0 x1 x2 x3 x4 x5 x6 (ix3 b r d) = ctx (sample (T2r x0 x1 x3 x4 x5 x6) b) x2 r d := by
  have el : ∀ k : Fin 1008, lidx_main_v52 (ix3 b r d) k = ix3 b r k := fun k => funext fun a => Fin.ext (by match a with | ⟨0, _⟩ => rfl | ⟨1, _⟩ => rfl | ⟨2, _⟩ => rfl)
  have er : ∀ k : Fin 1008, ridx_main_v52 (ix3 b r d) k = ix3 b k d := fun k => funext fun a => Fin.ext (by match a with | ⟨0, _⟩ => rfl | ⟨1, _⟩ => rfl | ⟨2, _⟩ => rfl)
  rw [val_main_v52_apply]
  unfold ctx
  refine Finset.sum_congr rfl fun k _ => ?_
  rw [el, er, ref_attn, ref_q]

/-- The attended rows regrouped in twelve groups of 84: group w's row i is row 84·w + i. -/
theorem ref_grouped (b : Fin 64) (w : Fin 12) (i : Fin 84) (d : Fin 128) :
    val_main_v54 (F := Ideal) x0 x1 x2 x3 x4 x5 x6 (ix4 b w i d) = ctx (sample (T2r x0 x1 x3 x4 x5 x6) b) x2 (row w i) d := by
  have hb := b.isLt; have hw := w.isLt; have hi := i.isLt; have hd := d.isLt
  have e : idx_main_v54 (ix4 b w i d) = ix3 b (row w i) d := funext fun a => Fin.ext (by match a with | ⟨0, _⟩ => show (((b.val * 12 + w.val) * 84 + i.val) * 128 + d.val) / 129024 = b.val; omega | ⟨1, _⟩ => show (((b.val * 12 + w.val) * 84 + i.val) * 128 + d.val) / 128 % 1008 = 84 * w.val + i.val; omega | ⟨2, _⟩ => show (((b.val * 12 + w.val) * 84 + i.val) * 128 + d.val) % 128 = d.val; omega)
  rw [val_main_v54_apply, e, ref_ctx]

/-- The reference's pooled maxima. -/
theorem ref_max (b : Fin 64) (w : Fin 12) (j : Fin 128) :
    val_main_v59 (F := Ideal) x0 x1 x2 x3 x4 x5 x6 (ix3 b w j)
      = (Finset.univ : Finset (Fin 84)).fold max (Ideal.ofBits .f32 0xFF800000#32) (fun i => ctx (sample (T2r x0 x1 x3 x4 x5 x6) b) x2 (row w i) j) := by
  have hred : Cert.ReferenceIdeal.S64x12x84x128.Reduces [2] Cert.ReferenceIdeal.S64x12x128 := by decide
  have hf : (val_main_v54 (F := Ideal) x0 x1 x2 x3 x4 x5 x6 ∘ hred.lift (ix3 b w j)) = fun i : Fin 84 => ctx (sample (T2r x0 x1 x3 x4 x5 x6) b) x2 (row w i) j :=
    funext fun (i : Fin 84) =>
      show val_main_v54 (F := Ideal) x0 x1 x2 x3 x4 x5 x6 (hred.lift (ix3 b w j) i) = ctx (sample (T2r x0 x1 x3 x4 x5 x6) b) x2 (row w i) j from
        (congrArg (val_main_v54 (F := Ideal) x0 x1 x2 x3 x4 x5 x6) (lift4_axis2 hred b w j i)).trans (ref_grouped x0 x1 x2 x3 x4 x5 x6 b w i j)
  unfold val_main_v59
  refine (Host.reduce_eq_fold_single (FloatOps.maximumf (F := Ideal) (φ := .f32)) (val_main_v54 (F := Ideal) x0 x1 x2 x3 x4 x5 x6) (val_main_cst_11 (F := Ideal))
    _ hred _ (ix3 b w j)).trans ?_
  rw [fold_maximumf, val_main_cst_11_apply, Ideal.ofBits_def, hf]
  rfl

/-- The reference's pooled means. -/
theorem ref_mean (b : Fin 64) (w : Fin 12) (j : Fin 128) :
    val_main_v62 (F := Ideal) x0 x1 x2 x3 x4 x5 x6 (ix3 b w j)
      = Ideal.div (∑ i : Fin 84, ctx (sample (T2r x0 x1 x3 x4 x5 x6) b) x2 (row w i) j) (Ideal.ofBits .f32 0x42A80000#32) := by
  have e : ∀ i : Fin 84, idx_main_v60 (ix3 b w j) i = ix4 b w i j := fun i => funext fun a => Fin.ext (by match a with | ⟨0, _⟩ => rfl | ⟨1, _⟩ => rfl | ⟨2, _⟩ => rfl | ⟨3, _⟩ => rfl)
  rw [val_main_v62_apply, Ideal.hostDivf_def, val_main_v61_apply, val_main_cst_13_apply, Ideal.ofBits_def, val_main_v60_apply,
    val_main_cst_12_apply, Ideal.ofBits_def, Ideal.ofBits_zero_f32, zero_add]
  refine congrArg (fun s => Ideal.div s (Ideal.ofBits .f32 0x42A80000#32)) (Finset.sum_congr rfl fun i _ => ?_)
  rw [e, ref_grouped]

/-! ## The bridge -/

/-- The kernel's result at (b, w, j), j < 128, is the reference's pooled maximum at (b, w, j). -/
theorem G_eq_ref_max (b : Fin 64) (w : Fin 12) (j : Fin 128) :
    G (T2r x0 x1 x3 x4 x5 x6) x2 (ix3 b w (⟨j.val, by have := j.isLt; omega⟩ : Fin 256)) = val_main_v59 (F := Ideal) x0 x1 x2 x3 x4 x5 x6 (ix3 b w j) :=
  (G_max_apply (T2r x0 x1 x3 x4 x5 x6) x2 b w j).trans (ref_max x0 x1 x2 x3 x4 x5 x6 b w j).symm

/-- The kernel's result at (b, w, 128 + j) is the reference's pooled mean at (b, w, j). -/
theorem G_eq_ref_mean (b : Fin 64) (w : Fin 12) (j : Fin 128) :
    G (T2r x0 x1 x3 x4 x5 x6) x2 (ix3 b w (⟨128 + j.val, by have := j.isLt; omega⟩ : Fin 256)) = val_main_v62 (F := Ideal) x0 x1 x2 x3 x4 x5 x6 (ix3 b w j) :=
  (G_mean_apply (T2r x0 x1 x3 x4 x5 x6) x2 b w j).trans (ref_mean x0 x1 x2 x3 x4 x5 x6 b w j).symm

end Ref

end Cert.KernelIdeal.AttnBridge

end
-- ==== Proof.KI.AttnStage.lean ====
/-
  The attention stage of the kernel program against the reference. The pooled buffer the attention region leaves is the
  whole-array value of the body on what the region finds: the second layer's output regrouped by sample, which is the
  reference's reshape of its own second layer, and the positional table, which is the program's argument untouched. The
  last host stretch reads the buffer's two halves along the last axis; the first half is the reference's pooled maxima
  and the second its pooled means.
-/
import proofs.«175257_j71588514890561_2_alg».proof.Proof.KI.Stages
import proofs.«175257_j71588514890561_2_alg».proof.Proof.KI.Keep
import proofs.«175257_j71588514890561_2_alg».proof.Proof.KI.AttnFinal
import proofs.«175257_j71588514890561_2_alg».proof.Proof.KI.AttnBridge

set_option maxRecDepth 16384

noncomputable section

namespace Cert.KernelIdeal.AttnStage

open Cert.KernelIdeal Cert.KernelIdeal.Gen Cert.KernelIdeal.GenP Cert.KernelIdeal.Run
open Idealize.ShloMosaic Idealize.ShloMosaic.TcCoe Idealize.SL.Sem Idealize.ShloMosaic.ValueIdx

variable (m : (ℓ : Loc nD τ sig) → Buf (Elt Ideal) ℓ)

/-- The pooled buffer after the attention region: the body's whole-array value on the reference's regrouped second layer
    and the positional table. -/
theorem pooled (c : Dev nD) :
    W6 m c (Proc.devRef .tc main_v29)
      = Attn.G (AttnBridge.T2r (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) (m ((c : Thread nD τ).loc main_arg2)) := by
  rw [W6_v29_arr, Attn.final]
  have e28 : Run.V5 m c main_v28 = Cert.ReferenceIdeal.ReadP.val_main_v34 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := Stages.r2 m c
  have e2 : Run.V5 m c main_arg2 = (m ((c : Thread nD τ).loc main_arg2)) :=
    W5_keep m c main_arg2 (by decide) (by decide) (by decide) (by decide) (by decide)
  rw [e28, e2]

/-- The first half of the pooled buffer along its last axis is the reference's pooled maxima. -/
theorem p_max (c : Dev nD) :
    extractStridedSlice S64x12x128 ![0, 0, 0] (W6 m c (Proc.devRef .tc main_v29)) slices_S64x12x256_S64x12x128_0_0_0
      = Cert.ReferenceIdeal.ReadP.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨b, w, j, rfl⟩ : ∃ (b : Fin 64) (w : Fin 12) (j : Fin 128), i = ix3 b w j := ⟨i 0, i 1, i 2, eq_ix3 i⟩
  refine (extractStridedSlice_apply ![0, 0, 0] _ slices_S64x12x256_S64x12x128_0_0_0 (ix3 b w j)
    (ix3 b w (⟨j.val, by have := j.isLt; omega⟩ : Fin 256)) (fun a => ?_)).trans ?_
  · match a with
    | ⟨0, _⟩ => show b.val = 0 + b.val; omega
    | ⟨1, _⟩ => show w.val = 0 + w.val; omega
    | ⟨2, _⟩ => show j.val = 0 + j.val; omega
  · rw [pooled]
    exact AttnBridge.G_eq_ref_max _ _ _ _ _ _ _ b w j

/-- The second half is the reference's pooled means. -/
theorem p_mean (c : Dev nD) :
    extractStridedSlice S64x12x128 ![0, 0, 128] (W6 m c (Proc.devRef .tc main_v29)) slices_S64x12x256_S64x12x128_0_0_128
      = Cert.ReferenceIdeal.ReadP.val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext i
  obtain ⟨b, w, j, rfl⟩ : ∃ (b : Fin 64) (w : Fin 12) (j : Fin 128), i = ix3 b w j := ⟨i 0, i 1, i 2, eq_ix3 i⟩
  refine (extractStridedSlice_apply ![0, 0, 128] _ slices_S64x12x256_S64x12x128_0_0_128 (ix3 b w j)
    (ix3 b w (⟨128 + j.val, by have := j.isLt; omega⟩ : Fin 256)) (fun a => ?_)).trans ?_
  · match a with
    | ⟨0, _⟩ => show b.val = 0 + b.val; omega
    | ⟨1, _⟩ => show w.val = 0 + w.val; omega
    | ⟨2, _⟩ => show 128 + j.val = 128 + j.val; rfl
  · rw [pooled]
    exact AttnBridge.G_eq_ref_mean _ _ _ _ _ _ _ b w j

end Cert.KernelIdeal.AttnStage

end
-- ==== Proof.KI.HeadEntry.lean ====
/-
  What the classifier kernel finds in its parameter buffers: the three weight matrices are argument arrays, untouched;
  each bias and each batch-normalisation vector has been laid out by the host as an array of one row, whose entry in
  column `n` is the vector's entry `n`.
-/
import proofs.«175257_j71588514890561_2_alg».proof.Proof.KI.Keep
import Idealize.ShloMosaic.Lib.StableHlo.Run
import Idealize.ShloMosaic.Lib.ValueIdx
import Idealize.ShloMosaic.Lib.Pipeline.Value

set_option maxRecDepth 16384

noncomputable section

namespace Cert.KernelIdeal.HeadEntry

open Cert.KernelIdeal Cert.KernelIdeal.Gen Cert.KernelIdeal.GenP Cert.KernelIdeal.Run
open Idealize.ShloMosaic Idealize.ShloMosaic.TcCoe Idealize.SL.Sem Idealize.ShloMosaic.StableHlo Idealize.ShloMosaic.ValueIdx

variable (m : (ℓ : Loc nD τ sig) → Buf (Elt Ideal) ℓ)

/-- An argument array is as launched where the last host stretch reads it. -/
theorem W6_keep (c : Dev nD) (b : Ref sig .tc) (h0 : b ∉ (hostOps0_W : List (Ref sig .tc))) (h1 : b ∉ (hostOps1_W : List (Ref sig .tc)))
    (h2 : b ∉ (hostOps2_W : List (Ref sig .tc))) (n0 : b ≠ main_v15) (n1 : b ≠ main_v27) (n2 : b ≠ main_v29) :
    W6 m c (Proc.devRef .tc b) = m ((c : Thread nD τ).loc b) :=
  (keep2 m c b n2).trans (W5_keep m c b h0 h1 h2 n0 n1)

theorem mat7 (c : Dev nD) : W7 m c (Proc.devRef .tc main_arg7) = (m ((c : Thread nD τ).loc main_arg7)) :=
  W7_keep m c main_arg7 (by decide) (by decide) (by decide) (by decide) (by decide) (by decide) (by decide)
theorem mat9 (c : Dev nD) : W7 m c (Proc.devRef .tc main_arg9) = (m ((c : Thread nD τ).loc main_arg9)) :=
  W7_keep m c main_arg9 (by decide) (by decide) (by decide) (by decide) (by decide) (by decide) (by decide)
theorem mat11 (c : Dev nD) : W7 m c (Proc.devRef .tc main_arg11) = (m ((c : Thread nD τ).loc main_arg11)) :=
  W7_keep m c main_arg11 (by decide) (by decide) (by decide) (by decide) (by decide) (by decide) (by decide)

set_option maxHeartbeats 20000000 in
theorem row39 (c : Dev nD) (n : Fin 512) : W7 m c (Proc.devRef .tc main_v39) (ix2 (0 : Fin 1) n) = (m ((c : Thread nD τ).loc main_arg8)) (ix1 n) := by
  show StableHlo.after hostOps3 (W6 m c) (Proc.devRef .tc main_v39) (ix2 (0 : Fin 1) n) = _
  after_results_simp
  rw [W6_keep m c main_arg8 (by decide) (by decide) (by decide) (by decide) (by decide) (by decide)]
  exact shapeCast_apply _ shapeCasts_S512_S1x512 (ix2 (0 : Fin 1) n) (ix1 n) (by
    rewrite [Shape.rowMajor_val_one, Shape.rowMajor_val_two]
    show n.val = 0 * 512 + n.val
    omega)

set_option maxHeartbeats 20000000 in
theorem row40 (c : Dev nD) (n : Fin 32) : W7 m c (Proc.devRef .tc main_v40) (ix2 (0 : Fin 1) n) = (m ((c : Thread nD τ).loc main_arg10)) (ix1 n) := by
  show StableHlo.after hostOps3 (W6 m c) (Proc.devRef .tc main_v40) (ix2 (0 : Fin 1) n) = _
  after_results_simp
  rw [W6_keep m c main_arg10 (by decide) (by decide) (by decide) (by decide) (by decide) (by decide)]
  exact shapeCast_apply _ shapeCasts_S32_S1x32 (ix2 (0 : Fin 1) n) (ix1 n) (by
    rewrite [Shape.rowMajor_val_one, Shape.rowMajor_val_two]
    show n.val = 0 * 32 + n.val
    omega)

set_option maxHeartbeats 20000000 in
theorem row41 (c : Dev nD) (n : Fin 2) : W7 m c (Proc.devRef .tc main_v41) (ix2 (0 : Fin 1) n) = (m ((c : Thread nD τ).loc main_arg12)) (ix1 n) := by
  show StableHlo.after hostOps3 (W6 m c) (Proc.devRef .tc main_v41) (ix2 (0 : Fin 1) n) = _
  after_results_simp
  rw [W6_keep m c main_arg12 (by decide) (by decide) (by decide) (by decide) (by decide) (by decide)]
  exact shapeCast_apply _ shapeCasts_S2_S1x2 (ix2 (0 : Fin 1) n) (ix1 n) (by
    rewrite [Shape.rowMajor_val_one, Shape.rowMajor_val_two]
    show n.val = 0 * 2 + n.val
    omega)

set_option maxHeartbeats 20000000 in
theorem row42 (c : Dev nD) (n : Fin 512) : W7 m c (Proc.devRef .tc main_v42) (ix2 (0 : Fin 1) n) = (m ((c : Thread nD τ).loc main_arg13)) (ix1 n) := by
  show StableHlo.after hostOps3 (W6 m c) (Proc.devRef .tc main_v42) (ix2 (0 : Fin 1) n) = _
  after_results_simp
  rw [W6_keep m c main_arg13 (by decide) (by decide) (by decide) (by decide) (by decide) (by decide)]
  exact shapeCast_apply _ shapeCasts_S512_S1x512 (ix2 (0 : Fin 1) n) (ix1 n) (by
    rewrite [Shape.rowMajor_val_one, Shape.rowMajor_val_two]
    show n.val = 0 * 512 + n.val
    omega)

set_option maxHeartbeats 20000000 in
theorem row43 (c : Dev nD) (n : Fin 512) : W7 m c (Proc.devRef .tc main_v43) (ix2 (0 : Fin 1) n) = (m ((c : Thread nD τ).loc main_arg14)) (ix1 n) := by
  show StableHlo.after hostOps3 (W6 m c) (Proc.devRef .tc main_v43) (ix2 (0 : Fin 1) n) = _
  after_results_simp
  rw [W6_keep m c main_arg14 (by decide) (by decide) (by decide) (by decide) (by decide) (by decide)]
  exact shapeCast_apply _ shapeCasts_S512_S1x512 (ix2 (0 : Fin 1) n) (ix1 n) (by
    rewrite [Shape.rowMajor_val_one, Shape.rowMajor_val_two]
    show n.val = 0 * 512 + n.val
    omega)

set_option maxHeartbeats 20000000 in
theorem row44 (c : Dev nD) (n : Fin 512) : W7 m c (Proc.devRef .tc main_v44) (ix2 (0 : Fin 1) n) = (m ((c : Thread nD τ).loc main_arg15)) (ix1 n) := by
  show StableHlo.after hostOps3 (W6 m c) (Proc.devRef .tc main_v44) (ix2 (0 : Fin 1) n) = _
  after_results_simp
  rw [W6_keep m c main_arg15 (by decide) (by decide) (by decide) (by decide) (by decide) (by decide)]
  exact shapeCast_apply _ shapeCasts_S512_S1x512 (ix2 (0 : Fin 1) n) (ix1 n) (by
    rewrite [Shape.rowMajor_val_one, Shape.rowMajor_val_two]
    show n.val = 0 * 512 + n.val
    omega)

set_option maxHeartbeats 20000000 in
theorem row45 (c : Dev nD) (n : Fin 512) : W7 m c (Proc.devRef .tc main_v45) (ix2 (0 : Fin 1) n) = (m ((c : Thread nD τ).loc main_arg16)) (ix1 n) := by
  show StableHlo.after hostOps3 (W6 m c) (Proc.devRef .tc main_v45) (ix2 (0 : Fin 1) n) = _
  after_results_simp
  rw [W6_keep m c main_arg16 (by decide) (by decide) (by decide) (by decide) (by decide) (by decide)]
  exact shapeCast_apply _ shapeCasts_S512_S1x512 (ix2 (0 : Fin 1) n) (ix1 n) (by
    rewrite [Shape.rowMajor_val_one, Shape.rowMajor_val_two]
    show n.val = 0 * 512 + n.val
    omega)

set_option maxHeartbeats 20000000 in
theorem row46 (c : Dev nD) (n : Fin 32) : W7 m c (Proc.devRef .tc main_v46) (ix2 (0 : Fin 1) n) = (m ((c : Thread nD τ).loc main_arg17)) (ix1 n) := by
  show StableHlo.after hostOps3 (W6 m c) (Proc.devRef .tc main_v46) (ix2 (0 : Fin 1) n) = _
  after_results_simp
  rw [W6_keep m c main_arg17 (by decide) (by decide) (by decide) (by decide) (by decide) (by decide)]
  exact shapeCast_apply _ shapeCasts_S32_S1x32 (ix2 (0 : Fin 1) n) (ix1 n) (by
    rewrite [Shape.rowMajor_val_one, Shape.rowMajor_val_two]
    show n.val = 0 * 32 + n.val
    omega)

set_option maxHeartbeats 20000000 in
theorem row47 (c : Dev nD) (n : Fin 32) : W7 m c (Proc.devRef .tc main_v47) (ix2 (0 : Fin 1) n) = (m ((c : Thread nD τ).loc main_arg18)) (ix1 n) := by
  show StableHlo.after hostOps3 (W6 m c) (Proc.devRef .tc main_v47) (ix2 (0 : Fin 1) n) = _
  after_results_simp
  rw [W6_keep m c main_arg18 (by decide) (by decide) (by decide) (by decide) (by decide) (by decide)]
  exact shapeCast_apply _ shapeCasts_S32_S1x32 (ix2 (0 : Fin 1) n) (ix1 n) (by
    rewrite [Shape.rowMajor_val_one, Shape.rowMajor_val_two]
    show n.val = 0 * 32 + n.val
    omega)

set_option maxHeartbeats 20000000 in
theorem row48 (c : Dev nD) (n : Fin 32) : W7 m c (Proc.devRef .tc main_v48) (ix2 (0 : Fin 1) n) = (m ((c : Thread nD τ).loc main_arg19)) (ix1 n) := by
  show StableHlo.after hostOps3 (W6 m c) (Proc.devRef .tc main_v48) (ix2 (0 : Fin 1) n) = _
  after_results_simp
  rw [W6_keep m c main_arg19 (by decide) (by decide) (by decide) (by decide) (by decide) (by decide)]
  exact shapeCast_apply _ shapeCasts_S32_S1x32 (ix2 (0 : Fin 1) n) (ix1 n) (by
    rewrite [Shape.rowMajor_val_one, Shape.rowMajor_val_two]
    show n.val = 0 * 32 + n.val
    omega)

set_option maxHeartbeats 20000000 in
theorem row49 (c : Dev nD) (n : Fin 32) : W7 m c (Proc.devRef .tc main_v49) (ix2 (0 : Fin 1) n) = (m ((c : Thread nD τ).loc main_arg20)) (ix1 n) := by
  show StableHlo.after hostOps3 (W6 m c) (Proc.devRef .tc main_v49) (ix2 (0 : Fin 1) n) = _
  after_results_simp
  rw [W6_keep m c main_arg20 (by decide) (by decide) (by decide) (by decide) (by decide) (by decide)]
  exact shapeCast_apply _ shapeCasts_S32_S1x32 (ix2 (0 : Fin 1) n) (ix1 n) (by
    rewrite [Shape.rowMajor_val_one, Shape.rowMajor_val_two]
    show n.val = 0 * 32 + n.val
    omega)

end Cert.KernelIdeal.HeadEntry

end
-- ==== Proof.KI.HeadFinal.lean ====
/-
  The classifier head's result array after its region. The grid has one point, at which every window's block is its whole
  array: so the fifteen blocks the body reads are the fifteen arrays as the region finds them, the one block written back
  is the whole result, and the result array ends holding what the body leaves of those arrays.
-/
import proofs.«175257_j71588514890561_2_alg».proof.Proof.KI.Head
import Idealize.ShloMosaic.Lib.Pipeline.Value

set_option maxRecDepth 16384

noncomputable section

namespace Cert.KernelIdeal.Head

open Cert.KernelIdeal Cert.KernelIdeal.Gen Cert.KernelIdeal.GenP
open Idealize.ShloMosaic Idealize.ShloMosaic.TcCoe
open Idealize.SL.Sem
open Idealize.ShloMosaic.Pipeline (Dat)

/-- The printed index maps at the grid's points: every window takes block (0, 0) of its array. -/
theorem idx_facts : ∀ t : Fin cfg3.N,
    win3_0.index t (0 : Fin 2) = 0
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = 0
    ∧ win3_8.index t (1 : Fin 2) = 0
    ∧ win3_9.index t (0 : Fin 2) = 0
    ∧ win3_9.index t (1 : Fin 2) = 0
    ∧ win3_10.index t (0 : Fin 2) = 0
    ∧ win3_10.index t (1 : Fin 2) = 0
    ∧ win3_11.index t (0 : Fin 2) = 0
    ∧ win3_11.index t (1 : Fin 2) = 0
    ∧ win3_12.index t (0 : Fin 2) = 0
    ∧ win3_12.index t (1 : Fin 2) = 0
    ∧ win3_13.index t (0 : Fin 2) = 0
    ∧ win3_13.index t (1 : Fin 2) = 0
    ∧ win3_14.index t (0 : Fin 2) = 0
    ∧ win3_14.index t (1 : Fin 2) = 0
    ∧ win3_15.index t (0 : Fin 2) = 0
    ∧ win3_15.index t (1 : Fin 2) = 0 :=
  (by decide +kernel : ∀ t : Fin grid3.N, _)

variable (V : (c : Dev nD) → (b : Ref sig .tc) → Buf (Elt Ideal) ((c : Thread nD τ).loc b))

/-! ## Each input block is its whole array -/

theorem blk_0 (c : Dev nD) (t : Fin cfg3.N) : blk V c 0 t = V c main_v38 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v38 (((cfg3.win 0).blk t).view.emb y) = V c main_v38 y
  refine congrArg (V c main_v38) (funext fun a => Fin.ext ?_)
  match a with
  | ⟨0, _⟩ => show win3_0.index t (0 : Fin 2) * 64 + 1 * (y 0).val = (y 0).val; omega
  | ⟨1, _⟩ => show win3_0.index t (1 : Fin 2) * 6144 + 1 * (y 1).val = (y 1).val; omega

theorem blk_1 (c : Dev nD) (t : Fin cfg3.N) : blk V c 1 t = V c main_arg7 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_arg7 (((cfg3.win 1).blk t).view.emb y) = V c main_arg7 y
  refine congrArg (V c main_arg7) (funext fun a => Fin.ext ?_)
  match a with
  | ⟨0, _⟩ => show win3_1.index t (0 : Fin 2) * 6144 + 1 * (y 0).val = (y 0).val; omega
  | ⟨1, _⟩ => show win3_1.index t (1 : Fin 2) * 512 + 1 * (y 1).val = (y 1).val; omega

theorem blk_2 (c : Dev nD) (t : Fin cfg3.N) : blk V c 2 t = V c main_v39 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v39 (((cfg3.win 2).blk t).view.emb y) = V c main_v39 y
  refine congrArg (V c main_v39) (funext fun a => Fin.ext ?_)
  match a with
  | ⟨0, _⟩ => show win3_2.index t (0 : Fin 2) * 1 + 1 * (y 0).val = (y 0).val; omega
  | ⟨1, _⟩ => show win3_2.index t (1 : Fin 2) * 512 + 1 * (y 1).val = (y 1).val; omega

theorem blk_3 (c : Dev nD) (t : Fin cfg3.N) : blk V c 3 t = V c main_arg9 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_arg9 (((cfg3.win 3).blk t).view.emb y) = V c main_arg9 y
  refine congrArg (V c main_arg9) (funext fun a => Fin.ext ?_)
  match a with
  | ⟨0, _⟩ => show win3_3.index t (0 : Fin 2) * 512 + 1 * (y 0).val = (y 0).val; omega
  | ⟨1, _⟩ => show win3_3.index t (1 : Fin 2) * 32 + 1 * (y 1).val = (y 1).val; omega

theorem blk_4 (c : Dev nD) (t : Fin cfg3.N) : blk V c 4 t = V c main_v40 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v40 (((cfg3.win 4).blk t).view.emb y) = V c main_v40 y
  refine congrArg (V c main_v40) (funext fun a => Fin.ext ?_)
  match a with
  | ⟨0, _⟩ => show win3_4.index t (0 : Fin 2) * 1 + 1 * (y 0).val = (y 0).val; omega
  | ⟨1, _⟩ => show win3_4.index t (1 : Fin 2) * 32 + 1 * (y 1).val = (y 1).val; omega

theorem blk_5 (c : Dev nD) (t : Fin cfg3.N) : blk V c 5 t = V c main_arg11 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_arg11 (((cfg3.win 5).blk t).view.emb y) = V c main_arg11 y
  refine congrArg (V c main_arg11) (funext fun a => Fin.ext ?_)
  match a with
  | ⟨0, _⟩ => show win3_5.index t (0 : Fin 2) * 32 + 1 * (y 0).val = (y 0).val; omega
  | ⟨1, _⟩ => show win3_5.index t (1 : Fin 2) * 2 + 1 * (y 1).val = (y 1).val; omega

theorem blk_6 (c : Dev nD) (t : Fin cfg3.N) : blk V c 6 t = V c main_v41 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v41 (((cfg3.win 6).blk t).view.emb y) = V c main_v41 y
  refine congrArg (V c main_v41) (funext fun a => Fin.ext ?_)
  match a with
  | ⟨0, _⟩ => show win3_6.index t (0 : Fin 2) * 1 + 1 * (y 0).val = (y 0).val; omega
  | ⟨1, _⟩ => show win3_6.index t (1 : Fin 2) * 2 + 1 * (y 1).val = (y 1).val; omega

theorem blk_7 (c : Dev nD) (t : Fin cfg3.N) : blk V c 7 t = V c main_v42 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v42 (((cfg3.win 7).blk t).view.emb y) = V c main_v42 y
  refine congrArg (V c main_v42) (funext fun a => Fin.ext ?_)
  match a with
  | ⟨0, _⟩ => show win3_7.index t (0 : Fin 2) * 1 + 1 * (y 0).val = (y 0).val; omega
  | ⟨1, _⟩ => show win3_7.index t (1 : Fin 2) * 512 + 1 * (y 1).val = (y 1).val; omega

theorem blk_8 (c : Dev nD) (t : Fin cfg3.N) : blk V c 8 t = V c main_v43 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v43 (((cfg3.win 8).blk t).view.emb y) = V c main_v43 y
  refine congrArg (V c main_v43) (funext fun a => Fin.ext ?_)
  match a with
  | ⟨0, _⟩ => show win3_8.index t (0 : Fin 2) * 1 + 1 * (y 0).val = (y 0).val; omega
  | ⟨1, _⟩ => show win3_8.index t (1 : Fin 2) * 512 + 1 * (y 1).val = (y 1).val; omega

theorem blk_9 (c : Dev nD) (t : Fin cfg3.N) : blk V c 9 t = V c main_v44 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v44 (((cfg3.win 9).blk t).view.emb y) = V c main_v44 y
  refine congrArg (V c main_v44) (funext fun a => Fin.ext ?_)
  match a with
  | ⟨0, _⟩ => show win3_9.index t (0 : Fin 2) * 1 + 1 * (y 0).val = (y 0).val; omega
  | ⟨1, _⟩ => show win3_9.index t (1 : Fin 2) * 512 + 1 * (y 1).val = (y 1).val; omega

theorem blk_10 (c : Dev nD) (t : Fin cfg3.N) : blk V c 10 t = V c main_v45 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v45 (((cfg3.win 10).blk t).view.emb y) = V c main_v45 y
  refine congrArg (V c main_v45) (funext fun a => Fin.ext ?_)
  match a with
  | ⟨0, _⟩ => show win3_10.index t (0 : Fin 2) * 1 + 1 * (y 0).val = (y 0).val; omega
  | ⟨1, _⟩ => show win3_10.index t (1 : Fin 2) * 512 + 1 * (y 1).val = (y 1).val; omega

theorem blk_11 (c : Dev nD) (t : Fin cfg3.N) : blk V c 11 t = V c main_v46 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v46 (((cfg3.win 11).blk t).view.emb y) = V c main_v46 y
  refine congrArg (V c main_v46) (funext fun a => Fin.ext ?_)
  match a with
  | ⟨0, _⟩ => show win3_11.index t (0 : Fin 2) * 1 + 1 * (y 0).val = (y 0).val; omega
  | ⟨1, _⟩ => show win3_11.index t (1 : Fin 2) * 32 + 1 * (y 1).val = (y 1).val; omega

theorem blk_12 (c : Dev nD) (t : Fin cfg3.N) : blk V c 12 t = V c main_v47 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v47 (((cfg3.win 12).blk t).view.emb y) = V c main_v47 y
  refine congrArg (V c main_v47) (funext fun a => Fin.ext ?_)
  match a with
  | ⟨0, _⟩ => show win3_12.index t (0 : Fin 2) * 1 + 1 * (y 0).val = (y 0).val; omega
  | ⟨1, _⟩ => show win3_12.index t (1 : Fin 2) * 32 + 1 * (y 1).val = (y 1).val; omega

theorem blk_13 (c : Dev nD) (t : Fin cfg3.N) : blk V c 13 t = V c main_v48 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v48 (((cfg3.win 13).blk t).view.emb y) = V c main_v48 y
  refine congrArg (V c main_v48) (funext fun a => Fin.ext ?_)
  match a with
  | ⟨0, _⟩ => show win3_13.index t (0 : Fin 2) * 1 + 1 * (y 0).val = (y 0).val; omega
  | ⟨1, _⟩ => show win3_13.index t (1 : Fin 2) * 32 + 1 * (y 1).val = (y 1).val; omega

theorem blk_14 (c : Dev nD) (t : Fin cfg3.N) : blk V c 14 t = V c main_v49 := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext y
  show V c main_v49 (((cfg3.win 14).blk t).view.emb y) = V c main_v49 y
  refine congrArg (V c main_v49) (funext fun a => Fin.ext ?_)
  match a with
  | ⟨0, _⟩ => show win3_14.index t (0 : Fin 2) * 1 + 1 * (y 0).val = (y 0).val; omega
  | ⟨1, _⟩ => show win3_14.index t (1 : Fin 2) * 32 + 1 * (y 1).val = (y 1).val; omega

/-! ## The block written back is the whole result -/

/-- Equal blocks leave equal results. -/
theorem out_congr {x0 y0 : Vec Ideal S64x6144 .f32} {x1 y1 : Vec Ideal S6144x512 .f32} {x2 y2 : Vec Ideal S1x512 .f32} {x3 y3 : Vec Ideal S512x32 .f32} {x4 y4 : Vec Ideal S1x32 .f32} {x5 y5 : Vec Ideal S32x2 .f32} {x6 y6 : Vec Ideal S1x2 .f32} {x7 y7 x8 y8 x9 y9 x10 y10 : Vec Ideal S1x512 .f32} {x11 y11 x12 y12 x13 y13 x14 y14 : Vec Ideal S1x32 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) (h14 : x14 = y14) :
    out (F := Ideal) x0 x1 x2 x3 x4 x5 x6 x7 x8 x9 x10 x11 x12 x13 x14 = out (F := Ideal) y0 y1 y2 y3 y4 y5 y6 y7 y8 y9 y10 y11 y12 y13 y14 := by
  subst h0 h1 h2 h3 h4 h5 h6 h7 h8 h9 h10 h11 h12 h13 h14; rfl

set_option maxHeartbeats 1000000 in
/-- What the point writes back is the (one, whole) block of what the body leaves of the arrays as the region finds them. -/
theorem flushed_eq (c : Dev nD) (t : Fin cfg3.N) :
    (dat V c).flushed 15 t = ((cfg3.win 15).blk t).view.read (Elt Ideal) (out (F := Ideal) (V c main_v38) (V c main_arg7) (V c main_v39) (V c main_arg9) (V c main_v40) (V c main_arg11) (V c main_v41) (V c main_v42) (V c main_v43) (V c main_v44) (V c main_v45) (V c main_v46) (V c main_v47) (V c main_v48) (V c main_v49)) := by
  show (cfg3.win 15).cut (grid3.coords t) ((dat V c).after 15 t) = _
  rw [after_15]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t
  funext j
  show out (F := Ideal) (blk V c 0 t) (blk V c 1 t) (blk V c 2 t) (blk V c 3 t) (blk V c 4 t) (blk V c 5 t) (blk V c 6 t) (blk V c 7 t) (blk V c 8 t) (blk V c 9 t) (blk V c 10 t) (blk V c 11 t) (blk V c 12 t) (blk V c 13 t) (blk V c 14 t) j
    = out (F := Ideal) (V c main_v38) (V c main_arg7) (V c main_v39) (V c main_arg9) (V c main_v40) (V c main_arg11) (V c main_v41) (V c main_v42) (V c main_v43) (V c main_v44) (V c main_v45) (V c main_v46) (V c main_v47) (V c main_v48) (V c main_v49) (((cfg3.win 15).blk t).view.emb j)
  refine (congrFun (out_congr (blk_0 V c t) (blk_1 V c t) (blk_2 V c t) (blk_3 V c t) (blk_4 V c t) (blk_5 V c t) (blk_6 V c t) (blk_7 V c t) (blk_8 V c t) (blk_9 V c t) (blk_10 V c t) (blk_11 V c t) (blk_12 V c t) (blk_13 V c t) (blk_14 V c t)) j).trans
    (congrArg (out (F := Ideal) (V c main_v38) (V c main_arg7) (V c main_v39) (V c main_arg9) (V c main_v40) (V c main_arg11) (V c main_v41) (V c main_v42) (V c main_v43) (V c main_v44) (V c main_v45) (V c main_v46) (V c main_v47) (V c main_v48) (V c main_v49)) (funext fun a => Fin.ext ?_))
  match a with
  | ⟨0, _⟩ => show (j 0).val = win3_15.index t (0 : Fin 2) * 64 + 1 * (j 0).val; omega
  | ⟨1, _⟩ => show (j 1).val = win3_15.index t (1 : Fin 2) * 2 + 1 * (j 1).val; omega

/-- An index of the result is in the point's block iff each coordinate is within the block's extent from the block's
    origin. -/
theorem mem_blk (t : Fin cfg3.N) (i : S64x2.Idx) :
    i ∈ ((cfg3.win 15).blk t).view.set ↔ ∀ a : Fin 2, win3_15.index t a * S64x2.size a ≤ (i a).val ∧ (i a).val < win3_15.index t a * S64x2.size a + S64x2.size a := by
  show i ∈ ((View.whole main_v50).slice (win3_15.rect t)).set ↔ _
  rw [View.set_slice_whole, Rect.mem_set_unit]
  exact Iff.rfl

/-- Every index of the result lies in the block of the grid's one point, which is written back. -/
theorem covered (i : S64x2.Idx) : ∃ t : Fin cfg3.N, (cfg3.win 15).flush t = true ∧ i ∈ ((cfg3.win 15).blk t).view.set := by
  have hi0 : (i 0).val < 64 := (i 0).isLt
  have hi1 : (i 1).val < 2 := (i 1).isLt
  refine ⟨t3_0, flush3_15 _, ?_⟩
  rw [mem_blk]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1, e13_0, e13_1, e14_0, e14_1, e15_0, e15_1⟩ := idx_facts t3_0
  intro a
  match a with
  | ⟨0, _⟩ => show win3_15.index _ (0 : Fin 2) * 64 ≤ (i 0).val ∧ (i 0).val < win3_15.index _ (0 : Fin 2) * 64 + 64; rw [e15_0]; omega
  | ⟨1, _⟩ => show win3_15.index _ (1 : Fin 2) * 2 ≤ (i 1).val ∧ (i 1).val < win3_15.index _ (1 : Fin 2) * 2 + 2; rw [e15_1]; omega

/-- The result's array after the region: what the body leaves of the fifteen arrays the region finds, in window order. -/
theorem final (c : Dev nD) :
    (dat V c).arrAt 15 cfg3.N = out (F := Ideal) (V c main_v38) (V c main_arg7) (V c main_v39) (V c main_arg9) (V c main_v40) (V c main_arg11) (V c main_v41) (V c main_v42) (V c main_v43) (V c main_v44) (V c main_v45) (V c main_v46) (V c main_v47) (V c main_v48) (V c main_v49) :=
  (dat V c).arrAt_eq_of_cover 15 _ (fun t _ => flushed_eq V c t) covered

end Cert.KernelIdeal.Head

end
-- ==== Proof.KI.HeadValue.lean ====
/-
  What the classifier head's kernel leaves in its result buffer, read on the extended reals: for the fifteen input
  blocks, entry (b, o) of the 64 × 2 result is the softmax over the two classes of the third affine layer, whose input is
  the second normalised layer, whose input is the first. Every layer is stated as an explicit formula over coordinates;
  a change of float format is the identity on the extended reals, so none appears.
-/
import proofs.«175257_j71588514890561_2_alg».proof.Proof.KI.Head
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Head

open Cert.KernelIdeal Cert.KernelIdeal.Gen
open Idealize.ShloMosaic Idealize.ShloMosaic.ValueIdx
open scoped BigOperators

/-! ## The layers, as formulas -/

section Spec

/-- The constant added to a variance before the inverse square root (the float nearest 1e-5, kept as its word). -/
def eps : EReal := Ideal.ofBits .f32 0x3727C5AC#32

/-- x ↦ x · 1 / (1 + e^(-x)). -/
def silu (u : EReal) : EReal := u * Ideal.div 1 (1 + Ideal.exp (-u))

/-- The first affine layer: features times the first weight matrix, plus the bias row. -/
def h1 (x0 : Vec Ideal S64x6144 .f32) (x1 : Vec Ideal S6144x512 .f32) (x2 : Vec Ideal S1x512 .f32) (b : Fin 64) (n : Fin 512) : EReal :=
  (∑ k : Fin 6144, x0 (ix2 b k) * x1 (ix2 k n)) + x2 (ix2 0 n)

/-- A normalisation of a value `u` by a mean, a variance, a scale and a shift. -/
def norm (u mean var scale shift : EReal) : EReal := (u - mean) * Ideal.rsqrt (var + eps) * scale + shift

/-- The first normalised layer. -/
def bn1 (x0 : Vec Ideal S64x6144 .f32) (x1 : Vec Ideal S6144x512 .f32) (x2 x7 x8 x9 x10 : Vec Ideal S1x512 .f32) (b : Fin 64) (n : Fin 512) : EReal :=
  (silu (h1 x0 x1 x2 b n) - x9 (ix2 0 n)) * Ideal.rsqrt (x10 (ix2 0 n) + eps) * x7 (ix2 0 n) + x8 (ix2 0 n)

/-- The second affine layer. -/
def h2 (x0 : Vec Ideal S64x6144 .f32) (x1 : Vec Ideal S6144x512 .f32) (x2 : Vec Ideal S1x512 .f32) (x3 : Vec Ideal S512x32 .f32) (x4 : Vec Ideal S1x32 .f32)
    (x7 x8 x9 x10 : Vec Ideal S1x512 .f32) (b : Fin 64) (n : Fin 32) : EReal :=
  (∑ k : Fin 512, bn1 x0 x1 x2 x7 x8 x9 x10 b k * x3 (ix2 k n)) + x4 (ix2 0 n)

/-- The second normalised layer. -/
def bn2 (x0 : Vec Ideal S64x6144 .f32) (x1 : Vec Ideal S6144x512 .f32) (x2 : Vec Ideal S1x512 .f32) (x3 : Vec Ideal S512x32 .f32) (x4 : Vec Ideal S1x32 .f32) (x7 x8 x9 x10 : Vec Ideal S1x512 .f32) (x11 x12 x13 x14 : Vec Ideal S1x32 .f32) (b : Fin 64) (n : Fin 32) : EReal :=
  (silu (h2 x0 x1 x2 x3 x4 x7 x8 x9 x10 b n) - x13 (ix2 0 n)) * Ideal.rsqrt (x14 (ix2 0 n) + eps) * x11 (ix2 0 n) + x12 (ix2 0 n)

/-- The third affine layer: the two classes' scores. -/
def h3 (x0 : Vec Ideal S64x6144 .f32) (x1 : Vec Ideal S6144x512 .f32) (x2 : Vec Ideal S1x512 .f32) (x3 : Vec Ideal S512x32 .f32) (x4 : Vec Ideal S1x32 .f32) (x5 : Vec Ideal S32x2 .f32) (x6 : Vec Ideal S1x2 .f32) (x7 x8 x9 x10 : Vec Ideal S1x512 .f32) (x11 x12 x13 x14 : Vec Ideal S1x32 .f32) (b : Fin 64) (o : Fin 2) : EReal :=
  (∑ k : Fin 32, bn2 x0 x1 x2 x3 x4 x7 x8 x9 x10 x11 x12 x13 x14 b k * x5 (ix2 k o)) + x6 (ix2 0 o)

/-- The softmax of two scores `z 0`, `z 1` at class `o`. -/
def softmax2 (z : Fin 2 → EReal) (o : Fin 2) : EReal :=
  Ideal.div (Ideal.exp (z o - max (z 0) (z 1))) (∑ o' : Fin 2, Ideal.exp (z o' - max (z 0) (z 1)))

end Spec

/-! ## Layout operations read at an index -/

section Layout
variable {α : Type}

theorem zero_offsets : (![0, 0] : Fin 2 → ℕ) = fun _ => 0 := by
  funext a; match a with | ⟨0, _⟩ => rfl | ⟨1, _⟩ => rfl

/-- A row `[1, n]`, cast to its own shape and broadcast over `a` rows, reads at `(p, c)` the row at `c`. -/
theorem row_apply {a n : ℕ} (v : (⟨2, ![1, n]⟩ : Shape).Idx → α) (hc : (⟨2, ![1, n]⟩ : Shape).ShapeCasts ⟨2, ![1, n]⟩)
    (hb : (⟨2, ![1, n]⟩ : Shape).Broadcasts ⟨2, ![a, n]⟩) (p : Fin a) (c : Fin n) :
    broadcastTo ⟨2, ![a, n]⟩ (shapeCast ⟨2, ![1, n]⟩ v hc) hb (ix2 p c) = v (ix2 (0 : Fin 1) c) := by
  rw [shapeCast_self]; exact broadcastTo_1b_ab_apply v hb p c

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row value `[a]`, made a column and broadcast over `b` columns, reads at `(p, c)` the value of row `p`. -/
theorem col_apply {a b : ℕ} (r : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ r hc) hb (ix2 p c) = r (ix1 p) :=
  (broadcastTo_a1_ab_apply _ hb p c).trans (shapeCast_a_a1_apply r hc p 0)

end Layout

/-! ## The three matrix products at an index -/

theorem mm1_lhs0 (i : S64x512.Idx) (q : dot_S64x6144_S6144x512_S64x512_1_0_0_1_n_n.contr.Idx) : (dot_S64x6144_S6144x512_S64x512_1_0_0_1_n_n.lhsIdx i q 0).val = (i 0).val := by
  unfold DotDims.lhsIdx
  rw [dif_neg (show ¬(0 : Fin S64x6144.rank) ∈ dot_S64x6144_S6144x512_S64x512_1_0_0_1_n_n.lhsBatch by decide), dif_pos (show (0 : Fin S64x6144.rank) ∈ dot_S64x6144_S6144x512_S64x512_1_0_0_1_n_n.lhsNonContracting by decide)]
  rfl
theorem mm1_lhs1 (i : S64x512.Idx) (q : dot_S64x6144_S6144x512_S64x512_1_0_0_1_n_n.contr.Idx) : (dot_S64x6144_S6144x512_S64x512_1_0_0_1_n_n.lhsIdx i q 1).val = (q ⟨0, by decide⟩).val :=
  dot_S64x6144_S6144x512_S64x512_1_0_0_1_n_n.lhsIdx_val_of_single rfl i q
theorem mm1_rhs0 (i : S64x512.Idx) (q : dot_S64x6144_S6144x512_S64x512_1_0_0_1_n_n.contr.Idx) : (dot_S64x6144_S6144x512_S64x512_1_0_0_1_n_n.rhsIdx i q 0).val = (q ⟨0, by decide⟩).val :=
  dot_S64x6144_S6144x512_S64x512_1_0_0_1_n_n.rhsIdx_val_of_single rfl i q
theorem mm1_rhs1 (i : S64x512.Idx) (q : dot_S64x6144_S6144x512_S64x512_1_0_0_1_n_n.contr.Idx) : (dot_S64x6144_S6144x512_S64x512_1_0_0_1_n_n.rhsIdx i q 1).val = (i 1).val := by
  unfold DotDims.rhsIdx
  rw [dif_neg (show ¬(1 : Fin S6144x512.rank) ∈ dot_S64x6144_S6144x512_S64x512_1_0_0_1_n_n.rhsBatch by decide), dif_pos (show (1 : Fin S6144x512.rank) ∈ dot_S64x6144_S6144x512_S64x512_1_0_0_1_n_n.rhsNonContracting by decide)]
  rfl

/-- The 64 × 6144 by 6144 × 512 product into a zero accumulator, at row `p` and column `c`: the sum over the
    contracted coordinate of the products. -/
theorem mm1_apply {φ₁ φ₂ : FTy} (L : FVec Ideal S64x6144 φ₁) (R : FVec Ideal S6144x512 φ₂) (p : Fin 64) (c : Fin 512) :
    matmul dot_S64x6144_S6144x512_S64x512_1_0_0_1_n_n none L R (constant S64x512 .f32 0x00000000#32) (ix2 p c) = ∑ k : Fin 6144, L (ix2 p k) * R (ix2 k c) := by
  simp only [matmul]
  rw [Ideal.matmul_constant_zero_apply, ← Equiv.sum_comp (ValueIdx.contrEquiv1 dot_S64x6144_S6144x512_S64x512_1_0_0_1_n_n 6144 rfl rfl).symm]
  refine Finset.sum_congr rfl fun k _ => ?_
  have hk := ValueIdx.contrEquiv1_symm_val dot_S64x6144_S6144x512_S64x512_1_0_0_1_n_n 6144 rfl rfl k
  have el : dot_S64x6144_S6144x512_S64x512_1_0_0_1_n_n.lhsIdx (ix2 p c) ((ValueIdx.contrEquiv1 dot_S64x6144_S6144x512_S64x512_1_0_0_1_n_n 6144 rfl rfl).symm k) = ix2 p k := funext fun a => Fin.ext (by
    match a with
    | ⟨0, _⟩ => exact mm1_lhs0 _ _
    | ⟨1, _⟩ => exact (mm1_lhs1 _ _).trans hk)
  have er : dot_S64x6144_S6144x512_S64x512_1_0_0_1_n_n.rhsIdx (ix2 p c) ((ValueIdx.contrEquiv1 dot_S64x6144_S6144x512_S64x512_1_0_0_1_n_n 6144 rfl rfl).symm k) = ix2 k c := funext fun a => Fin.ext (by
    match a with
    | ⟨0, _⟩ => exact (mm1_rhs0 _ _).trans hk
    | ⟨1, _⟩ => exact mm1_rhs1 _ _)
  rw [el, er]

theorem mm2_lhs0 (i : S64x32.Idx) (q : dot_S64x512_S512x32_S64x32_1_0_0_1_n_n.contr.Idx) : (dot_S64x512_S512x32_S64x32_1_0_0_1_n_n.lhsIdx i q 0).val = (i 0).val := by
  unfold DotDims.lhsIdx
  rw [dif_neg (show ¬(0 : Fin S64x512.rank) ∈ dot_S64x512_S512x32_S64x32_1_0_0_1_n_n.lhsBatch by decide), dif_pos (show (0 : Fin S64x512.rank) ∈ dot_S64x512_S512x32_S64x32_1_0_0_1_n_n.lhsNonContracting by decide)]
  rfl
theorem mm2_lhs1 (i : S64x32.Idx) (q : dot_S64x512_S512x32_S64x32_1_0_0_1_n_n.contr.Idx) : (dot_S64x512_S512x32_S64x32_1_0_0_1_n_n.lhsIdx i q 1).val = (q ⟨0, by decide⟩).val :=
  dot_S64x512_S512x32_S64x32_1_0_0_1_n_n.lhsIdx_val_of_single rfl i q
theorem mm2_rhs0 (i : S64x32.Idx) (q : dot_S64x512_S512x32_S64x32_1_0_0_1_n_n.contr.Idx) : (dot_S64x512_S512x32_S64x32_1_0_0_1_n_n.rhsIdx i q 0).val = (q ⟨0, by decide⟩).val :=
  dot_S64x512_S512x32_S64x32_1_0_0_1_n_n.rhsIdx_val_of_single rfl i q
theorem mm2_rhs1 (i : S64x32.Idx) (q : dot_S64x512_S512x32_S64x32_1_0_0_1_n_n.contr.Idx) : (dot_S64x512_S512x32_S64x32_1_0_0_1_n_n.rhsIdx i q 1).val = (i 1).val := by
  unfold DotDims.rhsIdx
  rw [dif_neg (show ¬(1 : Fin S512x32.rank) ∈ dot_S64x512_S512x32_S64x32_1_0_0_1_n_n.rhsBatch by decide), dif_pos (show (1 : Fin S512x32.rank) ∈ dot_S64x512_S512x32_S64x32_1_0_0_1_n_n.rhsNonContracting by decide)]
  rfl

/-- The 64 × 512 by 512 × 32 product into a zero accumulator, at row `p` and column `c`: the sum over the
    contracted coordinate of the products. -/
theorem mm2_apply {φ₁ φ₂ : FTy} (L : FVec Ideal S64x512 φ₁) (R : FVec Ideal S512x32 φ₂) (p : Fin 64) (c : Fin 32) :
    matmul dot_S64x512_S512x32_S64x32_1_0_0_1_n_n none L R (constant S64x32 .f32 0x00000000#32) (ix2 p c) = ∑ k : Fin 512, L (ix2 p k) * R (ix2 k c) := by
  simp only [matmul]
  rw [Ideal.matmul_constant_zero_apply, ← Equiv.sum_comp (ValueIdx.contrEquiv1 dot_S64x512_S512x32_S64x32_1_0_0_1_n_n 512 rfl rfl).symm]
  refine Finset.sum_congr rfl fun k _ => ?_
  have hk := ValueIdx.contrEquiv1_symm_val dot_S64x512_S512x32_S64x32_1_0_0_1_n_n 512 rfl rfl k
  have el : dot_S64x512_S512x32_S64x32_1_0_0_1_n_n.lhsIdx (ix2 p c) ((ValueIdx.contrEquiv1 dot_S64x512_S512x32_S64x32_1_0_0_1_n_n 512 rfl rfl).symm k) = ix2 p k := funext fun a => Fin.ext (by
    match a with
    | ⟨0, _⟩ => exact mm2_lhs0 _ _
    | ⟨1, _⟩ => exact (mm2_lhs1 _ _).trans hk)
  have er : dot_S64x512_S512x32_S64x32_1_0_0_1_n_n.rhsIdx (ix2 p c) ((ValueIdx.contrEquiv1 dot_S64x512_S512x32_S64x32_1_0_0_1_n_n 512 rfl rfl).symm k) = ix2 k c := funext fun a => Fin.ext (by
    match a with
    | ⟨0, _⟩ => exact (mm2_rhs0 _ _).trans hk
    | ⟨1, _⟩ => exact mm2_rhs1 _ _)
  rw [el, er]

theorem mm3_lhs0 (i : S64x2.Idx) (q : dot_S64x32_S32x2_S64x2_1_0_0_1_n_n.contr.Idx) : (dot_S64x32_S32x2_S64x2_1_0_0_1_n_n.lhsIdx i q 0).val = (i 0).val := by
  unfold DotDims.lhsIdx
  rw [dif_neg (show ¬(0 : Fin S64x32.rank) ∈ dot_S64x32_S32x2_S64x2_1_0_0_1_n_n.lhsBatch by decide), dif_pos (show (0 : Fin S64x32.rank) ∈ dot_S64x32_S32x2_S64x2_1_0_0_1_n_n.lhsNonContracting by decide)]
  rfl
theorem mm3_lhs1 (i : S64x2.Idx) (q : dot_S64x32_S32x2_S64x2_1_0_0_1_n_n.contr.Idx) : (dot_S64x32_S32x2_S64x2_1_0_0_1_n_n.lhsIdx i q 1).val = (q ⟨0, by decide⟩).val :=
  dot_S64x32_S32x2_S64x2_1_0_0_1_n_n.lhsIdx_val_of_single rfl i q
theorem mm3_rhs0 (i : S64x2.Idx) (q : dot_S64x32_S32x2_S64x2_1_0_0_1_n_n.contr.Idx) : (dot_S64x32_S32x2_S64x2_1_0_0_1_n_n.rhsIdx i q 0).val = (q ⟨0, by decide⟩).val :=
  dot_S64x32_S32x2_S64x2_1_0_0_1_n_n.rhsIdx_val_of_single rfl i q
theorem mm3_rhs1 (i : S64x2.Idx) (q : dot_S64x32_S32x2_S64x2_1_0_0_1_n_n.contr.Idx) : (dot_S64x32_S32x2_S64x2_1_0_0_1_n_n.rhsIdx i q 1).val = (i 1).val := by
  unfold DotDims.rhsIdx
  rw [dif_neg (show ¬(1 : Fin S32x2.rank) ∈ dot_S64x32_S32x2_S64x2_1_0_0_1_n_n.rhsBatch by decide), dif_pos (show (1 : Fin S32x2.rank) ∈ dot_S64x32_S32x2_S64x2_1_0_0_1_n_n.rhsNonContracting by decide)]
  rfl

/-- The 64 × 32 by 32 × 2 product into a zero accumulator, at row `p` and column `c`: the sum over the
    contracted coordinate of the products. -/
theorem mm3_apply {φ₁ φ₂ : FTy} (L : FVec Ideal S64x32 φ₁) (R : FVec Ideal S32x2 φ₂) (p : Fin 64) (c : Fin 2) :
    matmul dot_S64x32_S32x2_S64x2_1_0_0_1_n_n none L R (constant S64x2 .f32 0x00000000#32) (ix2 p c) = ∑ k : Fin 32, L (ix2 p k) * R (ix2 k c) := by
  simp only [matmul]
  rw [Ideal.matmul_constant_zero_apply, ← Equiv.sum_comp (ValueIdx.contrEquiv1 dot_S64x32_S32x2_S64x2_1_0_0_1_n_n 32 rfl rfl).symm]
  refine Finset.sum_congr rfl fun k _ => ?_
  have hk := ValueIdx.contrEquiv1_symm_val dot_S64x32_S32x2_S64x2_1_0_0_1_n_n 32 rfl rfl k
  have el : dot_S64x32_S32x2_S64x2_1_0_0_1_n_n.lhsIdx (ix2 p c) ((ValueIdx.contrEquiv1 dot_S64x32_S32x2_S64x2_1_0_0_1_n_n 32 rfl rfl).symm k) = ix2 p k := funext fun a => Fin.ext (by
    match a with
    | ⟨0, _⟩ => exact mm3_lhs0 _ _
    | ⟨1, _⟩ => exact (mm3_lhs1 _ _).trans hk)
  have er : dot_S64x32_S32x2_S64x2_1_0_0_1_n_n.rhsIdx (ix2 p c) ((ValueIdx.contrEquiv1 dot_S64x32_S32x2_S64x2_1_0_0_1_n_n 32 rfl rfl).symm k) = ix2 k c := funext fun a => Fin.ext (by
    match a with
    | ⟨0, _⟩ => exact (mm3_rhs0 _ _).trans hk
    | ⟨1, _⟩ => exact mm3_rhs1 _ _)
  rw [el, er]

/-! ## Reductions along a row of two -/

theorem neg_inf_word : Ideal.ofBits .f32 0xFF800000#32 = ⊥ := by simp [Ideal.ofBits, Ideal.ieee]

theorem fold_max_two (c : EReal) (f : Fin 2 → EReal) : (Finset.univ : Finset (Fin 2)).fold max c f = max (f 0) (max (f 1) c) := by
  have e : (Finset.univ : Finset (Fin 2)) = insert 0 {1} := by decide
  rw [e, Finset.fold_insert (by decide), Finset.fold_singleton]

/-- The sum along a row of a 64 × 2 array. -/
theorem rowsum_apply (src : FVec Ideal S64x2 .f32) (hred : S64x2.Reduces [1] S64) (hφ : FKind.Formats .f32)
    (hacc : (0x00000000#32 : BitVec 32) = FKind.add.neutral .f32 hφ) (b : Fin 64) :
    multiReduction .add [1] S64 src 0x00000000#32 hred hφ hacc (ix1 b) = ∑ o : Fin 2, src (ix2 b o) :=
  (Ideal.multiReduction_add_single src _ hred hφ hacc (ix1 b)).trans
    (Finset.sum_congr rfl fun o _ => congrArg src (funext fun a => Fin.ext (by
      match a with
      | ⟨0, _⟩ => rfl
      | ⟨1, _⟩ => rfl)))

/-- The maximum along a row of a 64 × 2 array, started from -∞ and then taken against -∞ once more. -/
theorem rowmax_apply (src : FVec Ideal S64x2 .f32) (hred : S64x2.Reduces [1] S64) (hφ : FKind.Formats .f32)
    (hacc : (0xFF800000#32 : BitVec 32) = FKind.maximumf.neutral .f32 hφ) (b : Fin 64) :
    maximumf (broadcast S64 (Scalar.ofBits .f32 0xFF800000#32)) (multiReduction .maximumf [1] S64 src 0xFF800000#32 hred hφ hacc) (ix1 b)
      = max (src (ix2 b 0)) (src (ix2 b 1)) := by
  have e0 : hred.lift (ix1 b) (0 : Fin 2) = ix2 b 0 := funext fun a => Fin.ext (by match a with | ⟨0, _⟩ => rfl | ⟨1, _⟩ => rfl)
  have e1 : hred.lift (ix1 b) (1 : Fin 2) = ix2 b 1 := funext fun a => Fin.ext (by match a with | ⟨0, _⟩ => rfl | ⟨1, _⟩ => rfl)
  refine (congrArg (max (Ideal.ofBits .f32 0xFF800000#32)) ((Ideal.multiReduction_maximumf_single src _ hred hφ hacc (ix1 b)).trans
    (fold_max_two (Ideal.ofBits .f32 0xFF800000#32) (fun o => src (hred.lift (ix1 b) o))))).trans ?_
  rw [neg_inf_word, max_bot_left, max_bot_right]
  exact congrArg₂ max (congrArg src e0) (congrArg src e1)

/-- A change of format to bf16 is the identity on the extended reals. -/
theorem bf16_apply {s : Shape} (a : FVec Ideal s .f32) (h : FTy.bf16.bits < FTy.f32.bits) (i : s.Idx) : (truncf .bf16 a h) i = a i := rfl

/-! ## The elementwise stages -/

/-- A normalisation stage at `(p, c)`: the value `u` before it goes through x ↦ x · logistic x, has the mean row
    subtracted, is multiplied by the inverse square root of the variance row plus `eps`, then by the scale row, and has the
    shift row added. -/
theorem norm_apply {a n : ℕ} (pre : FVec Ideal ⟨2, ![a, n]⟩ .f32) (mean var scale shift : Vec Ideal ⟨2, ![1, n]⟩ .f32)
    (hc1 hc2 hc3 hc4 : (⟨2, ![1, n]⟩ : Shape).ShapeCasts ⟨2, ![1, n]⟩)
    (hb1 hb2 hb3 hb4 : (⟨2, ![1, n]⟩ : Shape).Broadcasts ⟨2, ![a, n]⟩) (p : Fin a) (c : Fin n) (u : EReal) (hu : pre (ix2 p c) = u) :
    addf (mulf (mulf (subf (mulf pre (logistic pre)) (broadcastTo ⟨2, ![a, n]⟩ (shapeCast ⟨2, ![1, n]⟩ mean hc1) hb1))
        (broadcastTo ⟨2, ![a, n]⟩ (rsqrt (addf (shapeCast ⟨2, ![1, n]⟩ var hc2) (broadcast ⟨2, ![1, n]⟩ (Scalar.ofBits .f32 0x3727C5AC#32)))) hb2))
        (broadcastTo ⟨2, ![a, n]⟩ (shapeCast ⟨2, ![1, n]⟩ scale hc3) hb3))
      (broadcastTo ⟨2, ![a, n]⟩ (shapeCast ⟨2, ![1, n]⟩ shift hc4) hb4) (ix2 p c)
      = (silu u - mean (ix2 0 c)) * Ideal.rsqrt (var (ix2 0 c) + eps) * scale (ix2 0 c) + shift (ix2 0 c) := by
  subst hu
  show (pre (ix2 p c) * Ideal.div 1 (1 + Ideal.exp (-(pre (ix2 p c)))) - broadcastTo _ (shapeCast _ mean hc1) hb1 (ix2 p c))
        * broadcastTo _ (rsqrt (addf (shapeCast _ var hc2) (broadcast _ (Scalar.ofBits .f32 0x3727C5AC#32)))) hb2 (ix2 p c)
        * broadcastTo _ (shapeCast _ scale hc3) hb3 (ix2 p c) + broadcastTo _ (shapeCast _ shift hc4) hb4 (ix2 p c) = _
  rw [row_apply mean hc1 hb1 p c, row_apply scale hc3 hb3 p c, row_apply shift hc4 hb4 p c, broadcastTo_1b_ab_apply _ hb2 p c]
  show _ * Ideal.rsqrt (shapeCast _ var hc2 (ix2 0 c) + Ideal.ofBits .f32 0x3727C5AC#32) * _ + _ = _
  rw [shapeCast_self]
  rfl

/-- The softmax stage along the rows of a 64 × 2 array whose row `b` is `z`. -/
theorem softmax_apply (X : FVec Ideal S64x2 .f32) (hred : S64x2.Reduces [1] S64) (hφ hφ' : FKind.Formats .f32)
    (haccM : (0xFF800000#32 : BitVec 32) = FKind.maximumf.neutral .f32 hφ) (haccA : (0x00000000#32 : BitVec 32) = FKind.add.neutral .f32 hφ')
    (hc hc' : S64.ShapeCasts S64x1) (hb hb' : S64x1.Broadcasts S64x2) (b : Fin 64) (o : Fin 2) (z : Fin 2 → EReal) (hz : ∀ o, X (ix2 b o) = z o) :
    divf (exp (subf X (broadcastTo S64x2 (shapeCast S64x1 (maximumf (broadcast S64 (Scalar.ofBits .f32 0xFF800000#32)) (multiReduction .maximumf [1] S64 X 0xFF800000#32 hred hφ haccM)) hc) hb)))
      (broadcastTo S64x2 (shapeCast S64x1 (multiReduction .add [1] S64 (exp (subf X (broadcastTo S64x2 (shapeCast S64x1 (maximumf (broadcast S64 (Scalar.ofBits .f32 0xFF800000#32)) (multiReduction .maximumf [1] S64 X 0xFF800000#32 hred hφ haccM)) hc) hb))) 0x00000000#32 hred hφ' haccA) hc') hb') (ix2 b o)
      = softmax2 z o := by
  have hM := rowmax_apply X hred hφ haccM b
  generalize (maximumf (broadcast S64 (Scalar.ofBits .f32 0xFF800000#32)) (multiReduction .maximumf [1] S64 X 0xFF800000#32 hred hφ haccM)) = M at hM ⊢
  have hY : ∀ o', (exp (subf X (broadcastTo S64x2 (shapeCast S64x1 M hc) hb))) (ix2 b o') = Ideal.exp (z o' - max (z 0) (z 1)) := fun o' =>
    congrArg Ideal.exp (congrArg₂ (· - ·) (hz o') ((col_apply M hc hb b o').trans (hM.trans (congrArg₂ max (hz 0) (hz 1)))))
  generalize (exp (subf X (broadcastTo S64x2 (shapeCast S64x1 M hc) hb))) = Y at hY ⊢
  exact (congrArg₂ Ideal.div (hY o) ((col_apply _ hc' hb' b o).trans ((rowsum_apply Y hred hφ' haccA b).trans (Finset.sum_congr rfl fun o' _ => hY o')))).trans rfl

/-! ## The payloads at an index -/

/-- The second affine layer without its bias: the first normalised layer times the second weight matrix. The blocks are in
    the order the body reads them: features, first weights, first bias, then the first normalisation's mean, variance,
    scale and shift, then the second weights. -/
theorem pay1_apply (v0 : Vec Ideal S64x6144 .f32) (v2 : Vec Ideal S6144x512 .f32) (v6 v12 v16 v23 v27 : Vec Ideal S1x512 .f32) (v31 : Vec Ideal S512x32 .f32)
    (b : Fin 64) (n : Fin 32) :
    k3_pay1 (F := Ideal) v0 v2 v6 v12 v16 v23 v27 v31 (ix2 b n) = ∑ k : Fin 512, bn1 v0 v2 v6 v23 v27 v12 v16 b k * v31 (ix2 k n) := by
  unfold k3_pay1
  refine (mm2_apply _ _ b n).trans (Finset.sum_congr rfl fun k _ => congrArg₂ (· * ·) ((bf16_apply _ _ _).trans ?_) (bf16_apply _ _ _))
  refine norm_apply (a := 64) (n := 512) _ v12 v16 v23 v27 _ _ _ _ _ _ _ _ b k _ ?_
  exact congrArg₂ (· + ·) ((mm1_apply _ _ b k).trans (Finset.sum_congr rfl fun k' _ =>
    congrArg₂ (· * ·) ((bf16_apply _ _ _).trans (congrFun (shapeCast_self v0 _) _)) (bf16_apply _ _ _))) (row_apply v6 _ _ b k)

/-- The second bias row, broadcast over the 64 rows. -/
theorem pay2_apply (v35 : Vec Ideal S1x32 .f32) (b : Fin 64) (n : Fin 32) : k3_pay2 (F := Ideal) v35 (ix2 b n) = v35 (ix2 0 n) := by
  unfold k3_pay2
  exact row_apply v35 _ _ b n

/-- The result from the second affine layer's two summands `v34`, `v37` (row `b` of their sum is `u`): the second
    normalisation, the third affine layer and the softmax. -/
theorem pay3_apply (v34 v37 : FVec Ideal S64x32 .f32) (v41 v45 v52 v56 : Vec Ideal S1x32 .f32) (v60 : Vec Ideal S32x2 .f32) (v64 : Vec Ideal S1x2 .f32)
    (b : Fin 64) (o : Fin 2) (u : Fin 32 → EReal) (hu : ∀ n, v34 (ix2 b n) + v37 (ix2 b n) = u n) :
    k3_pay3 (F := Ideal) v34 v37 v41 v45 v52 v56 v60 v64 (ix2 b o)
      = softmax2 (fun o' => (∑ k : Fin 32, ((silu (u k) - v41 (ix2 0 k)) * Ideal.rsqrt (v45 (ix2 0 k) + eps) * v52 (ix2 0 k) + v56 (ix2 0 k)) * v60 (ix2 k o')) + v64 (ix2 0 o')) o := by
  unfold k3_pay3
  refine softmax_apply _ _ _ _ _ _ _ _ _ _ b o _ fun o' => ?_
  refine congrArg₂ (· + ·) ((mm3_apply _ _ b o').trans (Finset.sum_congr rfl fun k _ =>
    congrArg₂ (· * ·) ((bf16_apply _ _ _).trans ?_) (bf16_apply _ _ _))) (row_apply v64 _ _ b o')
  exact norm_apply (a := 64) (n := 32) _ v41 v45 v52 v56 _ _ _ _ _ _ _ _ b k (u k) (hu k)

/-! ## The result -/

/-- The one store covers the buffer and every load is of a whole block, so the buffer holds the stored value of the
    blocks themselves. -/
theorem out_eq_payload (x0 : Vec Ideal S64x6144 .f32) (x1 : Vec Ideal S6144x512 .f32) (x2 : Vec Ideal S1x512 .f32) (x3 : Vec Ideal S512x32 .f32) (x4 : Vec Ideal S1x32 .f32) (x5 : Vec Ideal S32x2 .f32) (x6 : Vec Ideal S1x2 .f32) (x7 x8 x9 x10 : Vec Ideal S1x512 .f32) (x11 x12 x13 x14 : Vec Ideal S1x32 .f32) :
    out (F := Ideal) x0 x1 x2 x3 x4 x5 x6 x7 x8 x9 x10 x11 x12 x13 x14 = k3_pay3 (k3_pay1 x0 x1 x2 x9 x10 x7 x8 x3) (k3_pay2 x4) x13 x14 x11 x12 x5 x6 := by
  unfold out
  rw [View.canon_unit_zero zero_offsets]
  simp only [View.ld_unit_zero (S := S64x6144) zero_offsets, View.ld_unit_zero (S := S6144x512) zero_offsets,
    View.ld_unit_zero (S := S1x512) zero_offsets, View.ld_unit_zero (S := S512x32) zero_offsets,
    View.ld_unit_zero (S := S1x32) zero_offsets, View.ld_unit_zero (S := S32x2) zero_offsets,
    View.ld_unit_zero (S := S1x2) zero_offsets]

/-- Entry `(b, o)` of what the body leaves: the softmax over the two classes of row `b` of the third affine layer. -/
theorem out_apply (x0 : Vec Ideal S64x6144 .f32) (x1 : Vec Ideal S6144x512 .f32) (x2 : Vec Ideal S1x512 .f32) (x3 : Vec Ideal S512x32 .f32) (x4 : Vec Ideal S1x32 .f32) (x5 : Vec Ideal S32x2 .f32) (x6 : Vec Ideal S1x2 .f32) (x7 x8 x9 x10 : Vec Ideal S1x512 .f32) (x11 x12 x13 x14 : Vec Ideal S1x32 .f32) (b : Fin 64) (o : Fin 2) :
    out (F := Ideal) x0 x1 x2 x3 x4 x5 x6 x7 x8 x9 x10 x11 x12 x13 x14 (ix2 b o) = softmax2 (h3 x0 x1 x2 x3 x4 x5 x6 x7 x8 x9 x10 x11 x12 x13 x14 b) o := by
  rw [out_eq_payload]
  refine (pay3_apply _ _ x13 x14 x11 x12 x5 x6 b o (fun n => h2 x0 x1 x2 x3 x4 x7 x8 x9 x10 b n) fun n => ?_).trans rfl
  exact congrArg₂ (· + ·) (pay1_apply x0 x1 x2 x9 x10 x7 x8 x3 b n) (pay2_apply x4 b n)

/-- The same with the softmax written out. -/
theorem out_apply_div (x0 : Vec Ideal S64x6144 .f32) (x1 : Vec Ideal S6144x512 .f32) (x2 : Vec Ideal S1x512 .f32) (x3 : Vec Ideal S512x32 .f32) (x4 : Vec Ideal S1x32 .f32) (x5 : Vec Ideal S32x2 .f32) (x6 : Vec Ideal S1x2 .f32) (x7 x8 x9 x10 : Vec Ideal S1x512 .f32) (x11 x12 x13 x14 : Vec Ideal S1x32 .f32) (b : Fin 64) (o : Fin 2) :
    out (F := Ideal) x0 x1 x2 x3 x4 x5 x6 x7 x8 x9 x10 x11 x12 x13 x14 (ix2 b o)
      = Ideal.div (Ideal.exp (h3 x0 x1 x2 x3 x4 x5 x6 x7 x8 x9 x10 x11 x12 x13 x14 b o - max (h3 x0 x1 x2 x3 x4 x5 x6 x7 x8 x9 x10 x11 x12 x13 x14 b 0) (h3 x0 x1 x2 x3 x4 x5 x6 x7 x8 x9 x10 x11 x12 x13 x14 b 1)))
          (∑ o' : Fin 2, Ideal.exp (h3 x0 x1 x2 x3 x4 x5 x6 x7 x8 x9 x10 x11 x12 x13 x14 b o' - max (h3 x0 x1 x2 x3 x4 x5 x6 x7 x8 x9 x10 x11 x12 x13 x14 b 0) (h3 x0 x1 x2 x3 x4 x5 x6 x7 x8 x9 x10 x11 x12 x13 x14 b 1))) :=
  out_apply x0 x1 x2 x3 x4 x5 x6 x7 x8 x9 x10 x11 x12 x13 x14 b o

end Cert.KernelIdeal.Head

end
-- ==== Proof.KI.HeadBridge.lean ====
/-
  The classifier head on the two sides: the kernel's result, read as a formula of the aggregated features and the
  parameters, is the reference's last operation, index by index. Both apply the same three affine maps, the same
  x ↦ x · 1 / (1 + e^(-x)) and the same softmax; they differ in the batch normalisation alone, where the kernel
  multiplies by the reciprocal square root of (variance + ε) and the reference divides by the square root — equal
  whenever variance + ε is a positive real, which is what the two hypotheses on the variance rows say.
-/
import proofs.«175257_j71588514890561_2_alg».proof.Proof.KI.HeadValue
import proofs.«175257_j71588514890561_2_alg».proof.Proof.Patched.ReferenceIdeal.Read
import proofs.«175257_j71588514890561_2_alg».proof.Proof.Laws

set_option maxRecDepth 16384

noncomputable section

namespace Cert.KernelIdeal.HeadBridge

open Cert.KernelIdeal Cert.KernelIdeal.Head Cert.ReferenceIdeal.ReadP
open Idealize.ShloMosaic Idealize.ShloMosaic.ValueIdx
open scoped BigOperators

/-! ## The arithmetic -/

/-- The word of `1.0` denotes 1. -/
theorem ofBits_one : Ideal.ofBits .f32 0x3F800000#32 = 1 := by
  simp [Ideal.ofBits, Ideal.ieee, -EReal.coe_mul]; norm_num

/-- One normalised entry, the kernel's way and the reference's: for a variance `v` with `v + ε` a positive real, the
    product with the reciprocal square root is the quotient by the square root. -/
theorem norm_law (P m v g sh : EReal) (hv : ∃ r : ℝ, v = (r : EReal) ∧ 0 < r + 2748779 / 274877906944) :
    (silu P - m) * Ideal.rsqrt (v + eps) * g + sh
      = Ideal.div (P * Ideal.div (Ideal.ofBits .f32 0x3F800000#32) (Ideal.ofBits .f32 0x3F800000#32 + Ideal.exp (-P)) - m)
          (Ideal.sqrt (v + Ideal.ofBits .f32 0x3727C5AC#32)) * g + sh := by
  obtain ⟨r, rfl, hr⟩ := hv
  unfold silu eps
  rw [ofBits_one, Cert.Laws.ofBits_eps, ← EReal.coe_add, Cert.Laws.mul_rsqrt_eq_div_sqrt _ hr]

/-- The maximum fold over two entries, from a start value `c`. -/
theorem fold_maximumf_two (c : EReal) (f : Fin 2 → EReal) :
    (Finset.univ : Finset (Fin 2)).fold (FloatOps.maximumf (F := Ideal) (φ := .f32)) c f = max (f 0) (max (f 1) c) := by
  have e : (Finset.univ : Finset (Fin 2)) = insert 0 {1} := by decide
  rw [e, Finset.fold_insert (by decide), Finset.fold_singleton]
  rfl

/-! ## The reference's head, layer by layer, at an index -/

section Reference
variable (x0 : (⟨Cert.ReferenceIdeal.S64512x84, .f32⟩ : BufTy).Contents (Elt Ideal)) (x1 : (⟨Cert.ReferenceIdeal.S2x1032192, .i32⟩ : BufTy).Contents (Elt Ideal)) (x2 : (⟨Cert.ReferenceIdeal.S1008x128, .f32⟩ : BufTy).Contents (Elt Ideal)) (x3 : (⟨Cert.ReferenceIdeal.S84x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
  (x7 : (⟨Cert.ReferenceIdeal.S6144x512, .f32⟩ : BufTy).Contents (Elt Ideal)) (x8 : (⟨Cert.ReferenceIdeal.S512, .f32⟩ : BufTy).Contents (Elt Ideal)) (x9 : (⟨Cert.ReferenceIdeal.S512x32, .f32⟩ : BufTy).Contents (Elt Ideal)) (x10 : (⟨Cert.ReferenceIdeal.S32, .f32⟩ : BufTy).Contents (Elt Ideal)) (x11 : (⟨Cert.ReferenceIdeal.S32x2, .f32⟩ : BufTy).Contents (Elt Ideal)) (x12 : (⟨Cert.ReferenceIdeal.S2, .f32⟩ : BufTy).Contents (Elt Ideal))
  (x13 x14 x15 x16 : (⟨Cert.ReferenceIdeal.S512, .f32⟩ : BufTy).Contents (Elt Ideal)) (x17 x18 x19 x20 : (⟨Cert.ReferenceIdeal.S32, .f32⟩ : BufTy).Contents (Elt Ideal))

/-- The reference's first affine layer. -/
theorem ref_h1 (b : Fin 64) (n : Fin 512) :
    val_main_v68 (F := Ideal) x0 x1 x2 x3 x4 x5 x6 x7 x8 (ix2 b n) = (∑ k : Fin 6144, val_main_v64 (F := Ideal) x0 x1 x2 x3 x4 x5 x6 (ix2 b k) * x7 (ix2 k n)) + x8 (ix1 n) := by
  rw [val_main_v68_apply, val_main_v65_apply, val_main_v67_apply, val_main_v66_apply, Ideal.addf_def]
  refine congrArg₂ (· + ·) (Finset.sum_congr rfl fun k _ => congrArg₂ (· * ·) (congrArg (val_main_v64 (F := Ideal) x0 x1 x2 x3 x4 x5 x6) ?_) (congrArg x7 ?_)) (congrArg x8 ?_)
  · exact by funext a; apply Fin.ext; match a with | ⟨0, _⟩ => rfl | ⟨1, _⟩ => rfl
  · exact by funext a; apply Fin.ext; match a with | ⟨0, _⟩ => rfl | ⟨1, _⟩ => rfl
  · exact by funext a; apply Fin.ext; match a with | ⟨0, _⟩ => rfl

/-- The reference's first normalised layer, from its first affine layer. -/
theorem ref_bn1 (b : Fin 64) (n : Fin 512) :
    val_main_v84 (F := Ideal) x0 x1 x2 x3 x4 x5 x6 x7 x8 x13 x14 x15 x16 (ix2 b n)
      = Ideal.div (val_main_v68 (F := Ideal) x0 x1 x2 x3 x4 x5 x6 x7 x8 (ix2 b n) * Ideal.div (Ideal.ofBits .f32 0x3F800000#32) (Ideal.ofBits .f32 0x3F800000#32 + Ideal.exp (-(val_main_v68 (F := Ideal) x0 x1 x2 x3 x4 x5 x6 x7 x8 (ix2 b n)))) - x15 (ix1 n))
          (Ideal.sqrt (x16 (ix1 n) + Ideal.ofBits .f32 0x3727C5AC#32)) * x13 (ix1 n) + x14 (ix1 n) := by
  have em : idx_main_v70 (idx_main_v71 (ix2 b n)) = ix1 n := by funext a; apply Fin.ext; match a with | ⟨0, _⟩ => rfl
  have ev : idx_main_v76 (idx_main_v77 (ix2 b n)) = ix1 n := by funext a; apply Fin.ext; match a with | ⟨0, _⟩ => rfl
  have eg : idx_main_v79 (idx_main_v80 (ix2 b n)) = ix1 n := by funext a; apply Fin.ext; match a with | ⟨0, _⟩ => rfl
  have es : idx_main_v82 (idx_main_v83 (ix2 b n)) = ix1 n := by funext a; apply Fin.ext; match a with | ⟨0, _⟩ => rfl
  simp only [val_main_v84_apply, val_main_v81_apply, val_main_v78_apply, val_main_v72_apply, val_main_v69_apply, val_main_call0_v5_apply, val_main_call0_v4_apply, val_main_call0_cst_0_apply, val_main_call0_v3_apply, val_main_call0_v2_apply, val_main_call0_cst_apply, val_main_call0_v1_apply, val_main_call0_v0_apply, val_main_v71_apply, val_main_v70_apply, val_main_v77_apply, val_main_v76_apply, val_main_v75_apply, val_main_v74_apply, val_main_v73_apply, val_main_cst_14_apply, val_main_v80_apply, val_main_v79_apply, val_main_v83_apply, val_main_v82_apply, Ideal.addf_def, Ideal.subf_def, Ideal.mulf_def, Ideal.hostDivf_def, Ideal.hostUnary_exp_def, Ideal.hostUnary_sqrt_def, Ideal.hostNegf_def, Ideal.negf_def, Ideal.ofBits_def, Ideal.maximumf_def]
  rw [em, ev, eg, es]

/-- The reference's second affine layer. -/
theorem ref_h2 (b : Fin 64) (n : Fin 32) :
    val_main_v88 (F := Ideal) x0 x1 x2 x3 x4 x5 x6 x7 x8 x9 x10 x13 x14 x15 x16 (ix2 b n) = (∑ k : Fin 512, val_main_v84 (F := Ideal) x0 x1 x2 x3 x4 x5 x6 x7 x8 x13 x14 x15 x16 (ix2 b k) * x9 (ix2 k n)) + x10 (ix1 n) := by
  rw [val_main_v88_apply, val_main_v85_apply, val_main_v87_apply, val_main_v86_apply, Ideal.addf_def]
  refine congrArg₂ (· + ·) (Finset.sum_congr rfl fun k _ => congrArg₂ (· * ·) (congrArg (val_main_v84 (F := Ideal) x0 x1 x2 x3 x4 x5 x6 x7 x8 x13 x14 x15 x16) ?_) (congrArg x9 ?_)) (congrArg x10 ?_)
  · exact by funext a; apply Fin.ext; match a with | ⟨0, _⟩ => rfl | ⟨1, _⟩ => rfl
  · exact by funext a; apply Fin.ext; match a with | ⟨0, _⟩ => rfl | ⟨1, _⟩ => rfl
  · exact by funext a; apply Fin.ext; match a with | ⟨0, _⟩ => rfl

/-- The reference's second normalised layer, from its second affine layer. -/
theorem ref_bn2 (b : Fin 64) (n : Fin 32) :
    val_main_v104 (F := Ideal) x0 x1 x2 x3 x4 x5 x6 x7 x8 x9 x10 x13 x14 x15 x16 x17 x18 x19 x20 (ix2 b n)
      = Ideal.div (val_main_v88 (F := Ideal) x0 x1 x2 x3 x4 x5 x6 x7 x8 x9 x10 x13 x14 x15 x16 (ix2 b n) * Ideal.div (Ideal.ofBits .f32 0x3F800000#32) (Ideal.ofBits .f32 0x3F800000#32 + Ideal.exp (-(val_main_v88 (F := Ideal) x0 x1 x2 x3 x4 x5 x6 x7 x8 x9 x10 x13 x14 x15 x16 (ix2 b n)))) - x19 (ix1 n))
          (Ideal.sqrt (x20 (ix1 n) + Ideal.ofBits .f32 0x3727C5AC#32)) * x17 (ix1 n) + x18 (ix1 n) := by
  have em : idx_main_v90 (idx_main_v91 (ix2 b n)) = ix1 n := by funext a; apply Fin.ext; match a with | ⟨0, _⟩ => rfl
  have ev : idx_main_v96 (idx_main_v97 (ix2 b n)) = ix1 n := by funext a; apply Fin.ext; match a with | ⟨0, _⟩ => rfl
  have eg : idx_main_v99 (idx_main_v100 (ix2 b n)) = ix1 n := by funext a; apply Fin.ext; match a with | ⟨0, _⟩ => rfl
  have es : idx_main_v102 (idx_main_v103 (ix2 b n)) = ix1 n := by funext a; apply Fin.ext; match a with | ⟨0, _⟩ => rfl
  simp only [val_main_v104_apply, val_main_v101_apply, val_main_v98_apply, val_main_v92_apply, val_main_v89_apply, val_main_call1_v5_apply, val_main_call1_v4_apply, val_main_call1_cst_0_apply, val_main_call1_v3_apply, val_main_call1_v2_apply, val_main_call1_cst_apply, val_main_call1_v1_apply, val_main_call1_v0_apply, val_main_v91_apply, val_main_v90_apply, val_main_v97_apply, val_main_v96_apply, val_main_v95_apply, val_main_v94_apply, val_main_v93_apply, val_main_cst_15_apply, val_main_v100_apply, val_main_v99_apply, val_main_v103_apply, val_main_v102_apply, Ideal.addf_def, Ideal.subf_def, Ideal.mulf_def, Ideal.hostDivf_def, Ideal.hostUnary_exp_def, Ideal.hostUnary_sqrt_def, Ideal.hostNegf_def, Ideal.negf_def, Ideal.ofBits_def, Ideal.maximumf_def]
  rw [em, ev, eg, es]

/-- The reference's third affine layer: the two classes' scores. -/
theorem ref_h3 (b : Fin 64) (n : Fin 2) :
    val_main_v108 (F := Ideal) x0 x1 x2 x3 x4 x5 x6 x7 x8 x9 x10 x11 x12 x13 x14 x15 x16 x17 x18 x19 x20 (ix2 b n) = (∑ k : Fin 32, val_main_v104 (F := Ideal) x0 x1 x2 x3 x4 x5 x6 x7 x8 x9 x10 x13 x14 x15 x16 x17 x18 x19 x20 (ix2 b k) * x11 (ix2 k n)) + x12 (ix1 n) := by
  rw [val_main_v108_apply, val_main_v105_apply, val_main_v107_apply, val_main_v106_apply, Ideal.addf_def]
  refine congrArg₂ (· + ·) (Finset.sum_congr rfl fun k _ => congrArg₂ (· * ·) (congrArg (val_main_v104 (F := Ideal) x0 x1 x2 x3 x4 x5 x6 x7 x8 x9 x10 x13 x14 x15 x16 x17 x18 x19 x20) ?_) (congrArg x11 ?_)) (congrArg x12 ?_)
  · exact by funext a; apply Fin.ext; match a with | ⟨0, _⟩ => rfl | ⟨1, _⟩ => rfl
  · exact by funext a; apply Fin.ext; match a with | ⟨0, _⟩ => rfl | ⟨1, _⟩ => rfl
  · exact by funext a; apply Fin.ext; match a with | ⟨0, _⟩ => rfl

/-- The reference's row maximum of the scores, started from -∞. -/
theorem ref_rowmax (b : Fin 64) :
    val_main_v109 (F := Ideal) x0 x1 x2 x3 x4 x5 x6 x7 x8 x9 x10 x11 x12 x13 x14 x15 x16 x17 x18 x19 x20 (ix1 b) = max (val_main_v108 (F := Ideal) x0 x1 x2 x3 x4 x5 x6 x7 x8 x9 x10 x11 x12 x13 x14 x15 x16 x17 x18 x19 x20 (ix2 b 0)) (val_main_v108 (F := Ideal) x0 x1 x2 x3 x4 x5 x6 x7 x8 x9 x10 x11 x12 x13 x14 x15 x16 x17 x18 x19 x20 (ix2 b 1)) := by
  unfold val_main_v109
  generalize val_main_v108 (F := Ideal) x0 x1 x2 x3 x4 x5 x6 x7 x8 x9 x10 x11 x12 x13 x14 x15 x16 x17 x18 x19 x20 = Z
  have hred : Cert.ReferenceIdeal.S64x2.Reduces [1] Cert.ReferenceIdeal.S64 := by decide
  have e0 : hred.lift (ix1 b) (0 : Fin 2) = ix2 b 0 := funext fun a => Fin.ext (by match a with | ⟨0, _⟩ => rfl | ⟨1, _⟩ => rfl)
  have e1 : hred.lift (ix1 b) (1 : Fin 2) = ix2 b 1 := funext fun a => Fin.ext (by match a with | ⟨0, _⟩ => rfl | ⟨1, _⟩ => rfl)
  have key := Host.reduce_eq_fold_single (α := Ideal .f32) (s := Cert.ReferenceIdeal.S64x2) (t := Cert.ReferenceIdeal.S64) (a := 1)
    (u := Cert.ReferenceIdeal.S_) FloatOps.maximumf Z (val_main_cst_16 (F := Ideal)) Cert.ReferenceIdeal.Gen.reducesTo_S64x2_S64_d1 hred
    Cert.ReferenceIdeal.Gen.h_S_ (ix1 b)
  refine (key.trans (fold_maximumf_two _ (fun o => Z (hred.lift (ix1 b) o)))).trans ?_
  show max (Z (hred.lift (ix1 b) (0 : Fin 2))) (max (Z (hred.lift (ix1 b) (1 : Fin 2))) (Ideal.ofBits .f32 0xFF800000#32)) = _
  rw [neg_inf_word, max_bot_right, e0, e1]

/-- The reference's softmax of the scores. -/
theorem ref_softmax (b : Fin 64) (o : Fin 2) :
    val_main_v119 (F := Ideal) x0 x1 x2 x3 x4 x5 x6 x7 x8 x9 x10 x11 x12 x13 x14 x15 x16 x17 x18 x19 x20 (ix2 b o) = softmax2 (fun o' => val_main_v108 (F := Ideal) x0 x1 x2 x3 x4 x5 x6 x7 x8 x9 x10 x11 x12 x13 x14 x15 x16 x17 x18 x19 x20 (ix2 b o')) o := by
  have hM : ∀ o' : Fin 2, val_main_v113 (F := Ideal) x0 x1 x2 x3 x4 x5 x6 x7 x8 x9 x10 x11 x12 x13 x14 x15 x16 x17 x18 x19 x20 (ix2 b o')
      = max (val_main_v108 (F := Ideal) x0 x1 x2 x3 x4 x5 x6 x7 x8 x9 x10 x11 x12 x13 x14 x15 x16 x17 x18 x19 x20 (ix2 b 0)) (val_main_v108 (F := Ideal) x0 x1 x2 x3 x4 x5 x6 x7 x8 x9 x10 x11 x12 x13 x14 x15 x16 x17 x18 x19 x20 (ix2 b 1)) := fun o' => by
    have e : idx_main_v112 (idx_main_v113 (ix2 b o')) = ix1 b := by funext a; apply Fin.ext; match a with | ⟨0, _⟩ => rfl
    rw [val_main_v113_apply, val_main_v112_apply, e, val_main_v111_apply, val_main_v110_apply, val_main_cst_17_apply, ref_rowmax,
      Ideal.maximumf_def, Ideal.ofBits_def, neg_inf_word, max_bot_left]
  have hE : ∀ o' : Fin 2, val_main_v115 (F := Ideal) x0 x1 x2 x3 x4 x5 x6 x7 x8 x9 x10 x11 x12 x13 x14 x15 x16 x17 x18 x19 x20 (ix2 b o')
      = Ideal.exp (val_main_v108 (F := Ideal) x0 x1 x2 x3 x4 x5 x6 x7 x8 x9 x10 x11 x12 x13 x14 x15 x16 x17 x18 x19 x20 (ix2 b o') - max (val_main_v108 (F := Ideal) x0 x1 x2 x3 x4 x5 x6 x7 x8 x9 x10 x11 x12 x13 x14 x15 x16 x17 x18 x19 x20 (ix2 b 0)) (val_main_v108 (F := Ideal) x0 x1 x2 x3 x4 x5 x6 x7 x8 x9 x10 x11 x12 x13 x14 x15 x16 x17 x18 x19 x20 (ix2 b 1))) := fun o' => by
    rw [val_main_v115_apply, val_main_v114_apply, hM o', Ideal.hostUnary_exp_def, Ideal.subf_def]
  have hS : val_main_v118 (F := Ideal) x0 x1 x2 x3 x4 x5 x6 x7 x8 x9 x10 x11 x12 x13 x14 x15 x16 x17 x18 x19 x20 (ix2 b o)
      = ∑ o' : Fin 2, Ideal.exp (val_main_v108 (F := Ideal) x0 x1 x2 x3 x4 x5 x6 x7 x8 x9 x10 x11 x12 x13 x14 x15 x16 x17 x18 x19 x20 (ix2 b o') - max (val_main_v108 (F := Ideal) x0 x1 x2 x3 x4 x5 x6 x7 x8 x9 x10 x11 x12 x13 x14 x15 x16 x17 x18 x19 x20 (ix2 b 0)) (val_main_v108 (F := Ideal) x0 x1 x2 x3 x4 x5 x6 x7 x8 x9 x10 x11 x12 x13 x14 x15 x16 x17 x18 x19 x20 (ix2 b 1))) := by
    have e : idx_main_v117 (idx_main_v118 (ix2 b o)) = ix1 b := by funext a; apply Fin.ext; match a with | ⟨0, _⟩ => rfl
    rw [val_main_v118_apply, val_main_v117_apply, e, val_main_v116_apply, val_main_cst_18_apply, Ideal.ofBits_def, Ideal.ofBits_zero_f32, zero_add]
    refine Finset.sum_congr rfl fun o' _ => ?_
    have e' : idx_main_v116 (ix1 b) o' = ix2 b o' := by funext a; apply Fin.ext; match a with | ⟨0, _⟩ => rfl | ⟨1, _⟩ => rfl
    rw [e', hE o']
  rw [val_main_v119_apply, hE o, hS, Ideal.hostDivf_def]
  rfl

end Reference

/-! ## The bridge -/

/-- The kernel's head value of the reference's aggregated features, the weight matrices and the row forms `B` of the
    one-dimensional parameters is the reference's result, entry by entry. `hv1`, `hv2`: each variance plus ε is a positive
    real. -/
theorem head_bridge (x0 : (⟨Cert.ReferenceIdeal.S64512x84, .f32⟩ : BufTy).Contents (Elt Ideal)) (x1 : (⟨Cert.ReferenceIdeal.S2x1032192, .i32⟩ : BufTy).Contents (Elt Ideal)) (x2 : (⟨Cert.ReferenceIdeal.S1008x128, .f32⟩ : BufTy).Contents (Elt Ideal)) (x3 : (⟨Cert.ReferenceIdeal.S84x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
  (x7 : (⟨Cert.ReferenceIdeal.S6144x512, .f32⟩ : BufTy).Contents (Elt Ideal)) (x8 : (⟨Cert.ReferenceIdeal.S512, .f32⟩ : BufTy).Contents (Elt Ideal)) (x9 : (⟨Cert.ReferenceIdeal.S512x32, .f32⟩ : BufTy).Contents (Elt Ideal)) (x10 : (⟨Cert.ReferenceIdeal.S32, .f32⟩ : BufTy).Contents (Elt Ideal)) (x11 : (⟨Cert.ReferenceIdeal.S32x2, .f32⟩ : BufTy).Contents (Elt Ideal)) (x12 : (⟨Cert.ReferenceIdeal.S2, .f32⟩ : BufTy).Contents (Elt Ideal))
  (x13 x14 x15 x16 : (⟨Cert.ReferenceIdeal.S512, .f32⟩ : BufTy).Contents (Elt Ideal)) (x17 x18 x19 x20 : (⟨Cert.ReferenceIdeal.S32, .f32⟩ : BufTy).Contents (Elt Ideal))
    (B8 B13 B14 B15 B16 : Vec Ideal S1x512 .f32) (B10 B17 B18 B19 B20 : Vec Ideal S1x32 .f32) (B12 : Vec Ideal S1x2 .f32)
    (h8 : ∀ n : Fin 512, B8 (ix2 0 n) = x8 (ix1 n)) (h10 : ∀ n : Fin 32, B10 (ix2 0 n) = x10 (ix1 n)) (h12 : ∀ n : Fin 2, B12 (ix2 0 n) = x12 (ix1 n))
    (h13 : ∀ n : Fin 512, B13 (ix2 0 n) = x13 (ix1 n)) (h14 : ∀ n : Fin 512, B14 (ix2 0 n) = x14 (ix1 n))
    (h15 : ∀ n : Fin 512, B15 (ix2 0 n) = x15 (ix1 n)) (h16 : ∀ n : Fin 512, B16 (ix2 0 n) = x16 (ix1 n))
    (h17 : ∀ n : Fin 32, B17 (ix2 0 n) = x17 (ix1 n)) (h18 : ∀ n : Fin 32, B18 (ix2 0 n) = x18 (ix1 n))
    (h19 : ∀ n : Fin 32, B19 (ix2 0 n) = x19 (ix1 n)) (h20 : ∀ n : Fin 32, B20 (ix2 0 n) = x20 (ix1 n))
    (hv1 : ∀ i : Cert.ReferenceIdeal.S512.Idx, ∃ r : ℝ, x16 i = (r : EReal) ∧ 0 < r + 2748779 / 274877906944)
    (hv2 : ∀ i : Cert.ReferenceIdeal.S32.Idx, ∃ r : ℝ, x20 i = (r : EReal) ∧ 0 < r + 2748779 / 274877906944)
    (b : Fin 64) (o : Fin 2) :
    softmax2 (h3 (val_main_v64 (F := Ideal) x0 x1 x2 x3 x4 x5 x6) x7 B8 x9 B10 x11 B12 B13 B14 B15 B16 B17 B18 B19 B20 b) o
      = val_main_v119 (F := Ideal) x0 x1 x2 x3 x4 x5 x6 x7 x8 x9 x10 x11 x12 x13 x14 x15 x16 x17 x18 x19 x20 (ix2 b o) := by
  have k1 : ∀ n : Fin 512, h1 (val_main_v64 (F := Ideal) x0 x1 x2 x3 x4 x5 x6) x7 B8 b n = val_main_v68 (F := Ideal) x0 x1 x2 x3 x4 x5 x6 x7 x8 (ix2 b n) := fun n => by
    unfold h1; rw [h8 n]; exact (ref_h1 x0 x1 x2 x3 x4 x5 x6 x7 x8 b n).symm
  have k2 : ∀ n : Fin 512, bn1 (val_main_v64 (F := Ideal) x0 x1 x2 x3 x4 x5 x6) x7 B8 B13 B14 B15 B16 b n = val_main_v84 (F := Ideal) x0 x1 x2 x3 x4 x5 x6 x7 x8 x13 x14 x15 x16 (ix2 b n) := fun n => by
    unfold bn1; rw [k1 n, h13 n, h14 n, h15 n, h16 n, ref_bn1 x0 x1 x2 x3 x4 x5 x6 x7 x8 x13 x14 x15 x16 b n]
    exact norm_law _ _ _ _ _ (hv1 (ix1 n))
  have k3 : ∀ n : Fin 32, h2 (val_main_v64 (F := Ideal) x0 x1 x2 x3 x4 x5 x6) x7 B8 x9 B10 B13 B14 B15 B16 b n = val_main_v88 (F := Ideal) x0 x1 x2 x3 x4 x5 x6 x7 x8 x9 x10 x13 x14 x15 x16 (ix2 b n) := fun n => by
    unfold h2; rw [h10 n, ref_h2 x0 x1 x2 x3 x4 x5 x6 x7 x8 x9 x10 x13 x14 x15 x16 b n]
    exact congrArg (· + x10 (ix1 n)) (Finset.sum_congr rfl fun k _ => congrArg (· * x9 (ix2 k n)) (k2 k))
  have k4 : ∀ n : Fin 32, bn2 (val_main_v64 (F := Ideal) x0 x1 x2 x3 x4 x5 x6) x7 B8 x9 B10 B13 B14 B15 B16 B17 B18 B19 B20 b n = val_main_v104 (F := Ideal) x0 x1 x2 x3 x4 x5 x6 x7 x8 x9 x10 x13 x14 x15 x16 x17 x18 x19 x20 (ix2 b n) := fun n => by
    unfold bn2; rw [k3 n, h17 n, h18 n, h19 n, h20 n, ref_bn2 x0 x1 x2 x3 x4 x5 x6 x7 x8 x9 x10 x13 x14 x15 x16 x17 x18 x19 x20 b n]
    exact norm_law _ _ _ _ _ (hv2 (ix1 n))
  have k5 : ∀ o' : Fin 2, h3 (val_main_v64 (F := Ideal) x0 x1 x2 x3 x4 x5 x6) x7 B8 x9 B10 x11 B12 B13 B14 B15 B16 B17 B18 B19 B20 b o' = val_main_v108 (F := Ideal) x0 x1 x2 x3 x4 x5 x6 x7 x8 x9 x10 x11 x12 x13 x14 x15 x16 x17 x18 x19 x20 (ix2 b o') := fun o' => by
    unfold h3; rw [h12 o', ref_h3 x0 x1 x2 x3 x4 x5 x6 x7 x8 x9 x10 x11 x12 x13 x14 x15 x16 x17 x18 x19 x20 b o']
    exact congrArg (· + x12 (ix1 o')) (Finset.sum_congr rfl fun k _ => congrArg (· * x11 (ix2 k o')) (k4 k))
  rw [ref_softmax x0 x1 x2 x3 x4 x5 x6 x7 x8 x9 x10 x11 x12 x13 x14 x15 x16 x17 x18 x19 x20 b o]
  exact congrArg (fun z => softmax2 z o) (funext k5)

end Cert.KernelIdeal.HeadBridge

end
-- ==== Proof.PreFacts.lean ====
/-
  The precondition, decoded for the two batch normalisations' variances.

  The precondition is one i1 scalar: the conjunction, by `and`, of twenty-two scalars. The first twenty say, one per
  float argument a, that every entry of a has absolute value strictly below +∞ (a reduction by `and`, from 1, of the
  entrywise comparison |a| < +∞). The last two say that every entry of the first variance plus ε, and every entry of the
  second variance plus ε, is strictly above 0, ε being the single-precision word 0x3727C5AC, the real 2748779 / 2^38.

  On the extended reals |x| is max x (-x), which is +∞ at both infinities, so |x| < +∞ holds exactly when x is a real
  number; and for a real r the sum r + ε and the comparison with 0 are those of the reals. Hence, when the precondition
  is all ones, every entry of either variance is a real r with 0 < r + 2748779 / 2^38.

  The conjunction is printed as a chain of seven functions, each ending in the call of the next. A conjunction that is 1
  has both conjuncts 1, so the chain is walked from its last function inward: the last one yields the two comparisons
  and the conjunction so far, the two before it yield the finiteness of the second and of the first variance, and the
  earlier ones only pass the two arrays on.
-/
import proofs.«175257_j71588514890561_2_alg».proof.Proof.Gen.Pre_finite_inputs
import proofs.«175257_j71588514890561_2_alg».proof.Proof.Laws
import Idealize.ShloMosaic.Lib.ReduceAll
import Idealize.ShloMosaic.Lib.ValueIdx

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- A one-bit word built from a Boolean is 1 exactly when the Boolean is true. -/
theorem ofBool_eq_one (b : Bool) : BitVec.ofBool b = 1#1 ↔ b = true := by cases b <;> decide

/-- The word 0x7F800000 denotes +∞. -/
theorem ofBits_inf : Ideal.ofBits .f32 0x7F800000#32 = (⊤ : EReal) := by
  simp [Ideal.ofBits, Ideal.ieee]

/-- The word 0 denotes 0. -/
theorem ofBits_zero : Ideal.ofBits .f32 0x00000000#32 = (0 : EReal) := by
  simp [Ideal.ofBits, Ideal.ieee]

/-- An extended real whose absolute value max x (-x) lies strictly below +∞ is a real number:
    at +∞ the maximum is +∞, at -∞ its negation is. -/
theorem real_of_abs_lt_top (x : EReal)
    (h : Ideal.cmp .olt (max x (-x)) (Ideal.ofBits .f32 0x7F800000#32) = 1#1) : ∃ r : ℝ, x = (r : EReal) := by
  rw [ofBits_inf] at h
  have h' : max x (-x) < ⊤ := by simpa [Ideal.cmp, ofBool_eq_one] using h
  induction x using EReal.rec with
  | bot => simp at h'
  | coe r => exact ⟨r, rfl⟩
  | top => simp at h'

/-- For a real r, the comparison r + ε > 0 on the extended reals, ε the word 0x3727C5AC, is the
    comparison of reals 0 < r + 2748779 / 2^38. -/
theorem pos_of_cmp (r : ℝ)
    (h : Ideal.cmp .ogt ((r : EReal) + Ideal.ofBits .f32 0x3727C5AC#32) (Ideal.ofBits .f32 0x00000000#32) = 1#1) :
    0 < r + 2748779 / 274877906944 := by
  rw [Cert.Laws.ofBits_eps, ofBits_zero] at h
  have h' : (0 : EReal) < (r : EReal) + ((2748779 / 274877906944 : ℝ) : EReal) := by
    simpa [Ideal.cmp, ofBool_eq_one] using h
  exact_mod_cast h'

/-- A conjunction of two i1 scalars that is 1 has both conjuncts 1. -/
theorem andi_ix0 (x y : IVec S_ 1) (h : andi x y ix0 = 1#1) : x ix0 = 1#1 ∧ y ix0 = 1#1 :=
  IntOp.andi_eq_one.1 h

/-- The i1 scalar "every entry of a has absolute value below +∞", read back: every entry is a real. -/
theorem all_finite {s : Shape} {axes : List (Fin s.rank)} (a : FVec Ideal s .f32)
    (hb : S_.BroadcastsInDim s (![] : Fin 0 → Fin s.rank)) (hr : s.ReducesTo axes S_) (hS : 0 < S_.numel)
    (h : Host.reduce IntOp.andi
          (cmpf .olt (Host.absf a) (broadcastInDim s ![] hb (constant (F := Ideal) S_ .f32 0x7F800000#32)))
          (constantI S_ 1 1#1) hr hS ix0 = 1#1)
    (i : s.Idx) : ∃ r : ℝ, a i = (r : EReal) :=
  real_of_abs_lt_top (a i) (Host.reduce_andi_all _ _ hr hS ix0 h i)

/-- The i1 scalar "every entry of a + ε is above 0", read back entry by entry. -/
theorem all_pos {s : Shape} {axes : List (Fin s.rank)} (a : FVec Ideal s .f32)
    (hb : S_.BroadcastsInDim s (![] : Fin 0 → Fin s.rank)) (hr : s.ReducesTo axes S_) (hS : 0 < S_.numel)
    (h : Host.reduce IntOp.andi
          (cmpf .ogt (addf a (broadcastInDim s ![] hb (constant (F := Ideal) S_ .f32 0x3727C5AC#32)))
            (broadcastInDim s ![] hb (constant (F := Ideal) S_ .f32 0x00000000#32)))
          (constantI S_ 1 1#1) hr hS ix0 = 1#1)
    (i : s.Idx) :
    Ideal.cmp .ogt (a i + Ideal.ofBits .f32 0x3727C5AC#32) (Ideal.ofBits .f32 0x00000000#32) = 1#1 :=
  Host.reduce_andi_all _ _ hr hS ix0 h i

/-- What the last four conjuncts say of the two variance arrays. -/
def Good (a16 : FVec Ideal S512 .f32) (a20 : FVec Ideal S32 .f32) : Prop :=
  (∀ i : S512.Idx, ∃ r : ℝ, a16 i = (r : EReal))
  ∧ (∀ i : S32.Idx, ∃ r : ℝ, a20 i = (r : EReal))
  ∧ (∀ i : S512.Idx, Ideal.cmp .ogt (a16 i + Ideal.ofBits .f32 0x3727C5AC#32) (Ideal.ofBits .f32 0x00000000#32) = 1#1)
  ∧ (∀ i : S32.Idx, Ideal.cmp .ogt (a20 i + Ideal.ofBits .f32 0x3727C5AC#32) (Ideal.ofBits .f32 0x00000000#32) = 1#1)

/-- The last part: the conjunction so far, the first variance's comparison (whose two sides enter as
    arrays) and the second variance's. -/
theorem part6 (a20 : FVec Ideal S32 .f32) (v98 : IVec S_ 1) (v100 v101 : FVec Ideal S512 .f32)
    (h : fn_part6 (F := Ideal) a20 v98 v100 v101 ix0 = 1#1) :
    v98 ix0 = 1#1
    ∧ Host.reduce IntOp.andi (cmpf .ogt v100 v101) (constantI S_ 1 1#1) Facts.reducesTo_S512_S_d0 Facts.h_S_ ix0 = 1#1
    ∧ ∀ i : S32.Idx, Ideal.cmp .ogt (a20 i + Ideal.ofBits .f32 0x3727C5AC#32) (Ideal.ofBits .f32 0x00000000#32) = 1#1 := by
  unfold fn_part6 at h
  obtain ⟨h104, h109⟩ := andi_ix0 _ _ h
  obtain ⟨h98, h103⟩ := andi_ix0 _ _ h104
  exact ⟨h98, h103, all_pos a20 _ _ _ h109⟩

/-- Part 5 adds the finiteness of the 18th, 19th and 20th float arrays and hands the first variance's sum
    and the zero array to the last part: it yields the conjunction so far, the second variance's finiteness
    and both comparisons. -/
theorem part5 (a16 : FVec Ideal S512 .f32) (a19 a20 : FVec Ideal S32 .f32) (v83 : IVec S_ 1)
    (v84 : FVec Ideal S32 .f32) (c32 : FVec Ideal S_ .f32)
    (h : fn_part5 (F := Ideal) a16 a19 a20 v83 v84 c32 ix0 = 1#1) :
    v83 ix0 = 1#1
    ∧ (∀ i : S32.Idx, ∃ r : ℝ, a20 i = (r : EReal))
    ∧ (∀ i : S512.Idx, Ideal.cmp .ogt (a16 i + Ideal.ofBits .f32 0x3727C5AC#32) (Ideal.ofBits .f32 0x00000000#32) = 1#1)
    ∧ (∀ i : S32.Idx, Ideal.cmp .ogt (a20 i + Ideal.ofBits .f32 0x3727C5AC#32) (Ideal.ofBits .f32 0x00000000#32) = 1#1) := by
  unfold fn_part5 at h
  obtain ⟨h98, h103, hp20⟩ := part6 _ _ _ _ h
  obtain ⟨h93, h97⟩ := andi_ix0 _ _ h98
  obtain ⟨h88, h92⟩ := andi_ix0 _ _ h93
  obtain ⟨h83, h87⟩ := andi_ix0 _ _ h88
  exact ⟨h83, all_finite a20 _ _ _ h97, all_pos a16 _ _ _ h103, hp20⟩

/-- Part 4 adds the finiteness of the 15th, 16th (the first variance) and 17th float arrays. -/
theorem part4 (a15 a16 : FVec Ideal S512 .f32) (a17 a18 a19 a20 : FVec Ideal S32 .f32) (v63 v67 : IVec S_ 1)
    (h : fn_part4 (F := Ideal) a15 a16 a17 a18 a19 a20 v63 v67 ix0 = 1#1) : Good a16 a20 := by
  unfold fn_part4 at h
  obtain ⟨h83, hf20, hp16, hp20⟩ := part5 _ _ _ _ _ _ h
  obtain ⟨h78, h82⟩ := andi_ix0 _ _ h83
  obtain ⟨h73, h77⟩ := andi_ix0 _ _ h78
  exact ⟨all_finite a16 _ _ _ h77, hf20, hp16, hp20⟩

/-- Parts 3, 2 and 1 and the head only pass the two variance arrays on. -/
theorem part3 (a12 : FVec Ideal S2 .f32) (a13 a14 a15 a16 : FVec Ideal S512 .f32) (a17 a18 a19 a20 : FVec Ideal S32 .f32)
    (v48 : IVec S_ 1) (v49 v50 : FVec Ideal S32x2 .f32)
    (h : fn_part3 (F := Ideal) a12 a13 a14 a15 a16 a17 a18 a19 a20 v48 v49 v50 ix0 = 1#1) : Good a16 a20 := by
  unfold fn_part3 at h
  exact part4 _ _ _ _ _ _ _ _ h

theorem part2 (a8 : FVec Ideal S512 .f32) (a9 : FVec Ideal S512x32 .f32) (a10 : FVec Ideal S32 .f32)
    (a11 : FVec Ideal S32x2 .f32) (a12 : FVec Ideal S2 .f32) (a13 a14 a15 a16 : FVec Ideal S512 .f32)
    (a17 a18 a19 a20 : FVec Ideal S32 .f32) (v33 : IVec S_ 1)
    (h : fn_part2 (F := Ideal) a8 a9 a10 a11 a12 a13 a14 a15 a16 a17 a18 a19 a20 v33 ix0 = 1#1) : Good a16 a20 := by
  unfold fn_part2 at h
  exact part3 _ _ _ _ _ _ _ _ _ _ _ _ h

theorem part1 (a5 : FVec Ideal S128x128 .f32) (a6 : FVec Ideal S128 .f32) (a7 : FVec Ideal S6144x512 .f32)
    (a8 : FVec Ideal S512 .f32) (a9 : FVec Ideal S512x32 .f32) (a10 : FVec Ideal S32 .f32)
    (a11 : FVec Ideal S32x2 .f32) (a12 : FVec Ideal S2 .f32) (a13 a14 a15 a16 : FVec Ideal S512 .f32)
    (a17 a18 a19 a20 : FVec Ideal S32 .f32) (v13 : IVec S_ 1) (v16 : IVec S128 1)
    (h : fn_part1 (F := Ideal) a5 a6 a7 a8 a9 a10 a11 a12 a13 a14 a15 a16 a17 a18 a19 a20 v13 v16 ix0 = 1#1) :
    Good a16 a20 := by
  unfold fn_part1 at h
  exact part2 _ _ _ _ _ _ _ _ _ _ _ _ _ _ h

/-- The precondition, all ones, says the four facts of the two variance arrays. -/
theorem good_of_pre (a0 : FVec Ideal S64512x84 .f32) (a1 : IVec S2x1032192 32) (a2 : FVec Ideal S1008x128 .f32)
    (a3 : FVec Ideal S84x128 .f32) (a4 : FVec Ideal S128 .f32) (a5 : FVec Ideal S128x128 .f32)
    (a6 : FVec Ideal S128 .f32) (a7 : FVec Ideal S6144x512 .f32) (a8 : FVec Ideal S512 .f32)
    (a9 : FVec Ideal S512x32 .f32) (a10 : FVec Ideal S32 .f32) (a11 : FVec Ideal S32x2 .f32)
    (a12 : FVec Ideal S2 .f32) (a13 a14 a15 a16 : FVec Ideal S512 .f32) (a17 a18 a19 a20 : FVec Ideal S32 .f32)
    (h : Cert.Pre_finite_inputs.fn (F := Ideal) a0 a1 a2 a3 a4 a5 a6 a7 a8 a9 a10 a11 a12 a13 a14 a15 a16 a17 a18 a19 a20
          = (fun _ => 1#1)) : Good a16 a20 := by
  have e := congrFun h ix0
  unfold Cert.Pre_finite_inputs.fn at e
  exact part1 _ _ _ _ _ _ _ _ _ _ _ _ _ _ _ _ _ _ e

/-- Every entry of the first batch normalisation's variance is a real r with r + ε > 0. -/
theorem var1_pos (a0 : FVec Ideal S64512x84 .f32) (a1 : IVec S2x1032192 32) (a2 : FVec Ideal S1008x128 .f32)
    (a3 : FVec Ideal S84x128 .f32) (a4 : FVec Ideal S128 .f32) (a5 : FVec Ideal S128x128 .f32)
    (a6 : FVec Ideal S128 .f32) (a7 : FVec Ideal S6144x512 .f32) (a8 : FVec Ideal S512 .f32)
    (a9 : FVec Ideal S512x32 .f32) (a10 : FVec Ideal S32 .f32) (a11 : FVec Ideal S32x2 .f32)
    (a12 : FVec Ideal S2 .f32) (a13 a14 a15 a16 : FVec Ideal S512 .f32) (a17 a18 a19 a20 : FVec Ideal S32 .f32)
    (h : Cert.Pre_finite_inputs.fn (F := Ideal) a0 a1 a2 a3 a4 a5 a6 a7 a8 a9 a10 a11 a12 a13 a14 a15 a16 a17 a18 a19 a20
          = (fun _ => 1#1))
    (i : S512.Idx) : ∃ r : ℝ, a16 i = (r : EReal) ∧ 0 < r + 2748779 / 274877906944 := by
  obtain ⟨hf, -, hp, -⟩ := good_of_pre a0 a1 a2 a3 a4 a5 a6 a7 a8 a9 a10 a11 a12 a13 a14 a15 a16 a17 a18 a19 a20 h
  obtain ⟨r, hr⟩ := hf i
  have hpi := hp i
  rw [hr] at hpi
  exact ⟨r, hr, pos_of_cmp r hpi⟩

/-- Every entry of the second batch normalisation's variance is a real r with r + ε > 0. -/
theorem var2_pos (a0 : FVec Ideal S64512x84 .f32) (a1 : IVec S2x1032192 32) (a2 : FVec Ideal S1008x128 .f32)
    (a3 : FVec Ideal S84x128 .f32) (a4 : FVec Ideal S128 .f32) (a5 : FVec Ideal S128x128 .f32)
    (a6 : FVec Ideal S128 .f32) (a7 : FVec Ideal S6144x512 .f32) (a8 : FVec Ideal S512 .f32)
    (a9 : FVec Ideal S512x32 .f32) (a10 : FVec Ideal S32 .f32) (a11 : FVec Ideal S32x2 .f32)
    (a12 : FVec Ideal S2 .f32) (a13 a14 a15 a16 : FVec Ideal S512 .f32) (a17 a18 a19 a20 : FVec Ideal S32 .f32)
    (h : Cert.Pre_finite_inputs.fn (F := Ideal) a0 a1 a2 a3 a4 a5 a6 a7 a8 a9 a10 a11 a12 a13 a14 a15 a16 a17 a18 a19 a20
          = (fun _ => 1#1))
    (i : S32.Idx) : ∃ r : ℝ, a20 i = (r : EReal) ∧ 0 < r + 2748779 / 274877906944 := by
  obtain ⟨-, hf, -, hp⟩ := good_of_pre a0 a1 a2 a3 a4 a5 a6 a7 a8 a9 a10 a11 a12 a13 a14 a15 a16 a17 a18 a19 a20 h
  obtain ⟨r, hr⟩ := hf i
  have hpi := hp i
  rw [hr] at hpi
  exact ⟨r, hr, pos_of_cmp r hpi⟩

end Cert.PreFacts

end
-- ==== Proof.KI.HeadStage.lean ====
/-
  The classifier head's stage of the kernel program against the reference: if the aggregated features the head's region
  finds are the reference's, the array the region leaves is the reference's result. The region's one grid point writes back
  what the body leaves of the fifteen arrays it finds; of those, the three weight matrices are the program's arguments
  untouched, and each bias or normalisation row is the corresponding one-dimensional argument laid out as a row; the
  body's value at an index is the softmax formula of module HeadValue, which module HeadBridge identifies with the
  reference's last operation when both variances plus ε are positive reals — a consequence of the precondition.
-/
import proofs.«175257_j71588514890561_2_alg».proof.Defs
import proofs.«175257_j71588514890561_2_alg».proof.Proof.Gen.Pre_finite_inputs
import proofs.«175257_j71588514890561_2_alg».proof.Proof.KI.Keep
import proofs.«175257_j71588514890561_2_alg».proof.Proof.KI.HeadEntry
import proofs.«175257_j71588514890561_2_alg».proof.Proof.KI.HeadFinal
import proofs.«175257_j71588514890561_2_alg».proof.Proof.KI.HeadBridge
import proofs.«175257_j71588514890561_2_alg».proof.Proof.PreFacts

set_option maxRecDepth 16384

noncomputable section

namespace Cert.KernelIdeal.HeadStage

open Cert.KernelIdeal Cert.KernelIdeal.Gen Cert.KernelIdeal.GenP Cert.KernelIdeal.Run
open Idealize.ShloMosaic Idealize.ShloMosaic.TcCoe Idealize.SL.Sem Idealize.ShloMosaic.ValueIdx

variable (m : (ℓ : Loc nD τ sig) → Buf (Elt Ideal) ℓ)

set_option maxHeartbeats 4000000 in
/-- The head's output array is the reference's result, given that its aggregated input is the reference's. -/
theorem head_stage (hpre : Cert.Pre_KernelIdeal m) (c : Dev nD)
    (hX : W7 m c (Proc.devRef .tc main_v38) = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) :
    W8 m c (Proc.devRef .tc main_v50) = Cert.ReferenceIdeal.ReadP.val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [W8_v50_arr, Head.final]
  have eX : Run.V7 m c main_v38 = Cert.ReferenceIdeal.ReadP.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := hX
  have e7 : Run.V7 m c main_arg7 = (m ((c : Thread nD τ).loc main_arg7)) := HeadEntry.mat7 m c
  have e9 : Run.V7 m c main_arg9 = (m ((c : Thread nD τ).loc main_arg9)) := HeadEntry.mat9 m c
  have e11 : Run.V7 m c main_arg11 = (m ((c : Thread nD τ).loc main_arg11)) := HeadEntry.mat11 m c
  rw [eX, e7, e9, e11]
  funext i
  obtain ⟨b, o, rfl⟩ : ∃ (b : Fin 64) (o : Fin 2), i = ix2 b o := ⟨i 0, i 1, eq_ix2 i⟩
  refine (Head.out_apply _ _ _ _ _ _ _ _ _ _ _ _ _ _ _ b o).trans ?_
  exact Cert.KernelIdeal.HeadBridge.head_bridge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))
    (Run.V7 m c main_v39) (Run.V7 m c main_v42) (Run.V7 m c main_v43) (Run.V7 m c main_v44) (Run.V7 m c main_v45)
    (Run.V7 m c main_v40) (Run.V7 m c main_v46) (Run.V7 m c main_v47) (Run.V7 m c main_v48) (Run.V7 m c main_v49) (Run.V7 m c main_v41)
    (HeadEntry.row39 m c) (HeadEntry.row40 m c) (HeadEntry.row41 m c)
    (HeadEntry.row42 m c) (HeadEntry.row43 m c) (HeadEntry.row44 m c) (HeadEntry.row45 m c)
    (HeadEntry.row46 m c) (HeadEntry.row47 m c) (HeadEntry.row48 m c) (HeadEntry.row49 m c)
    (fun i => Cert.PreFacts.var1_pos _ _ _ _ _ _ _ _ _ _ _ _ _ _ _ _ _ _ _ _ _ (hpre c) i)
    (fun i => Cert.PreFacts.var2_pos _ _ _ _ _ _ _ _ _ _ _ _ _ _ _ _ _ _ _ _ _ (hpre c) i)
    b o

end Cert.KernelIdeal.HeadStage

end
-- ==== Proof.RefStages.lean ====
/-
  The reference's result, stage by stage.

  The reference's run leaves, at its result buffer, the fold of its 157 operations over the launch contents read at that
  buffer: each operation rewrites the buffer it writes and leaves the others. Read one operation at a time, the reference
  names for every operation the value it writes as a function of the arguments it depends on (a stage); each stage is
  one operation applied to earlier stages. This file proves that the fold, read at the result, is the last stage.

  The fold of a concatenation is the fold of the second list over the fold of the first. The line is cut after
  operations 22, 40, 63, 79, 81, 85, 114 and 143, that is after each value that later operations read more than once: the
  two graph convolutions, the attention, the four pooled arrays and their join, and the three dense layers. Each segment
  is computed from an ARBITRARY valuation of which only what the segment reads is assumed: a value written before the
  segment is assumed equal to its stage, an argument equal to a variable. Unfolding the segment's operations then gives
  one operation after the other applied to those values, and that is the segment's last stage unfolded as far as the
  assumed ones. Because the valuation is arbitrary, nothing before the segment is ever unfolded.

  The prefixes of the line are then taken in order from the launch contents: the value a stage has after the first k'
  operations follows from the values after the first k and the segment between, together with the fact that no
  operation writes an argument (and none past the 22nd the first convolution's output). The last segment, from
  operation 144 on, gives the result.
-/
import proofs.«175257_j71588514890561_2_alg».proof.Proof.Patched.ReferenceIdeal.Read

noncomputable section

namespace Cert.RefStages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Running two lines one after the other is running their concatenation. -/
theorem after_append (A B : List (HloOp τ sig (Elt F))) (V : Valuation τ sig (Elt F)) :
    after (A ++ B) V = after B (after A V) := by
  induction A generalizing V with
  | nil => rfl
  | cons a A ih => exact ih _

/-- A line run from V is its tail past position k run from what its first k operations leave. -/
theorem after_cut (k : Nat) (l : List (HloOp τ sig (Elt F))) (V : Valuation τ sig (Elt F)) :
    after l V = after (l.drop k) (after (l.take k) V) := by
  rw [← after_append, List.take_append_drop]

/-- The same for a prefix of the line: its first k' operations are its first k, then those from k to k'. -/
theorem after_take_cut {k k' : Nat} (h : k ≤ k') (l : List (HloOp τ sig (Elt F))) (V : Valuation τ sig (Elt F)) :
    after (l.take k') V = after ((l.take k').drop k) (after (l.take k) V) := by
  have e := after_cut k (l.take k') V
  rwa [List.take_take, Nat.min_eq_left h] at e

/-! ## The segments, each run from an arbitrary valuation

A segment's result is computed from the values its operations read; where such a value was written before the
segment, or is an argument, the valuation's value there is a hypothesis. -/

set_option maxRecDepth 8192 in
set_option maxHeartbeats 2000000 in
/-- Operations 1 to 22: the first graph convolution's output. -/
theorem s1_v18 (V : Valuation τ sig (Elt F)) :
    after ((ops (F := F)).take 22) V (Proc.devRef .tc main_v18)
      = val_main_v18 (F := F) (V (Proc.devRef .tc main_arg0)) (V (Proc.devRef .tc main_arg1)) (V (Proc.devRef .tc main_arg3)) (V (Proc.devRef .tc main_arg4)) := by
  simp only [ops, List.take_succ_cons, List.take_zero]
  after_results_simp
  rfl

set_option maxRecDepth 8192 in
set_option maxHeartbeats 2000000 in
/-- … and the two index rows it leaves for the second convolution. -/
theorem s1_v1 (V : Valuation τ sig (Elt F)) :
    after ((ops (F := F)).take 22) V (Proc.devRef .tc main_v1) = val_main_v1 (F := F) (V (Proc.devRef .tc main_arg1)) := by
  simp only [ops, List.take_succ_cons, List.take_zero]
  after_results_simp
  rfl

set_option maxRecDepth 8192 in
set_option maxHeartbeats 2000000 in
theorem s1_v3 (V : Valuation τ sig (Elt F)) :
    after ((ops (F := F)).take 22) V (Proc.devRef .tc main_v3) = val_main_v3 (F := F) (V (Proc.devRef .tc main_arg1)) := by
  simp only [ops, List.take_succ_cons, List.take_zero]
  after_results_simp
  rfl

set_option maxRecDepth 8192 in
set_option maxHeartbeats 2000000 in
/-- Operations 23 to 40: the second graph convolution. -/
theorem s2_v33 (V : Valuation τ sig (Elt F)) (x0 : (⟨S64512x84, .f32⟩ : BufTy).Contents (Elt F)) (x1 : (⟨S2x1032192, .i32⟩ : BufTy).Contents (Elt F)) (x3 : (⟨S84x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h18 : V (Proc.devRef .tc main_v18) = val_main_v18 (F := F) x0 x1 x3 x4)
    (h1 : V (Proc.devRef .tc main_v1) = val_main_v1 (F := F) x1) (h3 : V (Proc.devRef .tc main_v3) = val_main_v3 (F := F) x1)
    (h5 : V (Proc.devRef .tc main_arg5) = x5) (h6 : V (Proc.devRef .tc main_arg6) = x6) :
    after (((ops (F := F)).take 40).drop 22) V (Proc.devRef .tc main_v33) = val_main_v33 (F := F) x0 x1 x3 x4 x5 x6 := by
  simp only [ops, List.take_succ_cons, List.take_zero, List.drop_succ_cons, List.drop_zero]
  after_results_simp
  simp only [h18, h1, h3, h5, h6]
  rfl

set_option maxRecDepth 8192 in
set_option maxHeartbeats 2000000 in
/-- Operations 41 to 63: the attention. -/
theorem s3_v52 (V : Valuation τ sig (Elt F)) (x0 : (⟨S64512x84, .f32⟩ : BufTy).Contents (Elt F)) (x1 : (⟨S2x1032192, .i32⟩ : BufTy).Contents (Elt F)) (x2 : (⟨S1008x128, .f32⟩ : BufTy).Contents (Elt F)) (x3 : (⟨S84x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h33 : V (Proc.devRef .tc main_v33) = val_main_v33 (F := F) x0 x1 x3 x4 x5 x6) (h2 : V (Proc.devRef .tc main_arg2) = x2) :
    after (((ops (F := F)).take 63).drop 40) V (Proc.devRef .tc main_v52) = val_main_v52 (F := F) x0 x1 x2 x3 x4 x5 x6 := by
  simp only [ops, List.take_succ_cons, List.take_zero, List.drop_succ_cons, List.drop_zero]
  after_results_simp
  simp only [h33, h2]
  rfl

set_option maxRecDepth 8192 in
set_option maxHeartbeats 2000000 in
/-- Operations 64 to 79: the maximum and the mean over the third axis of the first convolution's output, reshaped … -/
theorem s4a_v55 (V : Valuation τ sig (Elt F)) (x0 : (⟨S64512x84, .f32⟩ : BufTy).Contents (Elt F)) (x1 : (⟨S2x1032192, .i32⟩ : BufTy).Contents (Elt F)) (x3 : (⟨S84x128, .f32⟩ : BufTy).Contents (Elt F)) (x4 : (⟨S128, .f32⟩ : BufTy).Contents (Elt F))
    (h18 : V (Proc.devRef .tc main_v18) = val_main_v18 (F := F) x0 x1 x3 x4) :
    after (((ops (F := F)).take 79).drop 63) V (Proc.devRef .tc main_v55) = val_main_v55 (F := F) x0 x1 x3 x4 := by
  simp only [ops, List.take_succ_cons, List.take_zero, List.drop_succ_cons, List.drop_zero]
  after_results_simp
  simp only [h18]
  rfl

set_option maxRecDepth 8192 in
set_option maxHeartbeats 2000000 in
theorem s4a_v58 (V : Valuation τ sig (Elt F)) (x0 : (⟨S64512x84, .f32⟩ : BufTy).Contents (Elt F)) (x1 : (⟨S2x1032192, .i32⟩ : BufTy).Contents (Elt F)) (x3 : (⟨S84x128, .f32⟩ : BufTy).Contents (Elt F)) (x4 : (⟨S128, .f32⟩ : BufTy).Contents (Elt F))
    (h18 : V (Proc.devRef .tc main_v18) = val_main_v18 (F := F) x0 x1 x3 x4) :
    after (((ops (F := F)).take 79).drop 63) V (Proc.devRef .tc main_v58) = val_main_v58 (F := F) x0 x1 x3 x4 := by
  simp only [ops, List.take_succ_cons, List.take_zero, List.drop_succ_cons, List.drop_zero]
  after_results_simp
  simp only [h18]
  rfl

set_option maxRecDepth 8192 in
set_option maxHeartbeats 2000000 in
/-- … and of the attention's output. -/
theorem s4a_v59 (V : Valuation τ sig (Elt F)) (x0 : (⟨S64512x84, .f32⟩ : BufTy).Contents (Elt F)) (x1 : (⟨S2x1032192, .i32⟩ : BufTy).Contents (Elt F)) (x2 : (⟨S1008x128, .f32⟩ : BufTy).Contents (Elt F)) (x3 : (⟨S84x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h52 : V (Proc.devRef .tc main_v52) = val_main_v52 (F := F) x0 x1 x2 x3 x4 x5 x6) :
    after (((ops (F := F)).take 79).drop 63) V (Proc.devRef .tc main_v59) = val_main_v59 (F := F) x0 x1 x2 x3 x4 x5 x6 := by
  simp only [ops, List.take_succ_cons, List.take_zero, List.drop_succ_cons, List.drop_zero]
  after_results_simp
  simp only [h52]
  rfl

set_option maxRecDepth 8192 in
set_option maxHeartbeats 2000000 in
theorem s4a_v62 (V : Valuation τ sig (Elt F)) (x0 : (⟨S64512x84, .f32⟩ : BufTy).Contents (Elt F)) (x1 : (⟨S2x1032192, .i32⟩ : BufTy).Contents (Elt F)) (x2 : (⟨S1008x128, .f32⟩ : BufTy).Contents (Elt F)) (x3 : (⟨S84x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F))
    (h52 : V (Proc.devRef .tc main_v52) = val_main_v52 (F := F) x0 x1 x2 x3 x4 x5 x6) :
    after (((ops (F := F)).take 79).drop 63) V (Proc.devRef .tc main_v62) = val_main_v62 (F := F) x0 x1 x2 x3 x4 x5 x6 := by
  simp only [ops, List.take_succ_cons, List.take_zero, List.drop_succ_cons, List.drop_zero]
  after_results_simp
  simp only [h52]
  rfl

/-- The four pooled arrays joined along the last axis and flattened, as operations 80 and 81 do. -/
def join4 (a b c d : (⟨S64x12x128, .f32⟩ : BufTy).Contents (Elt F)) : (⟨S64x6144, .f32⟩ : BufTy).Contents (Elt F) :=
  shapeCast _ (concatenate S64x12x512 2 [⟨S64x12x128, a⟩, ⟨S64x12x128, b⟩, ⟨S64x12x128, c⟩, ⟨S64x12x128, d⟩]
      concatenates_S64x12x128_S64x12x128_S64x12x128_S64x12x128_S64x12x512_d2 : (⟨S64x12x512, .f32⟩ : BufTy).Contents (Elt F))
    shapeCasts_S64x12x512_S64x6144

set_option maxRecDepth 8192 in
set_option maxHeartbeats 2000000 in
/-- Operations 80 and 81, from a valuation holding the four pooled arrays. -/
theorem s4b_v64 (V : Valuation τ sig (Elt F)) (a b c d : (⟨S64x12x128, .f32⟩ : BufTy).Contents (Elt F))
    (h55 : V (Proc.devRef .tc main_v55) = a) (h58 : V (Proc.devRef .tc main_v58) = b) (h59 : V (Proc.devRef .tc main_v59) = c) (h62 : V (Proc.devRef .tc main_v62) = d) :
    after (((ops (F := F)).take 81).drop 79) V (Proc.devRef .tc main_v64) = join4 (F := F) a b c d := by
  subst h55 h58 h59 h62
  simp only [ops, List.take_succ_cons, List.take_zero, List.drop_succ_cons, List.drop_zero]
  after_results_simp
  rfl

/-- The joined stage is the join of the four pooled stages. -/
theorem val_main_v64_eq (x0 : (⟨S64512x84, .f32⟩ : BufTy).Contents (Elt F)) (x1 : (⟨S2x1032192, .i32⟩ : BufTy).Contents (Elt F)) (x2 : (⟨S1008x128, .f32⟩ : BufTy).Contents (Elt F)) (x3 : (⟨S84x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) :
    val_main_v64 (F := F) x0 x1 x2 x3 x4 x5 x6
      = join4 (F := F) (val_main_v55 (F := F) x0 x1 x3 x4) (val_main_v58 (F := F) x0 x1 x3 x4)
          (val_main_v59 (F := F) x0 x1 x2 x3 x4 x5 x6) (val_main_v62 (F := F) x0 x1 x2 x3 x4 x5 x6) := rfl

set_option maxRecDepth 8192 in
set_option maxHeartbeats 2000000 in
/-- Operations 82 to 85: the first dense layer. -/
theorem s5_v68 (V : Valuation τ sig (Elt F)) (x0 : (⟨S64512x84, .f32⟩ : BufTy).Contents (Elt F)) (x1 : (⟨S2x1032192, .i32⟩ : BufTy).Contents (Elt F)) (x2 : (⟨S1008x128, .f32⟩ : BufTy).Contents (Elt F)) (x3 : (⟨S84x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S6144x512, .f32⟩ : BufTy).Contents (Elt F)) (x8 : (⟨S512, .f32⟩ : BufTy).Contents (Elt F))
    (h64 : V (Proc.devRef .tc main_v64) = val_main_v64 (F := F) x0 x1 x2 x3 x4 x5 x6) (h7 : V (Proc.devRef .tc main_arg7) = x7) (h8 : V (Proc.devRef .tc main_arg8) = x8) :
    after (((ops (F := F)).take 85).drop 81) V (Proc.devRef .tc main_v68) = val_main_v68 (F := F) x0 x1 x2 x3 x4 x5 x6 x7 x8 := by
  simp only [ops, List.take_succ_cons, List.take_zero, List.drop_succ_cons, List.drop_zero]
  after_results_simp
  simp only [h64, h7, h8]
  rfl

set_option maxRecDepth 8192 in
set_option maxHeartbeats 2000000 in
/-- Operations 86 to 114: its activation and normalisation, and the second dense layer. -/
theorem s6_v88 (V : Valuation τ sig (Elt F)) (x0 : (⟨S64512x84, .f32⟩ : BufTy).Contents (Elt F)) (x1 : (⟨S2x1032192, .i32⟩ : BufTy).Contents (Elt F)) (x2 : (⟨S1008x128, .f32⟩ : BufTy).Contents (Elt F)) (x3 : (⟨S84x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S6144x512, .f32⟩ : BufTy).Contents (Elt F)) (x8 : (⟨S512, .f32⟩ : BufTy).Contents (Elt F)) (x9 : (⟨S512x32, .f32⟩ : BufTy).Contents (Elt F)) (x10 : (⟨S32, .f32⟩ : BufTy).Contents (Elt F)) (x13 : (⟨S512, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F))
    (h68 : V (Proc.devRef .tc main_v68) = val_main_v68 (F := F) x0 x1 x2 x3 x4 x5 x6 x7 x8) (h9 : V (Proc.devRef .tc main_arg9) = x9) (h10 : V (Proc.devRef .tc main_arg10) = x10) (h13 : V (Proc.devRef .tc main_arg13) = x13) (h14 : V (Proc.devRef .tc main_arg14) = x14) (h15 : V (Proc.devRef .tc main_arg15) = x15) (h16 : V (Proc.devRef .tc main_arg16) = x16) :
    after (((ops (F := F)).take 114).drop 85) V (Proc.devRef .tc main_v88) = val_main_v88 (F := F) x0 x1 x2 x3 x4 x5 x6 x7 x8 x9 x10 x13 x14 x15 x16 := by
  simp only [ops, List.take_succ_cons, List.take_zero, List.drop_succ_cons, List.drop_zero]
  after_results_simp
  simp only [h68, h9, h10, h13, h14, h15, h16]
  rfl

set_option maxRecDepth 8192 in
set_option maxHeartbeats 2000000 in
/-- Operations 115 to 143: its activation and normalisation, and the last dense layer. -/
theorem s7_v108 (V : Valuation τ sig (Elt F)) (x0 : (⟨S64512x84, .f32⟩ : BufTy).Contents (Elt F)) (x1 : (⟨S2x1032192, .i32⟩ : BufTy).Contents (Elt F)) (x2 : (⟨S1008x128, .f32⟩ : BufTy).Contents (Elt F)) (x3 : (⟨S84x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S6144x512, .f32⟩ : BufTy).Contents (Elt F)) (x8 : (⟨S512, .f32⟩ : BufTy).Contents (Elt F)) (x9 : (⟨S512x32, .f32⟩ : BufTy).Contents (Elt F)) (x10 : (⟨S32, .f32⟩ : BufTy).Contents (Elt F)) (x11 : (⟨S32x2, .f32⟩ : BufTy).Contents (Elt F)) (x12 : (⟨S2, .f32⟩ : BufTy).Contents (Elt F)) (x13 : (⟨S512, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S32, .f32⟩ : BufTy).Contents (Elt F)) (x18 : (⟨S32, .f32⟩ : BufTy).Contents (Elt F)) (x19 : (⟨S32, .f32⟩ : BufTy).Contents (Elt F)) (x20 : (⟨S32, .f32⟩ : BufTy).Contents (Elt F))
    (h88 : V (Proc.devRef .tc main_v88) = val_main_v88 (F := F) x0 x1 x2 x3 x4 x5 x6 x7 x8 x9 x10 x13 x14 x15 x16) (h11 : V (Proc.devRef .tc main_arg11) = x11) (h12 : V (Proc.devRef .tc main_arg12) = x12) (h17 : V (Proc.devRef .tc main_arg17) = x17) (h18 : V (Proc.devRef .tc main_arg18) = x18) (h19 : V (Proc.devRef .tc main_arg19) = x19) (h20 : V (Proc.devRef .tc main_arg20) = x20) :
    after (((ops (F := F)).take 143).drop 114) V (Proc.devRef .tc main_v108) = val_main_v108 (F := F) x0 x1 x2 x3 x4 x5 x6 x7 x8 x9 x10 x11 x12 x13 x14 x15 x16 x17 x18 x19 x20 := by
  simp only [ops, List.take_succ_cons, List.take_zero, List.drop_succ_cons, List.drop_zero]
  after_results_simp
  simp only [h88, h11, h12, h17, h18, h19, h20]
  rfl

set_option maxRecDepth 8192 in
set_option maxHeartbeats 2000000 in
/-- Operations 144 to 157: the softmax. -/
theorem s8_v119 (V : Valuation τ sig (Elt F)) (x0 : (⟨S64512x84, .f32⟩ : BufTy).Contents (Elt F)) (x1 : (⟨S2x1032192, .i32⟩ : BufTy).Contents (Elt F)) (x2 : (⟨S1008x128, .f32⟩ : BufTy).Contents (Elt F)) (x3 : (⟨S84x128, .f32⟩ : BufTy).Contents (Elt F)) (x4 : (⟨S128, .f32⟩ : BufTy).Contents (Elt F)) (x5 : (⟨S128x128, .f32⟩ : BufTy).Contents (Elt F)) (x6 : (⟨S128, .f32⟩ : BufTy).Contents (Elt F)) (x7 : (⟨S6144x512, .f32⟩ : BufTy).Contents (Elt F)) (x8 : (⟨S512, .f32⟩ : BufTy).Contents (Elt F)) (x9 : (⟨S512x32, .f32⟩ : BufTy).Contents (Elt F)) (x10 : (⟨S32, .f32⟩ : BufTy).Contents (Elt F)) (x11 : (⟨S32x2, .f32⟩ : BufTy).Contents (Elt F)) (x12 : (⟨S2, .f32⟩ : BufTy).Contents (Elt F)) (x13 : (⟨S512, .f32⟩ : BufTy).Contents (Elt F)) (x14 : (⟨S512, .f32⟩ : BufTy).Contents (Elt F)) (x15 : (⟨S512, .f32⟩ : BufTy).Contents (Elt F)) (x16 : (⟨S512, .f32⟩ : BufTy).Contents (Elt F)) (x17 : (⟨S32, .f32⟩ : BufTy).Contents (Elt F)) (x18 : (⟨S32, .f32⟩ : BufTy).Contents (Elt F)) (x19 : (⟨S32, .f32⟩ : BufTy).Contents (Elt F)) (x20 : (⟨S32, .f32⟩ : BufTy).Contents (Elt F))
    (h108 : V (Proc.devRef .tc main_v108) = val_main_v108 (F := F) x0 x1 x2 x3 x4 x5 x6 x7 x8 x9 x10 x11 x12 x13 x14 x15 x16 x17 x18 x19 x20) :
    after ((ops (F := F)).drop 143) V (Proc.devRef .tc main_v119) = val_main_v119 (F := F) x0 x1 x2 x3 x4 x5 x6 x7 x8 x9 x10 x11 x12 x13 x14 x15 x16 x17 x18 x19 x20 := by
  simp only [ops, List.take_succ_cons, List.take_zero, List.drop_succ_cons, List.drop_zero]
  after_results_simp
  simp only [h108]
  rfl

/-! ## What a prefix leaves untouched

No operation writes an argument, and none past the 22nd writes the first convolution's output. -/

set_option maxRecDepth 8192 in
set_option maxHeartbeats 2000000 in
theorem keep22_arg5 (V : Valuation τ sig (Elt F)) :
    after ((ops (F := F)).take 22) V (Proc.devRef .tc main_arg5) = V (Proc.devRef .tc main_arg5) := by
  simp only [ops, List.take_succ_cons, List.take_zero, List.drop_succ_cons, List.drop_zero]
  after_results_simp

set_option maxRecDepth 8192 in
set_option maxHeartbeats 2000000 in
theorem keep22_arg6 (V : Valuation τ sig (Elt F)) :
    after ((ops (F := F)).take 22) V (Proc.devRef .tc main_arg6) = V (Proc.devRef .tc main_arg6) := by
  simp only [ops, List.take_succ_cons, List.take_zero, List.drop_succ_cons, List.drop_zero]
  after_results_simp

set_option maxRecDepth 8192 in
set_option maxHeartbeats 2000000 in
theorem keep40_arg2 (V : Valuation τ sig (Elt F)) :
    after ((ops (F := F)).take 40) V (Proc.devRef .tc main_arg2) = V (Proc.devRef .tc main_arg2) := by
  simp only [ops, List.take_succ_cons, List.take_zero, List.drop_succ_cons, List.drop_zero]
  after_results_simp

set_option maxRecDepth 8192 in
set_option maxHeartbeats 2000000 in
theorem keep63_v18 (V : Valuation τ sig (Elt F)) :
    after (((ops (F := F)).take 63).drop 22) V (Proc.devRef .tc main_v18) = V (Proc.devRef .tc main_v18) := by
  simp only [ops, List.take_succ_cons, List.take_zero, List.drop_succ_cons, List.drop_zero]
  after_results_simp

set_option maxRecDepth 8192 in
set_option maxHeartbeats 2000000 in
theorem keep81_arg7 (V : Valuation τ sig (Elt F)) :
    after ((ops (F := F)).take 81) V (Proc.devRef .tc main_arg7) = V (Proc.devRef .tc main_arg7) := by
  simp only [ops, List.take_succ_cons, List.take_zero, List.drop_succ_cons, List.drop_zero]
  after_results_simp

set_option maxRecDepth 8192 in
set_option maxHeartbeats 2000000 in
theorem keep81_arg8 (V : Valuation τ sig (Elt F)) :
    after ((ops (F := F)).take 81) V (Proc.devRef .tc main_arg8) = V (Proc.devRef .tc main_arg8) := by
  simp only [ops, List.take_succ_cons, List.take_zero, List.drop_succ_cons, List.drop_zero]
  after_results_simp

set_option maxRecDepth 8192 in
set_option maxHeartbeats 2000000 in
theorem keep85_arg9 (V : Valuation τ sig (Elt F)) :
    after ((ops (F := F)).take 85) V (Proc.devRef .tc main_arg9) = V (Proc.devRef .tc main_arg9) := by
  simp only [ops, List.take_succ_cons, List.take_zero, List.drop_succ_cons, List.drop_zero]
  after_results_simp

set_option maxRecDepth 8192 in
set_option maxHeartbeats 2000000 in
theorem keep85_arg10 (V : Valuation τ sig (Elt F)) :
    after ((ops (F := F)).take 85) V (Proc.devRef .tc main_arg10) = V (Proc.devRef .tc main_arg10) := by
  simp only [ops, List.take_succ_cons, List.take_zero, List.drop_succ_cons, List.drop_zero]
  after_results_simp

set_option maxRecDepth 8192 in
set_option maxHeartbeats 2000000 in
theorem keep85_arg13 (V : Valuation τ sig (Elt F)) :
    after ((ops (F := F)).take 85) V (Proc.devRef .tc main_arg13) = V (Proc.devRef .tc main_arg13) := by
  simp only [ops, List.take_succ_cons, List.take_zero, List.drop_succ_cons, List.drop_zero]
  after_results_simp

set_option maxRecDepth 8192 in
set_option maxHeartbeats 2000000 in
theorem keep85_arg14 (V : Valuation τ sig (Elt F)) :
    after ((ops (F := F)).take 85) V (Proc.devRef .tc main_arg14) = V (Proc.devRef .tc main_arg14) := by
  simp only [ops, List.take_succ_cons, List.take_zero, List.drop_succ_cons, List.drop_zero]
  after_results_simp

set_option maxRecDepth 8192 in
set_option maxHeartbeats 2000000 in
theorem keep85_arg15 (V : Valuation τ sig (Elt F)) :
    after ((ops (F := F)).take 85) V (Proc.devRef .tc main_arg15) = V (Proc.devRef .tc main_arg15) := by
  simp only [ops, List.take_succ_cons, List.take_zero, List.drop_succ_cons, List.drop_zero]
  after_results_simp

set_option maxRecDepth 8192 in
set_option maxHeartbeats 2000000 in
theorem keep85_arg16 (V : Valuation τ sig (Elt F)) :
    after ((ops (F := F)).take 85) V (Proc.devRef .tc main_arg16) = V (Proc.devRef .tc main_arg16) := by
  simp only [ops, List.take_succ_cons, List.take_zero, List.drop_succ_cons, List.drop_zero]
  after_results_simp

set_option maxRecDepth 8192 in
set_option maxHeartbeats 2000000 in
theorem keep114_arg11 (V : Valuation τ sig (Elt F)) :
    after ((ops (F := F)).take 114) V (Proc.devRef .tc main_arg11) = V (Proc.devRef .tc main_arg11) := by
  simp only [ops, List.take_succ_cons, List.take_zero, List.drop_succ_cons, List.drop_zero]
  after_results_simp

set_option maxRecDepth 8192 in
set_option maxHeartbeats 2000000 in
theorem keep114_arg12 (V : Valuation τ sig (Elt F)) :
    after ((ops (F := F)).take 114) V (Proc.devRef .tc main_arg12) = V (Proc.devRef .tc main_arg12) := by
  simp only [ops, List.take_succ_cons, List.take_zero, List.drop_succ_cons, List.drop_zero]
  after_results_simp

set_option maxRecDepth 8192 in
set_option maxHeartbeats 2000000 in
theorem keep114_arg17 (V : Valuation τ sig (Elt F)) :
    after ((ops (F := F)).take 114) V (Proc.devRef .tc main_arg17) = V (Proc.devRef .tc main_arg17) := by
  simp only [ops, List.take_succ_cons, List.take_zero, List.drop_succ_cons, List.drop_zero]
  after_results_simp

set_option maxRecDepth 8192 in
set_option maxHeartbeats 2000000 in
theorem keep114_arg18 (V : Valuation τ sig (Elt F)) :
    after ((ops (F := F)).take 114) V (Proc.devRef .tc main_arg18) = V (Proc.devRef .tc main_arg18) := by
  simp only [ops, List.take_succ_cons, List.take_zero, List.drop_succ_cons, List.drop_zero]
  after_results_simp

set_option maxRecDepth 8192 in
set_option maxHeartbeats 2000000 in
theorem keep114_arg19 (V : Valuation τ sig (Elt F)) :
    after ((ops (F := F)).take 114) V (Proc.devRef .tc main_arg19) = V (Proc.devRef .tc main_arg19) := by
  simp only [ops, List.take_succ_cons, List.take_zero, List.drop_succ_cons, List.drop_zero]
  after_results_simp

set_option maxRecDepth 8192 in
set_option maxHeartbeats 2000000 in
theorem keep114_arg20 (V : Valuation τ sig (Elt F)) :
    after ((ops (F := F)).take 114) V (Proc.devRef .tc main_arg20) = V (Proc.devRef .tc main_arg20) := by
  simp only [ops, List.take_succ_cons, List.take_zero, List.drop_succ_cons, List.drop_zero]
  after_results_simp

/-! ## The prefixes of the reference's line, run from the launch contents

Each stage's value after a prefix, from the value after the shorter prefix and the segment between. -/

section Prefixes
variable (m : (ℓ : Loc nD τ sig) → Buf (Elt F) ℓ) (c : Dev nD)

theorem p22_v18 : after ((ops (F := F)).take 22) (fun b => m (c, b)) (Proc.devRef .tc main_v18) = val_main_v18 (F := F) (m ((c.tc : Thread nD τ).loc main_arg0)) (m ((c.tc : Thread nD τ).loc main_arg1)) (m ((c.tc : Thread nD τ).loc main_arg3)) (m ((c.tc : Thread nD τ).loc main_arg4)) :=
  s1_v18 _
theorem p22_v1 : after ((ops (F := F)).take 22) (fun b => m (c, b)) (Proc.devRef .tc main_v1) = val_main_v1 (F := F) (m ((c.tc : Thread nD τ).loc main_arg1)) :=
  s1_v1 _
theorem p22_v3 : after ((ops (F := F)).take 22) (fun b => m (c, b)) (Proc.devRef .tc main_v3) = val_main_v3 (F := F) (m ((c.tc : Thread nD τ).loc main_arg1)) :=
  s1_v3 _

theorem p40_v33 : after ((ops (F := F)).take 40) (fun b => m (c, b)) (Proc.devRef .tc main_v33) = val_main_v33 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) :=
  (congrFun (after_take_cut (show 22 ≤ 40 by decide) _ _) _).trans
    (s2_v33 _ _ _ _ _ _ _ (p22_v18 m c) (p22_v1 m c) (p22_v3 m c) (keep22_arg5 _) (keep22_arg6 _))

theorem p63_v52 : after ((ops (F := F)).take 63) (fun b => m (c, b)) (Proc.devRef .tc main_v52) = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (congrFun (after_take_cut (show 40 ≤ 63 by decide) _ _) _).trans
    (s3_v52 _ _ _ _ _ _ _ _ (p40_v33 m c) (keep40_arg2 _))

theorem p63_v18 : after ((ops (F := F)).take 63) (fun b => m (c, b)) (Proc.devRef .tc main_v18) = val_main_v18 (F := F) (m ((c.tc : Thread nD τ).loc main_arg0)) (m ((c.tc : Thread nD τ).loc main_arg1)) (m ((c.tc : Thread nD τ).loc main_arg3)) (m ((c.tc : Thread nD τ).loc main_arg4)) :=
  (congrFun (after_take_cut (show 22 ≤ 63 by decide) _ _) _).trans ((keep63_v18 _).trans (p22_v18 m c))

theorem p79_v55 : after ((ops (F := F)).take 79) (fun b => m (c, b)) (Proc.devRef .tc main_v55) = val_main_v55 (F := F) (m ((c.tc : Thread nD τ).loc main_arg0)) (m ((c.tc : Thread nD τ).loc main_arg1)) (m ((c.tc : Thread nD τ).loc main_arg3)) (m ((c.tc : Thread nD τ).loc main_arg4)) :=
  (congrFun (after_take_cut (show 63 ≤ 79 by decide) _ _) _).trans (s4a_v55 _ _ _ _ _ (p63_v18 m c))
theorem p79_v58 : after ((ops (F := F)).take 79) (fun b => m (c, b)) (Proc.devRef .tc main_v58) = val_main_v58 (F := F) (m ((c.tc : Thread nD τ).loc main_arg0)) (m ((c.tc : Thread nD τ).loc main_arg1)) (m ((c.tc : Thread nD τ).loc main_arg3)) (m ((c.tc : Thread nD τ).loc main_arg4)) :=
  (congrFun (after_take_cut (show 63 ≤ 79 by decide) _ _) _).trans (s4a_v58 _ _ _ _ _ (p63_v18 m c))
theorem p79_v59 : after ((ops (F := F)).take 79) (fun b => m (c, b)) (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (congrFun (after_take_cut (show 63 ≤ 79 by decide) _ _) _).trans (s4a_v59 _ _ _ _ _ _ _ _ (p63_v52 m c))
theorem p79_v62 : after ((ops (F := F)).take 79) (fun b => m (c, b)) (Proc.devRef .tc main_v62) = val_main_v62 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (congrFun (after_take_cut (show 63 ≤ 79 by decide) _ _) _).trans (s4a_v62 _ _ _ _ _ _ _ _ (p63_v52 m c))

theorem p81_v64 : after ((ops (F := F)).take 81) (fun b => m (c, b)) (Proc.devRef .tc main_v64) = val_main_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  (congrFun (after_take_cut (show 79 ≤ 81 by decide) _ _) _).trans
    ((s4b_v64 _ _ _ _ _ (p79_v55 m c) (p79_v58 m c) (p79_v59 m c) (p79_v62 m c)).trans (val_main_v64_eq _ _ _ _ _ _ _).symm)

theorem p85_v68 : after ((ops (F := F)).take 85) (fun b => m (c, b)) (Proc.devRef .tc main_v68) = val_main_v68 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (congrFun (after_take_cut (show 81 ≤ 85 by decide) _ _) _).trans
    (s5_v68 _ _ _ _ _ _ _ _ _ _ (p81_v64 m c) (keep81_arg7 _) (keep81_arg8 _))

theorem p114_v88 : after ((ops (F := F)).take 114) (fun b => m (c, b)) (Proc.devRef .tc main_v88) = val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg13)) (m ((c.tc : Thread nD τ).loc main_arg14)) (m ((c.tc : Thread nD τ).loc main_arg15)) (m ((c.tc : Thread nD τ).loc main_arg16)) :=
  (congrFun (after_take_cut (show 85 ≤ 114 by decide) _ _) _).trans
    (s6_v88 _ _ _ _ _ _ _ _ _ _ _ _ _ _ _ _ (p85_v68 m c)
      (keep85_arg9 _) (keep85_arg10 _) (keep85_arg13 _) (keep85_arg14 _) (keep85_arg15 _) (keep85_arg16 _))

theorem p143_v108 : after ((ops (F := F)).take 143) (fun b => m (c, b)) (Proc.devRef .tc main_v108) = val_main_v108 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) :=
  (congrFun (after_take_cut (show 114 ≤ 143 by decide) _ _) _).trans
    (s7_v108 _ _ _ _ _ _ _ _ _ _ _ _ _ _ _ _ _ _ _ _ _ _ (p114_v88 m c)
      (keep114_arg11 _) (keep114_arg12 _) (keep114_arg17 _) (keep114_arg18 _) (keep114_arg19 _) (keep114_arg20 _))

end Prefixes

/-- The result the reference's run leaves is the last stage of the reference read one operation at a time. -/
theorem res_eq (m : (ℓ : Loc nD τ sig) → Buf (Elt F) ℓ) (c : Dev nD) :
    Cert.ReferenceIdeal.ValueP.res_main_v119 m c = Cert.ReferenceIdeal.ReadP.val_main_v119 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold Cert.ReferenceIdeal.ValueP.res_main_v119
  exact (congrFun (after_cut 143 _ _) _).trans (s8_v119 _ _ _ _ _ _ _ _ _ _ _ _ _ _ _ _ _ _ _ _ _ _ (p143_v108 m c))

end Cert.RefStages

end
-- ==== Proof.Algebraic.lean ====
/-
  The kernel program and the reference compute the same result, at the ideal instance, from memories that agree on the
  arguments, under the precondition.

  The kernel program's run ends with its result buffer at the contents followed through its eight items. Stage by stage
  those contents are the reference's own intermediate values: the first linear layer's output, the second's, the attention
  kernel's pooled maxima and means, the classifier's input, and the classifier's output. The reference's run ends with its
  result at its operations' fold, which is its last stage's value of the arguments. The precondition enters once, in the
  classifier: the variance plus ε is a positive real, where the product with a reciprocal square root and the quotient by
  a square root agree.
-/
import proofs.«175257_j71588514890561_2_alg».proof.Defs
import proofs.«175257_j71588514890561_2_alg».proof.Proof.Gen.Kernel
import proofs.«175257_j71588514890561_2_alg».proof.Proof.Gen.KernelIdeal
import proofs.«175257_j71588514890561_2_alg».proof.Proof.Gen.ReferenceIdeal
import proofs.«175257_j71588514890561_2_alg».proof.Proof.Gen.Pre_finite_inputs
import proofs.«175257_j71588514890561_2_alg».proof.Proof.Patched.ReferenceIdeal.Run
import proofs.«175257_j71588514890561_2_alg».proof.Proof.KI.Run
import proofs.«175257_j71588514890561_2_alg».proof.Proof.KI.Stages
import proofs.«175257_j71588514890561_2_alg».proof.Proof.KI.Glue
import proofs.«175257_j71588514890561_2_alg».proof.Proof.KI.AttnStage
import proofs.«175257_j71588514890561_2_alg».proof.Proof.KI.HeadStage
import proofs.«175257_j71588514890561_2_alg».proof.Proof.RefStages

set_option maxRecDepth 16384

noncomputable section

namespace Cert.Proof.Algebraic

open Idealize.ShloMosaic Idealize.ShloMosaic.TcCoe Idealize.SL.Sem

/-- The classifier's input, as the kernel program's host computes it, is the reference's. -/
theorem features_eq (m : (ℓ : Loc Cert.KernelIdeal.nD Cert.KernelIdeal.τ Cert.KernelIdeal.sig) → Buf (Elt Ideal) ℓ) (c : Dev Cert.KernelIdeal.nD) :
    Cert.KernelIdeal.Run.W7 m c (Proc.devRef .tc Cert.KernelIdeal.main_v38)
      = Cert.ReferenceIdeal.ReadP.val_main_v64 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) := by
  rw [Cert.KernelIdeal.Glue.x38, Cert.KernelIdeal.Stages.t1]
  exact Cert.KernelIdeal.Glue.glue_eq _ _ _ _ _ _ _ _ (Cert.KernelIdeal.AttnStage.p_max m c) (Cert.KernelIdeal.AttnStage.p_mean m c)

theorem algebraic : Cert.algebraic_KernelIdeal_ReferenceIdeal := by
  intro m ρ m' ρ' hpre hagree
  refine ⟨fun c => Cert.KernelIdeal.Run.W8 m c (Proc.devRef .tc Cert.KernelIdeal.main_v50), Cert.KernelIdeal.Run.run_result (F := Ideal) m ρ, ?_⟩
  refine (θ_run (Cert.ReferenceIdeal.defs (F := Ideal)) _ _).mono (fun r h c => ⟨(h c).1.trans ?_, (h c).2⟩)
    (Cert.ReferenceIdeal.ValueP.run (F := Ideal) m' ρ')
  rw [Cert.RefStages.res_eq m' c]
  obtain ⟨e0, e1, e2, e3, e4, e5, e6, e7, e8, e9, e10, e11, e12, e13, e14, e15, e16, e17, e18, e19, e20⟩ := hagree c
  rw [e0, e1, e2, e3, e4, e5, e6, e7, e8, e9, e10, e11, e12, e13, e14, e15, e16, e17, e18, e19, e20]
  exact (Cert.KernelIdeal.HeadStage.head_stage m hpre c (features_eq m c)).symm

end Cert.Proof.Algebraic

end
-- ==== Proof.lean ====
/-
  The certificate's claim. Two kernel programs — the word-level one and its idealization — and a host-only reference for a
  graph network with attention pooling and a small classifier: two graph-convolution layers (neighbour sums on the host,
  the linear map in a kernel), dense self-attention per sample with max and mean pooling over each snapshot's rows (one
  kernel), the pooled features joined on the host, and a three-layer classifier with two batch normalisations and a final
  softmax (one kernel).

  * The three programs run to the end, fault nowhere, and leave their argument arrays as launched (module Frames; the
    kernel programs' runs are in K/Run and KI/Run, each region's body in its own module).
  * The idealization differs from the word-level program in one constant, the attention scale, read as the exact inverse
    of the reference's divisor (module Frames).
  * At the ideal instance the idealized kernel program and the reference end with equal results (module Algebraic), under
    the precondition: every float argument finite, and each batch normalisation's variance plus ε positive — where the
    reference's quotient by a square root is defined.
-/
import proofs.«175257_j71588514890561_2_alg».proof.Defs
import proofs.«175257_j71588514890561_2_alg».proof.Proof.Gen.Kernel
import proofs.«175257_j71588514890561_2_alg».proof.Proof.Gen.KernelIdeal
import proofs.«175257_j71588514890561_2_alg».proof.Proof.Gen.ReferenceIdeal
import proofs.«175257_j71588514890561_2_alg».proof.Proof.Gen.Pre_finite_inputs
import proofs.«175257_j71588514890561_2_alg».proof.Proof.Frames
import proofs.«175257_j71588514890561_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Frames.frame_k, Frames.frame_ki, Frames.frame_ri, Frames.preserves, Algebraic.algebraic⟩

end Cert.Proof

end
